-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v6)) (v1 : (c : Dev Cert.KernelIdeal.nD) → Buf (Elt Ideal) ((c.tc : Thread Cert.KernelIdeal.nD Cert.KernelIdeal.τ).loc Cert.KernelIdeal.main_v49)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_v49) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_v61) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x16384x2 : Shape := ⟨3, ![4, 16384, 2]⟩
abbrev S4x16384x62 : Shape := ⟨3, ![4, 16384, 62]⟩
abbrev S4x2048 : Shape := ⟨2, ![4, 2048]⟩
abbrev S1x1x1x64 : Shape := ⟨4, ![1, 1, 1, 64]⟩
abbrev S_ : Shape := ⟨0, ![]⟩

class Facts : Prop where
  bcast_S_S4x16384x2 : S_.BroadcastsInDim S4x16384x2 (![] : Fin 0 → Fin S4x16384x2.rank)
  reducesTo_S4x16384x2_S_d0_1_2 : S4x16384x2.ReducesTo [0, 1, 2] S_
  h_S_ : 0 < S_.numel
  bcast_S_S4x16384x62 : S_.BroadcastsInDim S4x16384x62 (![] : Fin 0 → Fin S4x16384x62.rank)
  reducesTo_S4x16384x62_S_d0_1_2 : S4x16384x62.ReducesTo [0, 1, 2] S_
  bcast_S_S1x1x1x64 : S_.BroadcastsInDim S1x1x1x64 (![] : Fin 0 → Fin S1x1x1x64.rank)
  reducesTo_S1x1x1x64_S_d0_1_2_3 : S1x1x1x64.ReducesTo [0, 1, 2, 3] S_

variable [Facts]

def fn_part1 {F : FTy → Type} [FloatOps F] (main_v13 : IVec S_ 1) (main_v16 : IVec S1x1x1x64 1) : IVec S_ 1 :=
  let main_c_5 : IVec S_ 1 := constantI S_ 1 1#1
  let main_v17 : IVec S_ 1 := (fun x v => Host.reduce IntOp.andi x v reducesTo_S1x1x1x64_S_d0_1_2_3 h_S_) main_v16 main_c_5
  let main_v18 : IVec S_ 1 := andi main_v13 main_v17
  main_v18

def fn {F : FTy → Type} [FloatOps F] (main_arg0 : FVec F S4x16384x2 .f32) (main_arg1 : FVec F S4x16384x62 .f32) (main_arg2 : IVec S4x2048 32) (main_arg3 : FVec F S1x1x1x64 .f32) (main_arg4 : FVec F S1x1x1x64 .f32) : IVec S_ 1 :=
  let main_v0 : FVec F S4x16384x2 .f32 := Host.absf main_arg0
  let main_cst : FVec F S_ .f32 := constant S_ .f32 0x7F800000#32
  let main_v1 : FVec F S4x16384x2 .f32 := broadcastInDim S4x16384x2 ![] bcast_S_S4x16384x2 main_cst
  let main_v2 : IVec S4x16384x2 1 := cmpf .olt main_v0 main_v1
  let main_c : IVec S_ 1 := constantI S_ 1 1#1
  let main_v3 : IVec S_ 1 := (fun x v => Host.reduce IntOp.andi x v reducesTo_S4x16384x2_S_d0_1_2 h_S_) main_v2 main_c
  let main_v4 : FVec F S4x16384x62 .f32 := Host.absf main_arg1
  let main_cst_0 : FVec F S_ .f32 := constant S_ .f32 0x7F800000#32
  let main_v5 : FVec F S4x16384x62 .f32 := broadcastInDim S4x16384x62 ![] bcast_S_S4x16384x62 main_cst_0
  let main_v6 : IVec S4x16384x62 1 := cmpf .olt main_v4 main_v5
  let main_c_1 : IVec S_ 1 := constantI S_ 1 1#1
  let main_v7 : IVec S_ 1 := (fun x v => Host.reduce IntOp.andi x v reducesTo_S4x16384x62_S_d0_1_2 h_S_) main_v6 main_c_1
  let main_v8 : IVec S_ 1 := andi main_v3 main_v7
  let main_v9 : FVec F S1x1x1x64 .f32 := Host.absf main_arg3
  let main_cst_2 : FVec F S_ .f32 := constant S_ .f32 0x7F800000#32
  let main_v10 : FVec F S1x1x1x64 .f32 := broadcastInDim S1x1x1x64 ![] bcast_S_S1x1x1x64 main_cst_2
  let main_v11 : IVec S1x1x1x64 1 := cmpf .olt main_v9 main_v10
  let main_c_3 : IVec S_ 1 := constantI S_ 1 1#1
  let main_v12 : IVec S_ 1 := (fun x v => Host.reduce IntOp.andi x v reducesTo_S1x1x1x64_S_d0_1_2_3 h_S_) main_v11 main_c_3
  let main_v13 : IVec S_ 1 := andi main_v8 main_v12
  let main_v14 : FVec F S1x1x1x64 .f32 := Host.absf main_arg4
  let main_cst_4 : FVec F S_ .f32 := constant S_ .f32 0x7F800000#32
  let main_v15 : FVec F S1x1x1x64 .f32 := broadcastInDim S1x1x1x64 ![] bcast_S_S1x1x1x64 main_cst_4
  let main_v16 : IVec S1x1x1x64 1 := cmpf .olt main_v14 main_v15
  fn_part1 (F := F) main_v13 main_v16
-- ==== Kernel.lean ====
abbrev S4x16384x2 : Shape := ⟨3, ![4, 16384, 2]⟩
abbrev S4x16384x62 : Shape := ⟨3, ![4, 16384, 62]⟩
abbrev S4x2048 : Shape := ⟨2, ![4, 2048]⟩
abbrev S1x1x1x64 : Shape := ⟨4, ![1, 1, 1, 64]⟩
abbrev S_ : Shape := ⟨0, ![]⟩
abbrev S4x2048x1 : Shape := ⟨3, ![4, 2048, 1]⟩
abbrev S4x2048x2 : Shape := ⟨3, ![4, 2048, 2]⟩
abbrev S4x16384 : Shape := ⟨2, ![4, 16384]⟩
abbrev S4x1x16384 : Shape := ⟨3, ![4, 1, 16384]⟩
abbrev S4x2048x16384 : Shape := ⟨3, ![4, 2048, 16384]⟩
abbrev S16384 : Shape := ⟨1, ![16384]⟩
abbrev S4x2048x64 : Shape := ⟨3, ![4, 2048, 64]⟩
abbrev S4x2048x64x1 : Shape := ⟨4, ![4, 2048, 64, 1]⟩
abbrev S4x2048x64x2 : Shape := ⟨4, ![4, 2048, 64, 2]⟩
abbrev S4x2048x64x62 : Shape := ⟨4, ![4, 2048, 64, 62]⟩
abbrev S4x2048x64x64 : Shape := ⟨4, ![4, 2048, 64, 64]⟩
abbrev S4x1x1x1 : Shape := ⟨4, ![4, 1, 1, 1]⟩
abbrev S1x256x64x64 : Shape := ⟨4, ![1, 256, 64, 64]⟩
abbrev S1x1x1x1 : Shape := ⟨4, ![1, 1, 1, 1]⟩
abbrev S1x256x64 : Shape := ⟨3, ![1, 256, 64]⟩
abbrev S1x256x1x64 : Shape := ⟨4, ![1, 256, 1, 64]⟩
abbrev S1x256x1 : Shape := ⟨3, ![1, 256, 1]⟩
abbrev S1x256x1x1 : Shape := ⟨4, ![1, 256, 1, 1]⟩
abbrev S1x1x1 : Shape := ⟨3, ![1, 1, 1]⟩

abbrev nBuf : Space → Nat
  | .hbm => 72
  | .vmem => 13
  | .smem => 0
  | _ => 0

abbrev bufTy : (tb : Table) → Fin (tcTables nBuf tb) → BufTy
  | .hbm, ⟨0, _⟩ => ⟨S4x16384x2, .f32⟩
  | .hbm, ⟨1, _⟩ => ⟨S4x16384x62, .f32⟩
  | .hbm, ⟨2, _⟩ => ⟨S4x2048, .i32⟩
  | .hbm, ⟨3, _⟩ => ⟨S1x1x1x64, .f32⟩
  | .hbm, ⟨4, _⟩ => ⟨S1x1x1x64, .f32⟩
  | .hbm, ⟨5, _⟩ => ⟨S_, .i32⟩
  | .hbm, ⟨6, _⟩ => ⟨S4x2048, .i32⟩
  | .hbm, ⟨7, _⟩ => ⟨S4x2048, .i1⟩
  | .hbm, ⟨8, _⟩ => ⟨S_, .i32⟩
  | .hbm, ⟨9, _⟩ => ⟨S4x2048, .i32⟩
  | .hbm, ⟨10, _⟩ => ⟨S4x2048, .i32⟩
  | .hbm, ⟨11, _⟩ => ⟨S4x2048, .i32⟩
  | .hbm, ⟨12, _⟩ => ⟨S4x2048x1, .i32⟩
  | .hbm, ⟨13, _⟩ => ⟨S4x2048x2, .f32⟩
  | .hbm, ⟨14, _⟩ => ⟨S4x2048x2, .f32⟩
  | .hbm, ⟨15, _⟩ => ⟨S_, .f32⟩
  | .hbm, ⟨16, _⟩ => ⟨S4x2048, .f32⟩
  | .hbm, ⟨17, _⟩ => ⟨S4x2048x1, .f32⟩
  | .hbm, ⟨18, _⟩ => ⟨S4x16384x2, .f32⟩
  | .hbm, ⟨19, _⟩ => ⟨S_, .f32⟩
  | .hbm, ⟨20, _⟩ => ⟨S4x16384, .f32⟩
  | .hbm, ⟨21, _⟩ => ⟨S4x1x16384, .f32⟩
  | .hbm, ⟨22, _⟩ => ⟨S4x2048x16384, .f32⟩
  | .hbm, ⟨23, _⟩ => ⟨S4x2048x16384, .f32⟩
  | .hbm, ⟨24, _⟩ => ⟨S4x2048x16384, .f32⟩
  | .hbm, ⟨25, _⟩ => ⟨S4x2048x16384, .f32⟩
  | .hbm, ⟨26, _⟩ => ⟨S_, .f32⟩
  | .hbm, ⟨27, _⟩ => ⟨S4x2048x16384, .f32⟩
  | .hbm, ⟨28, _⟩ => ⟨S4x2048x16384, .f32⟩
  | .hbm, ⟨29, _⟩ => ⟨S4x2048x16384, .f32⟩
  | .hbm, ⟨30, _⟩ => ⟨S16384, .i32⟩
  | .hbm, ⟨31, _⟩ => ⟨S_, .f32⟩
  | .hbm, ⟨32, _⟩ => ⟨S4x2048x16384, .f32⟩
  | .hbm, ⟨33, _⟩ => ⟨S4x2048x16384, .i1⟩
  | .hbm, ⟨34, _⟩ => ⟨S_, .i32⟩
  | .hbm, ⟨35, _⟩ => ⟨S_, .i32⟩
  | .hbm, ⟨36, _⟩ => ⟨S4x2048x16384, .i32⟩
  | .hbm, ⟨37, _⟩ => ⟨S4x2048x16384, .i32⟩
  | .hbm, ⟨38, _⟩ => ⟨S4x2048x16384, .i32⟩
  | .hbm, ⟨39, _⟩ => ⟨S4x2048x16384, .i32⟩
  | .hbm, ⟨40, _⟩ => ⟨S4x2048x64, .i32⟩
  | .hbm, ⟨41, _⟩ => ⟨S4x2048x1, .i32⟩
  | .hbm, ⟨42, _⟩ => ⟨S_, .i32⟩
  | .hbm, ⟨43, _⟩ => ⟨S4x2048x64, .i32⟩
  | .hbm, ⟨44, _⟩ => ⟨S4x2048x64, .i1⟩
  | .hbm, ⟨45, _⟩ => ⟨S4x2048x64, .i32⟩
  | .hbm, ⟨46, _⟩ => ⟨S4x2048x64, .i32⟩
  | .hbm, ⟨47, _⟩ => ⟨S_, .i32⟩
  | .hbm, ⟨48, _⟩ => ⟨S4x2048x64, .i32⟩
  | .hbm, ⟨49, _⟩ => ⟨S4x2048x64, .i1⟩
  | .hbm, ⟨50, _⟩ => ⟨S_, .i32⟩
  | .hbm, ⟨51, _⟩ => ⟨S4x2048x64, .i32⟩
  | .hbm, ⟨52, _⟩ => ⟨S4x2048x64, .i32⟩
  | .hbm, ⟨53, _⟩ => ⟨S4x2048x64, .i32⟩
  | .hbm, ⟨54, _⟩ => ⟨S4x2048x64x1, .i32⟩
  | .hbm, ⟨55, _⟩ => ⟨S4x2048x64x2, .f32⟩
  | .hbm, ⟨56, _⟩ => ⟨S_, .i32⟩
  | .hbm, ⟨57, _⟩ => ⟨S4x2048x64, .i32⟩
  | .hbm, ⟨58, _⟩ => ⟨S4x2048x64, .i1⟩
  | .hbm, ⟨59, _⟩ => ⟨S_, .i32⟩
  | .hbm, ⟨60, _⟩ => ⟨S4x2048x64, .i32⟩
  | .hbm, ⟨61, _⟩ => ⟨S4x2048x64, .i32⟩
  | .hbm, ⟨62, _⟩ => ⟨S4x2048x64, .i32⟩
  | .hbm, ⟨63, _⟩ => ⟨S4x2048x64x1, .i32⟩
  | .hbm, ⟨64, _⟩ => ⟨S4x2048x64x62, .f32⟩
  | .hbm, ⟨65, _⟩ => ⟨S4x2048x64x64, .f32⟩
  | .hbm, ⟨66, _⟩ => ⟨S4x1x1x1, .f32⟩
  | .hbm, ⟨67, _⟩ => ⟨S_, .f32⟩
  | .hbm, ⟨68, _⟩ => ⟨S4x1x1x1, .f32⟩
  | .hbm, ⟨69, _⟩ => ⟨S4x1x1x1, .f32⟩
  | .hbm, ⟨70, _⟩ => ⟨S4x1x1x1, .f32⟩
  | .hbm, ⟨71, _⟩ => ⟨S4x2048x64x64, .f32⟩
  | .local _ .vmem, ⟨0, _⟩ => ⟨S1x256x64x64, .f32⟩
  | .local _ .vmem, ⟨1, _⟩ => ⟨S1x256x64x64, .f32⟩
  | .local _ .vmem, ⟨2, _⟩ => ⟨S1x1x1x1, .f32⟩
  | .local _ .vmem, ⟨3, _⟩ => ⟨S1x1x1x1, .f32⟩
  | .local _ .vmem, ⟨4, _⟩ => ⟨S1x1x1x1, .f32⟩
  | .local _ .vmem, ⟨5, _⟩ => ⟨S1x256x64x64, .f32⟩
  | .local _ .vmem, ⟨6, _⟩ => ⟨S1x256x64x64, .f32⟩
  | .local _ .vmem, ⟨7, _⟩ => ⟨S1x1x1x1, .f32⟩
  | .local _ .vmem, ⟨8, _⟩ => ⟨S1x1x1x1, .f32⟩
  | .local _ .vmem, ⟨9, _⟩ => ⟨S1x1x1x64, .f32⟩
  | .local _ .vmem, ⟨10, _⟩ => ⟨S1x1x1x64, .f32⟩
  | .local _ .vmem, ⟨11, _⟩ => ⟨S1x256x64x64, .f32⟩
  | .local _ .vmem, ⟨12, _⟩ => ⟨S1x256x64x64, .f32⟩
  | _, _ => ⟨S4x16384x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_2 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_3 : Ref sig .tc := ⟨.hbm, 31, rfl⟩
abbrev main_v21 : Ref sig .tc := ⟨.hbm, 32, rfl⟩
abbrev main_v22 : Ref sig .tc := ⟨.hbm, 33, rfl⟩
abbrev main_c_4 : Ref sig .tc := ⟨.hbm, 34, rfl⟩
abbrev main_call0_v0 : Ref sig .tc := ⟨.hbm, 35, rfl⟩
abbrev main_call0_v1 : Ref sig .tc := ⟨.hbm, 36, rfl⟩
abbrev main_call0_v2 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_c_5 : Ref sig .tc := ⟨.hbm, 42, rfl⟩
abbrev main_v27 : Ref sig .tc := ⟨.hbm, 43, rfl⟩
abbrev main_v28 : Ref sig .tc := ⟨.hbm, 44, rfl⟩
abbrev main_call2_v0 : Ref sig .tc := ⟨.hbm, 45, rfl⟩
abbrev main_v29 : Ref sig .tc := ⟨.hbm, 46, rfl⟩
abbrev main_c_6 : Ref sig .tc := ⟨.hbm, 47, rfl⟩
abbrev main_v30 : Ref sig .tc := ⟨.hbm, 48, rfl⟩
abbrev main_v31 : Ref sig .tc := ⟨.hbm, 49, rfl⟩
abbrev main_c_7 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_c_8 : Ref sig .tc := ⟨.hbm, 56, rfl⟩
abbrev main_v37 : Ref sig .tc := ⟨.hbm, 57, rfl⟩
abbrev main_v38 : Ref sig .tc := ⟨.hbm, 58, rfl⟩
abbrev main_c_9 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_cst_10 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg4_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem3_0 : DmaSem sig := 9
abbrev cc1_sem4_0 : DmaSem sig := 10
abbrev cc1_sem4_1 : DmaSem sig := 11

abbrev nD : Nat := 1
abbrev τ : Topo := Topo.v7x

variable {F : FTy → Type} [FloatOps F]

abbrev grid0 : Pipeline.Grid := ⟨2, ![4, 8], ![false, false]⟩

def k0_cond2 (i : grid0.Coords) : BitVec 1 :=
  let arg1 : BitVec 32 := BitVec.ofNat 32 (i 1).val
  let c7_i32 : BitVec 32 := 7#32
  let v23 : BitVec 1 := Scalar.cmpi .eq arg1 c7_i32
  let v24 : BitVec 32 := Scalar.extui v23
  let c0_i32_16 : BitVec 32 := 0#32
  let v25 : BitVec 1 := Scalar.cmpi .ne v24 c0_i32_16
  v25

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x256x64x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev grid1 : Pipeline.Grid := ⟨2, ![4, 8], ![false, false]⟩

def cc1_transform_0 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc1_transform_1 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_2 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc1_transform_3 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc1_transform_4 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage1_0 : Fin 2 → Memref sig .tc .vmem S1x256x64x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x1x1x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 1 → Memref sig .tc .vmem S1x1x1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S1x1x1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 2 → Memref sig .tc .vmem S1x256x64x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

class Facts₀ : Prop where
  bcast_S_S4x2048 : S_.BroadcastsInDim S4x2048 (![] : Fin 0 → Fin S4x2048.rank)
  bcast_S4x2048_S4x2048x1_0_1 : S4x2048.BroadcastsInDim S4x2048x1 (![0, 1] : Fin 2 → Fin S4x2048x1.rank)
  reducesTo_S4x2048x2_S4x2048_d2 : S4x2048x2.ReducesTo [2] S4x2048
  h_S_ : 0 < S_.numel
  reducesTo_S4x16384x2_S4x16384_d2 : S4x16384x2.ReducesTo [2] S4x16384
  bcast_S4x16384_S4x1x16384_0_2 : S4x16384.BroadcastsInDim S4x1x16384 (![0, 2] : Fin 2 → Fin S4x1x16384.rank)
  bcast_S4x2048x1_S4x2048x16384_0_1_2 : S4x2048x1.BroadcastsInDim S4x2048x16384 (![0, 1, 2] : Fin 3 → Fin S4x2048x16384.rank)
  bcast_S4x1x16384_S4x2048x16384_0_1_2 : S4x1x16384.BroadcastsInDim S4x2048x16384 (![0, 1, 2] : Fin 3 → Fin S4x2048x16384.rank)
  bcast_S_S4x2048x16384 : S_.BroadcastsInDim S4x2048x16384 (![] : Fin 0 → Fin S4x2048x16384.rank)
  bcast_S16384_S4x2048x16384_2 : S16384.BroadcastsInDim S4x2048x16384 (![2] : Fin 1 → Fin S4x2048x16384.rank)
  slices_S4x2048x16384_S4x2048x64_0_0_0 : S4x2048x16384.Slices ![0, 0, 0] S4x2048x64
  slices_S4x2048x64_S4x2048x1_0_0_0 : S4x2048x64.Slices ![0, 0, 0] S4x2048x1
  bcast_S_S4x2048x64 : S_.BroadcastsInDim S4x2048x64 (![] : Fin 0 → Fin S4x2048x64.rank)
  bcast_S4x2048x1_S4x2048x64_0_1_2 : S4x2048x1.BroadcastsInDim S4x2048x64 (![0, 1, 2] : Fin 3 → Fin S4x2048x64.rank)
  bcast_S4x2048x64_S4x2048x64x1_0_1_2 : S4x2048x64.BroadcastsInDim S4x2048x64x1 (![0, 1, 2] : Fin 3 → Fin S4x2048x64x1.rank)
  concatenates_S4x2048x64x62_S4x2048x64x2_S4x2048x64x64_d3 : Shape.Concatenates [S4x2048x64x62, S4x2048x64x2] S4x2048x64x64 3
  inb_S1x1x1x1_S1x1x1x1_0_0_0_0 : ∀ a, (![0, 0, 0, 0] : Fin 4 → Nat) a + S1x1x1x1.size a ≤ S1x1x1x1.size a
  h_S1x1x1x1 : 0 < S1x1x1x1.numel
  shapeCasts_S1x1x1x1_S1x1x1x1 : S1x1x1x1.ShapeCasts S1x1x1x1
  inb_S1x256x64x64_S1x256x64x64_0_0_0_0 : ∀ a, (![0, 0, 0, 0] : Fin 4 → Nat) a + S1x256x64x64.size a ≤ S1x256x64x64.size a
  h_S1x256x64x64 : 0 < S1x256x64x64.numel
  shapeCasts_S1x256x64x64_S1x256x64x64 : S1x256x64x64.ShapeCasts S1x256x64x64
  reduces_S1x256x64x64_S1x256x64 : S1x256x64x64.Reduces [2] S1x256x64
  shapeCasts_S1x256x64_S1x256x1x64 : S1x256x64.ShapeCasts S1x256x1x64
  reduces_S1x256x1x64_S1x256x1 : S1x256x1x64.Reduces [3] S1x256x1
  shapeCasts_S1x256x1_S1x256x1x1 : S1x256x1.ShapeCasts S1x256x1x1
  reduces_S1x256x1x1_S1x1x1 : S1x256x1x1.Reduces [1] S1x1x1
  shapeCasts_S1x1x1_S1x1x1x1 : S1x1x1.ShapeCasts S1x1x1x1
  bcast_S_S4x1x1x1 : S_.BroadcastsInDim S4x1x1x1 (![] : Fin 0 → Fin S4x1x1x1.rank)
  broadcasts_S1x256x1x64_S1x256x64x64 : S1x256x1x64.Broadcasts S1x256x64x64
  inb_S1x1x1x64_S1x1x1x64_0_0_0_0 : ∀ a, (![0, 0, 0, 0] : Fin 4 → Nat) a + S1x1x1x64.size a ≤ S1x1x1x64.size a
  h_S1x1x1x64 : 0 < S1x1x1x64.numel
  broadcasts_S1x1x1x64_S1x256x64x64 : S1x1x1x64.Broadcasts S1x256x64x64
  broadcasts_S1x1x1x1_S1x256x64x64 : S1x1x1x1.Broadcasts S1x256x64x64
  gather_S4x16384x2_S4x2048x1_S4x2048x2_2_1_0_0_1_2_112_wf : GatherDims.WF S4x16384x2 S4x2048x1 S4x2048x2 [2] [1] [0] [1] [0] 2 ![1, 1, 2]
  dot_S4x2048x2_S4x16384x2_S4x2048x16384_2_2_1_1_0_0_wf : DotDims.WF S4x2048x2 S4x16384x2 S4x2048x16384 [2] [2] [1] [1] [0] [0]
  gather_S4x16384x2_S4x2048x64x1_S4x2048x64x2_3_1_0_0_1_3_112_wf : GatherDims.WF S4x16384x2 S4x2048x64x1 S4x2048x64x2 [3] [1] [0] [1] [0] 3 ![1, 1, 2]
  gather_S4x16384x62_S4x2048x64x1_S4x2048x64x62_3_1_0_0_1_3_1162_wf : GatherDims.WF S4x16384x62 S4x2048x64x1 S4x2048x64x62 [3] [1] [0] [1] [0] 3 ![1, 1, 62]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x64x64.size a ≤ S4x2048x64x64.size a
  hwx0_0 : ∀ i : grid0.Coords, EltTy.bits .f32 = 32 ∨ (Rect.block (s := S4x2048x64x64) S1x256x64x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x1x1.size a ≤ S4x1x1x1.size a
  hwx0_1 : ∀ i : grid0.Coords, EltTy.bits .f32 = 32 ∨ (Rect.block (s := S4x1x1x1) S1x1x1x1.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x256x64x64.size a ≤ S4x2048x64x64.size a
  hwx1_0 : ∀ i : grid1.Coords, EltTy.bits .f32 = 32 ∨ (Rect.block (s := S4x2048x64x64) S1x256x64x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x1x1x1.size a ≤ S4x1x1x1.size a
  hwx1_1 : ∀ i : grid1.Coords, EltTy.bits .f32 = 32 ∨ (Rect.block (s := S4x1x1x1) S1x1x1x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x1x1x64.size a ≤ S1x1x1x64.size a
  hwx1_2 : ∀ i : grid1.Coords, EltTy.bits .f32 = 32 ∨ (Rect.block (s := S1x1x1x64) S1x1x1x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x1x1x64.size a ≤ S1x1x1x64.size a
  hwx1_3 : ∀ i : grid1.Coords, EltTy.bits .f32 = 32 ∨ (Rect.block (s := S1x1x1x64) S1x1x1x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x256x64x64.size a ≤ S4x2048x64x64.size a
  hwx1_4 : ∀ i : grid1.Coords, EltTy.bits .f32 = 32 ∨ (Rect.block (s := S4x2048x64x64) S1x256x64x64.size (cc1_transform_4 i) (hinb1_4 i)).WholeWords (EltTy.packing .f32)

variable [Facts₀]

def gather_S4x16384x2_S4x2048x1_S4x2048x2_2_1_0_0_1_2_112 : GatherDims S4x16384x2 S4x2048x1 S4x2048x2 where
  offsetDims := [2]
  collapsedSliceDims := [1]
  operandBatchingDims := [0]
  startIndicesBatchingDims := [0]
  startIndexMap := [1]
  indexVectorDim := 2
  sliceSizes := ![1, 1, 2]
  wf := gather_S4x16384x2_S4x2048x1_S4x2048x2_2_1_0_0_1_2_112_wf
def dot_S4x2048x2_S4x16384x2_S4x2048x16384_2_2_1_1_0_0 : DotDims S4x2048x2 S4x16384x2 S4x2048x16384 where
  lhsContracting := [2]
  rhsContracting := [2]
  lhsNonContracting := [1]
  rhsNonContracting := [1]
  lhsBatch := [0]
  rhsBatch := [0]
  wf := dot_S4x2048x2_S4x16384x2_S4x2048x16384_2_2_1_1_0_0_wf
def comparator_i32_d2 : BitVec 32 → BitVec 32 → BitVec 1 :=
  fun l r =>
    let v1 := IntOp.cmpi .slt l r
    v1
def gather_S4x16384x2_S4x2048x64x1_S4x2048x64x2_3_1_0_0_1_3_112 : GatherDims S4x16384x2 S4x2048x64x1 S4x2048x64x2 where
  offsetDims := [3]
  collapsedSliceDims := [1]
  operandBatchingDims := [0]
  startIndicesBatchingDims := [0]
  startIndexMap := [1]
  indexVectorDim := 3
  sliceSizes := ![1, 1, 2]
  wf := gather_S4x16384x2_S4x2048x64x1_S4x2048x64x2_3_1_0_0_1_3_112_wf
def gather_S4x16384x62_S4x2048x64x1_S4x2048x64x62_3_1_0_0_1_3_1162 : GatherDims S4x16384x62 S4x2048x64x1 S4x2048x64x62 where
  offsetDims := [3]
  collapsedSliceDims := [1]
  operandBatchingDims := [0]
  startIndicesBatchingDims := [0]
  startIndexMap := [1]
  indexVectorDim := 3
  sliceSizes := ![1, 1, 62]
  wf := gather_S4x16384x62_S4x2048x64x1_S4x2048x64x62_3_1_0_0_1_3_1162_wf

abbrev win0_0 : Pipeline.Window sig grid0 :=
  Pipeline.Window.ofSpec (Memref.whole main_v44) S1x256x64x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v45) S1x1x1x1.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev idle0 : Fin 2 → grid0.Coords → Bool := fun | 0 => fun _ => false | 1 => fun i => !(k0_cond2 i == 1#1) | ⟨_ + 2, h⟩ => absurd h (Nat.not_lt.2 (Nat.le_add_left _ _))

abbrev win1_0 : Pipeline.Window sig grid1 :=
  Pipeline.Window.ofSpec (Memref.whole main_v44) S1x256x64x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v48) S1x1x1x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg3) S1x1x1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg4) S1x1x1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v49) S1x256x64x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S4x16384x2 : Shape := ⟨3, ![4, 16384, 2]⟩
abbrev S4x16384x62 : Shape := ⟨3, ![4, 16384, 62]⟩
abbrev S4x2048 : Shape := ⟨2, ![4, 2048]⟩
abbrev S1x1x1x64 : Shape := ⟨4, ![1, 1, 1, 64]⟩
abbrev S_ : Shape := ⟨0, ![]⟩
abbrev S4x2048x1 : Shape := ⟨3, ![4, 2048, 1]⟩
abbrev S4x2048x2 : Shape := ⟨3, ![4, 2048, 2]⟩
abbrev S4x16384 : Shape := ⟨2, ![4, 16384]⟩
abbrev S4x1x16384 : Shape := ⟨3, ![4, 1, 16384]⟩
abbrev S4x2048x16384 : Shape := ⟨3, ![4, 2048, 16384]⟩
abbrev S16384 : Shape := ⟨1, ![16384]⟩
abbrev S4x2048x64 : Shape := ⟨3, ![4, 2048, 64]⟩
abbrev S4x2048x64x1 : Shape := ⟨4, ![4, 2048, 64, 1]⟩
abbrev S4x2048x64x2 : Shape := ⟨4, ![4, 2048, 64, 2]⟩
abbrev S4x2048x64x62 : Shape := ⟨4, ![4, 2048, 64, 62]⟩
abbrev S4x2048x64x64 : Shape := ⟨4, ![4, 2048, 64, 64]⟩
abbrev S4x2048x1x64 : Shape := ⟨4, ![4, 2048, 1, 64]⟩
abbrev S4x8388608 : Shape := ⟨2, ![4, 8388608]⟩
abbrev S4 : Shape := ⟨1, ![4]⟩
abbrev S4x1 : Shape := ⟨2, ![4, 1]⟩
abbrev S4x1x1x1 : Shape := ⟨4, ![4, 1, 1, 1]⟩

abbrev nBuf : Space → Nat
  | .hbm => 109
  | .vmem => 0
  | .smem => 0
  | _ => 0

abbrev bufTy : (tb : Table) → Fin (tcTables nBuf tb) → BufTy
  | .hbm, ⟨0, _⟩ => ⟨S4x16384x2, .f32⟩
  | .hbm, ⟨1, _⟩ => ⟨S4x16384x62, .f32⟩
  | .hbm, ⟨2, _⟩ => ⟨S4x2048, .i32⟩
  | .hbm, ⟨3, _⟩ => ⟨S1x1x1x64, .f32⟩
  | .hbm, ⟨4, _⟩ => ⟨S1x1x1x64, .f32⟩
  | .hbm, ⟨5, _⟩ => ⟨S_, .i32⟩
  | .hbm, ⟨6, _⟩ => ⟨S4x2048, .i32⟩
  | .hbm, ⟨7, _⟩ => ⟨S4x2048, .i1⟩
  | .hbm, ⟨8, _⟩ => ⟨S_, .i32⟩
  | .hbm, ⟨9, _⟩ => ⟨S4x2048, .i32⟩
  | .hbm, ⟨10, _⟩ => ⟨S4x2048, .i32⟩
  | .hbm, ⟨11, _⟩ => ⟨S4x2048, .i32⟩
  | .hbm, ⟨12, _⟩ => ⟨S4x2048x1, .i32⟩
  | .hbm, ⟨13, _⟩ => ⟨S4x2048x2, .f32⟩
  | .hbm, ⟨14, _⟩ => ⟨S4x2048x2, .f32⟩
  | .hbm, ⟨15, _⟩ => ⟨S_, .f32⟩
  | .hbm, ⟨16, _⟩ => ⟨S4x2048, .f32⟩
  | .hbm, ⟨17, _⟩ => ⟨S4x2048x1, .f32⟩
  | .hbm, ⟨18, _⟩ => ⟨S4x16384x2, .f32⟩
  | .hbm, ⟨19, _⟩ => ⟨S_, .f32⟩
  | .hbm, ⟨20, _⟩ => ⟨S4x16384, .f32⟩
  | .hbm, ⟨21, _⟩ => ⟨S4x1x16384, .f32⟩
  | .hbm, ⟨22, _⟩ => ⟨S4x2048x16384, .f32⟩
  | .hbm, ⟨23, _⟩ => ⟨S4x2048x16384, .f32⟩
  | .hbm, ⟨24, _⟩ => ⟨S4x2048x16384, .f32⟩
  | .hbm, ⟨25, _⟩ => ⟨S4x2048x16384, .f32⟩
  | .hbm, ⟨26, _⟩ => ⟨S_, .f32⟩
  | .hbm, ⟨27, _⟩ => ⟨S4x2048x16384, .f32⟩
  | .hbm, ⟨28, _⟩ => ⟨S4x2048x16384, .f32⟩
  | .hbm, ⟨29, _⟩ => ⟨S4x2048x16384, .f32⟩
  | .hbm, ⟨30, _⟩ => ⟨S16384, .i32⟩
  | .hbm, ⟨31, _⟩ => ⟨S_, .f32⟩
  | .hbm, ⟨32, _⟩ => ⟨S4x2048x16384, .f32⟩
  | .hbm, ⟨33, _⟩ => ⟨S4x2048x16384, .i1⟩
  | .hbm, ⟨34, _⟩ => ⟨S_, .i32⟩
  | .hbm, ⟨35, _⟩ => ⟨S_, .i32⟩
  | .hbm, ⟨36, _⟩ => ⟨S4x2048x16384, .i32⟩
  | .hbm, ⟨37, _⟩ => ⟨S4x2048x16384, .i32⟩
  | .hbm, ⟨38, _⟩ => ⟨S4x2048x16384, .i32⟩
  | .hbm, ⟨39, _⟩ => ⟨S4x2048x16384, .i32⟩
  | .hbm, ⟨40, _⟩ => ⟨S4x2048x64, .i32⟩
  | .hbm, ⟨41, _⟩ => ⟨S4x2048x1, .i32⟩
  | .hbm, ⟨42, _⟩ => ⟨S_, .i32⟩
  | .hbm, ⟨43, _⟩ => ⟨S4x2048x64, .i32⟩
  | .hbm, ⟨44, _⟩ => ⟨S4x2048x64, .i1⟩
  | .hbm, ⟨45, _⟩ => ⟨S4x2048x64, .i32⟩
  | .hbm, ⟨46, _⟩ => ⟨S4x2048x64, .i32⟩
  | .hbm, ⟨47, _⟩ => ⟨S_, .i32⟩
  | .hbm, ⟨48, _⟩ => ⟨S4x2048x64, .i32⟩
  | .hbm, ⟨49, _⟩ => ⟨S4x2048x64, .i1⟩
  | .hbm, ⟨50, _⟩ => ⟨S_, .i32⟩
  | .hbm, ⟨51, _⟩ => ⟨S4x2048x64, .i32⟩
  | .hbm, ⟨52, _⟩ => ⟨S4x2048x64, .i32⟩
  | .hbm, ⟨53, _⟩ => ⟨S4x2048x64, .i32⟩
  | .hbm, ⟨54, _⟩ => ⟨S4x2048x64x1, .i32⟩
  | .hbm, ⟨55, _⟩ => ⟨S4x2048x64x2, .f32⟩
  | .hbm, ⟨56, _⟩ => ⟨S_, .i32⟩
  | .hbm, ⟨57, _⟩ => ⟨S4x2048x64, .i32⟩
  | .hbm, ⟨58, _⟩ => ⟨S4x2048x64, .i1⟩
  | .hbm, ⟨59, _⟩ => ⟨S_, .i32⟩
  | .hbm, ⟨60, _⟩ => ⟨S4x2048x64, .i32⟩
  | .hbm, ⟨61, _⟩ => ⟨S4x2048x64, .i32⟩
  | .hbm, ⟨62, _⟩ => ⟨S4x2048x64, .i32⟩
  | .hbm, ⟨63, _⟩ => ⟨S4x2048x64x1, .i32⟩
  | .hbm, ⟨64, _⟩ => ⟨S4x2048x64x62, .f32⟩
  | .hbm, ⟨65, _⟩ => ⟨S4x2048x64x64, .f32⟩
  | .hbm, ⟨66, _⟩ => ⟨S_, .f32⟩
  | .hbm, ⟨67, _⟩ => ⟨S4x2048x64, .f32⟩
  | .hbm, ⟨68, _⟩ => ⟨S4x2048x1x64, .f32⟩
  | .hbm, ⟨69, _⟩ => ⟨S_, .f32⟩
  | .hbm, ⟨70, _⟩ => ⟨S4x2048x1x64, .f32⟩
  | .hbm, ⟨71, _⟩ => ⟨S4x2048x1x64, .f32⟩
  | .hbm, ⟨72, _⟩ => ⟨S4x2048x64x64, .f32⟩
  | .hbm, ⟨73, _⟩ => ⟨S4x2048x64x64, .f32⟩
  | .hbm, ⟨74, _⟩ => ⟨S4x8388608, .f32⟩
  | .hbm, ⟨75, _⟩ => ⟨S_, .i32⟩
  | .hbm, ⟨76, _⟩ => ⟨S_, .f32⟩
  | .hbm, ⟨77, _⟩ => ⟨S4, .f32⟩
  | .hbm, ⟨78, _⟩ => ⟨S4x1, .f32⟩
  | .hbm, ⟨79, _⟩ => ⟨S_, .f32⟩
  | .hbm, ⟨80, _⟩ => ⟨S4x1, .f32⟩
  | .hbm, ⟨81, _⟩ => ⟨S4x1, .f32⟩
  | .hbm, ⟨82, _⟩ => ⟨S4x8388608, .f32⟩
  | .hbm, ⟨83, _⟩ => ⟨S4x8388608, .f32⟩
  | .hbm, ⟨84, _⟩ => ⟨S4x8388608, .f32⟩
  | .hbm, ⟨85, _⟩ => ⟨S_, .f32⟩
  | .hbm, ⟨86, _⟩ => ⟨S_, .f32⟩
  | .hbm, ⟨87, _⟩ => ⟨S_, .f32⟩
  | .hbm, ⟨88, _⟩ => ⟨S_, .f32⟩
  | .hbm, ⟨89, _⟩ => ⟨S4, .f32⟩
  | .hbm, ⟨90, _⟩ => ⟨S4, .f32⟩
  | .hbm, ⟨91, _⟩ => ⟨S4, .f32⟩
  | .hbm, ⟨92, _⟩ => ⟨S_, .f32⟩
  | .hbm, ⟨93, _⟩ => ⟨S_, .i1⟩
  | .hbm, ⟨94, _⟩ => ⟨S_, .f32⟩
  | .hbm, ⟨95, _⟩ => ⟨S_, .f32⟩
  | .hbm, ⟨96, _⟩ => ⟨S4, .f32⟩
  | .hbm, ⟨97, _⟩ => ⟨S4, .f32⟩
  | .hbm, ⟨98, _⟩ => ⟨S4, .f32⟩
  | .hbm, ⟨99, _⟩ => ⟨S4x1x1x1, .f32⟩
  | .hbm, ⟨100, _⟩ => ⟨S_, .f32⟩
  | .hbm, ⟨101, _⟩ => ⟨S4x1x1x1, .f32⟩
  | .hbm, ⟨102, _⟩ => ⟨S4x1x1x1, .f32⟩
  | .hbm, ⟨103, _⟩ => ⟨S4x2048x64x64, .f32⟩
  | .hbm, ⟨104, _⟩ => ⟨S4x2048x64x64, .f32⟩
  | .hbm, ⟨105, _⟩ => ⟨S4x2048x64x64, .f32⟩
  | .hbm, ⟨106, _⟩ => ⟨S4x2048x64x64, .f32⟩
  | .hbm, ⟨107, _⟩ => ⟨S4x2048x64x64, .f32⟩
  | .hbm, ⟨108, _⟩ => ⟨S4x2048x64x64, .f32⟩
  | _, _ => ⟨S4x16384x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_2 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_3 : Ref sig .tc := ⟨.hbm, 31, rfl⟩
abbrev main_v21 : Ref sig .tc := ⟨.hbm, 32, rfl⟩
abbrev main_v22 : Ref sig .tc := ⟨.hbm, 33, rfl⟩
abbrev main_c_4 : Ref sig .tc := ⟨.hbm, 34, rfl⟩
abbrev main_call0_v0 : Ref sig .tc := ⟨.hbm, 35, rfl⟩
abbrev main_call0_v1 : Ref sig .tc := ⟨.hbm, 36, rfl⟩
abbrev main_call0_v2 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_c_5 : Ref sig .tc := ⟨.hbm, 42, rfl⟩
abbrev main_v27 : Ref sig .tc := ⟨.hbm, 43, rfl⟩
abbrev main_v28 : Ref sig .tc := ⟨.hbm, 44, rfl⟩
abbrev main_call2_v0 : Ref sig .tc := ⟨.hbm, 45, rfl⟩
abbrev main_v29 : Ref sig .tc := ⟨.hbm, 46, rfl⟩
abbrev main_c_6 : Ref sig .tc := ⟨.hbm, 47, rfl⟩
abbrev main_v30 : Ref sig .tc := ⟨.hbm, 48, rfl⟩
abbrev main_v31 : Ref sig .tc := ⟨.hbm, 49, rfl⟩
abbrev main_c_7 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_c_8 : Ref sig .tc := ⟨.hbm, 56, rfl⟩
abbrev main_v37 : Ref sig .tc := ⟨.hbm, 57, rfl⟩
abbrev main_v38 : Ref sig .tc := ⟨.hbm, 58, rfl⟩
abbrev main_c_9 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_cst_10 : Ref sig .tc := ⟨.hbm, 66, rfl⟩
abbrev main_v45 : Ref sig .tc := ⟨.hbm, 67, rfl⟩
abbrev main_v46 : Ref sig .tc := ⟨.hbm, 68, rfl⟩
abbrev main_cst_11 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_c_12 : Ref sig .tc := ⟨.hbm, 75, rfl⟩
abbrev main_call3_call0_cst : Ref sig .tc := ⟨.hbm, 76, rfl⟩
abbrev main_call3_call0_v0 : Ref sig .tc := ⟨.hbm, 77, rfl⟩
abbrev main_call3_call0_v1 : Ref sig .tc := ⟨.hbm, 78, rfl⟩
abbrev main_call3_call0_cst_0 : Ref sig .tc := ⟨.hbm, 79, rfl⟩
abbrev main_call3_call0_v2 : Ref sig .tc := ⟨.hbm, 80, rfl⟩
abbrev main_call3_call0_v3 : Ref sig .tc := ⟨.hbm, 81, rfl⟩
abbrev main_call3_call0_v4 : Ref sig .tc := ⟨.hbm, 82, rfl⟩
abbrev main_call3_call0_v5 : Ref sig .tc := ⟨.hbm, 83, rfl⟩
abbrev main_call3_call0_v6 : Ref sig .tc := ⟨.hbm, 84, rfl⟩
abbrev main_call3_call0_v7 : Ref sig .tc := ⟨.hbm, 85, rfl⟩
abbrev main_call3_call0_cst_1 : Ref sig .tc := ⟨.hbm, 86, rfl⟩
abbrev main_call3_call0_v8 : Ref sig .tc := ⟨.hbm, 87, rfl⟩
abbrev main_call3_call0_cst_2 : Ref sig .tc := ⟨.hbm, 88, rfl⟩
abbrev main_call3_call0_v9 : Ref sig .tc := ⟨.hbm, 89, rfl⟩
abbrev main_call3_call0_v10 : Ref sig .tc := ⟨.hbm, 90, rfl⟩
abbrev main_call3_call0_v11 : Ref sig .tc := ⟨.hbm, 91, rfl⟩
abbrev main_call3_call0_cst_3 : Ref sig .tc := ⟨.hbm, 92, rfl⟩
abbrev main_call3_call0_v12 : Ref sig .tc := ⟨.hbm, 93, rfl⟩
abbrev main_call3_call0_cst_4 : Ref sig .tc := ⟨.hbm, 94, rfl⟩
abbrev main_call3_call0_call0_v0 : Ref sig .tc := ⟨.hbm, 95, rfl⟩
abbrev main_call3_call0_call0_v1 : Ref sig .tc := ⟨.hbm, 96, rfl⟩
abbrev main_call3_v0 : Ref sig .tc := ⟨.hbm, 97, rfl⟩
abbrev main_v52 : Ref sig .tc := ⟨.hbm, 98, rfl⟩
abbrev main_v53 : Ref sig .tc := ⟨.hbm, 99, rfl⟩
abbrev main_cst_13 : Ref sig .tc := ⟨.hbm, 100, rfl⟩
abbrev main_v54 : Ref sig .tc := ⟨.hbm, 101, rfl⟩
abbrev main_v55 : Ref sig .tc := ⟨.hbm, 102, rfl⟩
abbrev main_v56 : Ref sig .tc := ⟨.hbm, 103, rfl⟩
abbrev main_v57 : Ref sig .tc := ⟨.hbm, 104, rfl⟩
abbrev main_v58 : Ref sig .tc := ⟨.hbm, 105, rfl⟩
abbrev main_v59 : Ref sig .tc := ⟨.hbm, 106, rfl⟩
abbrev main_v60 : Ref sig .tc := ⟨.hbm, 107, rfl⟩
abbrev main_v61 : Ref sig .tc := ⟨.hbm, 108, rfl⟩

abbrev nD : Nat := 1
abbrev τ : Topo := Topo.v7x

variable {F : FTy → Type} [FloatOps F]

class Facts₀ : Prop where
  bcast_S_S4x2048 : S_.BroadcastsInDim S4x2048 (![] : Fin 0 → Fin S4x2048.rank)
  bcast_S4x2048_S4x2048x1_0_1 : S4x2048.BroadcastsInDim S4x2048x1 (![0, 1] : Fin 2 → Fin S4x2048x1.rank)
  reducesTo_S4x2048x2_S4x2048_d2 : S4x2048x2.ReducesTo [2] S4x2048
  h_S_ : 0 < S_.numel
  reducesTo_S4x16384x2_S4x16384_d2 : S4x16384x2.ReducesTo [2] S4x16384
  bcast_S4x16384_S4x1x16384_0_2 : S4x16384.BroadcastsInDim S4x1x16384 (![0, 2] : Fin 2 → Fin S4x1x16384.rank)
  bcast_S4x2048x1_S4x2048x16384_0_1_2 : S4x2048x1.BroadcastsInDim S4x2048x16384 (![0, 1, 2] : Fin 3 → Fin S4x2048x16384.rank)
  bcast_S4x1x16384_S4x2048x16384_0_1_2 : S4x1x16384.BroadcastsInDim S4x2048x16384 (![0, 1, 2] : Fin 3 → Fin S4x2048x16384.rank)
  bcast_S_S4x2048x16384 : S_.BroadcastsInDim S4x2048x16384 (![] : Fin 0 → Fin S4x2048x16384.rank)
  bcast_S16384_S4x2048x16384_2 : S16384.BroadcastsInDim S4x2048x16384 (![2] : Fin 1 → Fin S4x2048x16384.rank)
  slices_S4x2048x16384_S4x2048x64_0_0_0 : S4x2048x16384.Slices ![0, 0, 0] S4x2048x64
  slices_S4x2048x64_S4x2048x1_0_0_0 : S4x2048x64.Slices ![0, 0, 0] S4x2048x1
  bcast_S_S4x2048x64 : S_.BroadcastsInDim S4x2048x64 (![] : Fin 0 → Fin S4x2048x64.rank)
  bcast_S4x2048x1_S4x2048x64_0_1_2 : S4x2048x1.BroadcastsInDim S4x2048x64 (![0, 1, 2] : Fin 3 → Fin S4x2048x64.rank)
  bcast_S4x2048x64_S4x2048x64x1_0_1_2 : S4x2048x64.BroadcastsInDim S4x2048x64x1 (![0, 1, 2] : Fin 3 → Fin S4x2048x64x1.rank)
  concatenates_S4x2048x64x62_S4x2048x64x2_S4x2048x64x64_d3 : Shape.Concatenates [S4x2048x64x62, S4x2048x64x2] S4x2048x64x64 3
  reducesTo_S4x2048x64x64_S4x2048x64_d2 : S4x2048x64x64.ReducesTo [2] S4x2048x64
  bcast_S4x2048x64_S4x2048x1x64_0_1_3 : S4x2048x64.BroadcastsInDim S4x2048x1x64 (![0, 1, 3] : Fin 3 → Fin S4x2048x1x64.rank)
  bcast_S_S4x2048x1x64 : S_.BroadcastsInDim S4x2048x1x64 (![] : Fin 0 → Fin S4x2048x1x64.rank)
  bcast_S4x2048x1x64_S4x2048x64x64_0_1_2_3 : S4x2048x1x64.BroadcastsInDim S4x2048x64x64 (![0, 1, 2, 3] : Fin 4 → Fin S4x2048x64x64.rank)
  shapeCasts_S4x2048x64x64_S4x8388608 : S4x2048x64x64.ShapeCasts S4x8388608
  reducesTo_S4x8388608_S4_d1 : S4x8388608.ReducesTo [1] S4
  bcast_S4_S4x1_0 : S4.BroadcastsInDim S4x1 (![0] : Fin 1 → Fin S4x1.rank)
  bcast_S_S4x1 : S_.BroadcastsInDim S4x1 (![] : Fin 0 → Fin S4x1.rank)
  bcast_S4x1_S4x8388608_0_1 : S4x1.BroadcastsInDim S4x8388608 (![0, 1] : Fin 2 → Fin S4x8388608.rank)
  bcast_S_S4 : S_.BroadcastsInDim S4 (![] : Fin 0 → Fin S4.rank)
  bcast_S4_S4x1x1x1_0 : S4.BroadcastsInDim S4x1x1x1 (![0] : Fin 1 → Fin S4x1x1x1.rank)
  bcast_S_S4x1x1x1 : S_.BroadcastsInDim S4x1x1x1 (![] : Fin 0 → Fin S4x1x1x1.rank)
  bcast_S4x1x1x1_S4x2048x64x64_0_1_2_3 : S4x1x1x1.BroadcastsInDim S4x2048x64x64 (![0, 1, 2, 3] : Fin 4 → Fin S4x2048x64x64.rank)
  bcast_S1x1x1x64_S4x2048x64x64_0_1_2_3 : S1x1x1x64.BroadcastsInDim S4x2048x64x64 (![0, 1, 2, 3] : Fin 4 → Fin S4x2048x64x64.rank)
  gather_S4x16384x2_S4x2048x1_S4x2048x2_2_1_0_0_1_2_112_wf : GatherDims.WF S4x16384x2 S4x2048x1 S4x2048x2 [2] [1] [0] [1] [0] 2 ![1, 1, 2]
  dot_S4x2048x2_S4x16384x2_S4x2048x16384_2_2_1_1_0_0_wf : DotDims.WF S4x2048x2 S4x16384x2 S4x2048x16384 [2] [2] [1] [1] [0] [0]
  gather_S4x16384x2_S4x2048x64x1_S4x2048x64x2_3_1_0_0_1_3_112_wf : GatherDims.WF S4x16384x2 S4x2048x64x1 S4x2048x64x2 [3] [1] [0] [1] [0] 3 ![1, 1, 2]
  gather_S4x16384x62_S4x2048x64x1_S4x2048x64x62_3_1_0_0_1_3_1162_wf : GatherDims.WF S4x16384x62 S4x2048x64x1 S4x2048x64x62 [3] [1] [0] [1] [0] 3 ![1, 1, 62]

variable [Facts₀]

def gather_S4x16384x2_S4x2048x1_S4x2048x2_2_1_0_0_1_2_112 : GatherDims S4x16384x2 S4x2048x1 S4x2048x2 where
  offsetDims := [2]
  collapsedSliceDims := [1]
  operandBatchingDims := [0]
  startIndicesBatchingDims := [0]
  startIndexMap := [1]
  indexVectorDim := 2
  sliceSizes := ![1, 1, 2]
  wf := gather_S4x16384x2_S4x2048x1_S4x2048x2_2_1_0_0_1_2_112_wf
def dot_S4x2048x2_S4x16384x2_S4x2048x16384_2_2_1_1_0_0 : DotDims S4x2048x2 S4x16384x2 S4x2048x16384 where
  lhsContracting := [2]
  rhsContracting := [2]
  lhsNonContracting := [1]
  rhsNonContracting := [1]
  lhsBatch := [0]
  rhsBatch := [0]
  wf := dot_S4x2048x2_S4x16384x2_S4x2048x16384_2_2_1_1_0_0_wf
def comparator_i32_d2 : BitVec 32 → BitVec 32 → BitVec 1 :=
  fun l r =>
    let v1 := IntOp.cmpi .slt l r
    v1
def gather_S4x16384x2_S4x2048x64x1_S4x2048x64x2_3_1_0_0_1_3_112 : GatherDims S4x16384x2 S4x2048x64x1 S4x2048x64x2 where
  offsetDims := [3]
  collapsedSliceDims := [1]
  operandBatchingDims := [0]
  startIndicesBatchingDims := [0]
  startIndexMap := [1]
  indexVectorDim := 3
  sliceSizes := ![1, 1, 2]
  wf := gather_S4x16384x2_S4x2048x64x1_S4x2048x64x2_3_1_0_0_1_3_112_wf
def gather_S4x16384x62_S4x2048x64x1_S4x2048x64x62_3_1_0_0_1_3_1162 : GatherDims S4x16384x62 S4x2048x64x1 S4x2048x64x62 where
  offsetDims := [3]
  collapsedSliceDims := [1]
  operandBatchingDims := [0]
  startIndicesBatchingDims := [0]
  startIndexMap := [1]
  indexVectorDim := 3
  sliceSizes := ![1, 1, 62]
  wf := gather_S4x16384x62_S4x2048x64x1_S4x2048x64x62_3_1_0_0_1_3_1162_wf

class Facts : Prop extends Facts₀ where

variable [Facts]
-- ==== Proof.KAssembly.lean ====
/-
  The kernel program's run, assembled: @main is six stretches of host operations, the first pallas_call (the
  per-batch sum of squared deviations, accumulated in a scratch), one more stretch (the quotient by n − 1 and the
  square root), and the second pallas_call (the normalisation). Every weakly fair execution terminates, nothing
  faults, and every unscoped buffer of a core ends at a NAMED valuation: the launch memory folded through the host
  stretches, each region's arrays at what its pipeline's write-backs leave.

  The two regions enter as PARAMETERS: for each, proof data at the buffer contents the region finds (its arrays those
  contents, full shares, nothing owed), the body obligation at every grid point, and the two entailments that tie
  its invariant to the class's scoped rest at the first and after the last point. The module below is the
  several-region launch over those records; the sibling modules supply them for the two kernels.
-/
import proofs.«157503_j446676598875_2_alg».proof.Proof.Gen.Kernel.Launch
import proofs.«157503_j446676598875_2_alg».proof.Proof.Gen.Kernel.Skeleton
import proofs.«157503_j446676598875_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The buffer contents of the TensorCores, read at their references: what a region's proof data is stated at. -/
abbrev Contents (F : FTy → Type) [FloatOps F] : Type :=
  (c : Dev nD) → (b : Ref sig .tc) → Buf (Elt F) ((c : Thread nD τ).loc b)

/-- What a region's sibling module supplies for pipeline 0 at entry contents V. -/
structure Region0 (V : Contents F) where
  dat : (c : Dev nD) → Dat τ (Elt F) Unit ℕ (UR sig nD τ) ℕ cfg0 c
  hA : ∀ c w, (dat c).A w = V c (Pipeline.arrRef spec0 w)
  hq : ∀ c w, (dat c).q w = fullShare
  howed : ∀ c t, (dat c).owed t = 0
  hrec : ∀ c t, (dat c).recorded t = Set.univ
  hbody : ∀ c, BodyObligation (dat c) (defs₀ (F := F)) Variants.none () Set.univ
  hin : ∀ c, (Pipeline.ΦA spec0 c : sProp 𝕄) ⊢ (dat c).Φ 0
  hout : ∀ c, (dat c).Φ (Fin.last cfg0.N) ⊢ (Pipeline.ΦA spec0 c : sProp 𝕄)

/-- The same for pipeline 1. -/
structure Region1 (V : Contents F) where
  dat : (c : Dev nD) → Dat τ (Elt F) Unit ℕ (UR sig nD τ) ℕ cfg1 c
  hA : ∀ c w, (dat c).A w = V c (Pipeline.arrRef spec1 w)
  hq : ∀ c w, (dat c).q w = fullShare
  howed : ∀ c t, (dat c).owed t = 0
  hrec : ∀ c t, (dat c).recorded t = Set.univ
  hbody : ∀ c, BodyObligation (dat c) (defs₀ (F := F)) Variants.none () Set.univ
  hin : ∀ c, (Pipeline.ΦA spec1 c : sProp 𝕄) ⊢ (dat c).Φ 0
  hout : ∀ c, (dat c).Φ (Fin.last cfg1.N) ⊢ (Pipeline.ΦA spec1 c : sProp 𝕄)

section Run

variable (m : (ℓ : Loc nD τ sig) → Buf (Elt F) ℓ) (ρ : Dev nD → PrngReg)

/-! ## The buffer contents at each segment boundary: a fold through @main -/

/-- Core c's buffers at launch. -/
abbrev W0 : Dev nD → Valuation τ sig (Elt F) := fun c b => m (c, b)
abbrev W1 : Dev nD → Valuation τ sig (Elt F) := fun c => StableHlo.after hostOps0 (W0 m c)
abbrev W2 : Dev nD → Valuation τ sig (Elt F) := fun c => StableHlo.after hostOps0_1 (W1 m c)
abbrev W3 : Dev nD → Valuation τ sig (Elt F) := fun c => StableHlo.after hostOps0_2 (W2 m c)
abbrev W4 : Dev nD → Valuation τ sig (Elt F) := fun c => StableHlo.after hostOps0_3 (W3 m c)
abbrev W5 : Dev nD → Valuation τ sig (Elt F) := fun c => StableHlo.after hostOps0_4 (W4 m c)
/-- After the six stretches before the first pallas_call: what region 0 is entered from. -/
abbrev W6 : Dev nD → Valuation τ sig (Elt F) := fun c => StableHlo.after hostOps0_5 (W5 m c)
/-- The same read at the TensorCore's references. -/
abbrev V6 : Contents F := fun c b => W6 m c b

variable (R0 : Region0 (V6 m))

/-- At region 0's exit: its arrays at what the pipeline leaves, every other buffer as entered. -/
def W7 (c : Dev nD) : Valuation τ sig (Elt F) :=
  Pipeline.withArrays spec0 c (W6 m c) fun w => (R0.dat c).arrAt w cfg0.N
theorem W7_arr (c : Dev nD) (w : Fin cfg0.W) :
    W7 m R0 c (Proc.devRef .tc (Pipeline.arrRef spec0 w)) = (R0.dat c).arrAt w cfg0.N := by
  unfold W7; exact Pipeline.withArrays_arr spec0 launch0.win.arr_inj c _ _ w
theorem W7_of_ne (c : Dev nD) (b : Ref sig .tc) (hb : ∀ w, Pipeline.arrRef spec0 w ≠ b) :
    W7 m R0 c (Proc.devRef .tc b) = W6 m c (Proc.devRef .tc b) := by
  unfold W7; exact Pipeline.withArrays_of_ne spec0 c _ _ b hb
abbrev V7 : Contents F := fun c b => W7 m R0 c b
theorem hF0 (c : Dev nD) (w : Fin cfg0.W) : (R0.dat c).arrAt w cfg0.N = V7 m R0 c (Pipeline.arrRef spec0 w) :=
  (W7_arr m R0 c w).symm
theorem hrest0 (c : Dev nD) : ∀ b, b ∉ Finset.univ.image (Pipeline.arrRef spec0) → V7 m R0 c b = V6 m c b :=
  fun b hb => W7_of_ne m R0 c b fun w e => hb (Finset.mem_image.mpr ⟨w, Finset.mem_univ _, e⟩)

/-- After the stretch between the two pallas_calls: what region 1 is entered from. -/
abbrev W8 : Dev nD → Valuation τ sig (Elt F) := fun c => StableHlo.after hostOps1 (W7 m R0 c)
abbrev V8 : Contents F := fun c b => W8 m R0 c b

variable (R1 : Region1 (V8 m R0))

/-- At region 1's exit, which is the program's end. -/
def W9 (c : Dev nD) : Valuation τ sig (Elt F) :=
  Pipeline.withArrays spec1 c (W8 m R0 c) fun w => (R1.dat c).arrAt w cfg1.N
theorem W9_arr (c : Dev nD) (w : Fin cfg1.W) :
    W9 m R0 R1 c (Proc.devRef .tc (Pipeline.arrRef spec1 w)) = (R1.dat c).arrAt w cfg1.N := by
  unfold W9; exact Pipeline.withArrays_arr spec1 launch1.win.arr_inj c _ _ w
theorem W9_of_ne (c : Dev nD) (b : Ref sig .tc) (hb : ∀ w, Pipeline.arrRef spec1 w ≠ b) :
    W9 m R0 R1 c (Proc.devRef .tc b) = W8 m R0 c (Proc.devRef .tc b) := by
  unfold W9; exact Pipeline.withArrays_of_ne spec1 c _ _ b hb
abbrev V9 : Contents F := fun c b => W9 m R0 R1 c b
theorem hF1 (c : Dev nD) (w : Fin cfg1.W) : (R1.dat c).arrAt w cfg1.N = V9 m R0 R1 c (Pipeline.arrRef spec1 w) :=
  (W9_arr m R0 R1 c w).symm
theorem hrest1 (c : Dev nD) : ∀ b, b ∉ Finset.univ.image (Pipeline.arrRef spec1) → V9 m R0 R1 c b = V8 m R0 c b :=
  fun b hb => W9_of_ne m R0 R1 c b fun w e => hb (Finset.mem_image.mpr ⟨w, Finset.mem_univ _, e⟩)

/-! ## The proof data family and the thread state -/

abbrev adm : (p : Fin 2) → (pcfgs (F := F) p).Adm := fun p => (cfgs p).toPCfg_adm
/-- Every pipeline's proof data, each at its region's entry contents: a literal match on the pipeline. -/
def pdats : (p : Fin 2) → (c : Dev nD) → Dat τ (Elt F) Unit ℕ (UR sig nD τ) ℕ (Pipeline.pin (pcfgs (F := F)) adm p) c
  | ⟨0, _⟩ => fun c => R0.dat c
  | ⟨1, _⟩ => fun c => R1.dat c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh' : (hostOps0 : List (HloOp τ sig (Elt F))).Forall fun op => op.fresh = ∅ := by
  simp only [List.Forall]; repeat' constructor
theorem hostOps0_1_fresh' : (hostOps0_1 : List (HloOp τ sig (Elt F))).Forall fun op => op.fresh = ∅ := by
  simp only [List.Forall]; repeat' constructor
theorem hostOps0_2_fresh' : (hostOps0_2 : List (HloOp τ sig (Elt F))).Forall fun op => op.fresh = ∅ := by
  simp only [List.Forall]; repeat' constructor
theorem hostOps0_3_fresh' : (hostOps0_3 : List (HloOp τ sig (Elt F))).Forall fun op => op.fresh = ∅ := by
  simp only [List.Forall]; repeat' constructor
theorem hostOps0_4_fresh' : (hostOps0_4 : List (HloOp τ sig (Elt F))).Forall fun op => op.fresh = ∅ := by
  simp only [List.Forall]; repeat' constructor
theorem hostOps0_5_fresh' : (hostOps0_5 : List (HloOp τ sig (Elt F))).Forall fun op => op.fresh = ∅ := by
  simp only [List.Forall]; repeat' constructor
theorem hostOps1_fresh' : (hostOps1 : List (HloOp τ sig (Elt F))).Forall fun op => op.fresh = ∅ := by
  simp only [List.Forall]; repeat' constructor

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the owes: every unscoped buffer at the last valuation, the generator at some state. -/
abbrev Tₙ (c : Dev nD) : sProp 𝕄 := iprop(StableHlo.held (c : Thread nD τ) (Pipeline.ucRefs τ sig) (W9 m R0 R1 c) ∗ ∃ r, prngReg c r)

/-! ## The regions as segments -/

set_option backward.isDefEq.respectTransparency.types false in
/-- Region 0 over the thread state: entered from every unscoped buffer at W6, left at W7. -/
def reg0 : Pipeline.RegionSeg (pcfgs (F := F)) adm (pdats m R0 R1) () defs₀ 𝒱₀ L lv 0 where
  win := launch0.win.to₀
  block_pos := launch0.block_pos
  stage_whole := launch0.stage_whole
  K := PEmpty
  osem k := k.elim
  ho := Pipeline.OwnSemFacts.none _
  hbody c := (R0.hbody c).loose
  hwaits := Pipeline.hwaits_of_owed_zero _ _ _ _ L lv 0 fun c t => R0.howed c t
  pre c := iprop(StableHlo.held (c : Thread nD τ) (Pipeline.ucRefs τ sig) (W6 m c) ∗ R c)
  post c := iprop(StableHlo.held (c : Thread nD τ) (Pipeline.ucRefs τ sig) (W7 m R0 c) ∗ R c)
  X c := iprop(∃ r, prngReg c r)
  Y c := iprop(∃ r, prngReg c r)
  Z c := Pipeline.unscopedRest (Ix := Unit) (Name := ℕ) (U := UR sig nD τ) (Lvl := ℕ) spec0 c (V6 m c)
  hentry c := by
    rw [Pipeline.ownSems0_none]
    have hsplit := Pipeline.arrays_of_unscopedBufs (p := 0) (pcfgs (F := F)) adm (pdats m R0 R1) launch0.win launch0.arr_whole c
      ((pdats m R0 R1 0 c).share_full fun w => R0.hq c w) (V6 m c) fun w => R0.hA c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr
      · ipureintro; exact fun x _ => Or.inl (by rw [show (pdats m R0 R1 0 c).recorded 0 = Set.univ from R0.hrec c 0]; exact Set.mem_univ x)
      rw [show (pdats m R0 R1 0 c).owed 0 = 0 from R0.howed c 0]
      iexact HO
    isplitl [Hp]; · iexact Hp
    iexact Hrest
  hin c := by
    have h := R0.hin c
    unfold Pipeline.ΦA at h
    have h1 : ∀ P : sProp 𝕄, iprop((∃ r, prngReg c r) ∗ P ∗ Pipeline.scopedRest spec0 c) ⊢ (iprop(Pipeline.scopedRest spec0 c ∗ ∃ r, prngReg c r) : sProp 𝕄) := fun P => by
      iintro ⟨Hp, -, Hr⟩
      isplitl [Hr]; · iexact Hr
      iexact Hp
    exact (h1 _).trans h
  hout c := by
    rw [Pipeline.ownSems0_none]
    have h := R0.hout c
    unfold Pipeline.ΦA at h
    have h2 : iprop(Pipeline.scopedRest spec0 c ∗ ∃ r, prngReg c r) ⊢ (iprop((∃ r, prngReg c r) ∗ emp ∗ Pipeline.scopedRest spec0 c) : sProp 𝕄) := by
      iintro ⟨Hr, Hp⟩
      isplitl [Hp]; · iexact Hp
      isplitr; · iempintro
      iexact Hr
    exact h.trans h2
  hexit c := by
    have hjoin := Pipeline.unscopedBufs_of_arrays (p := 0) (pcfgs (F := F)) adm (Ix := Unit) (Name := ℕ) (U := UR sig nD τ) (Lvl := ℕ)
      launch0.win launch0.arr_whole c (pdats m R0 R1) ((pdats m R0 R1 0 c).share_full fun w => R0.hq c w)
      (V6 m c) (V7 m R0 c) ((pdats m R0 R1 0 c).arrAt · cfg0.N) (hF0 m R0 c) (hrest0 m R0 c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W
    rw [show (pdats m R0 R1 0 c).owed (Fin.last _) = 0 from R0.howed c _]
    iexact HO

set_option backward.isDefEq.respectTransparency.types false in
/-- Region 1 over the thread state: entered from every unscoped buffer at W8, left at W9, the program's end. -/
def reg1 : Pipeline.RegionSeg (pcfgs (F := F)) adm (pdats m R0 R1) () defs₀ 𝒱₀ L lv 1 where
  win := launch1.win.to₀
  block_pos := launch1.block_pos
  stage_whole := launch1.stage_whole
  K := PEmpty
  osem k := k.elim
  ho := Pipeline.OwnSemFacts.none _
  hbody c := (R1.hbody c).loose
  hwaits := Pipeline.hwaits_of_owed_zero _ _ _ _ L lv 1 fun c t => R1.howed c t
  pre c := iprop(StableHlo.held (c : Thread nD τ) (Pipeline.ucRefs τ sig) (W8 m R0 c) ∗ R c)
  post c := iprop(Tₙ m R0 R1 c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V8 m R0 c)
  hentry c := by
    rw [Pipeline.ownSems0_none]
    have hsplit := Pipeline.arrays_of_unscopedBufs (p := 1) (pcfgs (F := F)) adm (pdats m R0 R1) launch1.win launch1.arr_whole c
      ((pdats m R0 R1 1 c).share_full fun w => R1.hq c w) (V8 m R0 c) fun w => R1.hA c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr
      · ipureintro; exact fun x _ => Or.inl (by rw [show (pdats m R0 R1 1 c).recorded 0 = Set.univ from R1.hrec c 0]; exact Set.mem_univ x)
      rw [show (pdats m R0 R1 1 c).owed 0 = 0 from R1.howed c 0]
      iexact HO
    isplitl [Hp]; · iexact Hp
    iexact Hrest
  hin c := by
    have h := R1.hin c
    unfold Pipeline.ΦA at h
    have h1 : ∀ P : sProp 𝕄, iprop((∃ r, prngReg c r) ∗ P ∗ Pipeline.scopedRest spec1 c) ⊢ (iprop(Pipeline.scopedRest spec1 c ∗ ∃ r, prngReg c r) : sProp 𝕄) := fun P => by
      iintro ⟨Hp, -, Hr⟩
      isplitl [Hr]; · iexact Hr
      iexact Hp
    exact (h1 _).trans h
  hout c := by
    rw [Pipeline.ownSems0_none]
    have h := R1.hout c
    unfold Pipeline.ΦA at h
    have h2 : iprop(Pipeline.scopedRest spec1 c ∗ ∃ r, prngReg c r) ⊢ (iprop((∃ r, prngReg c r) ∗ emp ∗ Pipeline.scopedRest spec1 c) : sProp 𝕄) := by
      iintro ⟨Hr, Hp⟩
      isplitl [Hp]; · iexact Hp
      isplitr; · iempintro
      iexact Hr
    exact h.trans h2
  hexit c := by
    have hjoin := Pipeline.unscopedBufs_of_arrays (p := 1) (pcfgs (F := F)) adm (Ix := Unit) (Name := ℕ) (U := UR sig nD τ) (Lvl := ℕ)
      launch1.win launch1.arr_whole c (pdats m R0 R1) ((pdats m R0 R1 1 c).share_full fun w => R1.hq c w)
      (V8 m R0 c) (V9 m R0 R1 c) ((pdats m R0 R1 1 c).arrAt · cfg1.N) (hF1 m R0 R1 c) (hrest1 m R0 R1 c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W
    rw [show (pdats m R0 R1 1 c).owed (Fin.last _) = 0 from R1.howed c _]
    iexact HO

/-! ## @main as segments, and the launch -/

/-- @main's nine segments in order. -/
abbrev segs : List (Pipeline.Seg (pcfgs (F := F)) adm (pdats m R0 R1) () defs₀ 𝒱₀ L lv) :=
  [ .host (hseg hostOps0 hostOps0_sub hostOps0_fresh' (W0 m)),
    .host (hseg hostOps0_1 hostOps0_1_sub hostOps0_1_fresh' (W1 m)),
    .host (hseg hostOps0_2 hostOps0_2_sub hostOps0_2_fresh' (W2 m)),
    .host (hseg hostOps0_3 hostOps0_3_sub hostOps0_3_fresh' (W3 m)),
    .host (hseg hostOps0_4 hostOps0_4_sub hostOps0_4_fresh' (W4 m)),
    .host (hseg hostOps0_5 hostOps0_5_sub hostOps0_5_fresh' (W5 m)),
    .region (reg0 m R0 R1),
    .host (hseg hostOps1 hostOps1_sub hostOps1_fresh' (W7 m R0)),
    .region (reg1 m R0 R1) ]

/-- @main is the run of the segments. -/
theorem main_run (c : Dev nD) : main (F := F) c = Pipeline.Seg.run (segs m R0 R1) := by
  rw [main_chain c, Pipeline.Seg.run_eq_chain]
  rfl

set_option backward.isDefEq.respectTransparency.types false in
/-- THE RUN. From any memory with zero counters every weakly fair execution of @main on the TensorCores terminates,
    nothing faulting, and in every final state each unscoped buffer of core c holds the last valuation's contents. -/
theorem run : θ_run defs (onTc (τ := τ) (main (F := F))) ⟨m, fun _ => 0, ρ⟩ (fun r => ∀ c : Dev nD,
      ∀ b ∈ Pipeline.ucRefs τ sig, r.2.mem (((c : Thread nD τ)).1, b) = W9 m R0 R1 c b) :=
  Pipeline.θ_run_regions_kit (pcfgs (F := F)) adm (pdats m R0 R1) () cellOf_inj emb₁ defs₀ 𝒱₀ L lv m ρ main (segs m R0 R1)
    (fun c Q => by rw [main_run m R0 R1 c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m R0 R1)
    (hch := ⟨fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m R0 R1 c b)
    (hfin := fun c s' => by
      iintro ⟨⟨Hh, -⟩, HSI⟩
      unfold StableHlo.held
      imodintro
      iapply (pointsTo_read_all (Pipeline.ucRefs τ sig) (fun b => (((c : Thread nD τ)).1, b)) (W9 m R0 R1 c) s')
      isplitl [Hh] <;> iassumption)
    (hQ := fun s h c => h c)

end Run

end Cert.Kernel.Hand

end
-- ==== Proof.KFold.lean ====
/-
  The last valuation read back. No host stretch writes an argument array and no region may change one (a region reads
  an argument through an input window, whose array the pipeline leaves as entered, or bypasses it), so the fold at an
  argument's buffer walks back to the launch memory: the frame. The same walk, stopped earlier, says where each
  intermediate array the value claim reads was last written.
-/
import proofs.«157503_j446676598875_2_alg».proof.Proof.KAssembly
import proofs.«157503_j446676598875_2_alg».proof.Proof.Gen.Kernel.Regions

set_option maxRecDepth 16384

noncomputable section

namespace Cert.Kernel.Hand

open Cert.Kernel
open Idealize.ShloMosaic Idealize.ShloMosaic.TcCoe
open Idealize.SL Idealize.SL.Sem
open Idealize.ShloMosaic.Pipeline (Dat)

variable {F : FTy → Type} [FloatOps F]
variable (m : (ℓ : Loc nD τ sig) → Buf (Elt F) ℓ) (ρ : Dev nD → PrngReg)

/-- A buffer none of the six stretches before the first pallas_call writes holds its launch contents there. -/
theorem W6_of (c : Dev nD) (r : Ref sig .tc) (h0 : r ∉ Gen.hostOps0_W) (h1 : r ∉ Gen.hostOps0_1_W) (h2 : r ∉ Gen.hostOps0_2_W)
    (h3 : r ∉ Gen.hostOps0_3_W) (h4 : r ∉ Gen.hostOps0_4_W) (h5 : r ∉ Gen.hostOps0_5_W) :
    W6 m c r = m ((c : Thread nD τ).loc r) :=
  (StableHlo.after_of_writes_sub Gen.hostOps0_5 _ Gen.hostOps0_5_writes h5).trans <|
  (StableHlo.after_of_writes_sub Gen.hostOps0_4 _ Gen.hostOps0_4_writes h4).trans <|
  (StableHlo.after_of_writes_sub Gen.hostOps0_3 _ Gen.hostOps0_3_writes h3).trans <|
  (StableHlo.after_of_writes_sub Gen.hostOps0_2 _ Gen.hostOps0_2_writes h2).trans <|
  (StableHlo.after_of_writes_sub Gen.hostOps0_1 _ Gen.hostOps0_1_writes h1).trans <|
  (StableHlo.after_of_writes_sub Gen.hostOps0 _ Gen.hostOps0_writes h0).trans rfl

variable (R0 : Region0 (V6 m)) (R1 : Region1 (V8 m R0))

/-- A buffer that is no array of the first pallas_call and that the stretch after it does not write holds, when the second
    pallas_call is entered, what it held when the first was. -/
theorem W8_of (c : Dev nD) (r : Ref sig .tc) (hne : ∀ w, Pipeline.arrRef spec0 w ≠ r) (h : r ∉ Gen.hostOps1_W) :
    W8 m R0 c r = W6 m c r :=
  (StableHlo.after_of_writes_sub Gen.hostOps1 _ Gen.hostOps1_writes h).trans (W7_of_ne m R0 c r hne)

theorem W9_main_arg0 (c : Dev nD) : W9 m R0 R1 c (Proc.devRef .tc main_arg0) = m ((c : Thread nD τ).loc main_arg0) :=
  (W9_of_ne m R0 R1 c main_arg0 (by decide)).trans <| (W8_of m R0 c main_arg0 (by decide) (by decide)).trans <|
    W6_of m c main_arg0 (by decide) (by decide) (by decide) (by decide) (by decide) (by decide)
theorem W9_main_arg1 (c : Dev nD) : W9 m R0 R1 c (Proc.devRef .tc main_arg1) = m ((c : Thread nD τ).loc main_arg1) :=
  (W9_of_ne m R0 R1 c main_arg1 (by decide)).trans <| (W8_of m R0 c main_arg1 (by decide) (by decide)).trans <|
    W6_of m c main_arg1 (by decide) (by decide) (by decide) (by decide) (by decide) (by decide)
theorem W9_main_arg2 (c : Dev nD) : W9 m R0 R1 c (Proc.devRef .tc main_arg2) = m ((c : Thread nD τ).loc main_arg2) :=
  (W9_of_ne m R0 R1 c main_arg2 (by decide)).trans <| (W8_of m R0 c main_arg2 (by decide) (by decide)).trans <|
    W6_of m c main_arg2 (by decide) (by decide) (by decide) (by decide) (by decide) (by decide)

/-- The two affine vectors are input windows 2 and 3 of the second pallas_call: its pipeline leaves them as entered. -/
theorem V8_main_arg3 (c : Dev nD) : V8 m R0 c main_arg3 = m ((c : Thread nD τ).loc main_arg3) :=
  (W8_of m R0 c main_arg3 (by decide) (by decide)).trans <|
    W6_of m c main_arg3 (by decide) (by decide) (by decide) (by decide) (by decide) (by decide)
theorem V8_main_arg4 (c : Dev nD) : V8 m R0 c main_arg4 = m ((c : Thread nD τ).loc main_arg4) :=
  (W8_of m R0 c main_arg4 (by decide) (by decide)).trans <|
    W6_of m c main_arg4 (by decide) (by decide) (by decide) (by decide) (by decide) (by decide)
theorem W9_main_arg3 (c : Dev nD) : W9 m R0 R1 c (Proc.devRef .tc main_arg3) = m ((c : Thread nD τ).loc main_arg3) :=
  (W9_arr m R0 R1 c 2).trans <| ((R1.dat c).arrAt_in 2 rfl _).trans <| (R1.hA c 2).trans (V8_main_arg3 m R0 c)
theorem W9_main_arg4 (c : Dev nD) : W9 m R0 R1 c (Proc.devRef .tc main_arg4) = m ((c : Thread nD τ).loc main_arg4) :=
  (W9_arr m R0 R1 c 3).trans <| ((R1.dat c).arrAt_in 3 rfl _).trans <| (R1.hA c 3).trans (V8_main_arg4 m R0 c)

include R0 R1 in
/-- THE FRAME, given the two regions' records: every weakly fair execution terminates, nothing faults, and the argument
    arrays end as launched. -/
theorem frame_of : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c _ (mem_uc main_arg0 (by decide))).trans (W9_main_arg0 m R0 R1 c),
     (h c _ (mem_uc main_arg1 (by decide))).trans (W9_main_arg1 m R0 R1 c),
     (h c _ (mem_uc main_arg2 (by decide))).trans (W9_main_arg2 m R0 R1 c),
     (h c _ (mem_uc main_arg3 (by decide))).trans (W9_main_arg3 m R0 R1 c),
     (h c _ (mem_uc main_arg4 (by decide))).trans (W9_main_arg4 m R0 R1 c)⟩) (run m ρ R0 R1)

end Cert.Kernel.Hand

end
-- ==== Proof.KRegion0.lean ====
import proofs.«157503_j446676598875_2_alg».proof.Proof.Gen.Kernel.Launch
import proofs.«157503_j446676598875_2_alg».proof.Proof.Gen.Kernel.Skeleton
import proofs.«157503_j446676598875_2_alg».proof.Proof.Gen.Kernel.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Where in a row of eight a grid point lies

The grid is 4 rows of 8 points, walked row by row. The kernel zeroes its accumulator at the first point of a
row and copies it to the output block at the last. Both tests are on the second grid coordinate; over the 32
points they are `t % 8 = 0` and `t % 8 = 7`. -/

/-- The kernel's test "second coordinate is 0", as it computes it. -/
abbrev rowStart (i : grid0.Coords) : Prop :=
  (Scalar.cmpi .ne (Scalar.extui (Scalar.cmpi .eq (BitVec.ofNat 32 (i 1).val) 0#32)) 0#32) = 1#1
/-- The kernel's test "second coordinate is 7", as it computes it. -/
abbrev rowEnd (i : grid0.Coords) : Prop := k0_cond2 i = 1#1

theorem rowStart_iff : ∀ t : Fin cfg0.N, rowStart (grid0.coords t) ↔ t.val % 8 = 0 :=
  (by decide +kernel : ∀ t : Fin grid0.N, rowStart (grid0.coords t) ↔ t.val % 8 = 0)
theorem rowEnd_iff : ∀ t : Fin cfg0.N, rowEnd (grid0.coords t) ↔ t.val % 8 = 7 :=
  (by decide +kernel : ∀ t : Fin grid0.N, rowEnd (grid0.coords t) ↔ t.val % 8 = 7)

/-- The input window is stored into nowhere and read everywhere: never idle. -/
theorem in_live : ∀ t : Fin cfg0.N, cfg0.idle 0 (grid0.coords t) = false := by decide +kernel
/-- Off a row's last point the output block is not stored into, -/
theorem out_idle : ∀ t : Fin cfg0.N, ¬rowEnd (grid0.coords t) → cfg0.idle 1 (grid0.coords t) = true := by decide +kernel
/-- and not written back; -/
theorem out_noFlush : ∀ t : Fin cfg0.N, ¬rowEnd (grid0.coords t) → (cfg0.win 1).flush t = false := by decide +kernel
/-- at a row's last point it is stored into. -/
theorem out_live : ∀ t : Fin cfg0.N, rowEnd (grid0.coords t) → cfg0.idle 1 (grid0.coords t) = false := by decide +kernel

/-! ## The body on any whole memrefs, case by case -/

/-- The accumulator, a whole scoped buffer of the kernel's own. -/
abbrev accM : Memref sig .tc .vmem S1x1x1x1 .f32 := Memref.whole cc0_scratch0

/-- The one rectangle every access of the [1,1,1,1] buffers goes through: all of it. -/
abbrev rAcc : Rect S1x1x1x1 := Rect.unit (s := S1x1x1x1) ![0, 0, 0, 0] S1x1x1x1.size inb_S1x1x1x1_S1x1x1x1_0_0_0_0
/-- The one rectangle the input block is loaded through: all of it. -/
abbrev rIn : Rect S1x256x64x64 := Rect.unit (s := S1x256x64x64) ![0, 0, 0, 0] S1x256x64x64.size inb_S1x256x64x64_S1x256x64x64_0_0_0_0

theorem zeros4 : (![0, 0, 0, 0] : Fin 4 → Nat) = fun _ => 0 := by
  funext a; fin_cases a <;> rfl

/-- A load of all of a [1,1,1,1] buffer reads its contents; -/
theorem load_acc {κ : Kind} {sp : Space} (v : View sig κ sp S1x1x1x1 .f32) (f : v.ty.Contents (Elt F)) :
    v.readAt (Elt F) rAcc.toLoadRect f = v.read (Elt F) f :=
  View.ld_unit_zero (S := S1x1x1x1) zeros4 inb_S1x1x1x1_S1x1x1x1_0_0_0_0 (v.read (Elt F) f)
/-- so does a load of all of the input block. -/
theorem load_in {κ : Kind} {sp : Space} (v : View sig κ sp S1x256x64x64 .f32) (f : v.ty.Contents (Elt F)) :
    v.readAt (Elt F) rIn.toLoadRect f = v.read (Elt F) f :=
  View.ld_unit_zero (S := S1x256x64x64) zeros4 inb_S1x256x64x64_S1x256x64x64_0_0_0_0 (v.read (Elt F) f)
/-- All of a [1,1,1,1] buffer is under the one rectangle. -/
theorem cover_acc (w : Vec F S1x1x1x1 .f32) (L : List (View.Piece (Elt F) S1x1x1x1 .f32)) (y : S1x1x1x1.Idx) :
    ∃ p ∈ ((⟨rAcc, w⟩ : View.Piece (Elt F) S1x1x1x1 .f32) :: L), y ∈ p.1.set :=
  ⟨⟨rAcc, w⟩, List.mem_cons_self, View.mem_set_unit_zero (S := S1x1x1x1) zeros4 inb_S1x1x1x1_S1x1x1x1_0_0_0_0 y⟩
/-- One store of all of a [1,1,1,1] buffer leaves its payload there, whatever was there before. -/
theorem store_acc {κ : Kind} {sp : Space} (v : View sig κ sp S1x1x1x1 .f32) (f : v.ty.Contents (Elt F)) (w : Vec F S1x1x1x1 .f32)
    (L : List (View.Piece (Elt F) S1x1x1x1 .f32)) :
    v.read (Elt F) (v.writes (Elt F) f (⟨rAcc, w⟩ :: L)) = w :=
  (View.read_writes_eq_canon v f _ (cover_acc w L)).trans
    (View.canon_cons_unit_zero (S := S1x1x1x1) zeros4 inb_S1x1x1x1_S1x1x1x1_0_0_0_0 w L)

/-- A load of all of a [1,1,1,1] buffer after one store of all of it reads the stored payload. -/
theorem readback_acc {κ : Kind} {sp : Space} (v : View sig κ sp S1x1x1x1 .f32) (w : Vec F S1x1x1x1 .f32) :
    v.readCov [(⟨rAcc, w⟩ : View.Piece (Elt F) S1x1x1x1 .f32)] rAcc.toLoadRect = w :=
  View.readCov_unit_zero (S := S1x1x1x1) v zeros4 inb_S1x1x1x1_S1x1x1x1_0_0_0_0 w

set_option maxHeartbeats 1000000 in
/-- Inside a row (neither its first nor its last point): the body adds the block's contribution to the
    accumulator and touches nothing else. -/
theorem run_inside (c : Dev nD) (i : grid0.Coords) (arg2 : Memref sig .tc .vmem S1x256x64x64 .f32) (harg2 : arg2.IsWhole)
    (arg3 : Memref sig .tc .vmem S1x1x1x1 .f32) (harg3 : arg3.IsWhole) (arg4 : Memref sig .tc .vmem S1x1x1x1 .f32) (harg4 : arg4.IsWhole)
    (hc0 : ¬rowStart i) (hc1 : ¬rowEnd i) (x0 : Vec F S1x256x64x64 .f32) (xs : Vec F S1x1x1x1 .f32) (xo : Vec F S1x1x1x1 .f32)
    (E : Set ℕ) (K : PUnit → sProp 𝕄) :
    iprop(owns (c : Thread nD τ) arg2 fullShare x0 ∗ owns (c : Thread nD τ) arg3 fullShare xo ∗ owns (c : Thread nD τ) arg4 fullShare xs
        ∗ (iprop(owns (c : Thread nD τ) arg2 fullShare x0 ∗ owns (c : Thread nD τ) arg3 fullShare xo
            ∗ owns (c : Thread nD τ) arg4 fullShare (k0_pay2 x0 xs)) -∗ K ⟨⟩))
      ⊢ wp frame (wpE (defs₀ (F := F)) Variants.none c none) E (cc0__reduce_kernel i arg2 harg2 arg3 harg3 arg4 harg4) K := by
  simp only [cc0__reduce_kernel_eq_skeleton]; unfold cc0__reduce_kernel_skel
  unfold owns
  iintro ⟨⟨%f0, %hf0, H0⟩, ⟨%f1, %hf1, H1⟩, ⟨%fs, %hfs, HS⟩, Hk⟩
  subst hf0; subst hf1; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  iexists _; isplitr
  swap; · iexact HS
  ipureintro
  rw [store_acc, load_in, load_acc]

set_option maxHeartbeats 1000000 in
/-- At a row's first point: the body zeroes the accumulator, whatever it held, then adds the block's
    contribution; the output block is untouched. -/
theorem run_rowStart (c : Dev nD) (i : grid0.Coords) (arg2 : Memref sig .tc .vmem S1x256x64x64 .f32) (harg2 : arg2.IsWhole)
    (arg3 : Memref sig .tc .vmem S1x1x1x1 .f32) (harg3 : arg3.IsWhole) (arg4 : Memref sig .tc .vmem S1x1x1x1 .f32) (harg4 : arg4.IsWhole)
    (hc0 : rowStart i) (hc1 : ¬rowEnd i) (x0 : Vec F S1x256x64x64 .f32) (xo : Vec F S1x1x1x1 .f32)
    (E : Set ℕ) (K : PUnit → sProp 𝕄) :
    iprop(owns (c : Thread nD τ) arg2 fullShare x0 ∗ owns (c : Thread nD τ) arg3 fullShare xo ∗ (∃ d, owns (c : Thread nD τ) arg4 fullShare d)
        ∗ (iprop(owns (c : Thread nD τ) arg2 fullShare x0 ∗ owns (c : Thread nD τ) arg3 fullShare xo
            ∗ owns (c : Thread nD τ) arg4 fullShare (k0_pay2 x0 k0_pay1)) -∗ K ⟨⟩))
      ⊢ wp frame (wpE (defs₀ (F := F)) Variants.none c none) E (cc0__reduce_kernel i arg2 harg2 arg3 harg3 arg4 harg4) K := by
  simp only [cc0__reduce_kernel_eq_skeleton]; unfold cc0__reduce_kernel_skel
  unfold owns
  iintro ⟨⟨%f0, %hf0, H0⟩, ⟨%f1, %hf1, H1⟩, ⟨%ds, %fs, -, HS⟩, Hk⟩
  subst hf0; subst hf1
  sl_exec (disch := first | exact hc0 | exact hc1)
  sl_step
  iapply Hk
  isplitl [H0]
  · iexists f0; isplitr; · ipureintro; rfl
    iexact H0
  isplitl [H1]
  · iexists f1; isplitr; · ipureintro; rfl
    iexact H1
  iexists _; isplitr
  swap; · iexact HS
  ipureintro
  sl_unfold_run_names
  rw [store_acc, load_in, readback_acc]

set_option maxHeartbeats 1000000 in
/-- At a row's last point: the body adds the block's contribution to the accumulator and copies the sum to
    the output block, whatever that held. -/
theorem run_rowEnd (c : Dev nD) (i : grid0.Coords) (arg2 : Memref sig .tc .vmem S1x256x64x64 .f32) (harg2 : arg2.IsWhole)
    (arg3 : Memref sig .tc .vmem S1x1x1x1 .f32) (harg3 : arg3.IsWhole) (arg4 : Memref sig .tc .vmem S1x1x1x1 .f32) (harg4 : arg4.IsWhole)
    (hc0 : ¬rowStart i) (hc1 : rowEnd i) (x0 : Vec F S1x256x64x64 .f32) (xs : Vec F S1x1x1x1 .f32)
    (E : Set ℕ) (K : PUnit → sProp 𝕄) :
    iprop(owns (c : Thread nD τ) arg2 fullShare x0 ∗ (∃ d, owns (c : Thread nD τ) arg3 fullShare d) ∗ owns (c : Thread nD τ) arg4 fullShare xs
        ∗ (iprop(owns (c : Thread nD τ) arg2 fullShare x0 ∗ owns (c : Thread nD τ) arg3 fullShare (k0_pay2 x0 xs)
            ∗ owns (c : Thread nD τ) arg4 fullShare (k0_pay2 x0 xs)) -∗ K ⟨⟩))
      ⊢ wp frame (wpE (defs₀ (F := F)) Variants.none c none) E (cc0__reduce_kernel i arg2 harg2 arg3 harg3 arg4 harg4) K := by
  simp only [cc0__reduce_kernel_eq_skeleton]; unfold cc0__reduce_kernel_skel
  unfold owns
  iintro ⟨⟨%f0, %hf0, H0⟩, ⟨%d1, %f1, -, H1⟩, ⟨%fs, %hfs, HS⟩, Hk⟩
  subst hf0; subst hfs
  sl_exec (disch := first | exact hc0 | exact hc1)
  sl_step
  iapply Hk
  isplitl [H0]
  · iexists f0; isplitr; · ipureintro; rfl
    iexact H0
  isplitl [H1]
  · iexists _; isplitr
    swap; · iexact H1
    ipureintro
    sl_unfold_run_names
    rw [store_acc, readback_acc, load_in, load_acc]
  iexists _; isplitr
  swap; · iexact HS
  ipureintro
  sl_unfold_run_names
  rw [store_acc, load_in, load_acc]

/-! ## What the region invariant holds besides the accumulator -/

/-- The core's other scoped buffers that are no staging buffer of this region (the second kernel's staging
    buffers), each at some contents: this region never touches them. -/
def othersAt (c : Dev nD) : sProp 𝕄 :=
  iprop((∃ f : Buf (Elt F) ((c : Thread nD τ).loc cc1_stg0_0), ((c : Thread nD τ).loc cc1_stg0_0) ↦{fullShare} f)
    ∗ (∃ f : Buf (Elt F) ((c : Thread nD τ).loc cc1_stg0_1), ((c : Thread nD τ).loc cc1_stg0_1) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg1_1), ((c : Thread nD τ).loc cc1_stg1_1) ↦{fullShare} f)
    ∗ (∃ f : Buf (Elt F) ((c : Thread nD τ).loc cc1_stg2_0), ((c : Thread nD τ).loc cc1_stg2_0) ↦{fullShare} f)
    ∗ (∃ f : Buf (Elt F) ((c : Thread nD τ).loc cc1_stg3_0), ((c : Thread nD τ).loc cc1_stg3_0) ↦{fullShare} f)
    ∗ (∃ f : Buf (Elt F) ((c : Thread nD τ).loc cc1_stg4_0), ((c : Thread nD τ).loc cc1_stg4_0) ↦{fullShare} f)
    ∗ (∃ f : Buf (Elt F) ((c : Thread nD τ).loc cc1_stg4_1), ((c : Thread nD τ).loc cc1_stg4_1) ↦{fullShare} f))

/-- The region's entry invariant, the accumulator split off: the accumulator at some contents, the other scoped
    buffers at some contents, the generator register at some state. -/
theorem PhiA0_eq (c : Dev nD) :
    (Pipeline.ΦA spec0 c : sProp 𝕄)
      = iprop(iprop((∃ d, owns (c : Thread nD τ) accM fullShare d) ∗ othersAt (F := F) c) ∗ (∃ r, prngReg c r)) := by
  unfold Pipeline.ΦA othersAt; rw [scopedRest0_eq]; simp only [accM, owns_whole]; try rfl

section Region
-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window's current staging buffer holds its block at every point (it is fetched at every point, uncut,
    never idle), for any proof data whose array is `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-! ## The accumulation -/

/-- The scratch accumulator's contents after the body at position `n`: the contribution of block `n` added to zero
    at the first point of a row of 8, to what the point before left otherwise. -/
def accAt0 (c : Dev nD) : (n : ℕ) → n < cfg0.N → Vec F S1x1x1x1 .f32
  | 0, h => k0_pay2 (iblk0 V c 0 ⟨0, h⟩) k0_pay1
  | n + 1, h =>
    if (n + 1) % 8 = 0 then k0_pay2 (iblk0 V c 0 ⟨n + 1, h⟩) k0_pay1
    else k0_pay2 (iblk0 V c 0 ⟨n + 1, h⟩) (accAt0 c n (Nat.lt_of_succ_lt h))

/-- At a row's first point the sum restarts from zero. -/
theorem accAt0_first (c : Dev nD) (t : Fin cfg0.N) (h : t.val % 8 = 0) :
    accAt0 V c t.val t.isLt = k0_pay2 (iblk0 V c 0 t) k0_pay1 := by
  obtain ⟨n, hn⟩ := t
  cases n with
  | zero => rfl
  | succ n => exact if_pos h

/-- Elsewhere it continues from the point before. -/
theorem accAt0_next (c : Dev nD) (t : Fin cfg0.N) (h : ¬ t.val % 8 = 0) :
    accAt0 V c t.val t.isLt = k0_pay2 (iblk0 V c 0 t) (accAt0 V c (t.val - 1) (Nat.lt_of_le_of_lt (Nat.sub_le _ _) t.isLt)) := by
  obtain ⟨n, hn⟩ := t
  cases n with
  | zero => exact absurd (Nat.zero_mod _) h
  | succ n => exact if_neg h

/-! ## The invariant: the accumulator carried from point to point -/

/-- The region invariant before position `n`: before the first point the entry invariant (the accumulator at
    anything); afterwards the accumulator at the sum the point before left, the other scoped buffers at some
    contents and the generator register at some state. -/
def carried (c : Dev nD) : (n : ℕ) → n ≤ cfg0.N → sProp 𝕄
  | 0, _ => Pipeline.ΦA spec0 c
  | n + 1, hn => iprop(iprop(owns (c : Thread nD τ) accM fullShare (accAt0 V c n hn) ∗ othersAt (F := F) c) ∗ (∃ r, prngReg c r))

theorem carried_zero (c : Dev nD) (n : ℕ) (h : n ≤ cfg0.N) (hz : n = 0) : carried V c n h = Pipeline.ΦA spec0 c := by
  subst hz; rfl

theorem carried_succ (c : Dev nD) (n : ℕ) (hn : n < cfg0.N) :
    carried V c (n + 1) hn = iprop(iprop(owns (c : Thread nD τ) accM fullShare (accAt0 V c n hn) ∗ othersAt (F := F) c) ∗ (∃ r, prngReg c r)) := rfl

theorem carried_pos (c : Dev nD) (n : ℕ) (h : n ≤ cfg0.N) (hz : n ≠ 0) :
    carried V c n h = iprop(iprop(owns (c : Thread nD τ) accM fullShare (accAt0 V c (n - 1) (by omega)) ∗ othersAt (F := F) c) ∗ (∃ r, prngReg c r)) := by
  cases n with
  | zero => exact absurd rfl hz
  | succ n => rfl

/-! ## The pipeline's proof data -/

/-- The proof data of this region on core `c`: the arrays as the region finds them (`V`); after the body at point
    `t` the input's buffer at its block and the output's at the accumulated sum (the value that matters is at a
    row's last point, where the block is written back; elsewhere the output window is idle); the invariant carries
    the accumulator; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => accAt0 V c t.val t.isLt
  Φ t := carried V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem carried_castSucc (c : Dev nD) (t : Fin cfg0.N) :
    (dat0 V c).Φ t.castSucc = carried V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = accAt0 V c t.val t.isLt := by dsimp only [dat0]

theorem before0_0 (c : Dev nD) (t : Fin cfg0.N) (d) : (dat0 V c).before 0 t d = iblk0 V c 0 t :=
  before0_0_of V (dat0 V c) (A_eq0 V c 0) (after0_0 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t)

set_option maxHeartbeats 4800000 in
/-- The body at any point. The input's buffer holds its block; the point's place in its row of eight selects the
    case. At a row's first point the invariant hands over the accumulator at anything (at the very first point) or at
    the sum the row before ended with, and takes it back at the block's contribution alone; inside a row and at its
    last point it hands the accumulator over at the sum so far and takes it back with the block's contribution
    added. The output's buffer is handed back as found except at a row's last point, where it receives the sum.
    The core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).owesAt () t.succ = (dat0 V c).owesAt () t.castSucc from rfl]
  rw [show (dat0 V c).Φ t.succ = carried V c (t.val + 1) t.isLt from rfl, carried_succ]
  have hN : t.val < 32 := lt_of_lt_of_eq t.isLt (show cfg0.N = 32 from N_0)
  rw [show (dat0 V c).leavesExact 0 t = owns (c : Thread nD τ) (st0_0 t) fullShare ((dat0 V c).after 0 t) from by
    unfold Dat.leavesExact; rw [in_live t], after0_0]
  by_cases h0 : t.val % 8 = 0
  · have h1 : ¬t.val % 8 = 7 := by omega
    have hs : rowStart (grid0.coords t) := (rowStart_iff t).mpr h0
    have he : ¬rowEnd (grid0.coords t) := fun h => h1 ((rowEnd_iff t).mp h)
    rw [Dat.leavesExact_idle (dat0 V c) 1 t (out_idle t he) (out_noFlush t he)]
    rw [accAt0_first V c t h0]
    by_cases hz : t.val = 0
    · rw [carried_castSucc V c t, carried_zero V c _ _ hz, PhiA0_eq]
      iintro ⟨⟨⟨HS, Hrest⟩, Hg⟩, Ho, ⟨%d0, H0⟩, ⟨%d1, H1⟩⟩
      iapply (run_rowStart c (grid0.coords t) _ _ _ _ _ _ hs he (iblk0 V c 0 t) _ Set.univ _)
      isplitl [H0]; · iexact H0
      isplitl [H1]; · iexact H1
      isplitl [HS]; · iexact HS
      iintro ⟨H0, H1, HS⟩
      isplitl [HS Hrest Hg]
      · isplitl [HS Hrest]
        · isplitl [HS]; · iexact HS
          iexact Hrest
        iexact Hg
      isplitl [Ho]; · iexact Ho
      isplitl [H0]; · iexact H0
      iexists _; iexact H1
    · rw [carried_castSucc V c t, carried_pos V c _ _ hz]
      iintro ⟨⟨⟨HS, Hrest⟩, Hg⟩, Ho, ⟨%d0, H0⟩, ⟨%d1, H1⟩⟩
      iapply (run_rowStart c (grid0.coords t) _ _ _ _ _ _ hs he (iblk0 V c 0 t) _ Set.univ _)
      isplitl [H0]; · iexact H0
      isplitl [H1]; · iexact H1
      isplitl [HS]; · iexists _; iexact HS
      iintro ⟨H0, H1, HS⟩
      isplitl [HS Hrest Hg]
      · isplitl [HS Hrest]
        · isplitl [HS]; · iexact HS
          iexact Hrest
        iexact Hg
      isplitl [Ho]; · iexact Ho
      isplitl [H0]; · iexact H0
      iexists _; iexact H1
  · have hz : t.val ≠ 0 := fun h => h0 (by rw [h])
    have hs : ¬rowStart (grid0.coords t) := fun h => h0 ((rowStart_iff t).mp h)
    rw [accAt0_next V c t h0]
    rw [carried_castSucc V c t, carried_pos V c _ _ hz]
    by_cases h1 : t.val % 8 = 7
    · have he : rowEnd (grid0.coords t) := (rowEnd_iff t).mpr h1
      rw [show (dat0 V c).leavesExact 1 t = owns (c : Thread nD τ) (st0_1 t) fullShare ((dat0 V c).after 1 t) from by
        unfold Dat.leavesExact; rw [out_live t he], after0_1, accAt0_next V c t h0]
      iintro ⟨⟨⟨HS, Hrest⟩, Hg⟩, Ho, ⟨%d0, H0⟩, ⟨%d1, H1⟩⟩
      iapply (run_rowEnd c (grid0.coords t) _ _ _ _ _ _ hs he (iblk0 V c 0 t) _ Set.univ _)
      isplitl [H0]; · iexact H0
      isplitl [H1]; · iexists _; iexact H1
      isplitl [HS]; · iexact HS
      iintro ⟨H0, H1, HS⟩
      isplitl [HS Hrest Hg]
      · isplitl [HS Hrest]
        · isplitl [HS]; · iexact HS
          iexact Hrest
        iexact Hg
      isplitl [Ho]; · iexact Ho
      isplitl [H0]; · iexact H0
      iexact H1
    · have he : ¬rowEnd (grid0.coords t) := fun h => h1 ((rowEnd_iff t).mp h)
      rw [Dat.leavesExact_idle (dat0 V c) 1 t (out_idle t he) (out_noFlush t he)]
      iintro ⟨⟨⟨HS, Hrest⟩, Hg⟩, Ho, ⟨%d0, H0⟩, ⟨%d1, H1⟩⟩
      iapply (run_inside c (grid0.coords t) _ _ _ _ _ _ hs he (iblk0 V c 0 t) _ _ Set.univ _)
      isplitl [H0]; · iexact H0
      isplitl [H1]; · iexact H1
      isplitl [HS]; · iexact HS
      iintro ⟨H0, H1, HS⟩
      isplitl [HS Hrest Hg]
      · isplitl [HS Hrest]
        · isplitl [HS]; · iexact HS
          iexact Hrest
        iexact Hg
      isplitl [Ho]; · iexact Ho
      isplitl [H0]; · iexact H0
      iexists _; iexact H1

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = carried V c 0 (Nat.zero_le _) from rfl, carried_zero V c 0 _ rfl]
  try exact Idealize.SL.BI.Entails.refl _

/-- After any point the invariant gives the entry invariant back: the accumulator's sum is forgotten. -/
theorem Phi_out0 (c : Dev nD) (t : Fin (cfg0.N + 1)) (ht : t.val ≠ 0) : (dat0 V c).Φ t ⊢ Pipeline.ΦA spec0 c := by
  rw [show (dat0 V c).Φ t = carried V c t.val (Nat.le_of_lt_succ t.isLt) from rfl, carried_pos V c _ _ ht, PhiA0_eq]
  iintro ⟨⟨HS, Hrest⟩, Hg⟩
  isplitl [HS Hrest]
  · isplitl [HS]; · iexists _; iexact HS
    iexact Hrest
  iexact Hg

/-- The same after the last point. -/
theorem hout0 (c : Dev nD) : (dat0 V c).Φ (Fin.last cfg0.N) ⊢ Pipeline.ΦA spec0 c :=
  Phi_out0 V c _ (by rw [Fin.val_last]; have : cfg0.N = 32 := N_0; omega)

end Region

end Cert.Kernel.Hand

end
-- ==== Proof.KRegion1.lean ====
/- Region 1 of the word-level program (the kernel region running cc1__apply_kernel on the grid [4, 8]), at a parameter V:
   the TensorCore's buffer contents when the region is entered. Per window its block at a point; what the body leaves in
   the output block (the payload of its one whole-block store, a pointwise expression of the four input blocks with one
   row sum); the body's triple; the pipeline's proof data and the body obligation at every grid point. -/
import proofs.«157503_j446676598875_2_alg».proof.Proof.Gen.Kernel.Launch
import proofs.«157503_j446676598875_2_alg».proof.Proof.Gen.Kernel.Skeleton
import proofs.«157503_j446676598875_2_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1
-- the TensorCore's buffer contents when the region is entered
variable (V : (c : Dev nD) → (b : Ref sig .tc) → Buf (Elt F) ((c : Thread nD τ).loc b))

/-! ## The windows' blocks -/

/-- Window w's block at point t, read off its array as the region finds it (V). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not: where the window is
    not fetched its block index has not moved, and the body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- The same of input window 1 (its block index moves with the first grid coordinate only). -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- The same of input window 2 (a constant block index: one fetch, at the first point). -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- The same of input window 3 (a constant block index: one fetch, at the first point). -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

/-- Each of the body's loads and its one store goes through the whole-buffer rectangle of the buffer's shape. -/
abbrev r1_0 : Rect S1x256x64x64 := Rect.unit (s := S1x256x64x64) ![0, 0, 0, 0] S1x256x64x64.size inb_S1x256x64x64_S1x256x64x64_0_0_0_0
abbrev r1_1 : Rect S1x1x1x1 := Rect.unit (s := S1x1x1x1) ![0, 0, 0, 0] S1x1x1x1.size inb_S1x1x1x1_S1x1x1x1_0_0_0_0
abbrev r1_2 : Rect S1x1x1x64 := Rect.unit (s := S1x1x1x64) ![0, 0, 0, 0] S1x1x1x64.size inb_S1x1x1x64_S1x1x1x64_0_0_0_0

/-- The four zero offsets are the zero function. -/
theorem zeros1 : (![0, 0, 0, 0] : Fin 4 → Nat) = fun _ => 0 := funext fun a => by fin_cases a <;> rfl

/-! ## What the body leaves in the output window's buffer -/

/-- Window 4's staging buffer after the body, from the input windows' blocks: its one store as a piece, the payload
    the skeleton's over what the four loads read. -/
def out1_4 (x0 : Vec F S1x256x64x64 .f32) (x1 : Vec F S1x1x1x1 .f32) (x2 x3 : Vec F S1x1x1x64 .f32) : Vec F S1x256x64x64 .f32 :=
  View.canon [⟨r1_0, k1_pay1 (View.ld x0 r1_0) (View.ld x1 r1_1) (View.ld x2 r1_2) (View.ld x3 r1_2)⟩]

/-- The one store covers the whole buffer and each load reads its whole buffer: what the body leaves is the payload
    at the four input blocks. -/
theorem out1_4_eq (x0 : Vec F S1x256x64x64 .f32) (x1 : Vec F S1x1x1x1 .f32) (x2 x3 : Vec F S1x1x1x64 .f32) :
    out1_4 x0 x1 x2 x3 = k1_pay1 x0 x1 x2 x3 := by
  unfold out1_4
  rw [View.canon_unit_zero (S := S1x256x64x64) zeros1 inb_S1x256x64x64_S1x256x64x64_0_0_0_0,
    View.ld_unit_zero (S := S1x256x64x64) zeros1 inb_S1x256x64x64_S1x256x64x64_0_0_0_0,
    View.ld_unit_zero (S := S1x1x1x1) zeros1 inb_S1x1x1x1_S1x1x1x1_0_0_0_0,
    View.ld_unit_zero (S := S1x1x1x64) zeros1 inb_S1x1x1x64_S1x1x1x64_0_0_0_0,
    View.ld_unit_zero (S := S1x1x1x64) zeros1 inb_S1x1x1x64_S1x1x1x64_0_0_0_0]

/-- Its store covers the buffer: every index lies in the whole-buffer rectangle. -/
theorem cover1_4 (p0 : Vec F S1x256x64x64 .f32) (y : S1x256x64x64.Idx) :
    ∃ pc ∈ ([⟨r1_0, p0⟩] : List (View.Piece (Elt F) S1x256x64x64 .f32)), y ∈ pc.1.set :=
  ⟨_, List.mem_singleton_self _, View.mem_set_unit_zero (S := S1x256x64x64) zeros1 inb_S1x256x64x64_S1x256x64x64_0_0_0_0 y⟩

/-! ## The body's triple -/

set_option maxHeartbeats 1000000 in
/-- The kernel body on whole staging memrefs, the four inputs' at read contents x0 … x3 and the output's at anything
    (the body loads it once, the value unused, before overwriting it whole), runs to the continuation holding the
    inputs' as they were and the output's at out1_4 of the inputs'. -/
theorem sound_kernel1 (c : Dev nD) (E : Set ℕ) (i : grid1.Coords)
    (arg2 : Memref sig .tc .vmem S1x256x64x64 .f32) (harg2 : arg2.IsWhole) (arg3 : Memref sig .tc .vmem S1x1x1x1 .f32) (harg3 : arg3.IsWhole)
    (arg4 : Memref sig .tc .vmem S1x1x1x64 .f32) (harg4 : arg4.IsWhole) (arg5 : Memref sig .tc .vmem S1x1x1x64 .f32) (harg5 : arg5.IsWhole)
    (arg6 : Memref sig .tc .vmem S1x256x64x64 .f32) (harg6 : arg6.IsWhole)
    (x0 : Vec F S1x256x64x64 .f32) (x1 : Vec F S1x1x1x1 .f32) (x2 x3 : Vec F S1x1x1x64 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ (∃ d, owns (c : Thread nD τ) arg6 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare (out1_4 x0 x1 x2 x3)) -∗ K ⟨⟩))
      ⊢ wp frame (wpE (defs₀ (F := F)) Variants.none c none) E (cc1__apply_kernel i arg2 harg2 arg3 harg3 arg4 harg4 arg5 harg5 arg6 harg6) K := by
  simp only [cc1__apply_kernel_eq_skeleton]; unfold cc1__apply_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover1_4 _)

/-! ## The pipeline's proof data -/

/-- The proof data of pipeline 1 on core c: the arrays as the region finds them (V); after the body at point t each
    input's buffer at its block and the output's at out1_4 of the input blocks; the invariant the scoped rest and the
    generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) :
    (dat1 V c).after 4 t = out1_4 (iblk1 V c 0 t) (iblk1 V c 1 t) (iblk1 V c 2 t) (iblk1 V c 3 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation, at a generic point -/

/-- What the body is called with at point t (the windows one by one), -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

/-- The body at any point: the inputs' memrefs hold their blocks, so the body's triple applies; the invariant and the
    core's obligations pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ (grid1.coords t) _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- info: 'Cert.Kernel.Hand.body_obligation1' depends on axioms: [propext, Classical.choice, Quot.sound] -/
#guard_msgs in #print axioms body_obligation1

end Region1
end Cert.Kernel.Hand
end
-- ==== Proof.KRun.lean ====
/-
  The kernel program's run with both regions' records in place: the first pallas_call's proof data carries the scratch
  accumulator from point to point, the second's is the plain one (inputs left in place, the output block the payload of
  its one store). What follows is the run at the named last valuation, and the frame.
-/
import proofs.«157503_j446676598875_2_alg».proof.Proof.KFold
import proofs.«157503_j446676598875_2_alg».proof.Proof.KRegion0
import proofs.«157503_j446676598875_2_alg».proof.Proof.KRegion1

set_option maxRecDepth 16384

noncomputable section

namespace Cert.Kernel.Hand

open Cert.Kernel Cert.Kernel.Gen
open Idealize.ShloMosaic Idealize.ShloMosaic.TcCoe
open Idealize.SL Idealize.SL.BI Idealize.SL.Sem
open Idealize.ShloMosaic.Pipeline (Dat BodyObligation)

variable {F : FTy → Type} [FloatOps F]

/-- The first pallas_call's record at entry contents V. -/
def region0 (V : Contents F) : Region0 V where
  dat := dat0 V
  hA := A_eq0 V
  hq := fun _ _ => rfl
  howed := fun _ _ => rfl
  hrec := fun _ _ => rfl
  hbody := body_obligation0 V
  hin := hin0 V
  hout := hout0 V

/-- The second pallas_call's record at entry contents V: its invariant is the class's at every point. -/
def region1 (V : Contents F) : Region1 V where
  dat := dat1 V
  hA := A_eq1 V
  hq := fun _ _ => rfl
  howed := fun _ _ => rfl
  hrec := fun _ _ => rfl
  hbody := body_obligation1 V
  hin := fun _ => BI.Entails.refl _
  hout := fun _ => BI.Entails.refl _

variable (m : (ℓ : Loc nD τ sig) → Buf (Elt F) ℓ) (ρ : Dev nD → PrngReg)

/-- What the second pallas_call is entered from. -/
abbrev Vmid : Contents F := V8 m (region0 (V6 m))
/-- The last valuation. -/
abbrev Wend (c : Dev nD) : Valuation τ sig (Elt F) := W9 m (region0 (V6 m)) (region1 (Vmid m)) c

/-- The run: every weakly fair execution terminates, nothing faults, every unscoped buffer ends at the last valuation. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = Wend m c b) :=
  run m ρ (region0 (V6 m)) (region1 (Vmid m))

/-- The frame. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (region0 (V6 m)) (region1 (Vmid m))

end Cert.Kernel.Hand

end
-- ==== Proof.KIAssembly.lean ====
/-
  The kernel program's run, assembled: @main is six stretches of host operations, the first pallas_call (the
  per-batch sum of squared deviations, accumulated in a scratch), one more stretch (the quotient by n − 1 and the
  square root), and the second pallas_call (the normalisation). Every weakly fair execution terminates, nothing
  faults, and every unscoped buffer of a core ends at a NAMED valuation: the launch memory folded through the host
  stretches, each region's arrays at what its pipeline's write-backs leave.

  The two regions enter as PARAMETERS: for each, proof data at the buffer contents the region finds (its arrays those
  contents, full shares, nothing owed), the body obligation at every grid point, and the two entailments that tie
  its invariant to the class's scoped rest at the first and after the last point. The module below is the
  several-region launch over those records; the sibling modules supply them for the two kernels.
-/
import proofs.«157503_j446676598875_2_alg».proof.Proof.Gen.KernelIdeal.Launch
import proofs.«157503_j446676598875_2_alg».proof.Proof.Gen.KernelIdeal.Skeleton
import proofs.«157503_j446676598875_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The buffer contents of the TensorCores, read at their references: what a region's proof data is stated at. -/
abbrev Contents (F : FTy → Type) [FloatOps F] : Type :=
  (c : Dev nD) → (b : Ref sig .tc) → Buf (Elt F) ((c : Thread nD τ).loc b)

/-- What a region's sibling module supplies for pipeline 0 at entry contents V. -/
structure Region0 (V : Contents F) where
  dat : (c : Dev nD) → Dat τ (Elt F) Unit ℕ (UR sig nD τ) ℕ cfg0 c
  hA : ∀ c w, (dat c).A w = V c (Pipeline.arrRef spec0 w)
  hq : ∀ c w, (dat c).q w = fullShare
  howed : ∀ c t, (dat c).owed t = 0
  hrec : ∀ c t, (dat c).recorded t = Set.univ
  hbody : ∀ c, BodyObligation (dat c) (defs₀ (F := F)) Variants.none () Set.univ
  hin : ∀ c, (Pipeline.ΦA spec0 c : sProp 𝕄) ⊢ (dat c).Φ 0
  hout : ∀ c, (dat c).Φ (Fin.last cfg0.N) ⊢ (Pipeline.ΦA spec0 c : sProp 𝕄)

/-- The same for pipeline 1. -/
structure Region1 (V : Contents F) where
  dat : (c : Dev nD) → Dat τ (Elt F) Unit ℕ (UR sig nD τ) ℕ cfg1 c
  hA : ∀ c w, (dat c).A w = V c (Pipeline.arrRef spec1 w)
  hq : ∀ c w, (dat c).q w = fullShare
  howed : ∀ c t, (dat c).owed t = 0
  hrec : ∀ c t, (dat c).recorded t = Set.univ
  hbody : ∀ c, BodyObligation (dat c) (defs₀ (F := F)) Variants.none () Set.univ
  hin : ∀ c, (Pipeline.ΦA spec1 c : sProp 𝕄) ⊢ (dat c).Φ 0
  hout : ∀ c, (dat c).Φ (Fin.last cfg1.N) ⊢ (Pipeline.ΦA spec1 c : sProp 𝕄)

section Run

variable (m : (ℓ : Loc nD τ sig) → Buf (Elt F) ℓ) (ρ : Dev nD → PrngReg)

/-! ## The buffer contents at each segment boundary: a fold through @main -/

/-- Core c's buffers at launch. -/
abbrev W0 : Dev nD → Valuation τ sig (Elt F) := fun c b => m (c, b)
abbrev W1 : Dev nD → Valuation τ sig (Elt F) := fun c => StableHlo.after hostOps0 (W0 m c)
abbrev W2 : Dev nD → Valuation τ sig (Elt F) := fun c => StableHlo.after hostOps0_1 (W1 m c)
abbrev W3 : Dev nD → Valuation τ sig (Elt F) := fun c => StableHlo.after hostOps0_2 (W2 m c)
abbrev W4 : Dev nD → Valuation τ sig (Elt F) := fun c => StableHlo.after hostOps0_3 (W3 m c)
abbrev W5 : Dev nD → Valuation τ sig (Elt F) := fun c => StableHlo.after hostOps0_4 (W4 m c)
/-- After the six stretches before the first pallas_call: what region 0 is entered from. -/
abbrev W6 : Dev nD → Valuation τ sig (Elt F) := fun c => StableHlo.after hostOps0_5 (W5 m c)
/-- The same read at the TensorCore's references. -/
abbrev V6 : Contents F := fun c b => W6 m c b

variable (R0 : Region0 (V6 m))

/-- At region 0's exit: its arrays at what the pipeline leaves, every other buffer as entered. -/
def W7 (c : Dev nD) : Valuation τ sig (Elt F) :=
  Pipeline.withArrays spec0 c (W6 m c) fun w => (R0.dat c).arrAt w cfg0.N
theorem W7_arr (c : Dev nD) (w : Fin cfg0.W) :
    W7 m R0 c (Proc.devRef .tc (Pipeline.arrRef spec0 w)) = (R0.dat c).arrAt w cfg0.N := by
  unfold W7; exact Pipeline.withArrays_arr spec0 launch0.win.arr_inj c _ _ w
theorem W7_of_ne (c : Dev nD) (b : Ref sig .tc) (hb : ∀ w, Pipeline.arrRef spec0 w ≠ b) :
    W7 m R0 c (Proc.devRef .tc b) = W6 m c (Proc.devRef .tc b) := by
  unfold W7; exact Pipeline.withArrays_of_ne spec0 c _ _ b hb
abbrev V7 : Contents F := fun c b => W7 m R0 c b
theorem hF0 (c : Dev nD) (w : Fin cfg0.W) : (R0.dat c).arrAt w cfg0.N = V7 m R0 c (Pipeline.arrRef spec0 w) :=
  (W7_arr m R0 c w).symm
theorem hrest0 (c : Dev nD) : ∀ b, b ∉ Finset.univ.image (Pipeline.arrRef spec0) → V7 m R0 c b = V6 m c b :=
  fun b hb => W7_of_ne m R0 c b fun w e => hb (Finset.mem_image.mpr ⟨w, Finset.mem_univ _, e⟩)

/-- After the stretch between the two pallas_calls: what region 1 is entered from. -/
abbrev W8 : Dev nD → Valuation τ sig (Elt F) := fun c => StableHlo.after hostOps1 (W7 m R0 c)
abbrev V8 : Contents F := fun c b => W8 m R0 c b

variable (R1 : Region1 (V8 m R0))

/-- At region 1's exit, which is the program's end. -/
def W9 (c : Dev nD) : Valuation τ sig (Elt F) :=
  Pipeline.withArrays spec1 c (W8 m R0 c) fun w => (R1.dat c).arrAt w cfg1.N
theorem W9_arr (c : Dev nD) (w : Fin cfg1.W) :
    W9 m R0 R1 c (Proc.devRef .tc (Pipeline.arrRef spec1 w)) = (R1.dat c).arrAt w cfg1.N := by
  unfold W9; exact Pipeline.withArrays_arr spec1 launch1.win.arr_inj c _ _ w
theorem W9_of_ne (c : Dev nD) (b : Ref sig .tc) (hb : ∀ w, Pipeline.arrRef spec1 w ≠ b) :
    W9 m R0 R1 c (Proc.devRef .tc b) = W8 m R0 c (Proc.devRef .tc b) := by
  unfold W9; exact Pipeline.withArrays_of_ne spec1 c _ _ b hb
abbrev V9 : Contents F := fun c b => W9 m R0 R1 c b
theorem hF1 (c : Dev nD) (w : Fin cfg1.W) : (R1.dat c).arrAt w cfg1.N = V9 m R0 R1 c (Pipeline.arrRef spec1 w) :=
  (W9_arr m R0 R1 c w).symm
theorem hrest1 (c : Dev nD) : ∀ b, b ∉ Finset.univ.image (Pipeline.arrRef spec1) → V9 m R0 R1 c b = V8 m R0 c b :=
  fun b hb => W9_of_ne m R0 R1 c b fun w e => hb (Finset.mem_image.mpr ⟨w, Finset.mem_univ _, e⟩)

/-! ## The proof data family and the thread state -/

abbrev adm : (p : Fin 2) → (pcfgs (F := F) p).Adm := fun p => (cfgs p).toPCfg_adm
/-- Every pipeline's proof data, each at its region's entry contents: a literal match on the pipeline. -/
def pdats : (p : Fin 2) → (c : Dev nD) → Dat τ (Elt F) Unit ℕ (UR sig nD τ) ℕ (Pipeline.pin (pcfgs (F := F)) adm p) c
  | ⟨0, _⟩ => fun c => R0.dat c
  | ⟨1, _⟩ => fun c => R1.dat c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh' : (hostOps0 : List (HloOp τ sig (Elt F))).Forall fun op => op.fresh = ∅ := by
  simp only [List.Forall]; repeat' constructor
theorem hostOps0_1_fresh' : (hostOps0_1 : List (HloOp τ sig (Elt F))).Forall fun op => op.fresh = ∅ := by
  simp only [List.Forall]; repeat' constructor
theorem hostOps0_2_fresh' : (hostOps0_2 : List (HloOp τ sig (Elt F))).Forall fun op => op.fresh = ∅ := by
  simp only [List.Forall]; repeat' constructor
theorem hostOps0_3_fresh' : (hostOps0_3 : List (HloOp τ sig (Elt F))).Forall fun op => op.fresh = ∅ := by
  simp only [List.Forall]; repeat' constructor
theorem hostOps0_4_fresh' : (hostOps0_4 : List (HloOp τ sig (Elt F))).Forall fun op => op.fresh = ∅ := by
  simp only [List.Forall]; repeat' constructor
theorem hostOps0_5_fresh' : (hostOps0_5 : List (HloOp τ sig (Elt F))).Forall fun op => op.fresh = ∅ := by
  simp only [List.Forall]; repeat' constructor
theorem hostOps1_fresh' : (hostOps1 : List (HloOp τ sig (Elt F))).Forall fun op => op.fresh = ∅ := by
  simp only [List.Forall]; repeat' constructor

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the owes: every unscoped buffer at the last valuation, the generator at some state. -/
abbrev Tₙ (c : Dev nD) : sProp 𝕄 := iprop(StableHlo.held (c : Thread nD τ) (Pipeline.ucRefs τ sig) (W9 m R0 R1 c) ∗ ∃ r, prngReg c r)

/-! ## The regions as segments -/

set_option backward.isDefEq.respectTransparency.types false in
/-- Region 0 over the thread state: entered from every unscoped buffer at W6, left at W7. -/
def reg0 : Pipeline.RegionSeg (pcfgs (F := F)) adm (pdats m R0 R1) () defs₀ 𝒱₀ L lv 0 where
  win := launch0.win.to₀
  block_pos := launch0.block_pos
  stage_whole := launch0.stage_whole
  K := PEmpty
  osem k := k.elim
  ho := Pipeline.OwnSemFacts.none _
  hbody c := (R0.hbody c).loose
  hwaits := Pipeline.hwaits_of_owed_zero _ _ _ _ L lv 0 fun c t => R0.howed c t
  pre c := iprop(StableHlo.held (c : Thread nD τ) (Pipeline.ucRefs τ sig) (W6 m c) ∗ R c)
  post c := iprop(StableHlo.held (c : Thread nD τ) (Pipeline.ucRefs τ sig) (W7 m R0 c) ∗ R c)
  X c := iprop(∃ r, prngReg c r)
  Y c := iprop(∃ r, prngReg c r)
  Z c := Pipeline.unscopedRest (Ix := Unit) (Name := ℕ) (U := UR sig nD τ) (Lvl := ℕ) spec0 c (V6 m c)
  hentry c := by
    rw [Pipeline.ownSems0_none]
    have hsplit := Pipeline.arrays_of_unscopedBufs (p := 0) (pcfgs (F := F)) adm (pdats m R0 R1) launch0.win launch0.arr_whole c
      ((pdats m R0 R1 0 c).share_full fun w => R0.hq c w) (V6 m c) fun w => R0.hA c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr
      · ipureintro; exact fun x _ => Or.inl (by rw [show (pdats m R0 R1 0 c).recorded 0 = Set.univ from R0.hrec c 0]; exact Set.mem_univ x)
      rw [show (pdats m R0 R1 0 c).owed 0 = 0 from R0.howed c 0]
      iexact HO
    isplitl [Hp]; · iexact Hp
    iexact Hrest
  hin c := by
    have h := R0.hin c
    unfold Pipeline.ΦA at h
    have h1 : ∀ P : sProp 𝕄, iprop((∃ r, prngReg c r) ∗ P ∗ Pipeline.scopedRest spec0 c) ⊢ (iprop(Pipeline.scopedRest spec0 c ∗ ∃ r, prngReg c r) : sProp 𝕄) := fun P => by
      iintro ⟨Hp, -, Hr⟩
      isplitl [Hr]; · iexact Hr
      iexact Hp
    exact (h1 _).trans h
  hout c := by
    rw [Pipeline.ownSems0_none]
    have h := R0.hout c
    unfold Pipeline.ΦA at h
    have h2 : iprop(Pipeline.scopedRest spec0 c ∗ ∃ r, prngReg c r) ⊢ (iprop((∃ r, prngReg c r) ∗ emp ∗ Pipeline.scopedRest spec0 c) : sProp 𝕄) := by
      iintro ⟨Hr, Hp⟩
      isplitl [Hp]; · iexact Hp
      isplitr; · iempintro
      iexact Hr
    exact h.trans h2
  hexit c := by
    have hjoin := Pipeline.unscopedBufs_of_arrays (p := 0) (pcfgs (F := F)) adm (Ix := Unit) (Name := ℕ) (U := UR sig nD τ) (Lvl := ℕ)
      launch0.win launch0.arr_whole c (pdats m R0 R1) ((pdats m R0 R1 0 c).share_full fun w => R0.hq c w)
      (V6 m c) (V7 m R0 c) ((pdats m R0 R1 0 c).arrAt · cfg0.N) (hF0 m R0 c) (hrest0 m R0 c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W
    rw [show (pdats m R0 R1 0 c).owed (Fin.last _) = 0 from R0.howed c _]
    iexact HO

set_option backward.isDefEq.respectTransparency.types false in
/-- Region 1 over the thread state: entered from every unscoped buffer at W8, left at W9, the program's end. -/
def reg1 : Pipeline.RegionSeg (pcfgs (F := F)) adm (pdats m R0 R1) () defs₀ 𝒱₀ L lv 1 where
  win := launch1.win.to₀
  block_pos := launch1.block_pos
  stage_whole := launch1.stage_whole
  K := PEmpty
  osem k := k.elim
  ho := Pipeline.OwnSemFacts.none _
  hbody c := (R1.hbody c).loose
  hwaits := Pipeline.hwaits_of_owed_zero _ _ _ _ L lv 1 fun c t => R1.howed c t
  pre c := iprop(StableHlo.held (c : Thread nD τ) (Pipeline.ucRefs τ sig) (W8 m R0 c) ∗ R c)
  post c := iprop(Tₙ m R0 R1 c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V8 m R0 c)
  hentry c := by
    rw [Pipeline.ownSems0_none]
    have hsplit := Pipeline.arrays_of_unscopedBufs (p := 1) (pcfgs (F := F)) adm (pdats m R0 R1) launch1.win launch1.arr_whole c
      ((pdats m R0 R1 1 c).share_full fun w => R1.hq c w) (V8 m R0 c) fun w => R1.hA c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr
      · ipureintro; exact fun x _ => Or.inl (by rw [show (pdats m R0 R1 1 c).recorded 0 = Set.univ from R1.hrec c 0]; exact Set.mem_univ x)
      rw [show (pdats m R0 R1 1 c).owed 0 = 0 from R1.howed c 0]
      iexact HO
    isplitl [Hp]; · iexact Hp
    iexact Hrest
  hin c := by
    have h := R1.hin c
    unfold Pipeline.ΦA at h
    have h1 : ∀ P : sProp 𝕄, iprop((∃ r, prngReg c r) ∗ P ∗ Pipeline.scopedRest spec1 c) ⊢ (iprop(Pipeline.scopedRest spec1 c ∗ ∃ r, prngReg c r) : sProp 𝕄) := fun P => by
      iintro ⟨Hp, -, Hr⟩
      isplitl [Hr]; · iexact Hr
      iexact Hp
    exact (h1 _).trans h
  hout c := by
    rw [Pipeline.ownSems0_none]
    have h := R1.hout c
    unfold Pipeline.ΦA at h
    have h2 : iprop(Pipeline.scopedRest spec1 c ∗ ∃ r, prngReg c r) ⊢ (iprop((∃ r, prngReg c r) ∗ emp ∗ Pipeline.scopedRest spec1 c) : sProp 𝕄) := by
      iintro ⟨Hr, Hp⟩
      isplitl [Hp]; · iexact Hp
      isplitr; · iempintro
      iexact Hr
    exact h.trans h2
  hexit c := by
    have hjoin := Pipeline.unscopedBufs_of_arrays (p := 1) (pcfgs (F := F)) adm (Ix := Unit) (Name := ℕ) (U := UR sig nD τ) (Lvl := ℕ)
      launch1.win launch1.arr_whole c (pdats m R0 R1) ((pdats m R0 R1 1 c).share_full fun w => R1.hq c w)
      (V8 m R0 c) (V9 m R0 R1 c) ((pdats m R0 R1 1 c).arrAt · cfg1.N) (hF1 m R0 R1 c) (hrest1 m R0 R1 c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W
    rw [show (pdats m R0 R1 1 c).owed (Fin.last _) = 0 from R1.howed c _]
    iexact HO

/-! ## @main as segments, and the launch -/

/-- @main's nine segments in order. -/
abbrev segs : List (Pipeline.Seg (pcfgs (F := F)) adm (pdats m R0 R1) () defs₀ 𝒱₀ L lv) :=
  [ .host (hseg hostOps0 hostOps0_sub hostOps0_fresh' (W0 m)),
    .host (hseg hostOps0_1 hostOps0_1_sub hostOps0_1_fresh' (W1 m)),
    .host (hseg hostOps0_2 hostOps0_2_sub hostOps0_2_fresh' (W2 m)),
    .host (hseg hostOps0_3 hostOps0_3_sub hostOps0_3_fresh' (W3 m)),
    .host (hseg hostOps0_4 hostOps0_4_sub hostOps0_4_fresh' (W4 m)),
    .host (hseg hostOps0_5 hostOps0_5_sub hostOps0_5_fresh' (W5 m)),
    .region (reg0 m R0 R1),
    .host (hseg hostOps1 hostOps1_sub hostOps1_fresh' (W7 m R0)),
    .region (reg1 m R0 R1) ]

/-- @main is the run of the segments. -/
theorem main_run (c : Dev nD) : main (F := F) c = Pipeline.Seg.run (segs m R0 R1) := by
  rw [main_chain c, Pipeline.Seg.run_eq_chain]
  rfl

set_option backward.isDefEq.respectTransparency.types false in
/-- THE RUN. From any memory with zero counters every weakly fair execution of @main on the TensorCores terminates,
    nothing faulting, and in every final state each unscoped buffer of core c holds the last valuation's contents. -/
theorem run : θ_run defs (onTc (τ := τ) (main (F := F))) ⟨m, fun _ => 0, ρ⟩ (fun r => ∀ c : Dev nD,
      ∀ b ∈ Pipeline.ucRefs τ sig, r.2.mem (((c : Thread nD τ)).1, b) = W9 m R0 R1 c b) :=
  Pipeline.θ_run_regions_kit (pcfgs (F := F)) adm (pdats m R0 R1) () cellOf_inj emb₁ defs₀ 𝒱₀ L lv m ρ main (segs m R0 R1)
    (fun c Q => by rw [main_run m R0 R1 c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m R0 R1)
    (hch := ⟨fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m R0 R1 c b)
    (hfin := fun c s' => by
      iintro ⟨⟨Hh, -⟩, HSI⟩
      unfold StableHlo.held
      imodintro
      iapply (pointsTo_read_all (Pipeline.ucRefs τ sig) (fun b => (((c : Thread nD τ)).1, b)) (W9 m R0 R1 c) s')
      isplitl [Hh] <;> iassumption)
    (hQ := fun s h c => h c)

end Run

end Cert.KernelIdeal.Hand

end
-- ==== Proof.KIFold.lean ====
/-
  The last valuation read back. No host stretch writes an argument array and no region may change one (a region reads
  an argument through an input window, whose array the pipeline leaves as entered, or bypasses it), so the fold at an
  argument's buffer walks back to the launch memory: the frame. The same walk, stopped earlier, says where each
  intermediate array the value claim reads was last written.
-/
import proofs.«157503_j446676598875_2_alg».proof.Proof.KIAssembly
import proofs.«157503_j446676598875_2_alg».proof.Proof.Gen.KernelIdeal.Regions

set_option maxRecDepth 16384

noncomputable section

namespace Cert.KernelIdeal.Hand

open Cert.KernelIdeal
open Idealize.ShloMosaic Idealize.ShloMosaic.TcCoe
open Idealize.SL Idealize.SL.Sem
open Idealize.ShloMosaic.Pipeline (Dat)

variable {F : FTy → Type} [FloatOps F]
variable (m : (ℓ : Loc nD τ sig) → Buf (Elt F) ℓ) (ρ : Dev nD → PrngReg)

/-- A buffer none of the six stretches before the first pallas_call writes holds its launch contents there. -/
theorem W6_of (c : Dev nD) (r : Ref sig .tc) (h0 : r ∉ Gen.hostOps0_W) (h1 : r ∉ Gen.hostOps0_1_W) (h2 : r ∉ Gen.hostOps0_2_W)
    (h3 : r ∉ Gen.hostOps0_3_W) (h4 : r ∉ Gen.hostOps0_4_W) (h5 : r ∉ Gen.hostOps0_5_W) :
    W6 m c r = m ((c : Thread nD τ).loc r) :=
  (StableHlo.after_of_writes_sub Gen.hostOps0_5 _ Gen.hostOps0_5_writes h5).trans <|
  (StableHlo.after_of_writes_sub Gen.hostOps0_4 _ Gen.hostOps0_4_writes h4).trans <|
  (StableHlo.after_of_writes_sub Gen.hostOps0_3 _ Gen.hostOps0_3_writes h3).trans <|
  (StableHlo.after_of_writes_sub Gen.hostOps0_2 _ Gen.hostOps0_2_writes h2).trans <|
  (StableHlo.after_of_writes_sub Gen.hostOps0_1 _ Gen.hostOps0_1_writes h1).trans <|
  (StableHlo.after_of_writes_sub Gen.hostOps0 _ Gen.hostOps0_writes h0).trans rfl

variable (R0 : Region0 (V6 m)) (R1 : Region1 (V8 m R0))

/-- A buffer that is no array of the first pallas_call and that the stretch after it does not write holds, when the second
    pallas_call is entered, what it held when the first was. -/
theorem W8_of (c : Dev nD) (r : Ref sig .tc) (hne : ∀ w, Pipeline.arrRef spec0 w ≠ r) (h : r ∉ Gen.hostOps1_W) :
    W8 m R0 c r = W6 m c r :=
  (StableHlo.after_of_writes_sub Gen.hostOps1 _ Gen.hostOps1_writes h).trans (W7_of_ne m R0 c r hne)

theorem W9_main_arg0 (c : Dev nD) : W9 m R0 R1 c (Proc.devRef .tc main_arg0) = m ((c : Thread nD τ).loc main_arg0) :=
  (W9_of_ne m R0 R1 c main_arg0 (by decide)).trans <| (W8_of m R0 c main_arg0 (by decide) (by decide)).trans <|
    W6_of m c main_arg0 (by decide) (by decide) (by decide) (by decide) (by decide) (by decide)
theorem W9_main_arg1 (c : Dev nD) : W9 m R0 R1 c (Proc.devRef .tc main_arg1) = m ((c : Thread nD τ).loc main_arg1) :=
  (W9_of_ne m R0 R1 c main_arg1 (by decide)).trans <| (W8_of m R0 c main_arg1 (by decide) (by decide)).trans <|
    W6_of m c main_arg1 (by decide) (by decide) (by decide) (by decide) (by decide) (by decide)
theorem W9_main_arg2 (c : Dev nD) : W9 m R0 R1 c (Proc.devRef .tc main_arg2) = m ((c : Thread nD τ).loc main_arg2) :=
  (W9_of_ne m R0 R1 c main_arg2 (by decide)).trans <| (W8_of m R0 c main_arg2 (by decide) (by decide)).trans <|
    W6_of m c main_arg2 (by decide) (by decide) (by decide) (by decide) (by decide) (by decide)

/-- The two affine vectors are input windows 2 and 3 of the second pallas_call: its pipeline leaves them as entered. -/
theorem V8_main_arg3 (c : Dev nD) : V8 m R0 c main_arg3 = m ((c : Thread nD τ).loc main_arg3) :=
  (W8_of m R0 c main_arg3 (by decide) (by decide)).trans <|
    W6_of m c main_arg3 (by decide) (by decide) (by decide) (by decide) (by decide) (by decide)
theorem V8_main_arg4 (c : Dev nD) : V8 m R0 c main_arg4 = m ((c : Thread nD τ).loc main_arg4) :=
  (W8_of m R0 c main_arg4 (by decide) (by decide)).trans <|
    W6_of m c main_arg4 (by decide) (by decide) (by decide) (by decide) (by decide) (by decide)
theorem W9_main_arg3 (c : Dev nD) : W9 m R0 R1 c (Proc.devRef .tc main_arg3) = m ((c : Thread nD τ).loc main_arg3) :=
  (W9_arr m R0 R1 c 2).trans <| ((R1.dat c).arrAt_in 2 rfl _).trans <| (R1.hA c 2).trans (V8_main_arg3 m R0 c)
theorem W9_main_arg4 (c : Dev nD) : W9 m R0 R1 c (Proc.devRef .tc main_arg4) = m ((c : Thread nD τ).loc main_arg4) :=
  (W9_arr m R0 R1 c 3).trans <| ((R1.dat c).arrAt_in 3 rfl _).trans <| (R1.hA c 3).trans (V8_main_arg4 m R0 c)

include R0 R1 in
/-- THE FRAME, given the two regions' records: every weakly fair execution terminates, nothing faults, and the argument
    arrays end as launched. -/
theorem frame_of : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c _ (mem_uc main_arg0 (by decide))).trans (W9_main_arg0 m R0 R1 c),
     (h c _ (mem_uc main_arg1 (by decide))).trans (W9_main_arg1 m R0 R1 c),
     (h c _ (mem_uc main_arg2 (by decide))).trans (W9_main_arg2 m R0 R1 c),
     (h c _ (mem_uc main_arg3 (by decide))).trans (W9_main_arg3 m R0 R1 c),
     (h c _ (mem_uc main_arg4 (by decide))).trans (W9_main_arg4 m R0 R1 c)⟩) (run m ρ R0 R1)

end Cert.KernelIdeal.Hand

end
-- ==== Proof.KIRegion0.lean ====
import proofs.«157503_j446676598875_2_alg».proof.Proof.Gen.KernelIdeal.Launch
import proofs.«157503_j446676598875_2_alg».proof.Proof.Gen.KernelIdeal.Skeleton
import proofs.«157503_j446676598875_2_alg».proof.Proof.Gen.KernelIdeal.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Where in a row of eight a grid point lies

The grid is 4 rows of 8 points, walked row by row. The kernel zeroes its accumulator at the first point of a
row and copies it to the output block at the last. Both tests are on the second grid coordinate; over the 32
points they are `t % 8 = 0` and `t % 8 = 7`. -/

/-- The kernel's test "second coordinate is 0", as it computes it. -/
abbrev rowStart (i : grid0.Coords) : Prop :=
  (Scalar.cmpi .ne (Scalar.extui (Scalar.cmpi .eq (BitVec.ofNat 32 (i 1).val) 0#32)) 0#32) = 1#1
/-- The kernel's test "second coordinate is 7", as it computes it. -/
abbrev rowEnd (i : grid0.Coords) : Prop := k0_cond2 i = 1#1

theorem rowStart_iff : ∀ t : Fin cfg0.N, rowStart (grid0.coords t) ↔ t.val % 8 = 0 :=
  (by decide +kernel : ∀ t : Fin grid0.N, rowStart (grid0.coords t) ↔ t.val % 8 = 0)
theorem rowEnd_iff : ∀ t : Fin cfg0.N, rowEnd (grid0.coords t) ↔ t.val % 8 = 7 :=
  (by decide +kernel : ∀ t : Fin grid0.N, rowEnd (grid0.coords t) ↔ t.val % 8 = 7)

/-- The input window is stored into nowhere and read everywhere: never idle. -/
theorem in_live : ∀ t : Fin cfg0.N, cfg0.idle 0 (grid0.coords t) = false := by decide +kernel
/-- Off a row's last point the output block is not stored into, -/
theorem out_idle : ∀ t : Fin cfg0.N, ¬rowEnd (grid0.coords t) → cfg0.idle 1 (grid0.coords t) = true := by decide +kernel
/-- and not written back; -/
theorem out_noFlush : ∀ t : Fin cfg0.N, ¬rowEnd (grid0.coords t) → (cfg0.win 1).flush t = false := by decide +kernel
/-- at a row's last point it is stored into. -/
theorem out_live : ∀ t : Fin cfg0.N, rowEnd (grid0.coords t) → cfg0.idle 1 (grid0.coords t) = false := by decide +kernel

/-! ## The body on any whole memrefs, case by case -/

/-- The accumulator, a whole scoped buffer of the kernel's own. -/
abbrev accM : Memref sig .tc .vmem S1x1x1x1 .f32 := Memref.whole cc0_scratch0

/-- The one rectangle every access of the [1,1,1,1] buffers goes through: all of it. -/
abbrev rAcc : Rect S1x1x1x1 := Rect.unit (s := S1x1x1x1) ![0, 0, 0, 0] S1x1x1x1.size inb_S1x1x1x1_S1x1x1x1_0_0_0_0
/-- The one rectangle the input block is loaded through: all of it. -/
abbrev rIn : Rect S1x256x64x64 := Rect.unit (s := S1x256x64x64) ![0, 0, 0, 0] S1x256x64x64.size inb_S1x256x64x64_S1x256x64x64_0_0_0_0

theorem zeros4 : (![0, 0, 0, 0] : Fin 4 → Nat) = fun _ => 0 := by
  funext a; fin_cases a <;> rfl

/-- A load of all of a [1,1,1,1] buffer reads its contents; -/
theorem load_acc {κ : Kind} {sp : Space} (v : View sig κ sp S1x1x1x1 .f32) (f : v.ty.Contents (Elt F)) :
    v.readAt (Elt F) rAcc.toLoadRect f = v.read (Elt F) f :=
  View.ld_unit_zero (S := S1x1x1x1) zeros4 inb_S1x1x1x1_S1x1x1x1_0_0_0_0 (v.read (Elt F) f)
/-- so does a load of all of the input block. -/
theorem load_in {κ : Kind} {sp : Space} (v : View sig κ sp S1x256x64x64 .f32) (f : v.ty.Contents (Elt F)) :
    v.readAt (Elt F) rIn.toLoadRect f = v.read (Elt F) f :=
  View.ld_unit_zero (S := S1x256x64x64) zeros4 inb_S1x256x64x64_S1x256x64x64_0_0_0_0 (v.read (Elt F) f)
/-- All of a [1,1,1,1] buffer is under the one rectangle. -/
theorem cover_acc (w : Vec F S1x1x1x1 .f32) (L : List (View.Piece (Elt F) S1x1x1x1 .f32)) (y : S1x1x1x1.Idx) :
    ∃ p ∈ ((⟨rAcc, w⟩ : View.Piece (Elt F) S1x1x1x1 .f32) :: L), y ∈ p.1.set :=
  ⟨⟨rAcc, w⟩, List.mem_cons_self, View.mem_set_unit_zero (S := S1x1x1x1) zeros4 inb_S1x1x1x1_S1x1x1x1_0_0_0_0 y⟩
/-- One store of all of a [1,1,1,1] buffer leaves its payload there, whatever was there before. -/
theorem store_acc {κ : Kind} {sp : Space} (v : View sig κ sp S1x1x1x1 .f32) (f : v.ty.Contents (Elt F)) (w : Vec F S1x1x1x1 .f32)
    (L : List (View.Piece (Elt F) S1x1x1x1 .f32)) :
    v.read (Elt F) (v.writes (Elt F) f (⟨rAcc, w⟩ :: L)) = w :=
  (View.read_writes_eq_canon v f _ (cover_acc w L)).trans
    (View.canon_cons_unit_zero (S := S1x1x1x1) zeros4 inb_S1x1x1x1_S1x1x1x1_0_0_0_0 w L)

/-- A load of all of a [1,1,1,1] buffer after one store of all of it reads the stored payload. -/
theorem readback_acc {κ : Kind} {sp : Space} (v : View sig κ sp S1x1x1x1 .f32) (w : Vec F S1x1x1x1 .f32) :
    v.readCov [(⟨rAcc, w⟩ : View.Piece (Elt F) S1x1x1x1 .f32)] rAcc.toLoadRect = w :=
  View.readCov_unit_zero (S := S1x1x1x1) v zeros4 inb_S1x1x1x1_S1x1x1x1_0_0_0_0 w

set_option maxHeartbeats 1000000 in
/-- Inside a row (neither its first nor its last point): the body adds the block's contribution to the
    accumulator and touches nothing else. -/
theorem run_inside (c : Dev nD) (i : grid0.Coords) (arg2 : Memref sig .tc .vmem S1x256x64x64 .f32) (harg2 : arg2.IsWhole)
    (arg3 : Memref sig .tc .vmem S1x1x1x1 .f32) (harg3 : arg3.IsWhole) (arg4 : Memref sig .tc .vmem S1x1x1x1 .f32) (harg4 : arg4.IsWhole)
    (hc0 : ¬rowStart i) (hc1 : ¬rowEnd i) (x0 : Vec F S1x256x64x64 .f32) (xs : Vec F S1x1x1x1 .f32) (xo : Vec F S1x1x1x1 .f32)
    (E : Set ℕ) (K : PUnit → sProp 𝕄) :
    iprop(owns (c : Thread nD τ) arg2 fullShare x0 ∗ owns (c : Thread nD τ) arg3 fullShare xo ∗ owns (c : Thread nD τ) arg4 fullShare xs
        ∗ (iprop(owns (c : Thread nD τ) arg2 fullShare x0 ∗ owns (c : Thread nD τ) arg3 fullShare xo
            ∗ owns (c : Thread nD τ) arg4 fullShare (k0_pay2 x0 xs)) -∗ K ⟨⟩))
      ⊢ wp frame (wpE (defs₀ (F := F)) Variants.none c none) E (cc0__reduce_kernel i arg2 harg2 arg3 harg3 arg4 harg4) K := by
  simp only [cc0__reduce_kernel_eq_skeleton]; unfold cc0__reduce_kernel_skel
  unfold owns
  iintro ⟨⟨%f0, %hf0, H0⟩, ⟨%f1, %hf1, H1⟩, ⟨%fs, %hfs, HS⟩, Hk⟩
  subst hf0; subst hf1; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  iexists _; isplitr
  swap; · iexact HS
  ipureintro
  rw [store_acc, load_in, load_acc]

set_option maxHeartbeats 1000000 in
/-- At a row's first point: the body zeroes the accumulator, whatever it held, then adds the block's
    contribution; the output block is untouched. -/
theorem run_rowStart (c : Dev nD) (i : grid0.Coords) (arg2 : Memref sig .tc .vmem S1x256x64x64 .f32) (harg2 : arg2.IsWhole)
    (arg3 : Memref sig .tc .vmem S1x1x1x1 .f32) (harg3 : arg3.IsWhole) (arg4 : Memref sig .tc .vmem S1x1x1x1 .f32) (harg4 : arg4.IsWhole)
    (hc0 : rowStart i) (hc1 : ¬rowEnd i) (x0 : Vec F S1x256x64x64 .f32) (xo : Vec F S1x1x1x1 .f32)
    (E : Set ℕ) (K : PUnit → sProp 𝕄) :
    iprop(owns (c : Thread nD τ) arg2 fullShare x0 ∗ owns (c : Thread nD τ) arg3 fullShare xo ∗ (∃ d, owns (c : Thread nD τ) arg4 fullShare d)
        ∗ (iprop(owns (c : Thread nD τ) arg2 fullShare x0 ∗ owns (c : Thread nD τ) arg3 fullShare xo
            ∗ owns (c : Thread nD τ) arg4 fullShare (k0_pay2 x0 k0_pay1)) -∗ K ⟨⟩))
      ⊢ wp frame (wpE (defs₀ (F := F)) Variants.none c none) E (cc0__reduce_kernel i arg2 harg2 arg3 harg3 arg4 harg4) K := by
  simp only [cc0__reduce_kernel_eq_skeleton]; unfold cc0__reduce_kernel_skel
  unfold owns
  iintro ⟨⟨%f0, %hf0, H0⟩, ⟨%f1, %hf1, H1⟩, ⟨%ds, %fs, -, HS⟩, Hk⟩
  subst hf0; subst hf1
  sl_exec (disch := first | exact hc0 | exact hc1)
  sl_step
  iapply Hk
  isplitl [H0]
  · iexists f0; isplitr; · ipureintro; rfl
    iexact H0
  isplitl [H1]
  · iexists f1; isplitr; · ipureintro; rfl
    iexact H1
  iexists _; isplitr
  swap; · iexact HS
  ipureintro
  sl_unfold_run_names
  rw [store_acc, load_in, readback_acc]

set_option maxHeartbeats 1000000 in
/-- At a row's last point: the body adds the block's contribution to the accumulator and copies the sum to
    the output block, whatever that held. -/
theorem run_rowEnd (c : Dev nD) (i : grid0.Coords) (arg2 : Memref sig .tc .vmem S1x256x64x64 .f32) (harg2 : arg2.IsWhole)
    (arg3 : Memref sig .tc .vmem S1x1x1x1 .f32) (harg3 : arg3.IsWhole) (arg4 : Memref sig .tc .vmem S1x1x1x1 .f32) (harg4 : arg4.IsWhole)
    (hc0 : ¬rowStart i) (hc1 : rowEnd i) (x0 : Vec F S1x256x64x64 .f32) (xs : Vec F S1x1x1x1 .f32)
    (E : Set ℕ) (K : PUnit → sProp 𝕄) :
    iprop(owns (c : Thread nD τ) arg2 fullShare x0 ∗ (∃ d, owns (c : Thread nD τ) arg3 fullShare d) ∗ owns (c : Thread nD τ) arg4 fullShare xs
        ∗ (iprop(owns (c : Thread nD τ) arg2 fullShare x0 ∗ owns (c : Thread nD τ) arg3 fullShare (k0_pay2 x0 xs)
            ∗ owns (c : Thread nD τ) arg4 fullShare (k0_pay2 x0 xs)) -∗ K ⟨⟩))
      ⊢ wp frame (wpE (defs₀ (F := F)) Variants.none c none) E (cc0__reduce_kernel i arg2 harg2 arg3 harg3 arg4 harg4) K := by
  simp only [cc0__reduce_kernel_eq_skeleton]; unfold cc0__reduce_kernel_skel
  unfold owns
  iintro ⟨⟨%f0, %hf0, H0⟩, ⟨%d1, %f1, -, H1⟩, ⟨%fs, %hfs, HS⟩, Hk⟩
  subst hf0; subst hfs
  sl_exec (disch := first | exact hc0 | exact hc1)
  sl_step
  iapply Hk
  isplitl [H0]
  · iexists f0; isplitr; · ipureintro; rfl
    iexact H0
  isplitl [H1]
  · iexists _; isplitr
    swap; · iexact H1
    ipureintro
    sl_unfold_run_names
    rw [store_acc, readback_acc, load_in, load_acc]
  iexists _; isplitr
  swap; · iexact HS
  ipureintro
  sl_unfold_run_names
  rw [store_acc, load_in, load_acc]

/-! ## What the region invariant holds besides the accumulator -/

/-- The core's other scoped buffers that are no staging buffer of this region (the second kernel's staging
    buffers), each at some contents: this region never touches them. -/
def othersAt (c : Dev nD) : sProp 𝕄 :=
  iprop((∃ f : Buf (Elt F) ((c : Thread nD τ).loc cc1_stg0_0), ((c : Thread nD τ).loc cc1_stg0_0) ↦{fullShare} f)
    ∗ (∃ f : Buf (Elt F) ((c : Thread nD τ).loc cc1_stg0_1), ((c : Thread nD τ).loc cc1_stg0_1) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg1_1), ((c : Thread nD τ).loc cc1_stg1_1) ↦{fullShare} f)
    ∗ (∃ f : Buf (Elt F) ((c : Thread nD τ).loc cc1_stg2_0), ((c : Thread nD τ).loc cc1_stg2_0) ↦{fullShare} f)
    ∗ (∃ f : Buf (Elt F) ((c : Thread nD τ).loc cc1_stg3_0), ((c : Thread nD τ).loc cc1_stg3_0) ↦{fullShare} f)
    ∗ (∃ f : Buf (Elt F) ((c : Thread nD τ).loc cc1_stg4_0), ((c : Thread nD τ).loc cc1_stg4_0) ↦{fullShare} f)
    ∗ (∃ f : Buf (Elt F) ((c : Thread nD τ).loc cc1_stg4_1), ((c : Thread nD τ).loc cc1_stg4_1) ↦{fullShare} f))

/-- The region's entry invariant, the accumulator split off: the accumulator at some contents, the other scoped
    buffers at some contents, the generator register at some state. -/
theorem PhiA0_eq (c : Dev nD) :
    (Pipeline.ΦA spec0 c : sProp 𝕄)
      = iprop(iprop((∃ d, owns (c : Thread nD τ) accM fullShare d) ∗ othersAt (F := F) c) ∗ (∃ r, prngReg c r)) := by
  unfold Pipeline.ΦA othersAt; rw [scopedRest0_eq]; simp only [accM, owns_whole]; try rfl

section Region
-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window's current staging buffer holds its block at every point (it is fetched at every point, uncut,
    never idle), for any proof data whose array is `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-! ## The accumulation -/

/-- The scratch accumulator's contents after the body at position `n`: the contribution of block `n` added to zero
    at the first point of a row of 8, to what the point before left otherwise. -/
def accAt0 (c : Dev nD) : (n : ℕ) → n < cfg0.N → Vec F S1x1x1x1 .f32
  | 0, h => k0_pay2 (iblk0 V c 0 ⟨0, h⟩) k0_pay1
  | n + 1, h =>
    if (n + 1) % 8 = 0 then k0_pay2 (iblk0 V c 0 ⟨n + 1, h⟩) k0_pay1
    else k0_pay2 (iblk0 V c 0 ⟨n + 1, h⟩) (accAt0 c n (Nat.lt_of_succ_lt h))

/-- At a row's first point the sum restarts from zero. -/
theorem accAt0_first (c : Dev nD) (t : Fin cfg0.N) (h : t.val % 8 = 0) :
    accAt0 V c t.val t.isLt = k0_pay2 (iblk0 V c 0 t) k0_pay1 := by
  obtain ⟨n, hn⟩ := t
  cases n with
  | zero => rfl
  | succ n => exact if_pos h

/-- Elsewhere it continues from the point before. -/
theorem accAt0_next (c : Dev nD) (t : Fin cfg0.N) (h : ¬ t.val % 8 = 0) :
    accAt0 V c t.val t.isLt = k0_pay2 (iblk0 V c 0 t) (accAt0 V c (t.val - 1) (Nat.lt_of_le_of_lt (Nat.sub_le _ _) t.isLt)) := by
  obtain ⟨n, hn⟩ := t
  cases n with
  | zero => exact absurd (Nat.zero_mod _) h
  | succ n => exact if_neg h

/-! ## The invariant: the accumulator carried from point to point -/

/-- The region invariant before position `n`: before the first point the entry invariant (the accumulator at
    anything); afterwards the accumulator at the sum the point before left, the other scoped buffers at some
    contents and the generator register at some state. -/
def carried (c : Dev nD) : (n : ℕ) → n ≤ cfg0.N → sProp 𝕄
  | 0, _ => Pipeline.ΦA spec0 c
  | n + 1, hn => iprop(iprop(owns (c : Thread nD τ) accM fullShare (accAt0 V c n hn) ∗ othersAt (F := F) c) ∗ (∃ r, prngReg c r))

theorem carried_zero (c : Dev nD) (n : ℕ) (h : n ≤ cfg0.N) (hz : n = 0) : carried V c n h = Pipeline.ΦA spec0 c := by
  subst hz; rfl

theorem carried_succ (c : Dev nD) (n : ℕ) (hn : n < cfg0.N) :
    carried V c (n + 1) hn = iprop(iprop(owns (c : Thread nD τ) accM fullShare (accAt0 V c n hn) ∗ othersAt (F := F) c) ∗ (∃ r, prngReg c r)) := rfl

theorem carried_pos (c : Dev nD) (n : ℕ) (h : n ≤ cfg0.N) (hz : n ≠ 0) :
    carried V c n h = iprop(iprop(owns (c : Thread nD τ) accM fullShare (accAt0 V c (n - 1) (by omega)) ∗ othersAt (F := F) c) ∗ (∃ r, prngReg c r)) := by
  cases n with
  | zero => exact absurd rfl hz
  | succ n => rfl

/-! ## The pipeline's proof data -/

/-- The proof data of this region on core `c`: the arrays as the region finds them (`V`); after the body at point
    `t` the input's buffer at its block and the output's at the accumulated sum (the value that matters is at a
    row's last point, where the block is written back; elsewhere the output window is idle); the invariant carries
    the accumulator; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => accAt0 V c t.val t.isLt
  Φ t := carried V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem carried_castSucc (c : Dev nD) (t : Fin cfg0.N) :
    (dat0 V c).Φ t.castSucc = carried V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = accAt0 V c t.val t.isLt := by dsimp only [dat0]

theorem before0_0 (c : Dev nD) (t : Fin cfg0.N) (d) : (dat0 V c).before 0 t d = iblk0 V c 0 t :=
  before0_0_of V (dat0 V c) (A_eq0 V c 0) (after0_0 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t)

set_option maxHeartbeats 4800000 in
/-- The body at any point. The input's buffer holds its block; the point's place in its row of eight selects the
    case. At a row's first point the invariant hands over the accumulator at anything (at the very first point) or at
    the sum the row before ended with, and takes it back at the block's contribution alone; inside a row and at its
    last point it hands the accumulator over at the sum so far and takes it back with the block's contribution
    added. The output's buffer is handed back as found except at a row's last point, where it receives the sum.
    The core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).owesAt () t.succ = (dat0 V c).owesAt () t.castSucc from rfl]
  rw [show (dat0 V c).Φ t.succ = carried V c (t.val + 1) t.isLt from rfl, carried_succ]
  have hN : t.val < 32 := lt_of_lt_of_eq t.isLt (show cfg0.N = 32 from N_0)
  rw [show (dat0 V c).leavesExact 0 t = owns (c : Thread nD τ) (st0_0 t) fullShare ((dat0 V c).after 0 t) from by
    unfold Dat.leavesExact; rw [in_live t], after0_0]
  by_cases h0 : t.val % 8 = 0
  · have h1 : ¬t.val % 8 = 7 := by omega
    have hs : rowStart (grid0.coords t) := (rowStart_iff t).mpr h0
    have he : ¬rowEnd (grid0.coords t) := fun h => h1 ((rowEnd_iff t).mp h)
    rw [Dat.leavesExact_idle (dat0 V c) 1 t (out_idle t he) (out_noFlush t he)]
    rw [accAt0_first V c t h0]
    by_cases hz : t.val = 0
    · rw [carried_castSucc V c t, carried_zero V c _ _ hz, PhiA0_eq]
      iintro ⟨⟨⟨HS, Hrest⟩, Hg⟩, Ho, ⟨%d0, H0⟩, ⟨%d1, H1⟩⟩
      iapply (run_rowStart c (grid0.coords t) _ _ _ _ _ _ hs he (iblk0 V c 0 t) _ Set.univ _)
      isplitl [H0]; · iexact H0
      isplitl [H1]; · iexact H1
      isplitl [HS]; · iexact HS
      iintro ⟨H0, H1, HS⟩
      isplitl [HS Hrest Hg]
      · isplitl [HS Hrest]
        · isplitl [HS]; · iexact HS
          iexact Hrest
        iexact Hg
      isplitl [Ho]; · iexact Ho
      isplitl [H0]; · iexact H0
      iexists _; iexact H1
    · rw [carried_castSucc V c t, carried_pos V c _ _ hz]
      iintro ⟨⟨⟨HS, Hrest⟩, Hg⟩, Ho, ⟨%d0, H0⟩, ⟨%d1, H1⟩⟩
      iapply (run_rowStart c (grid0.coords t) _ _ _ _ _ _ hs he (iblk0 V c 0 t) _ Set.univ _)
      isplitl [H0]; · iexact H0
      isplitl [H1]; · iexact H1
      isplitl [HS]; · iexists _; iexact HS
      iintro ⟨H0, H1, HS⟩
      isplitl [HS Hrest Hg]
      · isplitl [HS Hrest]
        · isplitl [HS]; · iexact HS
          iexact Hrest
        iexact Hg
      isplitl [Ho]; · iexact Ho
      isplitl [H0]; · iexact H0
      iexists _; iexact H1
  · have hz : t.val ≠ 0 := fun h => h0 (by rw [h])
    have hs : ¬rowStart (grid0.coords t) := fun h => h0 ((rowStart_iff t).mp h)
    rw [accAt0_next V c t h0]
    rw [carried_castSucc V c t, carried_pos V c _ _ hz]
    by_cases h1 : t.val % 8 = 7
    · have he : rowEnd (grid0.coords t) := (rowEnd_iff t).mpr h1
      rw [show (dat0 V c).leavesExact 1 t = owns (c : Thread nD τ) (st0_1 t) fullShare ((dat0 V c).after 1 t) from by
        unfold Dat.leavesExact; rw [out_live t he], after0_1, accAt0_next V c t h0]
      iintro ⟨⟨⟨HS, Hrest⟩, Hg⟩, Ho, ⟨%d0, H0⟩, ⟨%d1, H1⟩⟩
      iapply (run_rowEnd c (grid0.coords t) _ _ _ _ _ _ hs he (iblk0 V c 0 t) _ Set.univ _)
      isplitl [H0]; · iexact H0
      isplitl [H1]; · iexists _; iexact H1
      isplitl [HS]; · iexact HS
      iintro ⟨H0, H1, HS⟩
      isplitl [HS Hrest Hg]
      · isplitl [HS Hrest]
        · isplitl [HS]; · iexact HS
          iexact Hrest
        iexact Hg
      isplitl [Ho]; · iexact Ho
      isplitl [H0]; · iexact H0
      iexact H1
    · have he : ¬rowEnd (grid0.coords t) := fun h => h1 ((rowEnd_iff t).mp h)
      rw [Dat.leavesExact_idle (dat0 V c) 1 t (out_idle t he) (out_noFlush t he)]
      iintro ⟨⟨⟨HS, Hrest⟩, Hg⟩, Ho, ⟨%d0, H0⟩, ⟨%d1, H1⟩⟩
      iapply (run_inside c (grid0.coords t) _ _ _ _ _ _ hs he (iblk0 V c 0 t) _ _ Set.univ _)
      isplitl [H0]; · iexact H0
      isplitl [H1]; · iexact H1
      isplitl [HS]; · iexact HS
      iintro ⟨H0, H1, HS⟩
      isplitl [HS Hrest Hg]
      · isplitl [HS Hrest]
        · isplitl [HS]; · iexact HS
          iexact Hrest
        iexact Hg
      isplitl [Ho]; · iexact Ho
      isplitl [H0]; · iexact H0
      iexists _; iexact H1

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = carried V c 0 (Nat.zero_le _) from rfl, carried_zero V c 0 _ rfl]
  try exact Idealize.SL.BI.Entails.refl _

/-- After any point the invariant gives the entry invariant back: the accumulator's sum is forgotten. -/
theorem Phi_out0 (c : Dev nD) (t : Fin (cfg0.N + 1)) (ht : t.val ≠ 0) : (dat0 V c).Φ t ⊢ Pipeline.ΦA spec0 c := by
  rw [show (dat0 V c).Φ t = carried V c t.val (Nat.le_of_lt_succ t.isLt) from rfl, carried_pos V c _ _ ht, PhiA0_eq]
  iintro ⟨⟨HS, Hrest⟩, Hg⟩
  isplitl [HS Hrest]
  · isplitl [HS]; · iexists _; iexact HS
    iexact Hrest
  iexact Hg

/-- The same after the last point. -/
theorem hout0 (c : Dev nD) : (dat0 V c).Φ (Fin.last cfg0.N) ⊢ Pipeline.ΦA spec0 c :=
  Phi_out0 V c _ (by rw [Fin.val_last]; have : cfg0.N = 32 := N_0; omega)

end Region

end Cert.KernelIdeal.Hand

end
-- ==== Proof.KIRegion1.lean ====
/- Region 1 of the idealized program (the kernel region running cc1__apply_kernel on the grid [4, 8]), at a parameter V:
   the TensorCore's buffer contents when the region is entered. Per window its block at a point; what the body leaves in
   the output block (the payload of its one whole-block store, a pointwise expression of the four input blocks with one
   row sum); the body's triple; the pipeline's proof data and the body obligation at every grid point. -/
import proofs.«157503_j446676598875_2_alg».proof.Proof.Gen.KernelIdeal.Launch
import proofs.«157503_j446676598875_2_alg».proof.Proof.Gen.KernelIdeal.Skeleton
import proofs.«157503_j446676598875_2_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1
-- the TensorCore's buffer contents when the region is entered
variable (V : (c : Dev nD) → (b : Ref sig .tc) → Buf (Elt F) ((c : Thread nD τ).loc b))

/-! ## The windows' blocks -/

/-- Window w's block at point t, read off its array as the region finds it (V). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not: where the window is
    not fetched its block index has not moved, and the body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- The same of input window 1 (its block index moves with the first grid coordinate only). -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- The same of input window 2 (a constant block index: one fetch, at the first point). -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- The same of input window 3 (a constant block index: one fetch, at the first point). -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

/-- Each of the body's loads and its one store goes through the whole-buffer rectangle of the buffer's shape. -/
abbrev r1_0 : Rect S1x256x64x64 := Rect.unit (s := S1x256x64x64) ![0, 0, 0, 0] S1x256x64x64.size inb_S1x256x64x64_S1x256x64x64_0_0_0_0
abbrev r1_1 : Rect S1x1x1x1 := Rect.unit (s := S1x1x1x1) ![0, 0, 0, 0] S1x1x1x1.size inb_S1x1x1x1_S1x1x1x1_0_0_0_0
abbrev r1_2 : Rect S1x1x1x64 := Rect.unit (s := S1x1x1x64) ![0, 0, 0, 0] S1x1x1x64.size inb_S1x1x1x64_S1x1x1x64_0_0_0_0

/-- The four zero offsets are the zero function. -/
theorem zeros1 : (![0, 0, 0, 0] : Fin 4 → Nat) = fun _ => 0 := funext fun a => by fin_cases a <;> rfl

/-! ## What the body leaves in the output window's buffer -/

/-- Window 4's staging buffer after the body, from the input windows' blocks: its one store as a piece, the payload
    the skeleton's over what the four loads read. -/
def out1_4 (x0 : Vec F S1x256x64x64 .f32) (x1 : Vec F S1x1x1x1 .f32) (x2 x3 : Vec F S1x1x1x64 .f32) : Vec F S1x256x64x64 .f32 :=
  View.canon [⟨r1_0, k1_pay1 (View.ld x0 r1_0) (View.ld x1 r1_1) (View.ld x2 r1_2) (View.ld x3 r1_2)⟩]

/-- The one store covers the whole buffer and each load reads its whole buffer: what the body leaves is the payload
    at the four input blocks. -/
theorem out1_4_eq (x0 : Vec F S1x256x64x64 .f32) (x1 : Vec F S1x1x1x1 .f32) (x2 x3 : Vec F S1x1x1x64 .f32) :
    out1_4 x0 x1 x2 x3 = k1_pay1 x0 x1 x2 x3 := by
  unfold out1_4
  rw [View.canon_unit_zero (S := S1x256x64x64) zeros1 inb_S1x256x64x64_S1x256x64x64_0_0_0_0,
    View.ld_unit_zero (S := S1x256x64x64) zeros1 inb_S1x256x64x64_S1x256x64x64_0_0_0_0,
    View.ld_unit_zero (S := S1x1x1x1) zeros1 inb_S1x1x1x1_S1x1x1x1_0_0_0_0,
    View.ld_unit_zero (S := S1x1x1x64) zeros1 inb_S1x1x1x64_S1x1x1x64_0_0_0_0,
    View.ld_unit_zero (S := S1x1x1x64) zeros1 inb_S1x1x1x64_S1x1x1x64_0_0_0_0]

/-- Its store covers the buffer: every index lies in the whole-buffer rectangle. -/
theorem cover1_4 (p0 : Vec F S1x256x64x64 .f32) (y : S1x256x64x64.Idx) :
    ∃ pc ∈ ([⟨r1_0, p0⟩] : List (View.Piece (Elt F) S1x256x64x64 .f32)), y ∈ pc.1.set :=
  ⟨_, List.mem_singleton_self _, View.mem_set_unit_zero (S := S1x256x64x64) zeros1 inb_S1x256x64x64_S1x256x64x64_0_0_0_0 y⟩

/-! ## The body's triple -/

set_option maxHeartbeats 1000000 in
/-- The kernel body on whole staging memrefs, the four inputs' at read contents x0 … x3 and the output's at anything
    (the body loads it once, the value unused, before overwriting it whole), runs to the continuation holding the
    inputs' as they were and the output's at out1_4 of the inputs'. -/
theorem sound_kernel1 (c : Dev nD) (E : Set ℕ) (i : grid1.Coords)
    (arg2 : Memref sig .tc .vmem S1x256x64x64 .f32) (harg2 : arg2.IsWhole) (arg3 : Memref sig .tc .vmem S1x1x1x1 .f32) (harg3 : arg3.IsWhole)
    (arg4 : Memref sig .tc .vmem S1x1x1x64 .f32) (harg4 : arg4.IsWhole) (arg5 : Memref sig .tc .vmem S1x1x1x64 .f32) (harg5 : arg5.IsWhole)
    (arg6 : Memref sig .tc .vmem S1x256x64x64 .f32) (harg6 : arg6.IsWhole)
    (x0 : Vec F S1x256x64x64 .f32) (x1 : Vec F S1x1x1x1 .f32) (x2 x3 : Vec F S1x1x1x64 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ (∃ d, owns (c : Thread nD τ) arg6 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare (out1_4 x0 x1 x2 x3)) -∗ K ⟨⟩))
      ⊢ wp frame (wpE (defs₀ (F := F)) Variants.none c none) E (cc1__apply_kernel i arg2 harg2 arg3 harg3 arg4 harg4 arg5 harg5 arg6 harg6) K := by
  simp only [cc1__apply_kernel_eq_skeleton]; unfold cc1__apply_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover1_4 _)

/-! ## The pipeline's proof data -/

/-- The proof data of pipeline 1 on core c: the arrays as the region finds them (V); after the body at point t each
    input's buffer at its block and the output's at out1_4 of the input blocks; the invariant the scoped rest and the
    generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) :
    (dat1 V c).after 4 t = out1_4 (iblk1 V c 0 t) (iblk1 V c 1 t) (iblk1 V c 2 t) (iblk1 V c 3 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation, at a generic point -/

/-- What the body is called with at point t (the windows one by one), -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

/-- The body at any point: the inputs' memrefs hold their blocks, so the body's triple applies; the invariant and the
    core's obligations pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ (grid1.coords t) _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- info: 'Cert.KernelIdeal.Hand.body_obligation1' depends on axioms: [propext, Classical.choice, Quot.sound] -/
#guard_msgs in #print axioms body_obligation1

end Region1
end Cert.KernelIdeal.Hand
end
-- ==== Proof.KIRun.lean ====
/-
  The kernel program's run with both regions' records in place: the first pallas_call's proof data carries the scratch
  accumulator from point to point, the second's is the plain one (inputs left in place, the output block the payload of
  its one store). What follows is the run at the named last valuation, and the frame.
-/
import proofs.«157503_j446676598875_2_alg».proof.Proof.KIFold
import proofs.«157503_j446676598875_2_alg».proof.Proof.KIRegion0
import proofs.«157503_j446676598875_2_alg».proof.Proof.KIRegion1

set_option maxRecDepth 16384

noncomputable section

namespace Cert.KernelIdeal.Hand

open Cert.KernelIdeal Cert.KernelIdeal.Gen
open Idealize.ShloMosaic Idealize.ShloMosaic.TcCoe
open Idealize.SL Idealize.SL.BI Idealize.SL.Sem
open Idealize.ShloMosaic.Pipeline (Dat BodyObligation)

variable {F : FTy → Type} [FloatOps F]

/-- The first pallas_call's record at entry contents V. -/
def region0 (V : Contents F) : Region0 V where
  dat := dat0 V
  hA := A_eq0 V
  hq := fun _ _ => rfl
  howed := fun _ _ => rfl
  hrec := fun _ _ => rfl
  hbody := body_obligation0 V
  hin := hin0 V
  hout := hout0 V

/-- The second pallas_call's record at entry contents V: its invariant is the class's at every point. -/
def region1 (V : Contents F) : Region1 V where
  dat := dat1 V
  hA := A_eq1 V
  hq := fun _ _ => rfl
  howed := fun _ _ => rfl
  hrec := fun _ _ => rfl
  hbody := body_obligation1 V
  hin := fun _ => BI.Entails.refl _
  hout := fun _ => BI.Entails.refl _

variable (m : (ℓ : Loc nD τ sig) → Buf (Elt F) ℓ) (ρ : Dev nD → PrngReg)

/-- What the second pallas_call is entered from. -/
abbrev Vmid : Contents F := V8 m (region0 (V6 m))
/-- The last valuation. -/
abbrev Wend (c : Dev nD) : Valuation τ sig (Elt F) := W9 m (region0 (V6 m)) (region1 (Vmid m)) c

/-- The run: every weakly fair execution terminates, nothing faults, every unscoped buffer ends at the last valuation. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = Wend m c b) :=
  run m ρ (region0 (V6 m)) (region1 (Vmid m))

/-- The frame. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (region0 (V6 m)) (region1 (Vmid m))

end Cert.KernelIdeal.Hand

end
-- ==== Proof.KIReads.lean ====
/-
  Where the value claim's arrays sit in the fold: the normalised output is the second pallas_call's window 4 after its
  last point; the grouped tensor it reads is the one the host prefix computed (the first pallas_call only reads it); the
  standard deviation it reads is the square root of the first pallas_call's output divided by n − 1; the selected
  coordinates, the program's other result, were written by the first stretch and never again.
-/
import proofs.«157503_j446676598875_2_alg».proof.Proof.KIRun

set_option maxRecDepth 16384

noncomputable section

namespace Cert.KernelIdeal.Hand

open Cert.KernelIdeal Cert.KernelIdeal.Facts₀ Cert.KernelIdeal.Facts
open Idealize.ShloMosaic Idealize.ShloMosaic.TcCoe
open Idealize.SL Idealize.SL.Sem
open Idealize.ShloMosaic.Pipeline (Dat)

variable {F : FTy → Type} [FloatOps F]
variable (m : (ℓ : Loc nD τ sig) → Buf (Elt F) ℓ)

/-- The normalised output: window 4 of the second pallas_call after its last point. -/
theorem Wend_v49 (c : Dev nD) : Wend m c (Proc.devRef .tc main_v49) = (dat1 (Vmid m) c).arrAt 4 cfg1.N :=
  W9_arr m (region0 (V6 m)) (region1 (Vmid m)) c 4

/-- The selected coordinates: written by the first stretch, never again. -/
theorem Wend_v6 (c : Dev nD) : Wend m c (Proc.devRef .tc main_v6) = W1 m c main_v6 :=
  (W9_of_ne m _ _ c main_v6 (by decide)).trans <| (W8_of m _ c main_v6 (by decide) (by decide)).trans <|
  (StableHlo.after_of_writes_sub Gen.hostOps0_5 _ Gen.hostOps0_5_writes (by decide : main_v6 ∉ Gen.hostOps0_5_W)).trans <|
  (StableHlo.after_of_writes_sub Gen.hostOps0_4 _ Gen.hostOps0_4_writes (by decide : main_v6 ∉ Gen.hostOps0_4_W)).trans <|
  (StableHlo.after_of_writes_sub Gen.hostOps0_3 _ Gen.hostOps0_3_writes (by decide : main_v6 ∉ Gen.hostOps0_3_W)).trans <|
  (StableHlo.after_of_writes_sub Gen.hostOps0_2 _ Gen.hostOps0_2_writes (by decide : main_v6 ∉ Gen.hostOps0_2_W)).trans <|
  (StableHlo.after_of_writes_sub Gen.hostOps0_1 _ Gen.hostOps0_1_writes (by decide : main_v6 ∉ Gen.hostOps0_1_W))

/-- The first pallas_call's output array, after its last point. -/
theorem W7_v45 (c : Dev nD) : W7 m (region0 (V6 m)) c (Proc.devRef .tc main_v45) = (dat0 (V6 m) c).arrAt 1 cfg0.N :=
  W7_arr m (region0 (V6 m)) c 1

/-- The grouped tensor the second pallas_call reads is the one the host prefix computed: the first pallas_call only reads it,
    the stretch between does not write it. -/
theorem Vmid_v44 (c : Dev nD) : Vmid m c main_v44 = W6 m c main_v44 :=
  (StableHlo.after_of_writes_sub Gen.hostOps1 _ Gen.hostOps1_writes (by decide : main_v44 ∉ Gen.hostOps1_W)).trans <|
  (W7_arr m (region0 (V6 m)) c 0).trans <| ((dat0 (V6 m) c).arrAt_in 0 rfl _).trans (A_eq0 (V6 m) c 0)

/-- The standard deviation the second pallas_call reads: the square root of the first's output over n − 1. -/
theorem Vmid_v48 (c : Dev nD) : (Vmid m c main_v48 : S4x1x1x1.Idx → Elt F .f32)
    = Host.sqrt (Host.divf (W7 m (region0 (V6 m)) c (Proc.devRef .tc main_v45) : S4x1x1x1.Idx → Elt F .f32)
        (broadcastInDim S4x1x1x1 ![] bcast_S_S4x1x1x1 (constant (F := F) S_ .f32 0x4AFFFFFE#32))) := by
  show StableHlo.after Gen.hostOps1 (W7 m (region0 (V6 m)) c) (Proc.devRef .tc main_v48) = _
  after_results

end Cert.KernelIdeal.Hand

end
-- ==== Proof.KIValue1.lean ====
/- Region 1's output array after the region, index by index. Grid point t has coordinates (t / 8, t % 8); at it the
   tensor windows (0 and 4) sit at block (t / 8, t % 8, 0, 0) of [1, 256, 64, 64] blocks, so block row r is array row
   256 (t % 8) + r of batch t / 8; window 1 sits at block (t / 8, 0, 0, 0) and windows 2, 3 at block (0, 0, 0, 0).
   Each input block read at an index is the entry array at the corresponding index; the 32 output blocks tile the output
   array (the point covering row s of batch b is 8 b + s / 256), so when every point leaves in the output block its
   block of ONE array function G, the array ends at G; and with the stored value read at an index, the array at an index. -/
import proofs.«157503_j446676598875_2_alg».proof.Proof.KIRegion1
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)
open Idealize.ShloMosaic.ValueIdx
open scoped BigOperators

variable {F : FTy → Type} [FloatOps F]

section Value1
variable (V : (c : Dev nD) → (b : Ref sig .tc) → Buf (Elt F) ((c : Thread nD τ).loc b))

/-! ## The index maps over the grid -/

/-- The five windows' block indices at grid point t, in closed form: decided over the 32 points. -/
theorem idx_facts1 : ∀ t : Fin cfg1.N,
    (win1_0.index t (0 : Fin 4) = t.val / 8 ∧ win1_0.index t (1 : Fin 4) = t.val % 8 ∧ win1_0.index t (2 : Fin 4) = 0 ∧ win1_0.index t (3 : Fin 4) = 0)
    ∧ (win1_1.index t (0 : Fin 4) = t.val / 8 ∧ win1_1.index t (1 : Fin 4) = 0 ∧ win1_1.index t (2 : Fin 4) = 0 ∧ win1_1.index t (3 : Fin 4) = 0)
    ∧ (win1_2.index t (0 : Fin 4) = 0 ∧ win1_2.index t (1 : Fin 4) = 0 ∧ win1_2.index t (2 : Fin 4) = 0 ∧ win1_2.index t (3 : Fin 4) = 0)
    ∧ (win1_3.index t (0 : Fin 4) = 0 ∧ win1_3.index t (1 : Fin 4) = 0 ∧ win1_3.index t (2 : Fin 4) = 0 ∧ win1_3.index t (3 : Fin 4) = 0)
    ∧ (win1_4.index t (0 : Fin 4) = t.val / 8 ∧ win1_4.index t (1 : Fin 4) = t.val % 8 ∧ win1_4.index t (2 : Fin 4) = 0 ∧ win1_4.index t (3 : Fin 4) = 0) :=
  (by decide +kernel : ∀ t : Fin grid1.N, _)

/-! ## The input blocks at an index -/

/-- Window 0's block at point t = 8 b + j, row r, is the tensor's batch b at row 256 j + r. -/
theorem iblk1_0_apply (c : Dev nD) (t : Fin cfg1.N) (b : Fin 4) (j : Fin 8) (ht : t.val = 8 * b.val + j.val)
    (r : Fin 256) (k c' : Fin 64) (s : Fin 2048) (hs : s.val = 256 * j.val + r.val) :
    (iblk1 V c 0 t : Vec F S1x256x64x64 .f32) (ix4 0 r k c')
      = (V c main_v44 : S4x2048x64x64.Idx → Elt F .f32) (ix4 b s k c') := by
  obtain ⟨⟨e0, e1, e2, e3⟩, -⟩ := idx_facts1 t
  unfold iblk1
  rw [View.read_apply]
  show V c main_v44 _ = V c main_v44 _
  congr 1
  funext a
  apply Fin.ext
  match a with
  | ⟨0, _⟩ => show win1_0.index t (0 : Fin 4) * 1 + 1 * (0 : Fin 1).val = b.val; rw [e0]; have := j.isLt; simp only [Fin.val_zero]; omega
  | ⟨1, _⟩ => show win1_0.index t (1 : Fin 4) * 256 + 1 * r.val = s.val; rw [e1, hs]; have := j.isLt; omega
  | ⟨2, _⟩ => show win1_0.index t (2 : Fin 4) * 64 + 1 * k.val = k.val; rw [e2]; omega
  | ⟨3, _⟩ => show win1_0.index t (3 : Fin 4) * 64 + 1 * c'.val = c'.val; rw [e3]; omega

/-- Window 1's one-element block at point t = 8 b + j is the [4, 1, 1, 1] array at batch b. -/
theorem iblk1_1_apply (c : Dev nD) (t : Fin cfg1.N) (b : Fin 4) (j : Fin 8) (ht : t.val = 8 * b.val + j.val) :
    (iblk1 V c 1 t : Vec F S1x1x1x1 .f32) (ix4 0 0 0 0)
      = (V c main_v48 : S4x1x1x1.Idx → Elt F .f32) (ix4 b 0 0 0) := by
  obtain ⟨-, ⟨e0, e1, e2, e3⟩, -⟩ := idx_facts1 t
  unfold iblk1
  rw [View.read_apply]
  show V c main_v48 _ = V c main_v48 _
  congr 1
  funext a
  apply Fin.ext
  match a with
  | ⟨0, _⟩ => show win1_1.index t (0 : Fin 4) * 1 + 1 * (0 : Fin 1).val = b.val; rw [e0]; have := j.isLt; simp only [Fin.val_zero]; omega
  | ⟨1, _⟩ => show win1_1.index t (1 : Fin 4) * 1 + 1 * (0 : Fin 1).val = (0 : Fin 1).val; rw [e1]; simp only [Fin.val_zero]
  | ⟨2, _⟩ => show win1_1.index t (2 : Fin 4) * 1 + 1 * (0 : Fin 1).val = (0 : Fin 1).val; rw [e2]; simp only [Fin.val_zero]
  | ⟨3, _⟩ => show win1_1.index t (3 : Fin 4) * 1 + 1 * (0 : Fin 1).val = (0 : Fin 1).val; rw [e3]; simp only [Fin.val_zero]

/-- Window 2's block at any point is its whole [1, 1, 1, 64] array. -/
theorem iblk1_2_apply (c : Dev nD) (t : Fin cfg1.N) (c' : Fin 64) :
    (iblk1 V c 2 t : Vec F S1x1x1x64 .f32) (ix4 0 0 0 c')
      = (V c main_arg3 : S1x1x1x64.Idx → Elt F .f32) (ix4 0 0 0 c') := by
  obtain ⟨-, -, ⟨e0, e1, e2, e3⟩, -⟩ := idx_facts1 t
  unfold iblk1
  rw [View.read_apply]
  show V c main_arg3 _ = V c main_arg3 _
  congr 1
  funext a
  apply Fin.ext
  match a with
  | ⟨0, _⟩ => show win1_2.index t (0 : Fin 4) * 1 + 1 * (0 : Fin 1).val = (0 : Fin 1).val; rw [e0]; simp only [Fin.val_zero]
  | ⟨1, _⟩ => show win1_2.index t (1 : Fin 4) * 1 + 1 * (0 : Fin 1).val = (0 : Fin 1).val; rw [e1]; simp only [Fin.val_zero]
  | ⟨2, _⟩ => show win1_2.index t (2 : Fin 4) * 1 + 1 * (0 : Fin 1).val = (0 : Fin 1).val; rw [e2]; simp only [Fin.val_zero]
  | ⟨3, _⟩ => show win1_2.index t (3 : Fin 4) * 64 + 1 * c'.val = c'.val; rw [e3]; omega

/-- Window 3's block at any point is its whole [1, 1, 1, 64] array. -/
theorem iblk1_3_apply (c : Dev nD) (t : Fin cfg1.N) (c' : Fin 64) :
    (iblk1 V c 3 t : Vec F S1x1x1x64 .f32) (ix4 0 0 0 c')
      = (V c main_arg4 : S1x1x1x64.Idx → Elt F .f32) (ix4 0 0 0 c') := by
  obtain ⟨-, -, -, ⟨e0, e1, e2, e3⟩, -⟩ := idx_facts1 t
  unfold iblk1
  rw [View.read_apply]
  show V c main_arg4 _ = V c main_arg4 _
  congr 1
  funext a
  apply Fin.ext
  match a with
  | ⟨0, _⟩ => show win1_3.index t (0 : Fin 4) * 1 + 1 * (0 : Fin 1).val = (0 : Fin 1).val; rw [e0]; simp only [Fin.val_zero]
  | ⟨1, _⟩ => show win1_3.index t (1 : Fin 4) * 1 + 1 * (0 : Fin 1).val = (0 : Fin 1).val; rw [e1]; simp only [Fin.val_zero]
  | ⟨2, _⟩ => show win1_3.index t (2 : Fin 4) * 1 + 1 * (0 : Fin 1).val = (0 : Fin 1).val; rw [e2]; simp only [Fin.val_zero]
  | ⟨3, _⟩ => show win1_3.index t (3 : Fin 4) * 64 + 1 * c'.val = c'.val; rw [e3]; omega

/-! ## The output blocks tile the output array -/

/-- An index of the output array is in point t's block iff each coordinate is in the block's range on its axis. -/
theorem mem_blk1 (t : Fin cfg1.N) (i : S4x2048x64x64.Idx) :
    i ∈ ((cfg1.win 4).blk t).view.set ↔ ∀ a : Fin 4, win1_4.index t a * S1x256x64x64.size a ≤ (i a).val
      ∧ (i a).val < win1_4.index t a * S1x256x64x64.size a + S1x256x64x64.size a := by
  show i ∈ ((View.whole main_v49).slice (win1_4.rect t)).set ↔ _
  rw [View.set_slice_whole, Rect.mem_set_unit]
  exact Iff.rfl

/-- Every index of the output array lies in the block of a point (which writes it back): row s of batch b in that of
    point 8 b + s / 256. -/
theorem cover1 (i : S4x2048x64x64.Idx) :
    ∃ t : Fin cfg1.N, (cfg1.win 4).flush t = true ∧ i ∈ ((cfg1.win 4).blk t).view.set := by
  have h0 : (i 0).val < 4 := (i 0).isLt
  have h1 : (i 1).val < 2048 := (i 1).isLt
  have h2 : (i 2).val < 64 := (i 2).isLt
  have h3 : (i 3).val < 64 := (i 3).isLt
  have hN : cfg1.N = 32 := N_1
  obtain ⟨t, ht⟩ : ∃ t : Fin cfg1.N, t.val = 8 * (i 0).val + (i 1).val / 256 := ⟨⟨8 * (i 0).val + (i 1).val / 256, by omega⟩, rfl⟩
  obtain ⟨-, -, -, -, e0, e1, e2, e3⟩ := idx_facts1 t
  refine ⟨t, flush1_4 t, ?_⟩
  rw [mem_blk1]
  intro a
  match a with
  | ⟨0, _⟩ => show win1_4.index t (0 : Fin 4) * 1 ≤ (i 0).val ∧ (i 0).val < win1_4.index t (0 : Fin 4) * 1 + 1; rw [e0]; omega
  | ⟨1, _⟩ => show win1_4.index t (1 : Fin 4) * 256 ≤ (i 1).val ∧ (i 1).val < win1_4.index t (1 : Fin 4) * 256 + 256; rw [e1]; omega
  | ⟨2, _⟩ => show win1_4.index t (2 : Fin 4) * 64 ≤ (i 2).val ∧ (i 2).val < win1_4.index t (2 : Fin 4) * 64 + 64; rw [e2]; omega
  | ⟨3, _⟩ => show win1_4.index t (3 : Fin 4) * 64 ≤ (i 3).val ∧ (i 3).val < win1_4.index t (3 : Fin 4) * 64 + 64; rw [e3]; omega

/-! ## From the blocks to the array -/

/-- When what every point leaves in the output block is that point's block of ONE function G of the array's indices, the
    output array after the region is G: each write-back writes its block of G, and the blocks cover the array. -/
theorem final1 (c : Dev nD) (G : S4x2048x64x64.Idx → Elt F .f32)
    (hG : ∀ (t : Fin cfg1.N) (y : S1x256x64x64.Idx),
      ((dat1 V c).after 4 t : Vec F S1x256x64x64 .f32) y = G (((cfg1.win 4).blk t).view.emb y)) :
    (dat1 V c).arrAt 4 cfg1.N = G :=
  (dat1 V c).arrAt_eq_of_cover 4 G (fun t _ => funext fun y => hG t y) cover1

/-! ## The array at an index -/

/-- A block index of the [1, 256, 64, 64] block is its row and two inner coordinates (the leading coordinate is 0). -/
theorem eq_ix4_blk1 (y : S1x256x64x64.Idx) : ∃ (r : Fin 256) (k c' : Fin 64), y = ix4 0 r k c' :=
  ⟨y 1, y 2, y 3, by
    funext a
    match a with
    | ⟨0, _⟩ => apply Fin.ext; have h : (y 0).val < 1 := (y 0).isLt; show (y 0).val = 0; omega
    | ⟨1, _⟩ => rfl
    | ⟨2, _⟩ => rfl
    | ⟨3, _⟩ => rfl⟩

/-- The four input arrays as the region finds them, as functions of their literal index types: the [4, 2048, 64, 64]
    tensor, the per-batch [4, 1, 1, 1] scalars, and the two [1, 1, 1, 64] vectors (scale and shift). -/
abbrev arrX1 (c : Dev nD) : S4x2048x64x64.Idx → Elt F .f32 := V c main_v44
abbrev arrS1 (c : Dev nD) : S4x1x1x1.Idx → Elt F .f32 := V c main_v48
abbrev arrG1 (c : Dev nD) : S1x1x1x64.Idx → Elt F .f32 := V c main_arg3
abbrev arrB1 (c : Dev nD) : S1x1x1x64.Idx → Elt F .f32 := V c main_arg4

section AtIndex
/- The stored value at a block index (0, r, k, c') as a function Φ of: the 64 entries (0, r, ·, c') of the tensor block
   (the row the sum runs over), the position k, the scalar block's entry and the two vectors' entries at c'. -/
variable (Φ : (Fin 64 → Elt F .f32) → Fin 64 → Elt F .f32 → Elt F .f32 → Elt F .f32 → Elt F .f32)
  (hpay : ∀ (v0 : Vec F S1x256x64x64 .f32) (v8 : Vec F S1x1x1x1 .f32) (v14 v19 : Vec F S1x1x1x64 .f32) (r : Fin 256) (k c' : Fin 64),
    k1_pay1 v0 v8 v14 v19 (ix4 0 r k c')
      = Φ (fun k' => v0 (ix4 0 r k' c')) k (v8 (ix4 0 0 0 0)) (v14 (ix4 0 0 0 c')) (v19 (ix4 0 0 0 c')))

/-- The same function of the entry arrays, at an index (b, s, k, c') of the output array. -/
def arr1 (c : Dev nD) (b : Fin 4) (s : Fin 2048) (k c' : Fin 64) : Elt F .f32 :=
  Φ (fun k' => arrX1 V c (ix4 b s k' c')) k (arrS1 V c (ix4 b 0 0 0)) (arrG1 V c (ix4 0 0 0 c')) (arrB1 V c (ix4 0 0 0 c'))

include hpay in
/-- What point t leaves in the output block at (0, r, k, c') is that function at batch t / 8, row 256 (t % 8) + r. -/
theorem after1_4_apply (c : Dev nD) (t : Fin cfg1.N) (r : Fin 256) (k c' : Fin 64)
    (b : Fin 4) (s : Fin 2048) (k₂ c₂ : Fin 64)
    (hb : b.val = t.val / 8) (hs : s.val = 256 * (t.val % 8) + r.val) (hk : k₂.val = k.val) (hc : c₂.val = c'.val) :
    ((dat1 V c).after 4 t : Vec F S1x256x64x64 .f32) (ix4 0 r k c') = arr1 V Φ c b s k₂ c₂ := by
  obtain rfl : k₂ = k := Fin.ext hk
  obtain rfl : c₂ = c' := Fin.ext hc
  have hN : cfg1.N = 32 := N_1
  have htlt : t.val < 32 := hN ▸ t.isLt
  have ht : t.val = 8 * b.val + (⟨t.val % 8, by omega⟩ : Fin 8).val := by show t.val = 8 * b.val + t.val % 8; omega
  rw [after1_4, out1_4_eq]
  refine (hpay _ _ _ _ r k₂ c₂).trans ?_
  unfold arr1
  have e0 : (fun k' => (iblk1 V c 0 t : Vec F S1x256x64x64 .f32) (ix4 0 r k' c₂))
      = fun k' => (V c main_v44 : S4x2048x64x64.Idx → Elt F .f32) (ix4 b s k' c₂) :=
    funext fun k' => iblk1_0_apply V c t b ⟨t.val % 8, by omega⟩ ht r k' c₂ s hs
  rw [e0, iblk1_1_apply V c t b ⟨t.val % 8, by omega⟩ ht, iblk1_2_apply V c t c₂, iblk1_3_apply V c t c₂]

include hpay in
/-- THE OUTPUT ARRAY after the region, at an index. -/
theorem final1_apply (c : Dev nD) (b : Fin 4) (s : Fin 2048) (k c' : Fin 64) :
    ((dat1 V c).arrAt 4 cfg1.N : S4x2048x64x64.Idx → Elt F .f32) (ix4 b s k c') = arr1 V Φ c b s k c' := by
  have h := final1 V c (fun i => arr1 V Φ c (i 0) (i 1) (i 2) (i 3)) (fun t y => by
    obtain ⟨r, k, c', rfl⟩ := eq_ix4_blk1 y
    obtain ⟨-, -, -, -, e0, e1, e2, e3⟩ := idx_facts1 t
    refine after1_4_apply V Φ hpay c t r k c' _ _ _ _ ?_ ?_ ?_ ?_
    · show win1_4.index t (0 : Fin 4) * 1 + 1 * (0 : Fin 1).val = t.val / 8; rw [e0]; simp only [Fin.val_zero]; omega
    · show win1_4.index t (1 : Fin 4) * 256 + 1 * r.val = 256 * (t.val % 8) + r.val; rw [e1]; omega
    · show win1_4.index t (2 : Fin 4) * 64 + 1 * k.val = k.val; rw [e2]; omega
    · show win1_4.index t (3 : Fin 4) * 64 + 1 * c'.val = c'.val; rw [e3]; omega)
  exact congrFun h (ix4 b s k c')

end AtIndex

end Value1

/-! ## At the exact-real instance -/

section AtIdeal
variable (V : (c : Dev nD) → (b : Ref sig .tc) → Buf (Elt Ideal) ((c : Thread nD τ).loc b))

/-- With the stored value at an index the normalized entry — the entry less the mean of its 64-entry row, scaled by the
    first vector and by the reciprocal of the batch's scalar plus a small constant, shifted by the second vector —,
    the output array at an index is that expression of the entry arrays. -/
theorem final1_apply_ideal (c : Dev nD)
    (hpay : ∀ (v0 : Vec Ideal S1x256x64x64 .f32) (v8 : Vec Ideal S1x1x1x1 .f32) (v14 v19 : Vec Ideal S1x1x1x64 .f32) (r : Fin 256) (k c' : Fin 64),
      k1_pay1 v0 v8 v14 v19 (ix4 0 r k c')
        = (v14 (ix4 0 0 0 c') * (v0 (ix4 0 r k c') - (0 + ∑ k' : Fin 64, v0 (ix4 0 r k' c')) * Ideal.ofBits .f32 0x3C800000#32))
            * (Ideal.ofBits .f32 0x3F800000#32 / (v8 (ix4 0 0 0 0) + Ideal.ofBits .f32 0x3727C5AC#32)) + v19 (ix4 0 0 0 c'))
    (b : Fin 4) (s : Fin 2048) (k c' : Fin 64) :
    ((dat1 V c).arrAt 4 cfg1.N : S4x2048x64x64.Idx → EReal) (ix4 b s k c')
      = (arrG1 V c (ix4 0 0 0 c')
            * (arrX1 V c (ix4 b s k c') - (0 + ∑ k' : Fin 64, arrX1 V c (ix4 b s k' c')) * Ideal.ofBits .f32 0x3C800000#32))
          * (Ideal.ofBits .f32 0x3F800000#32 / (arrS1 V c (ix4 b 0 0 0) + Ideal.ofBits .f32 0x3727C5AC#32))
        + arrB1 V c (ix4 0 0 0 c') :=
  final1_apply V
    (fun row k x8 x14 x19 => (x14 * (row k - (0 + ∑ k' : Fin 64, row k') * Ideal.ofBits .f32 0x3C800000#32))
      * (Ideal.ofBits .f32 0x3F800000#32 / (x8 + Ideal.ofBits .f32 0x3727C5AC#32)) + x19)
    hpay c b s k c'

end AtIdeal

/-- info: 'Cert.KernelIdeal.Hand.final1_apply' depends on axioms: [propext, Classical.choice, Quot.sound] -/
#guard_msgs in #print axioms final1_apply

end Cert.KernelIdeal.Hand
end
-- ==== Proof.KIPayloads.lean ====
/-
  The two kernel bodies' arithmetic read at an index, at the exact-real values (every float an extended real, every
  operation the exact one).

  Body 0 adds to a one-element accumulator the sum, over rows r and channels c of a [1,256,64,64] block x, of
  Σ_k x[r,k,c]² − (Σ_k x[r,k,c])·(Σ_k x[r,k,c])·(1/64): the block's sum of squared deviations from the per-(r,c)
  mean over the axis k. Body 1 writes α_c·(x[r,k,c] − (Σ_k' x[r,k',c])·(1/64))·(1/(σ + ε)) + β_c.

  Each non-pointwise operation (a sum over one axis, a reshape that inserts a unit axis, a broadcast along unit axes)
  is first read at an index named by its coordinates; the two bodies' values are then assembled from those readings.
-/
import proofs.«157503_j446676598875_2_alg».proof.Proof.Gen.KernelIdeal.Skeleton
import Idealize.ShloMosaic.Lib.Pipeline.Value
import Idealize.ShloMosaic.Lib.ValueIdx
import Idealize.ShloMosaic.PureOps.Ideal.Laws

noncomputable section

open scoped BigOperators

namespace Cert.KernelIdeal.Payloads

open Idealize.ShloMosaic Idealize.ShloMosaic.ValueIdx Cert.KernelIdeal

/-! ## Sums over one axis, read at an index -/

/-- The sum over the third axis (k) of a [1,256,64,64] block, at (0, r, c): Σ_k x[0,r,k,c]. -/
theorem sum_axis2_apply (x : FVec Ideal S1x256x64x64 .f32) (h : S1x256x64x64.Reduces [2] S1x256x64)
    (hφ : FKind.Formats .f32) (hacc : (0x00000000#32 : BitVec 32) = FKind.add.neutral .f32 hφ) (r : Fin 256) (c : Fin 64) :
    multiReduction (F := Ideal) .add [2] S1x256x64 x 0x00000000#32 h hφ hacc (ix3 (0 : Fin 1) r c)
      = ∑ k : Fin 64, x (ix4 (0 : Fin 1) r k c) := by
  refine (Ideal.multiReduction_add_single x 0x00000000#32 h hφ hacc (ix3 (0 : Fin 1) r c)).trans ?_
  refine Finset.sum_congr rfl fun k _ => congrArg x (funext fun a => Fin.ext ?_)
  match a with
  | ⟨0, _⟩ => rfl
  | ⟨1, _⟩ => rfl
  | ⟨2, _⟩ => rfl
  | ⟨3, _⟩ => rfl

/-- The sum over the last axis (c) of a [1,256,1,64] block, at (0, r, 0): Σ_c x[0,r,0,c]. -/
theorem sum_axis3_apply (x : FVec Ideal S1x256x1x64 .f32) (h : S1x256x1x64.Reduces [3] S1x256x1)
    (hφ : FKind.Formats .f32) (hacc : (0x00000000#32 : BitVec 32) = FKind.add.neutral .f32 hφ) (r : Fin 256) :
    multiReduction (F := Ideal) .add [3] S1x256x1 x 0x00000000#32 h hφ hacc (ix3 (0 : Fin 1) r (0 : Fin 1))
      = ∑ c : Fin 64, x (ix4 (0 : Fin 1) r (0 : Fin 1) c) := by
  refine (Ideal.multiReduction_add_single x 0x00000000#32 h hφ hacc (ix3 (0 : Fin 1) r (0 : Fin 1))).trans ?_
  refine Finset.sum_congr rfl fun k _ => congrArg x (funext fun a => Fin.ext ?_)
  match a with
  | ⟨0, _⟩ => rfl
  | ⟨1, _⟩ => rfl
  | ⟨2, _⟩ => rfl
  | ⟨3, _⟩ => rfl

/-- The sum over the second axis (r) of a [1,256,1,1] block, at (0, 0, 0): Σ_r x[0,r,0,0]. -/
theorem sum_axis1_apply (x : FVec Ideal S1x256x1x1 .f32) (h : S1x256x1x1.Reduces [1] S1x1x1)
    (hφ : FKind.Formats .f32) (hacc : (0x00000000#32 : BitVec 32) = FKind.add.neutral .f32 hφ) :
    multiReduction (F := Ideal) .add [1] S1x1x1 x 0x00000000#32 h hφ hacc (ix3 (0 : Fin 1) (0 : Fin 1) (0 : Fin 1))
      = ∑ r : Fin 256, x (ix4 (0 : Fin 1) r (0 : Fin 1) (0 : Fin 1)) := by
  refine (Ideal.multiReduction_add_single x 0x00000000#32 h hφ hacc (ix3 (0 : Fin 1) (0 : Fin 1) (0 : Fin 1))).trans ?_
  refine Finset.sum_congr rfl fun k _ => congrArg x (funext fun a => Fin.ext ?_)
  match a with
  | ⟨0, _⟩ => rfl
  | ⟨1, _⟩ => rfl
  | ⟨2, _⟩ => rfl
  | ⟨3, _⟩ => rfl

/-! ## Reshapes that insert a unit axis, read at an index -/

/-- [1,256,64] viewed [1,256,1,64]: the element at (0, r, 0, c) is the operand's at (0, r, c). -/
theorem cast_mid_unit_apply {α : Type} (x : S1x256x64.Idx → α) (h : S1x256x64.ShapeCasts S1x256x1x64) (r : Fin 256) (c : Fin 64) :
    shapeCast S1x256x1x64 x h (ix4 (0 : Fin 1) r (0 : Fin 1) c) = x (ix3 (0 : Fin 1) r c) := by
  refine shapeCast_apply x h _ (ix3 (0 : Fin 1) r c) ?_
  rw [Shape.rowMajor_val_three, Shape.rowMajor_val_four]
  show (0 * 256 + r.val) * 64 + c.val = ((0 * 256 + r.val) * 1 + 0) * 64 + c.val
  omega

/-- [1,256,1] viewed [1,256,1,1]: the element at (0, r, 0, 0) is the operand's at (0, r, 0). -/
theorem cast_row_unit_apply {α : Type} (x : S1x256x1.Idx → α) (h : S1x256x1.ShapeCasts S1x256x1x1) (r : Fin 256) :
    shapeCast S1x256x1x1 x h (ix4 (0 : Fin 1) r (0 : Fin 1) (0 : Fin 1)) = x (ix3 (0 : Fin 1) r (0 : Fin 1)) := by
  refine shapeCast_apply x h _ (ix3 (0 : Fin 1) r (0 : Fin 1)) ?_
  rw [Shape.rowMajor_val_three, Shape.rowMajor_val_four]
  show (0 * 256 + r.val) * 1 + 0 = ((0 * 256 + r.val) * 1 + 0) * 1 + 0
  omega

/-- [1,1,1] viewed [1,1,1,1]: the one element is the operand's one element. -/
theorem cast_one_unit_apply {α : Type} (x : S1x1x1.Idx → α) (h : S1x1x1.ShapeCasts S1x1x1x1) :
    shapeCast S1x1x1x1 x h (ix4 (0 : Fin 1) (0 : Fin 1) (0 : Fin 1) (0 : Fin 1)) = x (ix3 (0 : Fin 1) (0 : Fin 1) (0 : Fin 1)) := by
  refine shapeCast_apply x h _ (ix3 (0 : Fin 1) (0 : Fin 1) (0 : Fin 1)) ?_
  rw [Shape.rowMajor_val_three, Shape.rowMajor_val_four]
  rfl

/-! ## Broadcasts along unit axes, read at an index -/

/-- [1,256,1,64] laid along the k axis of [1,256,64,64]: at (0, r, k, c) the operand's (0, r, 0, c). -/
theorem bcast_k_apply {α : Type} (x : S1x256x1x64.Idx → α) (h : S1x256x1x64.Broadcasts S1x256x64x64)
    (r : Fin 256) (k c : Fin 64) :
    broadcastTo S1x256x64x64 x h (ix4 (0 : Fin 1) r k c) = x (ix4 (0 : Fin 1) r (0 : Fin 1) c) := by
  refine broadcastTo_apply x h _ (ix4 (0 : Fin 1) r (0 : Fin 1) c) fun a => ?_
  match a with
  | ⟨0, _⟩ => rfl
  | ⟨1, _⟩ => rfl
  | ⟨2, _⟩ => rfl
  | ⟨3, _⟩ => rfl

/-- A per-channel row [1,1,1,64] laid over [1,256,64,64]: at (0, r, k, c) the operand's (0, 0, 0, c). -/
theorem bcast_chan_apply {α : Type} (x : S1x1x1x64.Idx → α) (h : S1x1x1x64.Broadcasts S1x256x64x64)
    (r : Fin 256) (k c : Fin 64) :
    broadcastTo S1x256x64x64 x h (ix4 (0 : Fin 1) r k c) = x (ix4 (0 : Fin 1) (0 : Fin 1) (0 : Fin 1) c) := by
  refine broadcastTo_apply x h _ (ix4 (0 : Fin 1) (0 : Fin 1) (0 : Fin 1) c) fun a => ?_
  match a with
  | ⟨0, _⟩ => rfl
  | ⟨1, _⟩ => rfl
  | ⟨2, _⟩ => rfl
  | ⟨3, _⟩ => rfl

/-- A one-element block [1,1,1,1] laid over [1,256,64,64]: everywhere its one element. -/
theorem bcast_one_apply {α : Type} (x : S1x1x1x1.Idx → α) (h : S1x1x1x1.Broadcasts S1x256x64x64)
    (r : Fin 256) (k c : Fin 64) :
    broadcastTo S1x256x64x64 x h (ix4 (0 : Fin 1) r k c) = x (ix4 (0 : Fin 1) (0 : Fin 1) (0 : Fin 1) (0 : Fin 1)) := by
  refine broadcastTo_apply x h _ (ix4 (0 : Fin 1) (0 : Fin 1) (0 : Fin 1) (0 : Fin 1)) fun a => ?_
  match a with
  | ⟨0, _⟩ => rfl
  | ⟨1, _⟩ => rfl
  | ⟨2, _⟩ => rfl
  | ⟨3, _⟩ => rfl

/-! ## The compositions the bodies use -/

/-- The sum over k kept as a unit axis: (Σ_k x[0,r,k,c]) at (0, r, 0, c). -/
theorem colsum_apply (x : FVec Ideal S1x256x64x64 .f32) (h : S1x256x64x64.Reduces [2] S1x256x64)
    (hc : S1x256x64.ShapeCasts S1x256x1x64) (hφ : FKind.Formats .f32)
    (hacc : (0x00000000#32 : BitVec 32) = FKind.add.neutral .f32 hφ) (r : Fin 256) (c : Fin 64) :
    shapeCast S1x256x1x64 (multiReduction (F := Ideal) .add [2] S1x256x64 x 0x00000000#32 h hφ hacc) hc
        (ix4 (0 : Fin 1) r (0 : Fin 1) c)
      = ∑ k : Fin 64, x (ix4 (0 : Fin 1) r k c) :=
  (cast_mid_unit_apply _ hc r c).trans (sum_axis2_apply x h hφ hacc r c)

/-- The sum over c kept as a unit axis: (Σ_c x[0,r,0,c]) at (0, r, 0, 0). -/
theorem rowsum_apply (x : FVec Ideal S1x256x1x64 .f32) (h : S1x256x1x64.Reduces [3] S1x256x1)
    (hc : S1x256x1.ShapeCasts S1x256x1x1) (hφ : FKind.Formats .f32)
    (hacc : (0x00000000#32 : BitVec 32) = FKind.add.neutral .f32 hφ) (r : Fin 256) :
    shapeCast S1x256x1x1 (multiReduction (F := Ideal) .add [3] S1x256x1 x 0x00000000#32 h hφ hacc) hc
        (ix4 (0 : Fin 1) r (0 : Fin 1) (0 : Fin 1))
      = ∑ c : Fin 64, x (ix4 (0 : Fin 1) r (0 : Fin 1) c) :=
  (cast_row_unit_apply _ hc r).trans (sum_axis3_apply x h hφ hacc r)

/-- The sum over r kept as a unit axis: (Σ_r x[0,r,0,0]) at (0, 0, 0, 0). -/
theorem totsum_apply (x : FVec Ideal S1x256x1x1 .f32) (h : S1x256x1x1.Reduces [1] S1x1x1)
    (hc : S1x1x1.ShapeCasts S1x1x1x1) (hφ : FKind.Formats .f32)
    (hacc : (0x00000000#32 : BitVec 32) = FKind.add.neutral .f32 hφ) :
    shapeCast S1x1x1x1 (multiReduction (F := Ideal) .add [1] S1x1x1 x 0x00000000#32 h hφ hacc) hc
        (ix4 (0 : Fin 1) (0 : Fin 1) (0 : Fin 1) (0 : Fin 1))
      = ∑ r : Fin 256, x (ix4 (0 : Fin 1) r (0 : Fin 1) (0 : Fin 1)) :=
  (cast_one_unit_apply _ hc).trans (sum_axis1_apply x h hφ hacc)

/-! ## Body 0 -/

/-- The value body 0 stores on the first step of a batch: the zero word, which is the real 0. -/
theorem k0_pay1_apply :
    (Gen.k0_pay1 (F := Ideal)) (ix4 (0 : Fin 1) (0 : Fin 1) (0 : Fin 1) (0 : Fin 1)) = 0 := by
  unfold Gen.k0_pay1
  simp only [shapeCast_self]
  exact Ideal.ofBits_zero_f32

/-- One (row, channel) term of body 0: Σ_k x² − (Σ_k x)·(Σ_k x)·w, with the sums kept as a unit axis and w a scalar
    laid over the block. -/
theorem dev_apply (x : FVec Ideal S1x256x64x64 .f32) (w : Ideal .f32) (h : S1x256x64x64.Reduces [2] S1x256x64)
    (hc : S1x256x64.ShapeCasts S1x256x1x64) (hφ : FKind.Formats .f32)
    (hacc : (0x00000000#32 : BitVec 32) = FKind.add.neutral .f32 hφ) (r : Fin 256) (c : Fin 64) :
    subf (shapeCast S1x256x1x64 (multiReduction (F := Ideal) .add [2] S1x256x64 (mulf x x) 0x00000000#32 h hφ hacc) hc)
        (mulf
          (mulf (shapeCast S1x256x1x64 (multiReduction (F := Ideal) .add [2] S1x256x64 x 0x00000000#32 h hφ hacc) hc)
            (shapeCast S1x256x1x64 (multiReduction (F := Ideal) .add [2] S1x256x64 x 0x00000000#32 h hφ hacc) hc))
          (broadcast S1x256x1x64 w))
        (ix4 (0 : Fin 1) r (0 : Fin 1) c)
      = (∑ k : Fin 64, x (ix4 (0 : Fin 1) r k c) * x (ix4 (0 : Fin 1) r k c))
          - ((∑ k : Fin 64, x (ix4 (0 : Fin 1) r k c)) * (∑ k : Fin 64, x (ix4 (0 : Fin 1) r k c))) * w := by
  rw [subf_apply, mulf_apply, mulf_apply, broadcast_apply, colsum_apply, colsum_apply]
  rfl

/-- THE VALUE BODY 0 STORES: the accumulator's element plus the block's
    Σ_r Σ_c [ Σ_k x[r,k,c]² − (Σ_k x[r,k,c])·(Σ_k x[r,k,c])·(1/64) ] (the word 0x3C800000 is 1/64; it is kept as a word). -/
theorem k0_pay2_apply (v3 : Vec Ideal S1x256x64x64 .f32) (v18 : Vec Ideal S1x1x1x1 .f32) :
    Gen.k0_pay2 v3 v18 (ix4 (0 : Fin 1) (0 : Fin 1) (0 : Fin 1) (0 : Fin 1))
      = v18 (ix4 (0 : Fin 1) (0 : Fin 1) (0 : Fin 1) (0 : Fin 1))
        + ∑ r : Fin 256, ∑ c : Fin 64,
            ((∑ k : Fin 64, v3 (ix4 (0 : Fin 1) r k c) * v3 (ix4 (0 : Fin 1) r k c))
              - ((∑ k : Fin 64, v3 (ix4 (0 : Fin 1) r k c)) * (∑ k : Fin 64, v3 (ix4 (0 : Fin 1) r k c)))
                * Ideal.ofBits .f32 0x3C800000#32) := by
  unfold Gen.k0_pay2
  simp only [shapeCast_self]
  rw [addf_apply]
  refine congrArg (v18 (ix4 (0 : Fin 1) (0 : Fin 1) (0 : Fin 1) (0 : Fin 1)) + ·) ?_
  refine (totsum_apply _ _ _ _ _).trans ?_
  refine Finset.sum_congr rfl fun r _ => ?_
  refine (rowsum_apply _ _ _ _ _ r).trans ?_
  refine Finset.sum_congr rfl fun c _ => ?_
  exact dev_apply v3 (Ideal.ofBits .f32 0x3C800000#32) _ _ _ _ r c

/-! ## Body 1 -/

/-- The per-(row, channel) sum over k times a scalar w, laid back along k: at (0, r, k, c) it is (Σ_k' x[0,r,k',c])·w. -/
theorem mean_bcast_apply (x : FVec Ideal S1x256x64x64 .f32) (w : Ideal .f32) (h : S1x256x64x64.Reduces [2] S1x256x64)
    (hc : S1x256x64.ShapeCasts S1x256x1x64) (hb : S1x256x1x64.Broadcasts S1x256x64x64) (hφ : FKind.Formats .f32)
    (hacc : (0x00000000#32 : BitVec 32) = FKind.add.neutral .f32 hφ) (r : Fin 256) (k c : Fin 64) :
    broadcastTo S1x256x64x64
        (mulf (shapeCast S1x256x1x64 (multiReduction (F := Ideal) .add [2] S1x256x64 x 0x00000000#32 h hφ hacc) hc)
          (broadcast S1x256x1x64 w)) hb (ix4 (0 : Fin 1) r k c)
      = (∑ k' : Fin 64, x (ix4 (0 : Fin 1) r k' c)) * w := by
  rw [bcast_k_apply, mulf_apply, broadcast_apply, colsum_apply]

/-- The scalar one / (σ + ε) of a one-element block σ, laid over the whole block: everywhere that one quotient. -/
theorem scale_bcast_apply (s : FVec Ideal S1x1x1x1 .f32) (one eps : Ideal .f32) (hb : S1x1x1x1.Broadcasts S1x256x64x64)
    (r : Fin 256) (k c : Fin 64) :
    broadcastTo S1x256x64x64 (divf (broadcast S1x1x1x1 one) (addf s (broadcast S1x1x1x1 eps))) hb (ix4 (0 : Fin 1) r k c)
      = Ideal.div one (s (ix4 (0 : Fin 1) (0 : Fin 1) (0 : Fin 1) (0 : Fin 1)) + eps) := by
  rw [bcast_one_apply, divf_apply, broadcast_apply, addf_apply, broadcast_apply]

/-- THE VALUE BODY 1 STORES at (0, r, k, c): α_c · (x[r,k,c] − (Σ_k' x[r,k',c])·(1/64)) · (1 / (σ + ε)) + β_c, where α and β
    are the two per-channel rows, σ the one-element block, and the words 0x3C800000, 0x3F800000, 0x3727C5AC (1/64, 1 and
    ε) are kept as words. The quotient is the exact-real division with its conventions at zero and infinity. -/
theorem k1_pay1_apply (v0 : Vec Ideal S1x256x64x64 .f32) (v8 : Vec Ideal S1x1x1x1 .f32)
    (v14 v19 : Vec Ideal S1x1x1x64 .f32) (r : Fin 256) (k c : Fin 64) :
    Gen.k1_pay1 v0 v8 v14 v19 (ix4 (0 : Fin 1) r k c)
      = (v14 (ix4 (0 : Fin 1) (0 : Fin 1) (0 : Fin 1) c)
            * (v0 (ix4 (0 : Fin 1) r k c)
                - (∑ k' : Fin 64, v0 (ix4 (0 : Fin 1) r k' c)) * Ideal.ofBits .f32 0x3C800000#32))
          * Ideal.div (Ideal.ofBits .f32 0x3F800000#32)
              (v8 (ix4 (0 : Fin 1) (0 : Fin 1) (0 : Fin 1) (0 : Fin 1)) + Ideal.ofBits .f32 0x3727C5AC#32)
        + v19 (ix4 (0 : Fin 1) (0 : Fin 1) (0 : Fin 1) c) := by
  unfold Gen.k1_pay1
  simp only [shapeCast_self]
  rw [addf_apply, mulf_apply, mulf_apply, subf_apply, bcast_chan_apply, bcast_chan_apply]
  exact congrArg₂ (· + ·)
    (congrArg₂ (· * ·)
      (congrArg (v14 (ix4 (0 : Fin 1) (0 : Fin 1) (0 : Fin 1) c) * ·)
        (congrArg (v0 (ix4 (0 : Fin 1) r k c) - ·)
          (mean_bcast_apply v0 (Ideal.ofBits .f32 0x3C800000#32) _ _ _ _ _ r k c)))
      (scale_bcast_apply v8 (Ideal.ofBits .f32 0x3F800000#32) (Ideal.ofBits .f32 0x3727C5AC#32) _ r k c))
    rfl

/-! ## Every index is of the coordinate form the readings above are stated at -/

/-- An index of the [1,256,64,64] block is (0, r, k, c). -/
theorem exists_block_idx (j : S1x256x64x64.Idx) :
    ∃ (r : Fin 256) (k c : Fin 64), j = ix4 (0 : Fin 1) r k c :=
  ⟨j 1, j 2, j 3, funext fun a => by
    match a with
    | ⟨0, _⟩ => exact Fin.ext (Nat.lt_one_iff.mp (j 0).isLt)
    | ⟨1, _⟩ => rfl
    | ⟨2, _⟩ => rfl
    | ⟨3, _⟩ => rfl⟩

/-- An index of a per-channel row [1,1,1,64] is (0, 0, 0, c). -/
theorem exists_chan_idx (j : S1x1x1x64.Idx) : ∃ c : Fin 64, j = ix4 (0 : Fin 1) (0 : Fin 1) (0 : Fin 1) c :=
  ⟨j 3, funext fun a => by
    match a with
    | ⟨0, _⟩ => exact Fin.ext (Nat.lt_one_iff.mp (j 0).isLt)
    | ⟨1, _⟩ => exact Fin.ext (Nat.lt_one_iff.mp (j 1).isLt)
    | ⟨2, _⟩ => exact Fin.ext (Nat.lt_one_iff.mp (j 2).isLt)
    | ⟨3, _⟩ => rfl⟩

/-- The one index of a one-element block [1,1,1,1] is (0, 0, 0, 0). -/
theorem one_idx_eq (j : S1x1x1x1.Idx) : j = ix4 (0 : Fin 1) (0 : Fin 1) (0 : Fin 1) (0 : Fin 1) :=
  funext fun a => by
    match a with
    | ⟨0, _⟩ => exact Fin.ext (Nat.lt_one_iff.mp (j 0).isLt)
    | ⟨1, _⟩ => exact Fin.ext (Nat.lt_one_iff.mp (j 1).isLt)
    | ⟨2, _⟩ => exact Fin.ext (Nat.lt_one_iff.mp (j 2).isLt)
    | ⟨3, _⟩ => exact Fin.ext (Nat.lt_one_iff.mp (j 3).isLt)

end Cert.KernelIdeal.Payloads

end
-- ==== Proof.KIGlue.lean ====
/- The kernel program's normalized output at the exact-real values, index by index, in terms of what the host prefix and
   the first kernel region computed: at (b, s, k, c') it is α_c' · (x[b,s,k,c'] − (Σ_k' x[b,s,k',c'])·(1/64)) · (1 / (σ_b + ε)) + β_c',
   where x is the grouped tensor the host prefix computed, α and β the two per-channel argument rows as launched, and
   σ_b the square root of the first region's output at batch b over n − 1. The second region's output array is read
   through its blocks; its four input arrays are walked back through the fold of buffer contents to where they were
   last written. -/
import proofs.«157503_j446676598875_2_alg».proof.Proof.KIReads
import proofs.«157503_j446676598875_2_alg».proof.Proof.KIValue1
import proofs.«157503_j446676598875_2_alg».proof.Proof.KIPayloads

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)
open Idealize.ShloMosaic.ValueIdx
open scoped BigOperators

variable (m : (ℓ : Loc nD τ sig) → Buf (Elt Ideal) ℓ)

/-! ## The arrays the value is a function of, by coordinates -/

/-- The grouped tensor [4, 2048, 64, 64] as the host prefix computed it. -/
abbrev Xk (c : Dev nD) (b : Fin 4) (s : Fin 2048) (k c' : Fin 64) : EReal :=
  (W6 m c main_v44 : S4x2048x64x64.Idx → EReal) (ix4 b s k c')
/-- The per-channel scale row [1, 1, 1, 64], as launched. -/
abbrev Ak (c : Dev nD) (c' : Fin 64) : EReal :=
  (m ((c : Thread nD τ).loc main_arg3) : S1x1x1x64.Idx → EReal) (ix4 0 0 0 c')
/-- The per-channel shift row [1, 1, 1, 64], as launched. -/
abbrev Bk (c : Dev nD) (c' : Fin 64) : EReal :=
  (m ((c : Thread nD τ).loc main_arg4) : S1x1x1x64.Idx → EReal) (ix4 0 0 0 c')
/-- The first region's output [4, 1, 1, 1] after its last point: per batch, the accumulated sum. -/
abbrev SS (c : Dev nD) (b : Fin 4) : EReal :=
  ((dat0 (V6 m) c).arrAt 1 cfg0.N : S4x1x1x1.Idx → EReal) (ix4 b 0 0 0)

/-! ## The second region's input arrays, walked back -/

/-- The tensor the second region reads is the host prefix's. -/
theorem arrX1_mid (c : Dev nD) (b : Fin 4) (s : Fin 2048) (k c' : Fin 64) :
    arrX1 (Vmid m) c (ix4 b s k c') = Xk m c b s k c' :=
  congrFun (Vmid_v44 m c) (ix4 b s k c')

/-- The scale row the second region reads is the launched one. -/
theorem arrG1_mid (c : Dev nD) (c' : Fin 64) : arrG1 (Vmid m) c (ix4 0 0 0 c') = Ak m c c' :=
  congrFun (V8_main_arg3 m (region0 (V6 m)) c) (ix4 0 0 0 c')

/-- The shift row the second region reads is the launched one. -/
theorem arrB1_mid (c : Dev nD) (c' : Fin 64) : arrB1 (Vmid m) c (ix4 0 0 0 c') = Bk m c c' :=
  congrFun (V8_main_arg4 m (region0 (V6 m)) c) (ix4 0 0 0 c')

/-- The per-batch scalar the second region reads: the square root of the first region's output over the word
    0x4AFFFFFE (n − 1), the host's quotient and square root the exact-real ones. -/
theorem arrS1_mid (c : Dev nD) (b : Fin 4) :
    arrS1 (Vmid m) c (ix4 b 0 0 0) = Ideal.sqrt (Ideal.div (SS m c b) (Ideal.ofBits .f32 0x4AFFFFFE#32)) := by
  refine (congrFun (Vmid_v48 m c) (ix4 b 0 0 0)).trans ?_
  rw [W7_v45]
  rfl

/-! ## The value -/

/-- THE KERNEL PROGRAM'S OUTPUT at an index. -/
theorem kernel_value (c : Dev nD) (b : Fin 4) (s : Fin 2048) (k c' : Fin 64) :
    (Wend m c (Proc.devRef .tc main_v49) : S4x2048x64x64.Idx → EReal) (ix4 b s k c')
      = (Ak m c c' * (Xk m c b s k c' - (∑ k' : Fin 64, Xk m c b s k' c') * Ideal.ofBits .f32 0x3C800000#32))
          * Ideal.div (Ideal.ofBits .f32 0x3F800000#32)
              (Ideal.sqrt (Ideal.div (SS m c b) (Ideal.ofBits .f32 0x4AFFFFFE#32)) + Ideal.ofBits .f32 0x3727C5AC#32)
        + Bk m c c' := by
  rw [Wend_v49]
  refine (final1_apply (Vmid m)
    (fun row k x8 x14 x19 => (x14 * (row k - (∑ k' : Fin 64, row k') * Ideal.ofBits .f32 0x3C800000#32))
      * Ideal.div (Ideal.ofBits .f32 0x3F800000#32) (x8 + Ideal.ofBits .f32 0x3727C5AC#32) + x19)
    (fun v0 v8 v14 v19 r k c' => Payloads.k1_pay1_apply v0 v8 v14 v19 r k c') c b s k c').trans ?_
  unfold arr1
  have eX : (fun k' => arrX1 (Vmid m) c (ix4 b s k' c')) = fun k' => Xk m c b s k' c' :=
    funext fun k' => arrX1_mid m c b s k' c'
  rw [eX, arrG1_mid, arrB1_mid, arrS1_mid]

/-- info: 'Cert.KernelIdeal.Hand.kernel_value' depends on axioms: [propext, Classical.choice, Quot.sound] -/
#guard_msgs in #print axioms kernel_value

end Cert.KernelIdeal.Hand
end
-- ==== Proof.KIValue0.lean ====
/-
  What region 0 leaves in its output array, at the exact-real values.

  The grid point t = 8 b + j handles rows 256 j … 256 j + 255 of batch b of the input tensor [4, 2048, 64, 64]. Its
  contribution is the sum over those rows r and over channels c' of
    Σ_k x[b, r, k, c']² − (Σ_k x[b, r, k, c'])·(Σ_k x[b, r, k, c'])·(1/64).
  The accumulator restarts from zero at j = 0 and adds one contribution per point; at j = 7 the sum of the batch's eight
  contributions is copied to the output block, which is element b of the output array [4, 1, 1, 1]. So after the region
  the output array at b holds the eight contributions of batch b added in order.
-/
import proofs.«157503_j446676598875_2_alg».proof.Proof.KIRegion0
import proofs.«157503_j446676598875_2_alg».proof.Proof.KIPayloads
import Idealize.ShloMosaic.Lib.Pipeline.Value
import Idealize.ShloMosaic.Lib.ValueIdx

noncomputable section

namespace Cert.KernelIdeal.Hand

open Cert.KernelIdeal Cert.KernelIdeal.Gen Cert.KernelIdeal.Payloads
open Idealize.ShloMosaic Idealize.ShloMosaic.TcCoe Idealize.SL.Sem
open Idealize.ShloMosaic.Pipeline (Dat)
open Idealize.ShloMosaic.ValueIdx
open scoped BigOperators

/-! ## The index maps over the grid -/

/-- The two windows' block indices at grid point t, in closed form: decided over the 32 points. The input's block
    is (t / 8, t % 8, 0, 0), the output's (t / 8, 0, 0, 0). -/
theorem idx_facts0 : ∀ t : Fin cfg0.N,
    (win0_0.index t (0 : Fin 4) = t.val / 8 ∧ win0_0.index t (1 : Fin 4) = t.val % 8 ∧ win0_0.index t (2 : Fin 4) = 0 ∧ win0_0.index t (3 : Fin 4) = 0)
    ∧ (win0_1.index t (0 : Fin 4) = t.val / 8 ∧ win0_1.index t (1 : Fin 4) = 0 ∧ win0_1.index t (2 : Fin 4) = 0 ∧ win0_1.index t (3 : Fin 4) = 0) :=
  (by decide +kernel : ∀ t : Fin grid0.N, _)

/-- Row r of the j-th block of 256 rows is a row of the tensor's 2048. -/
theorem row_lt0 {j : ℕ} (hj : j < 8) (r : Fin 256) : 256 * j + r.val < 2048 := by
  have := r.isLt; omega

section Block
variable {F : FTy → Type} [FloatOps F]
variable (V : (c : Dev nD) → (b : Ref sig .tc) → Buf (Elt F) ((c : Thread nD τ).loc b))

/-- The input block at point t = 8 b + j, at row r, is the tensor's batch b at row 256 j + r. -/
theorem iblk0_apply (c : Dev nD) (t : Fin cfg0.N) (b : Fin 4) (j : ℕ) (hj : j < 8) (ht : t.val = 8 * b.val + j)
    (r : Fin 256) (k c' : Fin 64) :
    (iblk0 V c 0 t : Vec F S1x256x64x64 .f32) (ix4 (0 : Fin 1) r k c')
      = (V c main_v44 : S4x2048x64x64.Idx → Elt F .f32) (ix4 b ⟨256 * j + r.val, row_lt0 hj r⟩ k c') := by
  obtain ⟨⟨e0, e1, e2, e3⟩, -⟩ := idx_facts0 t
  unfold iblk0
  rw [View.read_apply]
  show V c main_v44 _ = V c main_v44 _
  congr 1
  funext a
  apply Fin.ext
  match a with
  | ⟨0, _⟩ => show win0_0.index t (0 : Fin 4) * 1 + 1 * (0 : Fin 1).val = b.val; rw [e0]; simp only [Fin.val_zero]; omega
  | ⟨1, _⟩ => show win0_0.index t (1 : Fin 4) * 256 + 1 * r.val = 256 * j + r.val; rw [e1]; omega
  | ⟨2, _⟩ => show win0_0.index t (2 : Fin 4) * 64 + 1 * k.val = k.val; rw [e2]; omega
  | ⟨3, _⟩ => show win0_0.index t (3 : Fin 4) * 64 + 1 * c'.val = c'.val; rw [e3]; omega

end Block

section Value
-- the TensorCore's buffer contents when the region is entered, at the exact-real values
variable (V : (c : Dev nD) → (b : Ref sig .tc) → Buf (Elt Ideal) ((c : Thread nD τ).loc b))

/-! ## One point's contribution and the running sum -/

/-- The region's input tensor [4, 2048, 64, 64] as the region finds it, as a function of its index. -/
abbrev in0 (c : Dev nD) : S4x2048x64x64.Idx → EReal := V c main_v44

/-- The contribution of the j-th block of 256 rows of batch b: over its rows r and the channels c',
    Σ_k x² − (Σ_k x)·(Σ_k x)·(1/64), x = x[b, 256 j + r, k, c'] (the word 0x3C800000 is 1/64). -/
def tile (c : Dev nD) (b : Fin 4) (j : ℕ) (hj : j < 8) : EReal :=
  ∑ r : Fin 256, ∑ c' : Fin 64,
    ((∑ k : Fin 64, in0 V c (ix4 b ⟨256 * j + r.val, row_lt0 hj r⟩ k c') * in0 V c (ix4 b ⟨256 * j + r.val, row_lt0 hj r⟩ k c'))
      - ((∑ k : Fin 64, in0 V c (ix4 b ⟨256 * j + r.val, row_lt0 hj r⟩ k c')) * (∑ k : Fin 64, in0 V c (ix4 b ⟨256 * j + r.val, row_lt0 hj r⟩ k c')))
        * Ideal.ofBits .f32 0x3C800000#32)

/-- The running sum of batch b after its j-th block: zero plus the first contribution, then one more per block. -/
def accR (c : Dev nD) (b : Fin 4) : (j : ℕ) → j < 8 → EReal
  | 0, h => 0 + tile V c b 0 h
  | j + 1, h => accR c b j (by omega) + tile V c b (j + 1) h

/-- What the body adds at point t = 8 b + j onto an accumulator: that block's contribution. -/
theorem contribution0_apply (c : Dev nD) (t : Fin cfg0.N) (b : Fin 4) (j : ℕ) (hj : j < 8) (ht : t.val = 8 * b.val + j)
    (acc : Vec Ideal S1x1x1x1 .f32) :
    k0_pay2 (iblk0 V c 0 t) acc (ix4 (0 : Fin 1) (0 : Fin 1) (0 : Fin 1) (0 : Fin 1))
      = acc (ix4 (0 : Fin 1) (0 : Fin 1) (0 : Fin 1) (0 : Fin 1)) + tile V c b j hj := by
  refine (k0_pay2_apply _ acc).trans ?_
  refine congrArg (acc (ix4 (0 : Fin 1) (0 : Fin 1) (0 : Fin 1) (0 : Fin 1)) + ·) ?_
  unfold tile
  refine Finset.sum_congr rfl fun r _ => Finset.sum_congr rfl fun c' _ => ?_
  have e : ∀ k : Fin 64, (iblk0 V c 0 t : Vec Ideal S1x256x64x64 .f32) (ix4 (0 : Fin 1) r k c')
      = in0 V c (ix4 b ⟨256 * j + r.val, row_lt0 hj r⟩ k c') := fun k => iblk0_apply V c t b j hj ht r k c'
  simp only [e]

/-- THE ACCUMULATOR after point t = 8 b + j holds the running sum of batch b through block j. -/
theorem accAt0_apply (c : Dev nD) (b : Fin 4) : ∀ (j : ℕ) (hj : j < 8) (t : Fin cfg0.N), t.val = 8 * b.val + j →
    accAt0 V c t.val t.isLt (ix4 (0 : Fin 1) (0 : Fin 1) (0 : Fin 1) (0 : Fin 1)) = accR V c b j hj
  | 0, hj, t, ht => by
    have h0 : t.val % 8 = 0 := by omega
    rw [accAt0_first V c t h0, contribution0_apply V c t b 0 hj ht, k0_pay1_apply]
    rfl
  | j + 1, hj, t, ht => by
    have h0 : ¬t.val % 8 = 0 := by omega
    have hN : cfg0.N = 32 := N_0
    rw [accAt0_next V c t h0, contribution0_apply V c t b (j + 1) hj ht]
    exact congrArg (· + tile V c b (j + 1) hj)
      (accAt0_apply c b j (by omega) ⟨t.val - 1, by have := t.isLt; omega⟩ (by show t.val - 1 = _; omega))

end Value

section Final
variable (V : (c : Dev nD) → (b : Ref sig .tc) → Buf (Elt Ideal) ((c : Thread nD τ).loc b))

/-! ## From the blocks to the array -/

/-- What the output array [4, 1, 1, 1] ends holding: at batch b the sum of the batch's eight contributions. -/
def out0R (c : Dev nD) : S4x1x1x1.Idx → EReal := fun i => accR V c (i 0) 7 (by omega)

/-- An index of the output array is in point t's block iff each coordinate is in the block's range on its axis. -/
theorem mem_blk0 (t : Fin cfg0.N) (i : S4x1x1x1.Idx) :
    i ∈ ((cfg0.win 1).blk t).view.set ↔ ∀ a : Fin 4, win0_1.index t a * S1x1x1x1.size a ≤ (i a).val
      ∧ (i a).val < win0_1.index t a * S1x1x1x1.size a + S1x1x1x1.size a := by
  show i ∈ ((View.whole main_v45).slice (win0_1.rect t)).set ↔ _
  rw [View.set_slice_whole, Rect.mem_set_unit]
  exact Iff.rfl

/-- Every element of the output array is in the block of a point that writes it back: batch b in that of the
    batch's last point, 8 b + 7. -/
theorem cover0 (i : S4x1x1x1.Idx) :
    ∃ t : Fin cfg0.N, (cfg0.win 1).flush t = true ∧ i ∈ ((cfg0.win 1).blk t).view.set := by
  have h0 : (i 0).val < 4 := (i 0).isLt
  have h1 : (i 1).val < 1 := (i 1).isLt
  have h2 : (i 2).val < 1 := (i 2).isLt
  have h3 : (i 3).val < 1 := (i 3).isLt
  have hN : cfg0.N = 32 := N_0
  obtain ⟨t, ht⟩ : ∃ t : Fin cfg0.N, t.val = 8 * (i 0).val + 7 := ⟨⟨8 * (i 0).val + 7, by omega⟩, rfl⟩
  obtain ⟨-, e0, e1, e2, e3⟩ := idx_facts0 t
  refine ⟨t, (flush0_1 t).mpr (by omega), ?_⟩
  rw [mem_blk0]
  intro a
  match a with
  | ⟨0, _⟩ => show win0_1.index t (0 : Fin 4) * 1 ≤ (i 0).val ∧ (i 0).val < win0_1.index t (0 : Fin 4) * 1 + 1; rw [e0]; omega
  | ⟨1, _⟩ => show win0_1.index t (1 : Fin 4) * 1 ≤ (i 1).val ∧ (i 1).val < win0_1.index t (1 : Fin 4) * 1 + 1; rw [e1]; omega
  | ⟨2, _⟩ => show win0_1.index t (2 : Fin 4) * 1 ≤ (i 2).val ∧ (i 2).val < win0_1.index t (2 : Fin 4) * 1 + 1; rw [e2]; omega
  | ⟨3, _⟩ => show win0_1.index t (3 : Fin 4) * 1 ≤ (i 3).val ∧ (i 3).val < win0_1.index t (3 : Fin 4) * 1 + 1; rw [e3]; omega

/-- What a batch's last point writes back is its block of the sums: the accumulator's one element after that point
    is the batch's eight contributions added. -/
theorem flushed0_eq (c : Dev nD) (t : Fin cfg0.N) (hf : (cfg0.win 1).flush t = true) :
    (dat0 V c).flushed 1 t = ((cfg0.win 1).blk t).view.read (Elt Ideal) (out0R V c) := by
  have h7 : t.val % 8 = 7 := (flush0_1 t).mp hf
  have hN : cfg0.N = 32 := N_0
  have ht : t.val < 32 := lt_of_lt_of_eq t.isLt hN
  obtain ⟨-, e0, -, -, -⟩ := idx_facts0 t
  show (cfg0.win 1).cut (grid0.coords t) ((dat0 V c).after 1 t) = _
  rw [after0_1]
  funext y
  obtain rfl : y = ix4 (0 : Fin 1) (0 : Fin 1) (0 : Fin 1) (0 : Fin 1) := one_idx_eq y
  rw [View.read_apply]
  refine (accAt0_apply V c ⟨t.val / 8, by omega⟩ 7 (by omega) t (by show t.val = 8 * (t.val / 8) + 7; omega)).trans ?_
  unfold out0R
  congr 1
  apply Fin.ext
  show t.val / 8 = win0_1.index t (0 : Fin 4) * 1 + 1 * (0 : Fin 1).val
  rw [e0]; simp only [Fin.val_zero]; omega

/-- So the output array ends holding the sums. -/
theorem final0 (c : Dev nD) : (dat0 V c).arrAt 1 cfg0.N = out0R V c :=
  (dat0 V c).arrAt_eq_of_cover 1 (out0R V c) (flushed0_eq V c) cover0

/-- THE OUTPUT ARRAY after the region, at batch b: the batch's eight contributions added in order. -/
theorem final0_apply (c : Dev nD) (b : Fin 4) :
    ((dat0 V c).arrAt 1 cfg0.N : S4x1x1x1.Idx → EReal) (ix4 b (0 : Fin 1) (0 : Fin 1) (0 : Fin 1)) = accR V c b 7 (by omega) := by
  rw [final0 V c]
  rfl

end Final

end Cert.KernelIdeal.Hand

end
-- ==== Proof.Algebra.lean ====
/-
  The real-number mathematics that joins a group normalisation written with centred values to one written with raw
  moments, and the bridge from reals to extended reals.

  For a family x over an index set K with n elements, the deviations d_k = x_k − (Σ x)/n sum to zero, and their squares
  sum to Σ x² − (Σ x)²·(1/n). Summed over groups (s, c) this gives: the total of the deviations is zero (so the global
  mean of the centred tensor is zero), and the total of squared deviations is Σ_{s,c} [Σ_k x² − (Σ_k x)²·(1/n)], a sum of
  squares, hence nonnegative. A sum over 2048 groups splits into 8 tiles of 256, and a left fold of 8 tile sums from 0 is
  their sum. On extended reals: the coercion of a finite real sum is the sum of coercions; exact division of two reals
  with a nonzero divisor, and the square root of a nonnegative real, are the coercions of the real ones.
-/
import Mathlib
import Idealize.ShloMosaic.PureOps.Ideal

noncomputable section

open scoped BigOperators

namespace GroupNormAlg

open Idealize.ShloMosaic

/-! ## Deviations from the mean over one axis -/

section Real
variable {S K C : Type} [Fintype S] [Fintype K] [Fintype C] (n : ℝ)

/-- The deviations from the mean sum to zero: Σ_k (x_k − (Σ x)/n) = Σ x − n·(Σ x)/n = 0. -/
theorem sum_dev (hn : (Fintype.card K : ℝ) = n) (hn0 : n ≠ 0) (x : K → ℝ) :
    ∑ k, (x k - (∑ k', x k') / n) = 0 := by
  rw [Finset.sum_sub_distrib, Finset.sum_const, Finset.card_univ, nsmul_eq_mul, hn]
  have h : n * ((∑ k', x k') / n) = ∑ k', x k' := by field_simp
  rw [h, sub_self]

/-- The squared deviations sum to the raw second moment minus the squared first moment over n:
    Σ_k (x_k − m)² = Σ x² − 2m·Σ x + n·m² with m = (Σ x)/n. -/
theorem sum_dev_sq (hn : (Fintype.card K : ℝ) = n) (hn0 : n ≠ 0) (x : K → ℝ) :
    ∑ k, (x k - (∑ k', x k') / n) * (x k - (∑ k', x k') / n)
      = (∑ k, x k * x k) - ((∑ k, x k) * (∑ k, x k)) * (1 / n) := by
  have key : ∀ T : ℝ, T = ∑ k, x k →
      ∑ k, (x k - T / n) * (x k - T / n) = (∑ k, x k * x k) - (T * T) * (1 / n) := by
    intro T hT
    have h1 : ∀ k, (x k - T / n) * (x k - T / n) = x k * x k - 2 * (T / n) * x k + (T / n) * (T / n) :=
      fun k => by ring
    rw [Finset.sum_congr rfl (fun k _ => h1 k), Finset.sum_add_distrib, Finset.sum_sub_distrib, ← Finset.mul_sum,
      Finset.sum_const, Finset.card_univ, nsmul_eq_mul, hn, ← hT]
    field_simp
    ring
  exact key _ rfl

/-- Over all groups (s, c) the deviations total zero: each group's do. -/
theorem total_dev (hn : (Fintype.card K : ℝ) = n) (hn0 : n ≠ 0) (x : S → K → C → ℝ) :
    ∑ s, ∑ k, ∑ c, (x s k c - (∑ k', x s k' c) / n) = 0 := by
  refine Finset.sum_eq_zero fun s _ => ?_
  rw [Finset.sum_comm]
  exact Finset.sum_eq_zero fun c _ => sum_dev n hn hn0 (fun k => x s k c)

/-- Over all groups the squared deviations (from a global mean μ that is zero) total the sum over groups of
    Σ_k x² − (Σ_k x)²·(1/n). -/
theorem total_dev_sq (hn : (Fintype.card K : ℝ) = n) (hn0 : n ≠ 0) (x : S → K → C → ℝ) (μ : ℝ) (hμ : μ = 0) :
    ∑ s, ∑ k, ∑ c, ((x s k c - (∑ k', x s k' c) / n) - μ) * ((x s k c - (∑ k', x s k' c) / n) - μ)
      = ∑ s, ∑ c, ((∑ k, x s k c * x s k c) - ((∑ k, x s k c) * (∑ k, x s k c)) * (1 / n)) := by
  subst hμ
  simp only [sub_zero]
  refine Finset.sum_congr rfl fun s _ => ?_
  rw [Finset.sum_comm]
  exact Finset.sum_congr rfl fun c _ => sum_dev_sq n hn hn0 (fun k => x s k c)

/-- A sum of squares is nonnegative (whatever μ and n are). -/
theorem total_dev_sq_nonneg (x : S → K → C → ℝ) (μ : ℝ) :
    0 ≤ ∑ s, ∑ k, ∑ c, ((x s k c - (∑ k', x s k' c) / n) - μ) * ((x s k c - (∑ k', x s k' c) / n) - μ) :=
  Finset.sum_nonneg fun s _ => Finset.sum_nonneg fun k _ => Finset.sum_nonneg fun c _ => mul_self_nonneg _

/-- Hence the raw-moment form of the total is nonnegative too. -/
theorem total_moment_nonneg (hn : (Fintype.card K : ℝ) = n) (hn0 : n ≠ 0) (x : S → K → C → ℝ) :
    0 ≤ ∑ s, ∑ c, ((∑ k, x s k c * x s k c) - ((∑ k, x s k c) * (∑ k, x s k c)) * (1 / n)) := by
  rw [← total_dev_sq n hn hn0 x 0 rfl]
  exact total_dev_sq_nonneg n x 0

end Real

/-! ## Eight tiles of 256 groups -/

/-- A sum over 2048 indices is the sum over 8 tiles of the sums over each tile's 256 indices. -/
theorem sum_tiles (f : Fin 2048 → ℝ) :
    ∑ s, f s = ∑ j : Fin 8, ∑ r : Fin 256, f ⟨256 * j.val + r.val, by omega⟩ := by
  have h := (Equiv.sum_comp (finProdFinEquiv (m := 8) (n := 256)) (fun s : Fin (8 * 256) => f s)).symm
  rw [Fintype.sum_prod_type] at h
  refine h.trans ?_
  refine Finset.sum_congr rfl fun j _ => Finset.sum_congr rfl fun r _ => congrArg f (Fin.ext ?_)
  show r.val + 256 * j.val = 256 * j.val + r.val
  omega

/-- A left fold of eight terms from 0 is their sum. -/
theorem fold8 (C : Fin 8 → ℝ) :
    (((((((0 + C 0) + C 1) + C 2) + C 3) + C 4) + C 5) + C 6) + C 7 = ∑ j, C j := by
  rw [Fin.sum_univ_eight, zero_add]

/-- The same as a recurrence: an accumulator that starts at 0 + C 0 and adds C (j+1) at step j+1 holds, after step 7,
    the sum of the eight terms. -/
theorem fold8_rec (acc C : ℕ → ℝ) (h0 : acc 0 = 0 + C 0) (hs : ∀ j, j < 7 → acc (j + 1) = acc j + C (j + 1)) :
    acc 7 = ∑ j : Fin 8, C j.val := by
  rw [Fin.sum_univ_eight, hs 6 (by omega), hs 5 (by omega), hs 4 (by omega), hs 3 (by omega), hs 2 (by omega),
    hs 1 (by omega), hs 0 (by omega), h0, zero_add]
  rfl

/-! ## From reals to extended reals -/

/-- The coercion of a finite sum of reals is the sum of the coercions. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Exact division of two reals with a nonzero divisor is the real quotient. -/
theorem div_coe_coe (a b : ℝ) (hb : b ≠ 0) : Ideal.div (a : EReal) (b : EReal) = ((a / b : ℝ) : EReal) := by
  rw [Ideal.div_coe hb, ← EReal.coe_mul, mul_one_div]

/-- The square root of a nonnegative real is the real square root. -/
theorem sqrt_coe (r : ℝ) (hr : 0 ≤ r) : Ideal.sqrt (r : EReal) = ((Real.sqrt r : ℝ) : EReal) := by
  rw [Ideal.sqrt_coe, if_neg (not_lt.mpr hr)]

/-! ## The two normalised values are one real -/

/-- A square root plus a positive ε is positive, so it can be divided by. -/
theorem denom_pos (t N1 e : ℝ) (he : 0 < e) : 0 < Real.sqrt (t / N1) + e :=
  add_pos_of_nonneg_of_pos (Real.sqrt_nonneg _) he

theorem denom_ne_zero (t N1 e : ℝ) (he : 0 < e) : Real.sqrt (t / N1) + e ≠ 0 :=
  (denom_pos t N1 e he).ne'

/-- Scaling by the reciprocal of the denominator is dividing by it. -/
theorem norm_eq (a d be t N1 e : ℝ) (ht : 0 ≤ t) (hN : 0 < N1) (he : 0 < e) :
    (a * d) * (1 / (Real.sqrt (t / N1) + e)) + be = a * (d / (Real.sqrt (t / N1) + e)) + be := by
  ring

/-- Multiplying by 1/64 is dividing by 64. -/
theorem mean_eq (x S : ℝ) : x - S * (1 / 64) = x - S / 64 := by
  ring

end GroupNormAlg

end
-- ==== Proof.Consts.lean ====
/-
  The float literals the two programs spell, as the extended reals their bit patterns denote: 1/64 (the kernel's
  folded reciprocal of the group size), 64 (the reference's divisor), 2^23 (the reference's element count, from which it
  subtracts one), 2^23 − 1 (the kernel's host-side divisor), 1, 0, and the small positive ε both programs add to the
  standard deviation. Stated once, so that no other module unfolds a pattern.
-/
import Idealize.ShloMosaic.PureOps.Ideal

noncomputable section

namespace Cert.Consts

open Idealize.ShloMosaic

theorem ofBits_zero : Ideal.ofBits .f32 0x00000000#32 = 0 := by
  simp [Ideal.ofBits, Ideal.ieee]

theorem ofBits_inv64 : Ideal.ofBits .f32 0x3C800000#32 = ((1 / 64 : ℝ) : EReal) := by
  simp [Ideal.ofBits, Ideal.ieee, -EReal.coe_mul] <;> norm_num

theorem ofBits_64 : Ideal.ofBits .f32 0x42800000#32 = ((64 : ℝ) : EReal) := by
  simp [Ideal.ofBits, Ideal.ieee, -EReal.coe_mul] <;> norm_num

theorem ofBits_count : Ideal.ofBits .f32 0x4B000000#32 = ((8388608 : ℝ) : EReal) := by
  simp [Ideal.ofBits, Ideal.ieee, -EReal.coe_mul] <;> norm_num

theorem ofBits_count_pred : Ideal.ofBits .f32 0x4AFFFFFE#32 = ((8388607 : ℝ) : EReal) := by
  simp [Ideal.ofBits, Ideal.ieee, -EReal.coe_mul] <;> norm_num

theorem ofBits_one : Ideal.ofBits .f32 0x3F800000#32 = ((1 : ℝ) : EReal) := by
  simp [Ideal.ofBits, Ideal.ieee, -EReal.coe_mul] <;> norm_num

/-- The ε of both programs is a positive real (its value is never needed: the same word stands on both sides). -/
theorem ofBits_eps : ∃ e : ℝ, 0 < e ∧ Ideal.ofBits .f32 0x3727C5AC#32 = (e : EReal) := by
  refine ⟨_, ?_, by simp [Ideal.ofBits, Ideal.ieee, -EReal.coe_mul]; rfl⟩
  norm_num

end Cert.Consts

end
-- ==== Proof.Bridge.lean ====
/-
  Two ways of normalising a grouped tensor X[b, s, k, c] (b batch, s group, k neighbour, c channel) by its standard
  deviation give the same value.

  The first accumulates, tile by tile over 8 tiles of 256 groups, the raw-moment form
      Σ_{s,c} [ Σ_k X² − (Σ_k X)·(Σ_k X)·(1/64) ]
  of the sum of squared deviations from each group's mean over k, divides by 2^23 − 1, takes the square root, adds ε and
  scales α·(X − (Σ_k X)·(1/64)) by the reciprocal, then adds β. The second centres first, d = X − (Σ_k X)/64, subtracts
  d's global mean (which is zero), takes the sample variance Σ (d − μ)² / (2^23 − 1) of the centred tensor, and computes
  α·(d / (√var + ε)) + β.

  With every entry of X, α, β a real and ε a positive real, each extended-real quantity is the coercion of one real
  quantity; the two real quantities agree by the identities on deviations, on tiling a sum and on folding it.
-/
import proofs.«157503_j446676598875_2_alg».proof.Proof.Algebra
import proofs.«157503_j446676598875_2_alg».proof.Proof.Consts

noncomputable section

open scoped BigOperators

namespace GroupNormAlg

open Idealize.ShloMosaic

/-! ## The extended-real quantities -/

section Defs
variable (X : Fin 4 → Fin 2048 → Fin 64 → Fin 64 → EReal)

/-- Tile j's contribution: over its 256 groups and the 64 channels, Σ_k X² − (Σ_k X)·(Σ_k X)·(1/64). -/
def tileX (b : Fin 4) (j : ℕ) (hj : j < 8) : EReal :=
  ∑ r : Fin 256, ∑ c : Fin 64,
    ((∑ k : Fin 64, X b ⟨256 * j + r.val, by omega⟩ k c * X b ⟨256 * j + r.val, by omega⟩ k c)
      - ((∑ k : Fin 64, X b ⟨256 * j + r.val, by omega⟩ k c) * (∑ k : Fin 64, X b ⟨256 * j + r.val, by omega⟩ k c))
        * Ideal.ofBits .f32 0x3C800000#32)

/-- The accumulator after tile j: a left fold of the tile contributions from 0. -/
def accX (b : Fin 4) : (j : ℕ) → j < 8 → EReal
  | 0, h => 0 + tileX X b 0 h
  | j + 1, h => accX b j (by omega) + tileX X b (j + 1) h

/-- The centred tensor: X minus its group's mean over k. -/
def dX (b : Fin 4) (s : Fin 2048) (k c : Fin 64) : EReal :=
  X b s k c - Ideal.div (∑ k' : Fin 64, X b s k' c) (Ideal.ofBits .f32 0x42800000#32)

/-- The global mean of the centred tensor. -/
def muX (b : Fin 4) : EReal :=
  Ideal.div (∑ s : Fin 2048, ∑ k : Fin 64, ∑ c : Fin 64, dX X b s k c) (Ideal.ofBits .f32 0x4B000000#32)

/-- The sample variance of the centred tensor (divisor: the element count minus one). -/
def varX (b : Fin 4) : EReal :=
  Ideal.div (∑ s : Fin 2048, ∑ k : Fin 64, ∑ c : Fin 64, (dX X b s k c - muX X b) * (dX X b s k c - muX X b))
    (Ideal.ofBits .f32 0x4B000000#32 - ((1 : ℝ) : EReal))

end Defs

/-! ## Their real counterparts -/

section RealSide
variable (x : Fin 4 → Fin 2048 → Fin 64 → Fin 64 → ℝ)

/-- One (group, channel) term: Σ_k x² − (Σ_k x)·(Σ_k x)·(1/64). -/
def termR (b : Fin 4) (s : Fin 2048) (c : Fin 64) : ℝ :=
  (∑ k : Fin 64, x b s k c * x b s k c) - ((∑ k : Fin 64, x b s k c) * (∑ k : Fin 64, x b s k c)) * (1 / 64)

/-- Tile j's contribution. -/
def tileR (b : Fin 4) (j : ℕ) (hj : j < 8) : ℝ :=
  ∑ r : Fin 256, ∑ c : Fin 64, termR x b ⟨256 * j + r.val, by omega⟩ c

/-- The tile contributions as a function of every natural number (0 from 8 on), to sum over a range. -/
def tileN (b : Fin 4) (i : ℕ) : ℝ := if h : i < 8 then tileR x b i h else 0

/-- The whole sum over groups and channels. -/
def momentR (b : Fin 4) : ℝ := ∑ s : Fin 2048, ∑ c : Fin 64, termR x b s c

/-- The centred value. -/
def dR (b : Fin 4) (s : Fin 2048) (k c : Fin 64) : ℝ := x b s k c - (∑ k' : Fin 64, x b s k' c) / 64

/-- The eight tile contributions add up to the whole sum. -/
theorem sum_tileN (b : Fin 4) : ∑ i ∈ Finset.range 8, tileN x b i = momentR x b := by
  rw [Finset.sum_range, momentR, sum_tiles fun s => ∑ c : Fin 64, termR x b s c]
  refine Finset.sum_congr rfl fun j _ => ?_
  rw [tileN, dif_pos j.isLt]
  rfl

/-- The whole sum is a sum of squares in disguise, so it is nonnegative. -/
theorem momentR_nonneg (b : Fin 4) : 0 ≤ momentR x b :=
  total_moment_nonneg (64 : ℝ) (by simp) (by norm_num) (x b)

end RealSide

/-! ## Each extended-real quantity is the coercion of its real counterpart -/

section Coe
variable (X : Fin 4 → Fin 2048 → Fin 64 → Fin 64 → EReal) (x : Fin 4 → Fin 2048 → Fin 64 → Fin 64 → ℝ)
  (hx : ∀ b s k c, X b s k c = ((x b s k c : ℝ) : EReal))
include hx

theorem term_coe (b : Fin 4) (s : Fin 2048) (c : Fin 64) :
    (∑ k : Fin 64, X b s k c * X b s k c)
        - ((∑ k : Fin 64, X b s k c) * (∑ k : Fin 64, X b s k c)) * Ideal.ofBits .f32 0x3C800000#32
      = ((termR x b s c : ℝ) : EReal) := by
  simp only [hx, Cert.Consts.ofBits_inv64, termR, coe_sum, EReal.coe_sub, EReal.coe_mul]

theorem tileX_coe (b : Fin 4) (j : ℕ) (hj : j < 8) : tileX X b j hj = ((tileR x b j hj : ℝ) : EReal) := by
  simp only [tileX, tileR, term_coe X x hx, coe_sum]

/-- The accumulator after tile j is the partial sum of the first j + 1 tile contributions. -/
theorem accX_coe (b : Fin 4) :
    ∀ (j : ℕ) (hj : j < 8), accX X b j hj = ((∑ i ∈ Finset.range (j + 1), tileN x b i : ℝ) : EReal)
  | 0, h => by
      have ht : tileN x b 0 = tileR x b 0 h := dif_pos h
      rw [accX, tileX_coe X x hx, zero_add, Finset.sum_range_one, ht]
  | j + 1, h => by
      have ht : tileN x b (j + 1) = tileR x b (j + 1) h := dif_pos h
      rw [accX, accX_coe b j (by omega), tileX_coe X x hx, Finset.sum_range_succ _ (j + 1), EReal.coe_add, ht]

/-- After the last tile the accumulator holds the whole sum. -/
theorem accX_seven (b : Fin 4) (h : 7 < 8) : accX X b 7 h = ((momentR x b : ℝ) : EReal) := by
  rw [accX_coe X x hx b 7 h]
  exact congrArg _ (sum_tileN x b)

theorem rowsum_coe (b : Fin 4) (s : Fin 2048) (c : Fin 64) :
    ∑ k' : Fin 64, X b s k' c = ((∑ k' : Fin 64, x b s k' c : ℝ) : EReal) := by
  simp only [hx, coe_sum]

theorem dX_coe (b : Fin 4) (s : Fin 2048) (k c : Fin 64) : dX X b s k c = ((dR x b s k c : ℝ) : EReal) := by
  unfold dX dR
  rw [rowsum_coe X x hx, hx, Cert.Consts.ofBits_64, div_coe_coe _ _ (by norm_num : (64 : ℝ) ≠ 0), ← EReal.coe_sub]

/-- The centred tensor's global mean is zero. -/
theorem muX_eq (b : Fin 4) : muX X b = ((0 : ℝ) : EReal) := by
  unfold muX
  have hsum : ∑ s : Fin 2048, ∑ k : Fin 64, ∑ c : Fin 64, dX X b s k c
      = ((∑ s : Fin 2048, ∑ k : Fin 64, ∑ c : Fin 64, dR x b s k c : ℝ) : EReal) := by
    simp only [dX_coe X x hx, coe_sum]
  have h0 : ∑ s : Fin 2048, ∑ k : Fin 64, ∑ c : Fin 64, dR x b s k c = 0 :=
    total_dev (64 : ℝ) (by simp) (by norm_num) (x b)
  rw [hsum, h0, Cert.Consts.ofBits_count, div_coe_coe _ _ (by norm_num : (8388608 : ℝ) ≠ 0), zero_div]

/-- The centred tensor's sample variance is the whole sum over 2^23 − 1. -/
theorem varX_eq (b : Fin 4) : varX X b = ((momentR x b / 8388607 : ℝ) : EReal) := by
  unfold varX
  have hsum : ∑ s : Fin 2048, ∑ k : Fin 64, ∑ c : Fin 64, (dX X b s k c - muX X b) * (dX X b s k c - muX X b)
      = ((∑ s : Fin 2048, ∑ k : Fin 64, ∑ c : Fin 64, (dR x b s k c - 0) * (dR x b s k c - 0) : ℝ) : EReal) := by
    simp only [dX_coe X x hx, muX_eq X x hx, coe_sum, EReal.coe_mul, EReal.coe_sub]
  have hm : ∑ s : Fin 2048, ∑ k : Fin 64, ∑ c : Fin 64, (dR x b s k c - 0) * (dR x b s k c - 0) = momentR x b :=
    total_dev_sq (64 : ℝ) (by simp) (by norm_num) (x b) 0 rfl
  have hn : (8388608 : ℝ) - 1 = 8388607 := by norm_num
  rw [hsum, hm, Cert.Consts.ofBits_count, ← EReal.coe_sub, hn, div_coe_coe _ _ (by norm_num : (8388607 : ℝ) ≠ 0)]

end Coe

/-! ## The two normalised values agree -/

theorem bridge (X : Fin 4 → Fin 2048 → Fin 64 → Fin 64 → EReal) (A B : Fin 64 → EReal) (eps : EReal)
    (hX : ∀ b s k c, ∃ r : ℝ, X b s k c = (r : EReal)) (hA : ∀ c, ∃ r : ℝ, A c = (r : EReal))
    (hB : ∀ c, ∃ r : ℝ, B c = (r : EReal)) (heps : ∃ e : ℝ, 0 < e ∧ eps = (e : EReal))
    (b : Fin 4) (s : Fin 2048) (k c : Fin 64) :
    (A c * (X b s k c - (∑ k' : Fin 64, X b s k' c) * Ideal.ofBits .f32 0x3C800000#32))
          * Ideal.div (Ideal.ofBits .f32 0x3F800000#32)
              (Ideal.sqrt (Ideal.div (accX X b 7 (by omega)) (Ideal.ofBits .f32 0x4AFFFFFE#32)) + eps)
        + B c
      = A c * Ideal.div (dX X b s k c) (Ideal.sqrt (varX X b) + eps) + B c := by
  choose x hx using hX
  choose a ha using hA
  choose be hbe using hB
  obtain ⟨e, he, rfl⟩ := heps
  have hM : 0 ≤ momentR x b / 8388607 := div_nonneg (momentR_nonneg x b) (by norm_num)
  have hden : Real.sqrt (momentR x b / 8388607) + e ≠ 0 := denom_ne_zero _ _ _ he
  -- the standard deviation plus ε, on both sides, is the coercion of one positive real
  rw [accX_seven X x hx, varX_eq X x hx, Cert.Consts.ofBits_count_pred,
    div_coe_coe _ _ (by norm_num : (8388607 : ℝ) ≠ 0), sqrt_coe _ hM,
    ← EReal.coe_add (Real.sqrt (momentR x b / 8388607)) e]
  -- the rest of each side
  rw [dX_coe X x hx, rowsum_coe X x hx, hx, ha, hbe, Cert.Consts.ofBits_one, Cert.Consts.ofBits_inv64,
    div_coe_coe _ _ hden, div_coe_coe _ _ hden]
  simp only [← EReal.coe_mul, ← EReal.coe_sub, ← EReal.coe_add]
  refine congrArg _ ?_
  unfold dR
  ring

end GroupNormAlg

end
-- ==== Proof.KIGlue2.lean ====
/- The first region's output, as the value of the normalized output reads it, is the fold of the eight row blocks'
   contributions stated over the grouped tensor by coordinates: the kernel program's output at an index is then the
   left side of the algebraic bridge to the reference's centred, variance-normalized form. -/
import proofs.«157503_j446676598875_2_alg».proof.Proof.KIGlue
import proofs.«157503_j446676598875_2_alg».proof.Proof.KIValue0
import proofs.«157503_j446676598875_2_alg».proof.Proof.Bridge

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)
open Idealize.ShloMosaic.ValueIdx
open scoped BigOperators

variable (m : (ℓ : Loc nD τ sig) → Buf (Elt Ideal) ℓ)

/-- A row block's contribution to the first region's sum is the same expression of the grouped tensor by coordinates. -/
theorem tile_eq (c : Dev nD) (b : Fin 4) (j : ℕ) (hj : j < 8) :
    tile (V6 m) c b j hj = GroupNormAlg.tileX (Xk m c) b j hj := rfl

/-- So is the running sum after each block. -/
theorem accR_eq (c : Dev nD) (b : Fin 4) : ∀ (j : ℕ) (hj : j < 8),
    accR (V6 m) c b j hj = GroupNormAlg.accX (Xk m c) b j hj
  | 0, hj => by
    show 0 + tile (V6 m) c b 0 hj = 0 + GroupNormAlg.tileX (Xk m c) b 0 hj
    rw [tile_eq]
  | j + 1, hj => by
    show accR (V6 m) c b j (by omega) + tile (V6 m) c b (j + 1) hj
      = GroupNormAlg.accX (Xk m c) b j (by omega) + GroupNormAlg.tileX (Xk m c) b (j + 1) hj
    rw [accR_eq c b j (by omega), tile_eq]

/-- The first region's output at batch b is the sum of the batch's eight contributions. -/
theorem SS_eq (c : Dev nD) (b : Fin 4) : SS m c b = GroupNormAlg.accX (Xk m c) b 7 (by omega) :=
  (final0_apply (V6 m) c b).trans (accR_eq m c b 7 (by omega))

/-- THE KERNEL PROGRAM'S OUTPUT at an index, over the grouped tensor and the two rows alone. -/
theorem kernel_value' (c : Dev nD) (b : Fin 4) (s : Fin 2048) (k c' : Fin 64) :
    (Wend m c (Proc.devRef .tc main_v49) : S4x2048x64x64.Idx → EReal) (ix4 b s k c')
      = (Ak m c c' * (Xk m c b s k c' - (∑ k' : Fin 64, Xk m c b s k' c') * Ideal.ofBits .f32 0x3C800000#32))
          * Ideal.div (Ideal.ofBits .f32 0x3F800000#32)
              (Ideal.sqrt (Ideal.div (GroupNormAlg.accX (Xk m c) b 7 (by omega)) (Ideal.ofBits .f32 0x4AFFFFFE#32))
                + Ideal.ofBits .f32 0x3727C5AC#32)
        + Bk m c c' := by
  rw [← SS_eq]
  exact kernel_value m c b s k c'

/-- info: 'Cert.KernelIdeal.Hand.kernel_value'' depends on axioms: [propext, Classical.choice, Quot.sound] -/
#guard_msgs in #print axioms kernel_value'

end Cert.KernelIdeal.Hand
end
-- ==== Proof.RefTailA.lean ====
/-
  Reading lemmas for a normalisation over groups, stated over shapes of literal rank and arbitrary extents.

  * A host sum over ONE axis (the third of a rank-4 array, the second of a matrix) read at an index written by
    coordinates: the initial value plus the sum, over that axis's coordinate, of the operand.
  * A rank-4 array whose three trailing axes are merged in row-major order, [a, p, q, r] to [a, n] with
    n = p * q * r: the entry (i, k) with k = (u * q + v) * r + w is the operand's entry (i, u, v, w).
  * A sum over the merged coordinate k < p * q * r is the triple sum over (u, v, w), u outermost: the map
    (u, v, w) to (u * q + v) * r + w is a bijection onto the positions below p * q * r.
-/
import Idealize.ShloMosaic.Lib.IdealHost
import Idealize.ShloMosaic.Lib.Pipeline.Value

noncomputable section

open scoped BigOperators

namespace Idealize.ShloMosaic.NormRead

open Idealize.ShloMosaic Idealize.ShloMosaic.ValueIdx

/-- The first index of the rank-0 shape is its only index. -/
theorem first_eq_ix0 (hu : 0 < (⟨0, ![]⟩ : Shape).numel) : Shape.Idx.first hu = ix0 :=
  funext fun a => a.elim0

/-- A host sum over the third axis of a rank-4 array, at (b, s, c): the initial value plus the sum over k of the
    operand at (b, s, k, c). -/
theorem hostReduceAdd_axis2_apply {n0 n1 n2 n3 : ℕ} (x : FVec Ideal ⟨4, ![n0, n1, n2, n3]⟩ .f32)
    (init : (⟨0, ![]⟩ : Shape).Idx → Ideal .f32)
    (h : (⟨4, ![n0, n1, n2, n3]⟩ : Shape).ReducesTo [2] ⟨3, ![n0, n1, n3]⟩) (hu : 0 < (⟨0, ![]⟩ : Shape).numel)
    (b : Fin n0) (s : Fin n1) (c : Fin n3) :
    Host.reduceAdd x init h hu (ix3 b s c) = init ix0 + ∑ k : Fin n2, x (ix4 b s k c) := by
  have hr : (⟨4, ![n0, n1, n2, n3]⟩ : Shape).Reduces [2] ⟨3, ![n0, n1, n3]⟩ := ⟨h.1, (by show 0 < 3; omega), h.2⟩
  refine (hostReduceAdd_apply x init h hu _).trans ?_
  refine (Ideal.hostReduceAdd_single h hr x _ _).trans ?_
  rw [first_eq_ix0]
  show init ix0 + ∑ k : Fin n2, x (hr.lift (ix3 b s c) k) = _
  refine congrArg (init ix0 + ·) (Finset.sum_congr rfl fun k _ => congrArg x ?_)
  funext a
  match a with
  | ⟨0, _⟩ => rfl
  | ⟨1, _⟩ => rfl
  | ⟨2, _⟩ => rfl
  | ⟨3, _⟩ => rfl

/-- A host sum over the second axis of a matrix, at row b: the initial value plus the sum over the row. -/
theorem hostReduceAdd_axis1_apply {n0 n1 : ℕ} (x : FVec Ideal ⟨2, ![n0, n1]⟩ .f32)
    (init : (⟨0, ![]⟩ : Shape).Idx → Ideal .f32)
    (h : (⟨2, ![n0, n1]⟩ : Shape).ReducesTo [1] ⟨1, ![n0]⟩) (hu : 0 < (⟨0, ![]⟩ : Shape).numel) (b : Fin n0) :
    Host.reduceAdd x init h hu (ix1 b) = init ix0 + ∑ q : Fin n1, x (ix2 b q) := by
  have hr : (⟨2, ![n0, n1]⟩ : Shape).Reduces [1] ⟨1, ![n0]⟩ := ⟨h.1, (by show 0 < 1; omega), h.2⟩
  refine (hostReduceAdd_apply x init h hu _).trans ?_
  refine (Ideal.hostReduceAdd_single h hr x _ _).trans ?_
  rw [first_eq_ix0]
  show init ix0 + ∑ q : Fin n1, x (hr.lift (ix1 b) q) = _
  refine congrArg (init ix0 + ·) (Finset.sum_congr rfl fun q _ => congrArg x ?_)
  funext a
  match a with
  | ⟨0, _⟩ => rfl
  | ⟨1, _⟩ => rfl

/-- The three trailing axes of a rank-4 array merged: [a, p, q, r] to [a, n] with n = p * q * r reads, at (i, k)
    with k = (u * q + v) * r + w, the operand at (i, u, v, w). -/
theorem shapeCast_merge3_apply {α : Type} {a p q r n : ℕ} (hn : n = p * q * r)
    (x : (⟨4, ![a, p, q, r]⟩ : Shape).Idx → α) (h : (⟨4, ![a, p, q, r]⟩ : Shape).ShapeCasts ⟨2, ![a, n]⟩)
    (i : Fin a) (k : Fin n) (u : Fin p) (v : Fin q) (w : Fin r) (hk : k.val = (u.val * q + v.val) * r + w.val) :
    shapeCast ⟨2, ![a, n]⟩ x h (ix2 i k) = x (ix4 i u v w) :=
  shapeCast_apply x h _ _ (by
    rw [Shape.rowMajor_val_two, Shape.rowMajor_val_four]
    show ((i.val * p + u.val) * q + v.val) * r + w.val = i.val * n + k.val
    rw [hk, hn]; ring)

/-- The position (u * q + v) * r + w is below p * q * r. -/
theorem merge3_lt {p q r : ℕ} (u : Fin p) (v : Fin q) (w : Fin r) : (u.val * q + v.val) * r + w.val < p * q * r := by
  have h1 : u.val * q + v.val + 1 ≤ p * q := by
    calc u.val * q + v.val + 1 ≤ u.val * q + q := by have := v.isLt; omega
      _ = (u.val + 1) * q := by ring
      _ ≤ p * q := Nat.mul_le_mul_right _ u.isLt
  calc (u.val * q + v.val) * r + w.val < (u.val * q + v.val) * r + r := by have := w.isLt; omega
    _ = (u.val * q + v.val + 1) * r := by ring
    _ ≤ p * q * r := Nat.mul_le_mul_right _ h1

/-- A sum over the positions below p * q * r is the triple sum over (u, v, w), u outermost, of the term at
    (u * q + v) * r + w. -/
theorem sum_merge3 {M : Type*} [AddCommMonoid M] {p q r n : ℕ} (hn : n = p * q * r) (f : Fin n → M) :
    ∑ k : Fin n, f k
      = ∑ u : Fin p, ∑ v : Fin q, ∑ w : Fin r, f ⟨(u.val * q + v.val) * r + w.val, hn ▸ merge3_lt u v w⟩ := by
  subst hn
  rw [← Equiv.sum_comp (finProdFinEquiv (m := p * q) (n := r)) f, Fintype.sum_prod_type]
  rw [← Equiv.sum_comp (finProdFinEquiv (m := p) (n := q))
    (fun uv => ∑ w : Fin r, f (finProdFinEquiv (uv, w))), Fintype.sum_prod_type]
  refine Finset.sum_congr rfl fun u _ => Finset.sum_congr rfl fun v _ => Finset.sum_congr rfl fun w _ =>
    congrArg f (Fin.ext ?_)
  show w.val + r * (v.val + q * u.val) = (u.val * q + v.val) * r + w.val
  ring

end Idealize.ShloMosaic.NormRead

end
-- ==== Proof.RefTail.lean ====
/-
  The reference's normalisation tail read at an index, over the extended reals.

  From a grouped tensor g : [4, 2048, 64, 64] (batch b, group s, neighbour k, channel c) and two affine vectors
  a3, a4 : [1, 1, 1, 64] the reference computes
    mean(b, s, c)  = (Σ_k g(b, s, k, c)) / 64,
    d(b, s, k, c)  = g(b, s, k, c) - mean(b, s, c),
    mu(b)          = (Σ_s Σ_k Σ_c d(b, s, k, c)) / N,                   N = 2048 * 64 * 64,
    var(b)         = (Σ_s Σ_k Σ_c (d(b, s, k, c) - mu(b))²) / (N - 1),   guarded by N - 1 > 0,
    out(b, s, k, c) = a3(c) * (d(b, s, k, c) / (sqrt(var(b)) + eps)) + a4(c).
  The sums over the flattened group are taken over the row-major merge of the axes (s, k, c); they are re-indexed
  here as triple sums, s outermost.
-/
import proofs.«157503_j446676598875_2_alg».proof.ReferenceIdeal
import proofs.«157503_j446676598875_2_alg».proof.Proof.RefTailA

noncomputable section

open scoped BigOperators

namespace Cert.ReferenceIdeal.Tail

open Idealize.ShloMosaic Idealize.ShloMosaic.ValueIdx Idealize.ShloMosaic.NormRead
open Cert.ReferenceIdeal Facts₀ Facts

variable [Facts]

/-! ## Spreads read at an entry -/

section Spreads
variable {α : Type}

/-- [4, 2048, 64] placed on the axes (0, 1, 3) of [4, 2048, 1, 64]. -/
theorem spread_mean_apply (h : S4x2048x64.BroadcastsInDim S4x2048x1x64 (![0, 1, 3] : Fin 3 → Fin S4x2048x1x64.rank))
    (v : S4x2048x64.Idx → α) (b : Fin 4) (s : Fin 2048) (u : Fin 1) (c : Fin 64) :
    broadcastInDim S4x2048x1x64 ![0, 1, 3] h v (ix4 b s u c) = v (ix3 b s c) := by
  refine broadcastInDim_apply _ h v _ (ix3 b s c) fun a => ?_
  match a with
  | ⟨0, _⟩ => rfl
  | ⟨1, _⟩ => rfl
  | ⟨2, _⟩ => rfl

/-- [4, 2048, 1, 64] repeated along the neighbour axis. -/
theorem spread_k_apply (h : S4x2048x1x64.BroadcastsInDim S4x2048x64x64 (![0, 1, 2, 3] : Fin 4 → Fin S4x2048x64x64.rank))
    (v : S4x2048x1x64.Idx → α) (b : Fin 4) (s : Fin 2048) (k c : Fin 64) :
    broadcastInDim S4x2048x64x64 ![0, 1, 2, 3] h v (ix4 b s k c) = v (ix4 b s (0 : Fin 1) c) := by
  refine broadcastInDim_apply _ h v _ (ix4 b s (0 : Fin 1) c) fun a => ?_
  match a with
  | ⟨0, _⟩ => rfl
  | ⟨1, _⟩ => rfl
  | ⟨2, _⟩ => rfl
  | ⟨3, _⟩ => rfl

/-- [4] stood up as [4, 1]. -/
theorem spread_col_apply (h : S4.BroadcastsInDim S4x1 (![0] : Fin 1 → Fin S4x1.rank))
    (v : S4.Idx → α) (b : Fin 4) (u : Fin 1) :
    broadcastInDim S4x1 ![0] h v (ix2 b u) = v (ix1 b) := by
  refine broadcastInDim_apply _ h v _ (ix1 b) fun a => ?_
  match a with
  | ⟨0, _⟩ => rfl

/-- [4, 1] repeated along the flattened group. -/
theorem spread_row_apply (h : S4x1.BroadcastsInDim S4x8388608 (![0, 1] : Fin 2 → Fin S4x8388608.rank))
    (v : S4x1.Idx → α) (b : Fin 4) (q : Fin 8388608) :
    broadcastInDim S4x8388608 ![0, 1] h v (ix2 b q) = v (ix2 b (0 : Fin 1)) := by
  refine broadcastInDim_apply _ h v _ (ix2 b (0 : Fin 1)) fun a => ?_
  match a with
  | ⟨0, _⟩ => rfl
  | ⟨1, _⟩ => rfl

/-- [4] stood up as [4, 1, 1, 1]. -/
theorem spread_b1_apply (h : S4.BroadcastsInDim S4x1x1x1 (![0] : Fin 1 → Fin S4x1x1x1.rank))
    (v : S4.Idx → α) (b : Fin 4) (u0 u1 u2 : Fin 1) :
    broadcastInDim S4x1x1x1 ![0] h v (ix4 b u0 u1 u2) = v (ix1 b) := by
  refine broadcastInDim_apply _ h v _ (ix1 b) fun a => ?_
  match a with
  | ⟨0, _⟩ => rfl

/-- [4, 1, 1, 1] repeated over the group, neighbour and channel axes. -/
theorem spread_b_apply (h : S4x1x1x1.BroadcastsInDim S4x2048x64x64 (![0, 1, 2, 3] : Fin 4 → Fin S4x2048x64x64.rank))
    (v : S4x1x1x1.Idx → α) (b : Fin 4) (s : Fin 2048) (k c : Fin 64) :
    broadcastInDim S4x2048x64x64 ![0, 1, 2, 3] h v (ix4 b s k c) = v (ix4 b (0 : Fin 1) (0 : Fin 1) (0 : Fin 1)) := by
  refine broadcastInDim_apply _ h v _ (ix4 b (0 : Fin 1) (0 : Fin 1) (0 : Fin 1)) fun a => ?_
  match a with
  | ⟨0, _⟩ => rfl
  | ⟨1, _⟩ => rfl
  | ⟨2, _⟩ => rfl
  | ⟨3, _⟩ => rfl

/-- [1, 1, 1, 64] repeated over the batch, group and neighbour axes. -/
theorem spread_c_apply (h : S1x1x1x64.BroadcastsInDim S4x2048x64x64 (![0, 1, 2, 3] : Fin 4 → Fin S4x2048x64x64.rank))
    (v : S1x1x1x64.Idx → α) (b : Fin 4) (s : Fin 2048) (k c : Fin 64) :
    broadcastInDim S4x2048x64x64 ![0, 1, 2, 3] h v (ix4 b s k c) = v (ix4 (0 : Fin 1) (0 : Fin 1) (0 : Fin 1) c) := by
  refine broadcastInDim_apply _ h v _ (ix4 (0 : Fin 1) (0 : Fin 1) (0 : Fin 1) c) fun a => ?_
  match a with
  | ⟨0, _⟩ => rfl
  | ⟨1, _⟩ => rfl
  | ⟨2, _⟩ => rfl
  | ⟨3, _⟩ => rfl

end Spreads

/-- A reduction's zero initial value adds nothing. -/
theorem zero_init_add (i : S_.Idx) (S : EReal) : constant (F := Ideal) S_ .f32 0x00000000#32 i + S = S := by
  rw [constant_apply, Ideal.ofBits_zero_f32, zero_add]

/-- A select between equal conditions and equal branches. -/
theorem select_congr {α : Type} {p p' : BitVec 1} {x x' y y' : α} (hp : p = p') (hx : x = x') (hy : y = y') :
    Scalar.select p x y = Scalar.select p' x' y' := by subst hp hx hy; rfl

/-! ## The statement's terms, over g at indices -/

/-- The mean over the neighbour axis: (Σ_k g(b, s, k, c)) / 64. -/
def mean (g : FVec Ideal S4x2048x64x64 .f32) (b : Fin 4) (s : Fin 2048) (c : Fin 64) : EReal :=
  Ideal.div (∑ k : Fin 64, g (ix4 b s k c)) (Ideal.ofBits .f32 0x42800000#32)

/-- The centred entry: g(b, s, k, c) minus its mean over k. -/
def dOf (g : FVec Ideal S4x2048x64x64 .f32) (b : Fin 4) (s : Fin 2048) (k c : Fin 64) : EReal :=
  g (ix4 b s k c) - mean g b s c

/-- The mean of the centred entries over one batch element's whole group: (Σ_s Σ_k Σ_c d(b, s, k, c)) / N. -/
def mu (g : FVec Ideal S4x2048x64x64 .f32) (b : Fin 4) : EReal :=
  Ideal.div (∑ s : Fin 2048, ∑ k : Fin 64, ∑ c : Fin 64, dOf g b s k c) (Ideal.ofBits .f32 0x4B000000#32)

/-- N - 1, as the operations give it: the constant N minus the conversion of the integer 1. -/
def nm1 : EReal := Ideal.ofBits .f32 0x4B000000#32 - FloatOps.sitofp (F := Ideal) .f32 (1#32 : BitVec 32)

/-- The unbiased variance: (Σ_s Σ_k Σ_c (d(b, s, k, c) - mu(b))²) / (N - 1). -/
def var (g : FVec Ideal S4x2048x64x64 .f32) (b : Fin 4) : EReal :=
  Ideal.div (∑ s : Fin 2048, ∑ k : Fin 64, ∑ c : Fin 64, (dOf g b s k c - mu g b) * (dOf g b s k c - mu g b)) nm1

/-- The guarded variance: the variance where N - 1 > 0, the fill constant otherwise. -/
def sel (g : FVec Ideal S4x2048x64x64 .f32) (b : Fin 4) : EReal :=
  Scalar.select (FloatOps.cmpf (F := Ideal) .ogt nm1 (Ideal.ofBits .f32 0x00000000#32)) (var g b)
    (Ideal.ofBits .f32 0x7FC00000#32)

/-! ## The centred tensor -/

/-- The tensor g minus its mean over the neighbour axis, as the operations compute it. -/
def centred (g : FVec Ideal S4x2048x64x64 .f32) : FVec Ideal S4x2048x64x64 .f32 :=
  have cst_10 : FVec Ideal S_ .f32 := constant S_ .f32 0x00000000#32
  have v45 : FVec Ideal S4x2048x64 .f32 := Host.reduceAdd g cst_10 reducesTo_S4x2048x64x64_S4x2048x64_d2 h_S_
  have v46 : FVec Ideal S4x2048x1x64 .f32 := broadcastInDim S4x2048x1x64 ![0, 1, 3] bcast_S4x2048x64_S4x2048x1x64_0_1_3 v45
  have cst_11 : FVec Ideal S_ .f32 := constant S_ .f32 0x42800000#32
  have v47 : FVec Ideal S4x2048x1x64 .f32 := broadcastInDim S4x2048x1x64 ![] bcast_S_S4x2048x1x64 cst_11
  have v48 : FVec Ideal S4x2048x1x64 .f32 := Host.divf v46 v47
  have v49 : FVec Ideal S4x2048x64x64 .f32 := broadcastInDim S4x2048x64x64 ![0, 1, 2, 3] bcast_S4x2048x1x64_S4x2048x64x64_0_1_2_3 v48
  subf g v49

/-- The centred tensor at (b, s, k, c) is the centred entry. -/
theorem centred_apply (g : FVec Ideal S4x2048x64x64 .f32) (b : Fin 4) (s : Fin 2048) (k c : Fin 64) :
    centred g (ix4 b s k c) = dOf g b s k c := by
  unfold centred dOf mean
  refine (subf_apply _ _ _).trans (congrArg (g (ix4 b s k c) - ·) ?_)
  refine (spread_k_apply _ _ b s k c).trans ?_
  refine (hostDivf_apply _ _ _).trans (congrArg₂ Ideal.div ?_ ?_)
  · refine (spread_mean_apply _ _ b s 0 c).trans ?_
    refine (hostReduceAdd_axis2_apply g _ _ _ b s c).trans ?_
    exact zero_init_add _ _
  · exact (broadcastInDim_scalar_apply _ _ _).trans rfl

/-! ## The flattened group: its mean, the second centring, the variance -/

/-- The mean of row b of a [4, 8388608] matrix. -/
def flatMean (x : FVec Ideal S4x8388608 .f32) (b : Fin 4) : EReal :=
  Ideal.div (∑ q : Fin 8388608, x (ix2 b q)) (Ideal.ofBits .f32 0x4B000000#32)

/-- A [4, 8388608] matrix minus its row means, as the operations compute it. -/
def flatCentre (x : FVec Ideal S4x8388608 .f32) : FVec Ideal S4x8388608 .f32 :=
  have cst : FVec Ideal S_ .f32 := constant S_ .f32 0x00000000#32
  have v0 : FVec Ideal S4 .f32 := Host.reduceAdd x cst reducesTo_S4x8388608_S4_d1 h_S_
  have v1 : FVec Ideal S4x1 .f32 := broadcastInDim S4x1 ![0] bcast_S4_S4x1_0 v0
  have cst_0 : FVec Ideal S_ .f32 := constant S_ .f32 0x4B000000#32
  have v2 : FVec Ideal S4x1 .f32 := broadcastInDim S4x1 ![] bcast_S_S4x1 cst_0
  have v3 : FVec Ideal S4x1 .f32 := Host.divf v1 v2
  have v4 : FVec Ideal S4x8388608 .f32 := broadcastInDim S4x8388608 ![0, 1] bcast_S4x1_S4x8388608_0_1 v3
  subf x v4

/-- The row-centred matrix at (b, q). -/
theorem flatCentre_apply (x : FVec Ideal S4x8388608 .f32) (b : Fin 4) (q : Fin 8388608) :
    flatCentre x (ix2 b q) = x (ix2 b q) - flatMean x b := by
  unfold flatCentre flatMean
  refine (subf_apply _ _ _).trans (congrArg (x (ix2 b q) - ·) ?_)
  refine (spread_row_apply _ _ b q).trans ?_
  refine (hostDivf_apply _ _ _).trans (congrArg₂ Ideal.div ?_ ?_)
  · refine (spread_col_apply _ _ b 0).trans ?_
    refine (hostReduceAdd_axis1_apply x _ _ _ b).trans ?_
    exact zero_init_add _ _
  · exact (broadcastInDim_scalar_apply _ _ _).trans rfl

/-- The guarded unbiased variance of each row of a [4, 8388608] matrix, with the correction n an integer scalar,
    as the operations compute it. -/
def varOf (x : FVec Ideal S4x8388608 .f32) (n : IVec S_ 32) : FVec Ideal S4 .f32 :=
  have cst : FVec Ideal S_ .f32 := constant S_ .f32 0x00000000#32
  have v0 : FVec Ideal S4 .f32 := Host.reduceAdd x cst reducesTo_S4x8388608_S4_d1 h_S_
  have v1 : FVec Ideal S4x1 .f32 := broadcastInDim S4x1 ![0] bcast_S4_S4x1_0 v0
  have cst_0 : FVec Ideal S_ .f32 := constant S_ .f32 0x4B000000#32
  have v2 : FVec Ideal S4x1 .f32 := broadcastInDim S4x1 ![] bcast_S_S4x1 cst_0
  have v3 : FVec Ideal S4x1 .f32 := Host.divf v1 v2
  have v4 : FVec Ideal S4x8388608 .f32 := broadcastInDim S4x8388608 ![0, 1] bcast_S4x1_S4x8388608_0_1 v3
  have v5 : FVec Ideal S4x8388608 .f32 := subf x v4
  have v6 : FVec Ideal S4x8388608 .f32 := mulf v5 v5
  have v7 : FVec Ideal S_ .f32 := sitofp .f32 n
  have cst_1 : FVec Ideal S_ .f32 := constant S_ .f32 0x4B000000#32
  have v8 : FVec Ideal S_ .f32 := subf cst_1 v7
  have cst_2 : FVec Ideal S_ .f32 := constant S_ .f32 0x00000000#32
  have v9 : FVec Ideal S4 .f32 := Host.reduceAdd v6 cst_2 reducesTo_S4x8388608_S4_d1 h_S_
  have v10 : FVec Ideal S4 .f32 := broadcastInDim S4 ![] bcast_S_S4 v8
  have v11 : FVec Ideal S4 .f32 := Host.divf v9 v10
  have cst_3 : FVec Ideal S_ .f32 := constant S_ .f32 0x00000000#32
  have v12 : IVec S_ 1 := cmpf .ogt v8 cst_3
  have cst_4 : FVec Ideal S_ .f32 := constant S_ .f32 0x7FC00000#32
  have w0 : FVec Ideal S_ .f32 := id cst_4
  have w1 : FVec Ideal S4 .f32 := broadcastInDim S4 ![] bcast_S_S4 w0
  select (broadcastInDim S4 ![] bcast_S_S4 v12) v11 w1

/-- The guarded variance of row b, as sums over the row. -/
theorem varOf_apply (x : FVec Ideal S4x8388608 .f32) (n : IVec S_ 32) (b : Fin 4) :
    varOf x n (ix1 b)
      = Scalar.select
          (FloatOps.cmpf (F := Ideal) .ogt
            (Ideal.ofBits .f32 0x4B000000#32 - FloatOps.sitofp (F := Ideal) .f32 (n ix0)) (Ideal.ofBits .f32 0x00000000#32))
          (Ideal.div (∑ q : Fin 8388608, (x (ix2 b q) - flatMean x b) * (x (ix2 b q) - flatMean x b))
            (Ideal.ofBits .f32 0x4B000000#32 - FloatOps.sitofp (F := Ideal) .f32 (n ix0)))
          (Ideal.ofBits .f32 0x7FC00000#32) := by
  unfold varOf
  refine (select_apply _ _ _ _).trans (select_congr ?_ ?_ ?_)
  · exact (broadcastInDim_scalar_apply _ _ _).trans rfl
  · refine (hostDivf_apply _ _ _).trans (congrArg₂ Ideal.div ?_ ?_)
    · refine (hostReduceAdd_axis1_apply _ _ _ _ b).trans ?_
      refine (zero_init_add _ _).trans ?_
      refine Finset.sum_congr rfl fun q _ => ?_
      refine (mulf_apply _ _ _).trans ?_
      exact congrArg₂ (· * ·) (flatCentre_apply x b q) (flatCentre_apply x b q)
    · exact (broadcastInDim_scalar_apply _ _ _).trans rfl
  · exact (broadcastInDim_scalar_apply _ _ _).trans rfl

/-- A sum over row b of the flattened tensor is the triple sum over (s, k, c), s outermost, of the same term at
    the tensor's entry (b, s, k, c): the flattening merges the three trailing axes in row-major order. -/
theorem sum_flat (d : FVec Ideal S4x2048x64x64 .f32) (b : Fin 4) (Φ : EReal → EReal) :
    ∑ q : Fin 8388608, Φ (shapeCast S4x8388608 d shapeCasts_S4x2048x64x64_S4x8388608 (ix2 b q))
      = ∑ s : Fin 2048, ∑ k : Fin 64, ∑ c : Fin 64, Φ (d (ix4 b s k c)) := by
  refine (sum_merge3 (p := 2048) (q := 64) (r := 64) (by norm_num) _).trans ?_
  refine Finset.sum_congr rfl fun s _ => Finset.sum_congr rfl fun k _ => Finset.sum_congr rfl fun c _ =>
    congrArg Φ ?_
  exact shapeCast_merge3_apply (by norm_num) d _ b _ s k c rfl

/-- The guarded variance of the flattened centred tensor is the statement's. -/
theorem varOf_centred_apply (g : FVec Ideal S4x2048x64x64 .f32) (b : Fin 4) :
    varOf (shapeCast S4x8388608 (centred g) shapeCasts_S4x2048x64x64_S4x8388608) (constantI S_ 32 1#32) (ix1 b)
      = sel g b := by
  have hmu : flatMean (shapeCast S4x8388608 (centred g) shapeCasts_S4x2048x64x64_S4x8388608) b = mu g b :=
    congrArg (fun t => Ideal.div t (Ideal.ofBits .f32 0x4B000000#32))
      ((sum_flat (centred g) b (fun y => y)).trans
        (Finset.sum_congr rfl fun s _ => Finset.sum_congr rfl fun k _ => Finset.sum_congr rfl fun c _ =>
          centred_apply g b s k c))
  refine (varOf_apply _ _ b).trans ?_
  show Scalar.select _ (Ideal.div _ _) _ = Scalar.select _ (Ideal.div _ _) _
  refine select_congr rfl (congrArg₂ Ideal.div ?_ rfl) rfl
  refine (sum_flat (centred g) b (fun y =>
    (y - flatMean (shapeCast S4x8388608 (centred g) shapeCasts_S4x2048x64x64_S4x8388608) b)
      * (y - flatMean (shapeCast S4x8388608 (centred g) shapeCasts_S4x2048x64x64_S4x8388608) b))).trans ?_
  exact Finset.sum_congr rfl fun s _ => Finset.sum_congr rfl fun k _ => Finset.sum_congr rfl fun c _ =>
    congrArg₂ (fun y m => (y - m) * (y - m)) (centred_apply g b s k c) hmu

/-! ## The whole tail -/

/-- The normalisation tail as the reference's operations compute it, one line per operation in their order. -/
def refTail (g : (⟨S4x2048x64x64, .f32⟩ : BufTy).Contents (Elt Ideal))
    (a3 a4 : (⟨S1x1x1x64, .f32⟩ : BufTy).Contents (Elt Ideal)) :
    (⟨S4x2048x64x64, .f32⟩ : BufTy).Contents (Elt Ideal) :=
  have cst_10 : FVec Ideal S_ .f32 := constant S_ .f32 0x00000000#32
  have v45 : FVec Ideal S4x2048x64 .f32 := Host.reduceAdd g cst_10 reducesTo_S4x2048x64x64_S4x2048x64_d2 h_S_
  have v46 : FVec Ideal S4x2048x1x64 .f32 := broadcastInDim S4x2048x1x64 ![0, 1, 3] bcast_S4x2048x64_S4x2048x1x64_0_1_3 v45
  have cst_11 : FVec Ideal S_ .f32 := constant S_ .f32 0x42800000#32
  have v47 : FVec Ideal S4x2048x1x64 .f32 := broadcastInDim S4x2048x1x64 ![] bcast_S_S4x2048x1x64 cst_11
  have v48 : FVec Ideal S4x2048x1x64 .f32 := Host.divf v46 v47
  have v49 : FVec Ideal S4x2048x64x64 .f32 := broadcastInDim S4x2048x64x64 ![0, 1, 2, 3] bcast_S4x2048x1x64_S4x2048x64x64_0_1_2_3 v48
  have v50 : FVec Ideal S4x2048x64x64 .f32 := subf g v49
  have v51 : FVec Ideal S4x8388608 .f32 := shapeCast S4x8388608 v50 shapeCasts_S4x2048x64x64_S4x8388608
  have c_12 : IVec S_ 32 := constantI S_ 32 1#32
  have var_cst : FVec Ideal S_ .f32 := constant S_ .f32 0x00000000#32
  have var_v0 : FVec Ideal S4 .f32 := Host.reduceAdd v51 var_cst reducesTo_S4x8388608_S4_d1 h_S_
  have var_v1 : FVec Ideal S4x1 .f32 := broadcastInDim S4x1 ![0] bcast_S4_S4x1_0 var_v0
  have var_cst_0 : FVec Ideal S_ .f32 := constant S_ .f32 0x4B000000#32
  have var_v2 : FVec Ideal S4x1 .f32 := broadcastInDim S4x1 ![] bcast_S_S4x1 var_cst_0
  have var_v3 : FVec Ideal S4x1 .f32 := Host.divf var_v1 var_v2
  have var_v4 : FVec Ideal S4x8388608 .f32 := broadcastInDim S4x8388608 ![0, 1] bcast_S4x1_S4x8388608_0_1 var_v3
  have var_v5 : FVec Ideal S4x8388608 .f32 := subf v51 var_v4
  have var_v6 : FVec Ideal S4x8388608 .f32 := mulf var_v5 var_v5
  have var_v7 : FVec Ideal S_ .f32 := sitofp .f32 c_12
  have var_cst_1 : FVec Ideal S_ .f32 := constant S_ .f32 0x4B000000#32
  have var_v8 : FVec Ideal S_ .f32 := subf var_cst_1 var_v7
  have var_cst_2 : FVec Ideal S_ .f32 := constant S_ .f32 0x00000000#32
  have var_v9 : FVec Ideal S4 .f32 := Host.reduceAdd var_v6 var_cst_2 reducesTo_S4x8388608_S4_d1 h_S_
  have var_v10 : FVec Ideal S4 .f32 := broadcastInDim S4 ![] bcast_S_S4 var_v8
  have var_v11 : FVec Ideal S4 .f32 := Host.divf var_v9 var_v10
  have var_cst_3 : FVec Ideal S_ .f32 := constant S_ .f32 0x00000000#32
  have var_v12 : IVec S_ 1 := cmpf .ogt var_v8 var_cst_3
  have var_cst_4 : FVec Ideal S_ .f32 := constant S_ .f32 0x7FC00000#32
  have where_v0 : FVec Ideal S_ .f32 := id var_cst_4
  have where_v1 : FVec Ideal S4 .f32 := broadcastInDim S4 ![] bcast_S_S4 where_v0
  have where_v2 : FVec Ideal S4 .f32 := select (broadcastInDim S4 ![] bcast_S_S4 var_v12) var_v11 where_v1
  have v52 : FVec Ideal S4 .f32 := Host.sqrt where_v2
  have v53 : FVec Ideal S4x1x1x1 .f32 := broadcastInDim S4x1x1x1 ![0] bcast_S4_S4x1x1x1_0 v52
  have cst_13 : FVec Ideal S_ .f32 := constant S_ .f32 0x3727C5AC#32
  have v54 : FVec Ideal S4x1x1x1 .f32 := broadcastInDim S4x1x1x1 ![] bcast_S_S4x1x1x1 cst_13
  have v55 : FVec Ideal S4x1x1x1 .f32 := addf v53 v54
  have v56 : FVec Ideal S4x2048x64x64 .f32 := broadcastInDim S4x2048x64x64 ![0, 1, 2, 3] bcast_S4x1x1x1_S4x2048x64x64_0_1_2_3 v55
  have v57 : FVec Ideal S4x2048x64x64 .f32 := Host.divf v50 v56
  have v58 : FVec Ideal S4x2048x64x64 .f32 := broadcastInDim S4x2048x64x64 ![0, 1, 2, 3] bcast_S1x1x1x64_S4x2048x64x64_0_1_2_3 a3
  have v59 : FVec Ideal S4x2048x64x64 .f32 := mulf v58 v57
  have v60 : FVec Ideal S4x2048x64x64 .f32 := broadcastInDim S4x2048x64x64 ![0, 1, 2, 3] bcast_S1x1x1x64_S4x2048x64x64_0_1_2_3 a4
  addf (F := Ideal) v59 v60

/-- The chain regrouped: the centred tensor and the guarded variance of its flattening named. -/
theorem refTail_eq (g : FVec Ideal S4x2048x64x64 .f32) (a3 a4 : FVec Ideal S1x1x1x64 .f32) :
    refTail g a3 a4
      = (addf
          (mulf (broadcastInDim S4x2048x64x64 ![0, 1, 2, 3] bcast_S1x1x1x64_S4x2048x64x64_0_1_2_3 a3)
            (Host.divf (centred g)
              (broadcastInDim S4x2048x64x64 ![0, 1, 2, 3] bcast_S4x1x1x1_S4x2048x64x64_0_1_2_3
                (addf
                  (broadcastInDim S4x1x1x1 ![0] bcast_S4_S4x1x1x1_0
                    (Host.sqrt (varOf (shapeCast S4x8388608 (centred g) shapeCasts_S4x2048x64x64_S4x8388608)
                      (constantI S_ 32 1#32))))
                  (broadcastInDim S4x1x1x1 ![] bcast_S_S4x1x1x1 (constant S_ .f32 0x3727C5AC#32))))))
          (broadcastInDim S4x2048x64x64 ![0, 1, 2, 3] bcast_S1x1x1x64_S4x2048x64x64_0_1_2_3 a4)
          : FVec Ideal S4x2048x64x64 .f32) := rfl

/-- THE TAIL AT AN INDEX: the affine map of the centred entry over the square root of the guarded variance plus
    the stabiliser. -/
theorem refTail_apply (g : (⟨S4x2048x64x64, .f32⟩ : BufTy).Contents (Elt Ideal))
    (a3 a4 : (⟨S1x1x1x64, .f32⟩ : BufTy).Contents (Elt Ideal)) (b : Fin 4) (s : Fin 2048) (k c : Fin 64) :
    refTail g a3 a4 (ix4 b s k c)
      = a3 (ix4 (0 : Fin 1) (0 : Fin 1) (0 : Fin 1) c)
          * Ideal.div (dOf g b s k c) (Ideal.sqrt (sel g b) + Ideal.ofBits .f32 0x3727C5AC#32)
        + a4 (ix4 (0 : Fin 1) (0 : Fin 1) (0 : Fin 1) c) := by
  refine (congrFun (refTail_eq g a3 a4) _).trans ?_
  refine (addf_apply _ _ _).trans (congrArg₂ (· + ·) ?_ ?_)
  · refine (mulf_apply _ _ _).trans (congrArg₂ (· * ·) ?_ ?_)
    · exact spread_c_apply _ a3 b s k c
    · refine (hostDivf_apply _ _ _).trans (congrArg₂ Ideal.div ?_ ?_)
      · exact centred_apply g b s k c
      · refine (spread_b_apply _ _ b s k c).trans ?_
        refine (addf_apply _ _ _).trans (congrArg₂ (· + ·) ?_ ?_)
        · refine (spread_b1_apply _ _ b 0 0 0).trans ?_
          exact congrArg Ideal.sqrt (varOf_centred_apply g b)
        · exact (broadcastInDim_scalar_apply _ _ _).trans rfl
  · exact spread_c_apply _ a4 b s k c

end Cert.ReferenceIdeal.Tail

end
-- ==== Proof.IdealEval.lean ====
/-
  Small evaluations at the exact-real instance, where a float is an extended real.

  The integer one converted to a float is the real 1; 2^23 - 1 = 8388607 as extended reals; 8388607 compares strictly
  above 0, so a selection on that comparison takes its first operand; and the readings at an index of the host's
  square root, of a scalar constant broadcast to any shape, and of a selection whose condition bit is set. The
  elementwise arithmetic at an index (sum, difference, product, the host's quotient) is already in the library's
  index lemmas and is not restated here.
-/
import Idealize.ShloMosaic.PureOps.Ideal
import Idealize.ShloMosaic.Lib.ValueIdx
import Idealize.ShloMosaic.Lib.IdealHost

noncomputable section

namespace Cert.IdealEval

open Idealize.ShloMosaic Idealize.ShloMosaic.ValueIdx

/-- The integer constant 1 converted (signed) to a float is the real number 1, at every index of every shape. -/
theorem sitofp_one {s : Shape} (i : s.Idx) :
    (sitofp (F := Ideal) .f32 (constantI s 32 1#32)) i = ((1 : ℝ) : EReal) := by
  show ((((1#32 : BitVec 32).toInt : ℤ) : ℝ) : EReal) = ((1 : ℝ) : EReal)
  have h1 : (1#32 : BitVec 32).toInt = 1 := by decide
  rw [h1, Int.cast_one]

/-- 2^23 - 1 = 8388607, as extended reals. -/
theorem count_pred : ((8388608 : ℝ) : EReal) - ((1 : ℝ) : EReal) = ((8388607 : ℝ) : EReal) := by
  rw [← EReal.coe_sub]
  norm_num

/-- 8388607 is strictly above 0: the ordered "greater than" comparison answers the bit 1. -/
theorem cmp_pos : FloatOps.cmpf (F := Ideal) (φ := .f32) .ogt (((8388607 : ℝ) : EReal)) (0 : EReal) = 1#1 := by
  show Ideal.cmp .ogt (((8388607 : ℝ) : EReal)) (0 : EReal) = 1#1
  have h : (0 : EReal) < ((8388607 : ℝ) : EReal) := by exact_mod_cast (by norm_num : (0 : ℝ) < 8388607)
  unfold Ideal.cmp
  simp [h]

/-- The same comparison on arrays, read at an index where the operands are 8388607 and 0. -/
theorem cmpf_ogt_pos {s : Shape} (x y : FVec Ideal s .f32) (i : s.Idx) (hx : x i = ((8388607 : ℝ) : EReal))
    (hy : y i = (0 : EReal)) : cmpf .ogt x y i = 1#1 := by
  rw [cmpf_apply, hx, hy]
  exact cmp_pos

/-- A selection read at an index where the condition bit is 1 is its first operand there. -/
theorem select_of_one {s : Shape} {α : Type} (p : IVec s 1) (a b : s.Idx → α) (i : s.Idx) (hp : p i = 1#1) :
    select p a b i = a i := by
  rw [select_apply, hp, ValueIdx.select_one]

/-- A selection read at an index where the condition bit is 0 is its second operand there. -/
theorem select_of_zero {s : Shape} {α : Type} (p : IVec s 1) (a b : s.Idx → α) (i : s.Idx) (hp : p i = 0#1) :
    select p a b i = b i := by
  rw [select_apply, hp, ValueIdx.select_zero]

/-- The host's square root at an index is the extended reals' square root of the element. -/
theorem hostSqrt_apply {s : Shape} {φ : FTy} (x : FVec Ideal s φ) (i : s.Idx) : Host.sqrt x i = Ideal.sqrt (x i) := rfl

/-- A scalar f32 constant broadcast to any shape reads, everywhere, the extended real its word denotes. (The target
    shape is spelled by its rank and extents, so that the statement's index types are those of a literal shape.) -/
theorem bcast_const_apply {n : ℕ} {sz : Fin n → ℕ} (h : (⟨0, ![]⟩ : Shape).BroadcastsInDim (⟨n, sz⟩ : Shape) ![])
    (w : BitVec 32) (i : (⟨n, sz⟩ : Shape).Idx) :
    broadcastInDim (⟨n, sz⟩ : Shape) ![] h (constant (F := Ideal) (⟨0, ![]⟩ : Shape) .f32 w) i
      = Ideal.ofBits .f32 w := by
  rw [broadcastInDim_scalar_apply]
  rfl

end Cert.IdealEval

end
-- ==== Proof.RefGlue.lean ====
/-
  The reference's tail in the standard form. Its centred entry, its global mean and its unbiased variance are, term for
  term, the ones stated over the grouped tensor read as a function of (batch, group, neighbour, channel); the guard on the
  variance — "n − 1 > 0, else a fill value" — takes the variance, because n − 1 = 2^23 − 1 = 8388607 is positive.
-/
import proofs.«157503_j446676598875_2_alg».proof.Proof.RefTail
import proofs.«157503_j446676598875_2_alg».proof.Proof.Bridge
import proofs.«157503_j446676598875_2_alg».proof.Proof.IdealEval

noncomputable section

open scoped BigOperators

namespace Cert.ReferenceIdeal.Tail

open Idealize.ShloMosaic Idealize.ShloMosaic.ValueIdx GroupNormAlg
open Cert.ReferenceIdeal

/-- The grouped tensor read as a function of its four coordinates. -/
def coords (g : FVec Ideal S4x2048x64x64 .f32) : Fin 4 → Fin 2048 → Fin 64 → Fin 64 → EReal :=
  fun b s k c => g (ix4 b s k c)

theorem dOf_eq (g : FVec Ideal S4x2048x64x64 .f32) (b : Fin 4) (s : Fin 2048) (k c : Fin 64) :
    dOf g b s k c = dX (coords g) b s k c := rfl

theorem mu_eq (g : FVec Ideal S4x2048x64x64 .f32) (b : Fin 4) : mu g b = muX (coords g) b := rfl

/-- n − 1 as the operations give it — the constant 2^23 minus the conversion of the integer 1 — is 2^23 − 1. -/
theorem nm1_eq : nm1 = Ideal.ofBits .f32 0x4B000000#32 - ((1 : ℝ) : EReal) := by
  unfold nm1
  congr 1
  show ((((1#32 : BitVec 32).toInt : ℤ) : ℝ) : EReal) = ((1 : ℝ) : EReal)
  have h1 : (1#32 : BitVec 32).toInt = 1 := by decide
  rw [h1, Int.cast_one]

theorem var_eq (g : FVec Ideal S4x2048x64x64 .f32) (b : Fin 4) : var g b = varX (coords g) b := by
  unfold var varX
  rw [nm1_eq]
  rfl

/-- The guarded variance is the variance: n − 1 = 8388607 > 0. -/
theorem sel_eq (g : FVec Ideal S4x2048x64x64 .f32) (b : Fin 4) : sel g b = varX (coords g) b := by
  unfold sel
  rw [nm1_eq, Cert.Consts.ofBits_count, Cert.IdealEval.count_pred, Cert.Consts.ofBits_zero, Cert.IdealEval.cmp_pos,
    ValueIdx.select_one]
  exact var_eq g b

variable [Facts]

/-- THE REFERENCE'S RESULT AT AN INDEX, in the standard form: α_c · (d / (σ + ε)) + β_c with d the centred entry and σ² the
    unbiased variance of the centred entries of the batch element. -/
theorem ref_value (g : (⟨S4x2048x64x64, .f32⟩ : BufTy).Contents (Elt Ideal))
    (a3 a4 : (⟨S1x1x1x64, .f32⟩ : BufTy).Contents (Elt Ideal)) (b : Fin 4) (s : Fin 2048) (k c : Fin 64) :
    refTail g a3 a4 (ix4 b s k c)
      = a3 (ix4 (0 : Fin 1) (0 : Fin 1) (0 : Fin 1) c)
          * Ideal.div (dX (coords g) b s k c) (Ideal.sqrt (varX (coords g) b) + Ideal.ofBits .f32 0x3727C5AC#32)
        + a4 (ix4 (0 : Fin 1) (0 : Fin 1) (0 : Fin 1) c) := by
  rw [refTail_apply, sel_eq, dOf_eq]

end Cert.ReferenceIdeal.Tail

end
-- ==== Proof.Final.lean ====
/-
  The two results are one array. At an index (b, s, k, c) the reference's tail is α_c·(d/(σ + ε)) + β_c and the kernel's
  second pallas_call wrote (α_c·(x − (Σ_k x)/64))·(1/(√(acc/(n − 1)) + ε)) + β_c with acc the first pallas_call's
  tile-by-tile accumulation; for real entries these are the same number.
-/
import proofs.«157503_j446676598875_2_alg».proof.Proof.KIGlue2
import proofs.«157503_j446676598875_2_alg».proof.Proof.RefGlue

noncomputable section

open scoped BigOperators

namespace Cert.Proof

open Idealize.ShloMosaic Idealize.ShloMosaic.ValueIdx Idealize.ShloMosaic.TcCoe Idealize.SL.Sem
open Cert.KernelIdeal.Hand

/-- The reference's tail, applied to a tensor and affine vectors that agree entry by entry with what the kernel program's
    second pallas_call reads, is the array that pallas_call leaves — when those entries are real numbers. -/
theorem tail_eq_kernel [Cert.ReferenceIdeal.Facts]
    (m : (ℓ : Loc Cert.KernelIdeal.nD Cert.KernelIdeal.τ Cert.KernelIdeal.sig) → Buf (Elt Ideal) ℓ) (c : Dev Cert.KernelIdeal.nD)
    (g : (⟨Cert.ReferenceIdeal.S4x2048x64x64, .f32⟩ : BufTy).Contents (Elt Ideal))
    (a3 a4 : (⟨Cert.ReferenceIdeal.S1x1x1x64, .f32⟩ : BufTy).Contents (Elt Ideal))
    (hg : ∀ b s k c', g (ix4 b s k c') = Xk m c b s k c')
    (h3 : ∀ c', a3 (ix4 (0 : Fin 1) (0 : Fin 1) (0 : Fin 1) c') = Ak m c c')
    (h4 : ∀ c', a4 (ix4 (0 : Fin 1) (0 : Fin 1) (0 : Fin 1) c') = Bk m c c')
    (hX : ∀ b s k c', ∃ r : ℝ, Xk m c b s k c' = (r : EReal))
    (hA : ∀ c', ∃ r : ℝ, Ak m c c' = (r : EReal)) (hB : ∀ c', ∃ r : ℝ, Bk m c c' = (r : EReal)) :
    Cert.ReferenceIdeal.Tail.refTail g a3 a4
      = (Wend m c (Proc.devRef .tc Cert.KernelIdeal.main_v49) : Cert.KernelIdeal.S4x2048x64x64.Idx → EReal) := by
  funext i
  obtain ⟨b, s, k, c', rfl⟩ : ∃ (b : Fin 4) (s : Fin 2048) (k c' : Fin 64), i = ix4 b s k c' := ⟨i 0, i 1, i 2, i 3, eq_ix4 i⟩
  have hc : Cert.ReferenceIdeal.Tail.coords g = Xk m c :=
    funext fun b => funext fun s => funext fun k => funext fun c' => hg b s k c'
  rw [Cert.ReferenceIdeal.Tail.ref_value, kernel_value', hc, h3, h4]
  exact (GroupNormAlg.bridge (Xk m c) (Ak m c) (Bk m c) _ hX hA hB Cert.Consts.ofBits_eps b s k c').symm

end Cert.Proof

end
-- ==== Proof.KIPrefix.lean ====
/-
  The host operations before the first pallas_call, as composed terms of the program's arguments.

  From the point cloud a0 : [4, 16384, 2] (coordinates), the features a1 : [4, 16384, 62] and the centre indices
  a2 : [4, 2048], the prefix selects the centres' coordinates (indices below zero wrap by 16384), takes every centre's
  squared distance to every point (|p|² + |q|² − 2 p·q), keeps the indices of the points farther than the radius word out
  of the way by replacing them with 16384, sorts each centre's indices, keeps the first 64, fills the slots past the
  last neighbour with the first neighbour, and gathers those points' features and coordinates into one tensor
  [4, 2048, 64, 64] (62 features, then the 2 coordinates). Each definition below lists the operations in the order the
  program performs them, a called function's operations at its call site; each theorem says that the program's buffer
  holds that term of the launch contents.
-/
import proofs.«157503_j446676598875_2_alg».proof.Proof.KIReads

set_option maxRecDepth 16384

noncomputable section

namespace Cert.KernelIdeal.Hand

open Cert.KernelIdeal Cert.KernelIdeal.Facts₀ Cert.KernelIdeal.Facts
open Idealize.ShloMosaic Idealize.ShloMosaic.TcCoe
open Idealize.SL Idealize.SL.Sem

variable {F : FTy → Type} [FloatOps F]

/-! ## The terms -/

/-- The centres' coordinates [4, 2048, 2]: the centre indices normalised, the coordinates gathered at them. -/
def newXyK (a0 : (⟨S4x16384x2, .f32⟩ : BufTy).Contents (Elt F)) (a2 : (⟨S4x2048, .i32⟩ : BufTy).Contents (Elt F)) : (⟨S4x2048x2, .f32⟩ : BufTy).Contents (Elt F) :=
  have c : (⟨S_, .i32⟩ : BufTy).Contents (Elt F) := constantI S_ 32 0#32
  have v0 : (⟨S4x2048, .i32⟩ : BufTy).Contents (Elt F) := broadcastInDim S4x2048 ![] bcast_S_S4x2048 c
  have v1 : (⟨S4x2048, .i1⟩ : BufTy).Contents (Elt F) := cmpi .slt a2 v0
  have c_0 : (⟨S_, .i32⟩ : BufTy).Contents (Elt F) := constantI S_ 32 16384#32
  have v2 : (⟨S4x2048, .i32⟩ : BufTy).Contents (Elt F) := broadcastInDim S4x2048 ![] bcast_S_S4x2048 c_0
  have v3 : (⟨S4x2048, .i32⟩ : BufTy).Contents (Elt F) := addi a2 v2
  have v4 : (⟨S4x2048, .i32⟩ : BufTy).Contents (Elt F) := select v1 v3 a2
  have v5 : (⟨S4x2048x1, .i32⟩ : BufTy).Contents (Elt F) := broadcastInDim S4x2048x1 ![0, 1] bcast_S4x2048_S4x2048x1_0_1 v4
  have v6 : (⟨S4x2048x2, .f32⟩ : BufTy).Contents (Elt F) := Host.gather gather_S4x16384x2_S4x2048x1_S4x2048x2_2_1_0_0_1_2_112 a0 v5
  v6

/-- Whether a point is farther from a centre than the radius word: on the squared distances [4, 2048, 16384]. -/
def farK (a0 : (⟨S4x16384x2, .f32⟩ : BufTy).Contents (Elt F)) (a2 : (⟨S4x2048, .i32⟩ : BufTy).Contents (Elt F)) : (⟨S4x2048x16384, .i1⟩ : BufTy).Contents (Elt F) :=
  have c : (⟨S_, .i32⟩ : BufTy).Contents (Elt F) := constantI S_ 32 0#32
  have v0 : (⟨S4x2048, .i32⟩ : BufTy).Contents (Elt F) := broadcastInDim S4x2048 ![] bcast_S_S4x2048 c
  have v1 : (⟨S4x2048, .i1⟩ : BufTy).Contents (Elt F) := cmpi .slt a2 v0
  have c_0 : (⟨S_, .i32⟩ : BufTy).Contents (Elt F) := constantI S_ 32 16384#32
  have v2 : (⟨S4x2048, .i32⟩ : BufTy).Contents (Elt F) := broadcastInDim S4x2048 ![] bcast_S_S4x2048 c_0
  have v3 : (⟨S4x2048, .i32⟩ : BufTy).Contents (Elt F) := addi a2 v2
  have v4 : (⟨S4x2048, .i32⟩ : BufTy).Contents (Elt F) := select v1 v3 a2
  have v5 : (⟨S4x2048x1, .i32⟩ : BufTy).Contents (Elt F) := broadcastInDim S4x2048x1 ![0, 1] bcast_S4x2048_S4x2048x1_0_1 v4
  have v6 : (⟨S4x2048x2, .f32⟩ : BufTy).Contents (Elt F) := Host.gather gather_S4x16384x2_S4x2048x1_S4x2048x2_2_1_0_0_1_2_112 a0 v5
  have v7 : (⟨S4x2048x2, .f32⟩ : BufTy).Contents (Elt F) := mulf v6 v6
  have cst : (⟨S_, .f32⟩ : BufTy).Contents (Elt F) := constant (F := F) S_ .f32 0x00000000#32
  have v8 : (⟨S4x2048, .f32⟩ : BufTy).Contents (Elt F) := Host.reduceAdd v7 cst reducesTo_S4x2048x2_S4x2048_d2 h_S_
  have v9 : (⟨S4x2048x1, .f32⟩ : BufTy).Contents (Elt F) := broadcastInDim S4x2048x1 ![0, 1] bcast_S4x2048_S4x2048x1_0_1 v8
  have v10 : (⟨S4x16384x2, .f32⟩ : BufTy).Contents (Elt F) := mulf a0 a0
  have cst_1 : (⟨S_, .f32⟩ : BufTy).Contents (Elt F) := constant (F := F) S_ .f32 0x00000000#32
  have v11 : (⟨S4x16384, .f32⟩ : BufTy).Contents (Elt F) := Host.reduceAdd v10 cst_1 reducesTo_S4x16384x2_S4x16384_d2 h_S_
  have v12 : (⟨S4x1x16384, .f32⟩ : BufTy).Contents (Elt F) := broadcastInDim S4x1x16384 ![0, 2] bcast_S4x16384_S4x1x16384_0_2 v11
  have v13 : (⟨S4x2048x16384, .f32⟩ : BufTy).Contents (Elt F) := broadcastInDim S4x2048x16384 ![0, 1, 2] bcast_S4x2048x1_S4x2048x16384_0_1_2 v9
  have v14 : (⟨S4x2048x16384, .f32⟩ : BufTy).Contents (Elt F) := broadcastInDim S4x2048x16384 ![0, 1, 2] bcast_S4x1x16384_S4x2048x16384_0_1_2 v12
  have v15 : (⟨S4x2048x16384, .f32⟩ : BufTy).Contents (Elt F) := addf v13 v14
  have v16 : (⟨S4x2048x16384, .f32⟩ : BufTy).Contents (Elt F) := Host.dotGeneral dot_S4x2048x2_S4x16384x2_S4x2048x16384_2_2_1_1_0_0 none v6 a0
  have cst_2 : (⟨S_, .f32⟩ : BufTy).Contents (Elt F) := constant (F := F) S_ .f32 0x40000000#32
  have v17 : (⟨S4x2048x16384, .f32⟩ : BufTy).Contents (Elt F) := broadcastInDim S4x2048x16384 ![] bcast_S_S4x2048x16384 cst_2
  have v18 : (⟨S4x2048x16384, .f32⟩ : BufTy).Contents (Elt F) := mulf v17 v16
  have v19 : (⟨S4x2048x16384, .f32⟩ : BufTy).Contents (Elt F) := subf v15 v18
  have v20 : (⟨S16384, .i32⟩ : BufTy).Contents (Elt F) := iotaInDim S16384 32 0
  have cst_3 : (⟨S_, .f32⟩ : BufTy).Contents (Elt F) := constant (F := F) S_ .f32 0x3C23D70A#32
  have v21 : (⟨S4x2048x16384, .f32⟩ : BufTy).Contents (Elt F) := broadcastInDim S4x2048x16384 ![] bcast_S_S4x2048x16384 cst_3
  have v22 : (⟨S4x2048x16384, .i1⟩ : BufTy).Contents (Elt F) := cmpf .ogt v19 v21
  v22

/-- Each centre's candidate indices: a point's own index where it is within the radius, 16384 where it is not. -/
def ballK (a0 : (⟨S4x16384x2, .f32⟩ : BufTy).Contents (Elt F)) (a2 : (⟨S4x2048, .i32⟩ : BufTy).Contents (Elt F)) : (⟨S4x2048x16384, .i32⟩ : BufTy).Contents (Elt F) :=
  have c : (⟨S_, .i32⟩ : BufTy).Contents (Elt F) := constantI S_ 32 0#32
  have v0 : (⟨S4x2048, .i32⟩ : BufTy).Contents (Elt F) := broadcastInDim S4x2048 ![] bcast_S_S4x2048 c
  have v1 : (⟨S4x2048, .i1⟩ : BufTy).Contents (Elt F) := cmpi .slt a2 v0
  have c_0 : (⟨S_, .i32⟩ : BufTy).Contents (Elt F) := constantI S_ 32 16384#32
  have v2 : (⟨S4x2048, .i32⟩ : BufTy).Contents (Elt F) := broadcastInDim S4x2048 ![] bcast_S_S4x2048 c_0
  have v3 : (⟨S4x2048, .i32⟩ : BufTy).Contents (Elt F) := addi a2 v2
  have v4 : (⟨S4x2048, .i32⟩ : BufTy).Contents (Elt F) := select v1 v3 a2
  have v5 : (⟨S4x2048x1, .i32⟩ : BufTy).Contents (Elt F) := broadcastInDim S4x2048x1 ![0, 1] bcast_S4x2048_S4x2048x1_0_1 v4
  have v6 : (⟨S4x2048x2, .f32⟩ : BufTy).Contents (Elt F) := Host.gather gather_S4x16384x2_S4x2048x1_S4x2048x2_2_1_0_0_1_2_112 a0 v5
  have v7 : (⟨S4x2048x2, .f32⟩ : BufTy).Contents (Elt F) := mulf v6 v6
  have cst : (⟨S_, .f32⟩ : BufTy).Contents (Elt F) := constant (F := F) S_ .f32 0x00000000#32
  have v8 : (⟨S4x2048, .f32⟩ : BufTy).Contents (Elt F) := Host.reduceAdd v7 cst reducesTo_S4x2048x2_S4x2048_d2 h_S_
  have v9 : (⟨S4x2048x1, .f32⟩ : BufTy).Contents (Elt F) := broadcastInDim S4x2048x1 ![0, 1] bcast_S4x2048_S4x2048x1_0_1 v8
  have v10 : (⟨S4x16384x2, .f32⟩ : BufTy).Contents (Elt F) := mulf a0 a0
  have cst_1 : (⟨S_, .f32⟩ : BufTy).Contents (Elt F) := constant (F := F) S_ .f32 0x00000000#32
  have v11 : (⟨S4x16384, .f32⟩ : BufTy).Contents (Elt F) := Host.reduceAdd v10 cst_1 reducesTo_S4x16384x2_S4x16384_d2 h_S_
  have v12 : (⟨S4x1x16384, .f32⟩ : BufTy).Contents (Elt F) := broadcastInDim S4x1x16384 ![0, 2] bcast_S4x16384_S4x1x16384_0_2 v11
  have v13 : (⟨S4x2048x16384, .f32⟩ : BufTy).Contents (Elt F) := broadcastInDim S4x2048x16384 ![0, 1, 2] bcast_S4x2048x1_S4x2048x16384_0_1_2 v9
  have v14 : (⟨S4x2048x16384, .f32⟩ : BufTy).Contents (Elt F) := broadcastInDim S4x2048x16384 ![0, 1, 2] bcast_S4x1x16384_S4x2048x16384_0_1_2 v12
  have v15 : (⟨S4x2048x16384, .f32⟩ : BufTy).Contents (Elt F) := addf v13 v14
  have v16 : (⟨S4x2048x16384, .f32⟩ : BufTy).Contents (Elt F) := Host.dotGeneral dot_S4x2048x2_S4x16384x2_S4x2048x16384_2_2_1_1_0_0 none v6 a0
  have cst_2 : (⟨S_, .f32⟩ : BufTy).Contents (Elt F) := constant (F := F) S_ .f32 0x40000000#32
  have v17 : (⟨S4x2048x16384, .f32⟩ : BufTy).Contents (Elt F) := broadcastInDim S4x2048x16384 ![] bcast_S_S4x2048x16384 cst_2
  have v18 : (⟨S4x2048x16384, .f32⟩ : BufTy).Contents (Elt F) := mulf v17 v16
  have v19 : (⟨S4x2048x16384, .f32⟩ : BufTy).Contents (Elt F) := subf v15 v18
  have v20 : (⟨S16384, .i32⟩ : BufTy).Contents (Elt F) := iotaInDim S16384 32 0
  have cst_3 : (⟨S_, .f32⟩ : BufTy).Contents (Elt F) := constant (F := F) S_ .f32 0x3C23D70A#32
  have v21 : (⟨S4x2048x16384, .f32⟩ : BufTy).Contents (Elt F) := broadcastInDim S4x2048x16384 ![] bcast_S_S4x2048x16384 cst_3
  have v22 : (⟨S4x2048x16384, .i1⟩ : BufTy).Contents (Elt F) := cmpf .ogt v19 v21
  have c_4 : (⟨S_, .i32⟩ : BufTy).Contents (Elt F) := constantI S_ 32 16384#32
  have call0_v0 : (⟨S_, .i32⟩ : BufTy).Contents (Elt F) := id c_4
  have call0_v1 : (⟨S4x2048x16384, .i32⟩ : BufTy).Contents (Elt F) := broadcastInDim S4x2048x16384 ![] bcast_S_S4x2048x16384 call0_v0
  have call0_v2 : (⟨S4x2048x16384, .i32⟩ : BufTy).Contents (Elt F) := broadcastInDim S4x2048x16384 ![2] bcast_S16384_S4x2048x16384_2 v20
  have v23 : (⟨S4x2048x16384, .i32⟩ : BufTy).Contents (Elt F) := select v22 call0_v1 call0_v2
  v23

/-- The candidate indices sorted along the points' axis. -/
def sortedK (a0 : (⟨S4x16384x2, .f32⟩ : BufTy).Contents (Elt F)) (a2 : (⟨S4x2048, .i32⟩ : BufTy).Contents (Elt F)) : (⟨S4x2048x16384, .i32⟩ : BufTy).Contents (Elt F) :=
  have c : (⟨S_, .i32⟩ : BufTy).Contents (Elt F) := constantI S_ 32 0#32
  have v0 : (⟨S4x2048, .i32⟩ : BufTy).Contents (Elt F) := broadcastInDim S4x2048 ![] bcast_S_S4x2048 c
  have v1 : (⟨S4x2048, .i1⟩ : BufTy).Contents (Elt F) := cmpi .slt a2 v0
  have c_0 : (⟨S_, .i32⟩ : BufTy).Contents (Elt F) := constantI S_ 32 16384#32
  have v2 : (⟨S4x2048, .i32⟩ : BufTy).Contents (Elt F) := broadcastInDim S4x2048 ![] bcast_S_S4x2048 c_0
  have v3 : (⟨S4x2048, .i32⟩ : BufTy).Contents (Elt F) := addi a2 v2
  have v4 : (⟨S4x2048, .i32⟩ : BufTy).Contents (Elt F) := select v1 v3 a2
  have v5 : (⟨S4x2048x1, .i32⟩ : BufTy).Contents (Elt F) := broadcastInDim S4x2048x1 ![0, 1] bcast_S4x2048_S4x2048x1_0_1 v4
  have v6 : (⟨S4x2048x2, .f32⟩ : BufTy).Contents (Elt F) := Host.gather gather_S4x16384x2_S4x2048x1_S4x2048x2_2_1_0_0_1_2_112 a0 v5
  have v7 : (⟨S4x2048x2, .f32⟩ : BufTy).Contents (Elt F) := mulf v6 v6
  have cst : (⟨S_, .f32⟩ : BufTy).Contents (Elt F) := constant (F := F) S_ .f32 0x00000000#32
  have v8 : (⟨S4x2048, .f32⟩ : BufTy).Contents (Elt F) := Host.reduceAdd v7 cst reducesTo_S4x2048x2_S4x2048_d2 h_S_
  have v9 : (⟨S4x2048x1, .f32⟩ : BufTy).Contents (Elt F) := broadcastInDim S4x2048x1 ![0, 1] bcast_S4x2048_S4x2048x1_0_1 v8
  have v10 : (⟨S4x16384x2, .f32⟩ : BufTy).Contents (Elt F) := mulf a0 a0
  have cst_1 : (⟨S_, .f32⟩ : BufTy).Contents (Elt F) := constant (F := F) S_ .f32 0x00000000#32
  have v11 : (⟨S4x16384, .f32⟩ : BufTy).Contents (Elt F) := Host.reduceAdd v10 cst_1 reducesTo_S4x16384x2_S4x16384_d2 h_S_
  have v12 : (⟨S4x1x16384, .f32⟩ : BufTy).Contents (Elt F) := broadcastInDim S4x1x16384 ![0, 2] bcast_S4x16384_S4x1x16384_0_2 v11
  have v13 : (⟨S4x2048x16384, .f32⟩ : BufTy).Contents (Elt F) := broadcastInDim S4x2048x16384 ![0, 1, 2] bcast_S4x2048x1_S4x2048x16384_0_1_2 v9
  have v14 : (⟨S4x2048x16384, .f32⟩ : BufTy).Contents (Elt F) := broadcastInDim S4x2048x16384 ![0, 1, 2] bcast_S4x1x16384_S4x2048x16384_0_1_2 v12
  have v15 : (⟨S4x2048x16384, .f32⟩ : BufTy).Contents (Elt F) := addf v13 v14
  have v16 : (⟨S4x2048x16384, .f32⟩ : BufTy).Contents (Elt F) := Host.dotGeneral dot_S4x2048x2_S4x16384x2_S4x2048x16384_2_2_1_1_0_0 none v6 a0
  have cst_2 : (⟨S_, .f32⟩ : BufTy).Contents (Elt F) := constant (F := F) S_ .f32 0x40000000#32
  have v17 : (⟨S4x2048x16384, .f32⟩ : BufTy).Contents (Elt F) := broadcastInDim S4x2048x16384 ![] bcast_S_S4x2048x16384 cst_2
  have v18 : (⟨S4x2048x16384, .f32⟩ : BufTy).Contents (Elt F) := mulf v17 v16
  have v19 : (⟨S4x2048x16384, .f32⟩ : BufTy).Contents (Elt F) := subf v15 v18
  have v20 : (⟨S16384, .i32⟩ : BufTy).Contents (Elt F) := iotaInDim S16384 32 0
  have cst_3 : (⟨S_, .f32⟩ : BufTy).Contents (Elt F) := constant (F := F) S_ .f32 0x3C23D70A#32
  have v21 : (⟨S4x2048x16384, .f32⟩ : BufTy).Contents (Elt F) := broadcastInDim S4x2048x16384 ![] bcast_S_S4x2048x16384 cst_3
  have v22 : (⟨S4x2048x16384, .i1⟩ : BufTy).Contents (Elt F) := cmpf .ogt v19 v21
  have c_4 : (⟨S_, .i32⟩ : BufTy).Contents (Elt F) := constantI S_ 32 16384#32
  have call0_v0 : (⟨S_, .i32⟩ : BufTy).Contents (Elt F) := id c_4
  have call0_v1 : (⟨S4x2048x16384, .i32⟩ : BufTy).Contents (Elt F) := broadcastInDim S4x2048x16384 ![] bcast_S_S4x2048x16384 call0_v0
  have call0_v2 : (⟨S4x2048x16384, .i32⟩ : BufTy).Contents (Elt F) := broadcastInDim S4x2048x16384 ![2] bcast_S16384_S4x2048x16384_2 v20
  have v23 : (⟨S4x2048x16384, .i32⟩ : BufTy).Contents (Elt F) := select v22 call0_v1 call0_v2
  have v24 : (⟨S4x2048x16384, .i32⟩ : BufTy).Contents (Elt F) := Host.sort S4x2048x16384 2 comparator_i32_d2 v23
  v24

/-- The first 64 sorted candidates of each centre. -/
def firstK (a0 : (⟨S4x16384x2, .f32⟩ : BufTy).Contents (Elt F)) (a2 : (⟨S4x2048, .i32⟩ : BufTy).Contents (Elt F)) : (⟨S4x2048x64, .i32⟩ : BufTy).Contents (Elt F) :=
  have c : (⟨S_, .i32⟩ : BufTy).Contents (Elt F) := constantI S_ 32 0#32
  have v0 : (⟨S4x2048, .i32⟩ : BufTy).Contents (Elt F) := broadcastInDim S4x2048 ![] bcast_S_S4x2048 c
  have v1 : (⟨S4x2048, .i1⟩ : BufTy).Contents (Elt F) := cmpi .slt a2 v0
  have c_0 : (⟨S_, .i32⟩ : BufTy).Contents (Elt F) := constantI S_ 32 16384#32
  have v2 : (⟨S4x2048, .i32⟩ : BufTy).Contents (Elt F) := broadcastInDim S4x2048 ![] bcast_S_S4x2048 c_0
  have v3 : (⟨S4x2048, .i32⟩ : BufTy).Contents (Elt F) := addi a2 v2
  have v4 : (⟨S4x2048, .i32⟩ : BufTy).Contents (Elt F) := select v1 v3 a2
  have v5 : (⟨S4x2048x1, .i32⟩ : BufTy).Contents (Elt F) := broadcastInDim S4x2048x1 ![0, 1] bcast_S4x2048_S4x2048x1_0_1 v4
  have v6 : (⟨S4x2048x2, .f32⟩ : BufTy).Contents (Elt F) := Host.gather gather_S4x16384x2_S4x2048x1_S4x2048x2_2_1_0_0_1_2_112 a0 v5
  have v7 : (⟨S4x2048x2, .f32⟩ : BufTy).Contents (Elt F) := mulf v6 v6
  have cst : (⟨S_, .f32⟩ : BufTy).Contents (Elt F) := constant (F := F) S_ .f32 0x00000000#32
  have v8 : (⟨S4x2048, .f32⟩ : BufTy).Contents (Elt F) := Host.reduceAdd v7 cst reducesTo_S4x2048x2_S4x2048_d2 h_S_
  have v9 : (⟨S4x2048x1, .f32⟩ : BufTy).Contents (Elt F) := broadcastInDim S4x2048x1 ![0, 1] bcast_S4x2048_S4x2048x1_0_1 v8
  have v10 : (⟨S4x16384x2, .f32⟩ : BufTy).Contents (Elt F) := mulf a0 a0
  have cst_1 : (⟨S_, .f32⟩ : BufTy).Contents (Elt F) := constant (F := F) S_ .f32 0x00000000#32
  have v11 : (⟨S4x16384, .f32⟩ : BufTy).Contents (Elt F) := Host.reduceAdd v10 cst_1 reducesTo_S4x16384x2_S4x16384_d2 h_S_
  have v12 : (⟨S4x1x16384, .f32⟩ : BufTy).Contents (Elt F) := broadcastInDim S4x1x16384 ![0, 2] bcast_S4x16384_S4x1x16384_0_2 v11
  have v13 : (⟨S4x2048x16384, .f32⟩ : BufTy).Contents (Elt F) := broadcastInDim S4x2048x16384 ![0, 1, 2] bcast_S4x2048x1_S4x2048x16384_0_1_2 v9
  have v14 : (⟨S4x2048x16384, .f32⟩ : BufTy).Contents (Elt F) := broadcastInDim S4x2048x16384 ![0, 1, 2] bcast_S4x1x16384_S4x2048x16384_0_1_2 v12
  have v15 : (⟨S4x2048x16384, .f32⟩ : BufTy).Contents (Elt F) := addf v13 v14
  have v16 : (⟨S4x2048x16384, .f32⟩ : BufTy).Contents (Elt F) := Host.dotGeneral dot_S4x2048x2_S4x16384x2_S4x2048x16384_2_2_1_1_0_0 none v6 a0
  have cst_2 : (⟨S_, .f32⟩ : BufTy).Contents (Elt F) := constant (F := F) S_ .f32 0x40000000#32
  have v17 : (⟨S4x2048x16384, .f32⟩ : BufTy).Contents (Elt F) := broadcastInDim S4x2048x16384 ![] bcast_S_S4x2048x16384 cst_2
  have v18 : (⟨S4x2048x16384, .f32⟩ : BufTy).Contents (Elt F) := mulf v17 v16
  have v19 : (⟨S4x2048x16384, .f32⟩ : BufTy).Contents (Elt F) := subf v15 v18
  have v20 : (⟨S16384, .i32⟩ : BufTy).Contents (Elt F) := iotaInDim S16384 32 0
  have cst_3 : (⟨S_, .f32⟩ : BufTy).Contents (Elt F) := constant (F := F) S_ .f32 0x3C23D70A#32
  have v21 : (⟨S4x2048x16384, .f32⟩ : BufTy).Contents (Elt F) := broadcastInDim S4x2048x16384 ![] bcast_S_S4x2048x16384 cst_3
  have v22 : (⟨S4x2048x16384, .i1⟩ : BufTy).Contents (Elt F) := cmpf .ogt v19 v21
  have c_4 : (⟨S_, .i32⟩ : BufTy).Contents (Elt F) := constantI S_ 32 16384#32
  have call0_v0 : (⟨S_, .i32⟩ : BufTy).Contents (Elt F) := id c_4
  have call0_v1 : (⟨S4x2048x16384, .i32⟩ : BufTy).Contents (Elt F) := broadcastInDim S4x2048x16384 ![] bcast_S_S4x2048x16384 call0_v0
  have call0_v2 : (⟨S4x2048x16384, .i32⟩ : BufTy).Contents (Elt F) := broadcastInDim S4x2048x16384 ![2] bcast_S16384_S4x2048x16384_2 v20
  have v23 : (⟨S4x2048x16384, .i32⟩ : BufTy).Contents (Elt F) := select v22 call0_v1 call0_v2
  have v24 : (⟨S4x2048x16384, .i32⟩ : BufTy).Contents (Elt F) := Host.sort S4x2048x16384 2 comparator_i32_d2 v23
  have v25 : (⟨S4x2048x64, .i32⟩ : BufTy).Contents (Elt F) := extractStridedSlice S4x2048x64 ![0, 0, 0] v24 slices_S4x2048x16384_S4x2048x64_0_0_0
  v25

/-- The first sorted candidate of each centre. -/
def headK (a0 : (⟨S4x16384x2, .f32⟩ : BufTy).Contents (Elt F)) (a2 : (⟨S4x2048, .i32⟩ : BufTy).Contents (Elt F)) : (⟨S4x2048x1, .i32⟩ : BufTy).Contents (Elt F) :=
  have c : (⟨S_, .i32⟩ : BufTy).Contents (Elt F) := constantI S_ 32 0#32
  have v0 : (⟨S4x2048, .i32⟩ : BufTy).Contents (Elt F) := broadcastInDim S4x2048 ![] bcast_S_S4x2048 c
  have v1 : (⟨S4x2048, .i1⟩ : BufTy).Contents (Elt F) := cmpi .slt a2 v0
  have c_0 : (⟨S_, .i32⟩ : BufTy).Contents (Elt F) := constantI S_ 32 16384#32
  have v2 : (⟨S4x2048, .i32⟩ : BufTy).Contents (Elt F) := broadcastInDim S4x2048 ![] bcast_S_S4x2048 c_0
  have v3 : (⟨S4x2048, .i32⟩ : BufTy).Contents (Elt F) := addi a2 v2
  have v4 : (⟨S4x2048, .i32⟩ : BufTy).Contents (Elt F) := select v1 v3 a2
  have v5 : (⟨S4x2048x1, .i32⟩ : BufTy).Contents (Elt F) := broadcastInDim S4x2048x1 ![0, 1] bcast_S4x2048_S4x2048x1_0_1 v4
  have v6 : (⟨S4x2048x2, .f32⟩ : BufTy).Contents (Elt F) := Host.gather gather_S4x16384x2_S4x2048x1_S4x2048x2_2_1_0_0_1_2_112 a0 v5
  have v7 : (⟨S4x2048x2, .f32⟩ : BufTy).Contents (Elt F) := mulf v6 v6
  have cst : (⟨S_, .f32⟩ : BufTy).Contents (Elt F) := constant (F := F) S_ .f32 0x00000000#32
  have v8 : (⟨S4x2048, .f32⟩ : BufTy).Contents (Elt F) := Host.reduceAdd v7 cst reducesTo_S4x2048x2_S4x2048_d2 h_S_
  have v9 : (⟨S4x2048x1, .f32⟩ : BufTy).Contents (Elt F) := broadcastInDim S4x2048x1 ![0, 1] bcast_S4x2048_S4x2048x1_0_1 v8
  have v10 : (⟨S4x16384x2, .f32⟩ : BufTy).Contents (Elt F) := mulf a0 a0
  have cst_1 : (⟨S_, .f32⟩ : BufTy).Contents (Elt F) := constant (F := F) S_ .f32 0x00000000#32
  have v11 : (⟨S4x16384, .f32⟩ : BufTy).Contents (Elt F) := Host.reduceAdd v10 cst_1 reducesTo_S4x16384x2_S4x16384_d2 h_S_
  have v12 : (⟨S4x1x16384, .f32⟩ : BufTy).Contents (Elt F) := broadcastInDim S4x1x16384 ![0, 2] bcast_S4x16384_S4x1x16384_0_2 v11
  have v13 : (⟨S4x2048x16384, .f32⟩ : BufTy).Contents (Elt F) := broadcastInDim S4x2048x16384 ![0, 1, 2] bcast_S4x2048x1_S4x2048x16384_0_1_2 v9
  have v14 : (⟨S4x2048x16384, .f32⟩ : BufTy).Contents (Elt F) := broadcastInDim S4x2048x16384 ![0, 1, 2] bcast_S4x1x16384_S4x2048x16384_0_1_2 v12
  have v15 : (⟨S4x2048x16384, .f32⟩ : BufTy).Contents (Elt F) := addf v13 v14
  have v16 : (⟨S4x2048x16384, .f32⟩ : BufTy).Contents (Elt F) := Host.dotGeneral dot_S4x2048x2_S4x16384x2_S4x2048x16384_2_2_1_1_0_0 none v6 a0
  have cst_2 : (⟨S_, .f32⟩ : BufTy).Contents (Elt F) := constant (F := F) S_ .f32 0x40000000#32
  have v17 : (⟨S4x2048x16384, .f32⟩ : BufTy).Contents (Elt F) := broadcastInDim S4x2048x16384 ![] bcast_S_S4x2048x16384 cst_2
  have v18 : (⟨S4x2048x16384, .f32⟩ : BufTy).Contents (Elt F) := mulf v17 v16
  have v19 : (⟨S4x2048x16384, .f32⟩ : BufTy).Contents (Elt F) := subf v15 v18
  have v20 : (⟨S16384, .i32⟩ : BufTy).Contents (Elt F) := iotaInDim S16384 32 0
  have cst_3 : (⟨S_, .f32⟩ : BufTy).Contents (Elt F) := constant (F := F) S_ .f32 0x3C23D70A#32
  have v21 : (⟨S4x2048x16384, .f32⟩ : BufTy).Contents (Elt F) := broadcastInDim S4x2048x16384 ![] bcast_S_S4x2048x16384 cst_3
  have v22 : (⟨S4x2048x16384, .i1⟩ : BufTy).Contents (Elt F) := cmpf .ogt v19 v21
  have c_4 : (⟨S_, .i32⟩ : BufTy).Contents (Elt F) := constantI S_ 32 16384#32
  have call0_v0 : (⟨S_, .i32⟩ : BufTy).Contents (Elt F) := id c_4
  have call0_v1 : (⟨S4x2048x16384, .i32⟩ : BufTy).Contents (Elt F) := broadcastInDim S4x2048x16384 ![] bcast_S_S4x2048x16384 call0_v0
  have call0_v2 : (⟨S4x2048x16384, .i32⟩ : BufTy).Contents (Elt F) := broadcastInDim S4x2048x16384 ![2] bcast_S16384_S4x2048x16384_2 v20
  have v23 : (⟨S4x2048x16384, .i32⟩ : BufTy).Contents (Elt F) := select v22 call0_v1 call0_v2
  have v24 : (⟨S4x2048x16384, .i32⟩ : BufTy).Contents (Elt F) := Host.sort S4x2048x16384 2 comparator_i32_d2 v23
  have v25 : (⟨S4x2048x64, .i32⟩ : BufTy).Contents (Elt F) := extractStridedSlice S4x2048x64 ![0, 0, 0] v24 slices_S4x2048x16384_S4x2048x64_0_0_0
  have v26 : (⟨S4x2048x1, .i32⟩ : BufTy).Contents (Elt F) := extractStridedSlice S4x2048x1 ![0, 0, 0] v25 slices_S4x2048x64_S4x2048x1_0_0_0
  v26

/-- Which of the 64 slots hold no neighbour (the filler 16384). -/
def emptyK (a0 : (⟨S4x16384x2, .f32⟩ : BufTy).Contents (Elt F)) (a2 : (⟨S4x2048, .i32⟩ : BufTy).Contents (Elt F)) : (⟨S4x2048x64, .i1⟩ : BufTy).Contents (Elt F) :=
  have c : (⟨S_, .i32⟩ : BufTy).Contents (Elt F) := constantI S_ 32 0#32
  have v0 : (⟨S4x2048, .i32⟩ : BufTy).Contents (Elt F) := broadcastInDim S4x2048 ![] bcast_S_S4x2048 c
  have v1 : (⟨S4x2048, .i1⟩ : BufTy).Contents (Elt F) := cmpi .slt a2 v0
  have c_0 : (⟨S_, .i32⟩ : BufTy).Contents (Elt F) := constantI S_ 32 16384#32
  have v2 : (⟨S4x2048, .i32⟩ : BufTy).Contents (Elt F) := broadcastInDim S4x2048 ![] bcast_S_S4x2048 c_0
  have v3 : (⟨S4x2048, .i32⟩ : BufTy).Contents (Elt F) := addi a2 v2
  have v4 : (⟨S4x2048, .i32⟩ : BufTy).Contents (Elt F) := select v1 v3 a2
  have v5 : (⟨S4x2048x1, .i32⟩ : BufTy).Contents (Elt F) := broadcastInDim S4x2048x1 ![0, 1] bcast_S4x2048_S4x2048x1_0_1 v4
  have v6 : (⟨S4x2048x2, .f32⟩ : BufTy).Contents (Elt F) := Host.gather gather_S4x16384x2_S4x2048x1_S4x2048x2_2_1_0_0_1_2_112 a0 v5
  have v7 : (⟨S4x2048x2, .f32⟩ : BufTy).Contents (Elt F) := mulf v6 v6
  have cst : (⟨S_, .f32⟩ : BufTy).Contents (Elt F) := constant (F := F) S_ .f32 0x00000000#32
  have v8 : (⟨S4x2048, .f32⟩ : BufTy).Contents (Elt F) := Host.reduceAdd v7 cst reducesTo_S4x2048x2_S4x2048_d2 h_S_
  have v9 : (⟨S4x2048x1, .f32⟩ : BufTy).Contents (Elt F) := broadcastInDim S4x2048x1 ![0, 1] bcast_S4x2048_S4x2048x1_0_1 v8
  have v10 : (⟨S4x16384x2, .f32⟩ : BufTy).Contents (Elt F) := mulf a0 a0
  have cst_1 : (⟨S_, .f32⟩ : BufTy).Contents (Elt F) := constant (F := F) S_ .f32 0x00000000#32
  have v11 : (⟨S4x16384, .f32⟩ : BufTy).Contents (Elt F) := Host.reduceAdd v10 cst_1 reducesTo_S4x16384x2_S4x16384_d2 h_S_
  have v12 : (⟨S4x1x16384, .f32⟩ : BufTy).Contents (Elt F) := broadcastInDim S4x1x16384 ![0, 2] bcast_S4x16384_S4x1x16384_0_2 v11
  have v13 : (⟨S4x2048x16384, .f32⟩ : BufTy).Contents (Elt F) := broadcastInDim S4x2048x16384 ![0, 1, 2] bcast_S4x2048x1_S4x2048x16384_0_1_2 v9
  have v14 : (⟨S4x2048x16384, .f32⟩ : BufTy).Contents (Elt F) := broadcastInDim S4x2048x16384 ![0, 1, 2] bcast_S4x1x16384_S4x2048x16384_0_1_2 v12
  have v15 : (⟨S4x2048x16384, .f32⟩ : BufTy).Contents (Elt F) := addf v13 v14
  have v16 : (⟨S4x2048x16384, .f32⟩ : BufTy).Contents (Elt F) := Host.dotGeneral dot_S4x2048x2_S4x16384x2_S4x2048x16384_2_2_1_1_0_0 none v6 a0
  have cst_2 : (⟨S_, .f32⟩ : BufTy).Contents (Elt F) := constant (F := F) S_ .f32 0x40000000#32
  have v17 : (⟨S4x2048x16384, .f32⟩ : BufTy).Contents (Elt F) := broadcastInDim S4x2048x16384 ![] bcast_S_S4x2048x16384 cst_2
  have v18 : (⟨S4x2048x16384, .f32⟩ : BufTy).Contents (Elt F) := mulf v17 v16
  have v19 : (⟨S4x2048x16384, .f32⟩ : BufTy).Contents (Elt F) := subf v15 v18
  have v20 : (⟨S16384, .i32⟩ : BufTy).Contents (Elt F) := iotaInDim S16384 32 0
  have cst_3 : (⟨S_, .f32⟩ : BufTy).Contents (Elt F) := constant (F := F) S_ .f32 0x3C23D70A#32
  have v21 : (⟨S4x2048x16384, .f32⟩ : BufTy).Contents (Elt F) := broadcastInDim S4x2048x16384 ![] bcast_S_S4x2048x16384 cst_3
  have v22 : (⟨S4x2048x16384, .i1⟩ : BufTy).Contents (Elt F) := cmpf .ogt v19 v21
  have c_4 : (⟨S_, .i32⟩ : BufTy).Contents (Elt F) := constantI S_ 32 16384#32
  have call0_v0 : (⟨S_, .i32⟩ : BufTy).Contents (Elt F) := id c_4
  have call0_v1 : (⟨S4x2048x16384, .i32⟩ : BufTy).Contents (Elt F) := broadcastInDim S4x2048x16384 ![] bcast_S_S4x2048x16384 call0_v0
  have call0_v2 : (⟨S4x2048x16384, .i32⟩ : BufTy).Contents (Elt F) := broadcastInDim S4x2048x16384 ![2] bcast_S16384_S4x2048x16384_2 v20
  have v23 : (⟨S4x2048x16384, .i32⟩ : BufTy).Contents (Elt F) := select v22 call0_v1 call0_v2
  have v24 : (⟨S4x2048x16384, .i32⟩ : BufTy).Contents (Elt F) := Host.sort S4x2048x16384 2 comparator_i32_d2 v23
  have v25 : (⟨S4x2048x64, .i32⟩ : BufTy).Contents (Elt F) := extractStridedSlice S4x2048x64 ![0, 0, 0] v24 slices_S4x2048x16384_S4x2048x64_0_0_0
  have v26 : (⟨S4x2048x1, .i32⟩ : BufTy).Contents (Elt F) := extractStridedSlice S4x2048x1 ![0, 0, 0] v25 slices_S4x2048x64_S4x2048x1_0_0_0
  have c_5 : (⟨S_, .i32⟩ : BufTy).Contents (Elt F) := constantI S_ 32 16384#32
  have v27 : (⟨S4x2048x64, .i32⟩ : BufTy).Contents (Elt F) := broadcastInDim S4x2048x64 ![] bcast_S_S4x2048x64 c_5
  have v28 : (⟨S4x2048x64, .i1⟩ : BufTy).Contents (Elt F) := cmpi .eq v25 v27
  v28

/-- The 64 neighbour indices of each centre, the empty slots filled with the first neighbour. -/
def idxK (a0 : (⟨S4x16384x2, .f32⟩ : BufTy).Contents (Elt F)) (a2 : (⟨S4x2048, .i32⟩ : BufTy).Contents (Elt F)) : (⟨S4x2048x64, .i32⟩ : BufTy).Contents (Elt F) :=
  have c : (⟨S_, .i32⟩ : BufTy).Contents (Elt F) := constantI S_ 32 0#32
  have v0 : (⟨S4x2048, .i32⟩ : BufTy).Contents (Elt F) := broadcastInDim S4x2048 ![] bcast_S_S4x2048 c
  have v1 : (⟨S4x2048, .i1⟩ : BufTy).Contents (Elt F) := cmpi .slt a2 v0
  have c_0 : (⟨S_, .i32⟩ : BufTy).Contents (Elt F) := constantI S_ 32 16384#32
  have v2 : (⟨S4x2048, .i32⟩ : BufTy).Contents (Elt F) := broadcastInDim S4x2048 ![] bcast_S_S4x2048 c_0
  have v3 : (⟨S4x2048, .i32⟩ : BufTy).Contents (Elt F) := addi a2 v2
  have v4 : (⟨S4x2048, .i32⟩ : BufTy).Contents (Elt F) := select v1 v3 a2
  have v5 : (⟨S4x2048x1, .i32⟩ : BufTy).Contents (Elt F) := broadcastInDim S4x2048x1 ![0, 1] bcast_S4x2048_S4x2048x1_0_1 v4
  have v6 : (⟨S4x2048x2, .f32⟩ : BufTy).Contents (Elt F) := Host.gather gather_S4x16384x2_S4x2048x1_S4x2048x2_2_1_0_0_1_2_112 a0 v5
  have v7 : (⟨S4x2048x2, .f32⟩ : BufTy).Contents (Elt F) := mulf v6 v6
  have cst : (⟨S_, .f32⟩ : BufTy).Contents (Elt F) := constant (F := F) S_ .f32 0x00000000#32
  have v8 : (⟨S4x2048, .f32⟩ : BufTy).Contents (Elt F) := Host.reduceAdd v7 cst reducesTo_S4x2048x2_S4x2048_d2 h_S_
  have v9 : (⟨S4x2048x1, .f32⟩ : BufTy).Contents (Elt F) := broadcastInDim S4x2048x1 ![0, 1] bcast_S4x2048_S4x2048x1_0_1 v8
  have v10 : (⟨S4x16384x2, .f32⟩ : BufTy).Contents (Elt F) := mulf a0 a0
  have cst_1 : (⟨S_, .f32⟩ : BufTy).Contents (Elt F) := constant (F := F) S_ .f32 0x00000000#32
  have v11 : (⟨S4x16384, .f32⟩ : BufTy).Contents (Elt F) := Host.reduceAdd v10 cst_1 reducesTo_S4x16384x2_S4x16384_d2 h_S_
  have v12 : (⟨S4x1x16384, .f32⟩ : BufTy).Contents (Elt F) := broadcastInDim S4x1x16384 ![0, 2] bcast_S4x16384_S4x1x16384_0_2 v11
  have v13 : (⟨S4x2048x16384, .f32⟩ : BufTy).Contents (Elt F) := broadcastInDim S4x2048x16384 ![0, 1, 2] bcast_S4x2048x1_S4x2048x16384_0_1_2 v9
  have v14 : (⟨S4x2048x16384, .f32⟩ : BufTy).Contents (Elt F) := broadcastInDim S4x2048x16384 ![0, 1, 2] bcast_S4x1x16384_S4x2048x16384_0_1_2 v12
  have v15 : (⟨S4x2048x16384, .f32⟩ : BufTy).Contents (Elt F) := addf v13 v14
  have v16 : (⟨S4x2048x16384, .f32⟩ : BufTy).Contents (Elt F) := Host.dotGeneral dot_S4x2048x2_S4x16384x2_S4x2048x16384_2_2_1_1_0_0 none v6 a0
  have cst_2 : (⟨S_, .f32⟩ : BufTy).Contents (Elt F) := constant (F := F) S_ .f32 0x40000000#32
  have v17 : (⟨S4x2048x16384, .f32⟩ : BufTy).Contents (Elt F) := broadcastInDim S4x2048x16384 ![] bcast_S_S4x2048x16384 cst_2
  have v18 : (⟨S4x2048x16384, .f32⟩ : BufTy).Contents (Elt F) := mulf v17 v16
  have v19 : (⟨S4x2048x16384, .f32⟩ : BufTy).Contents (Elt F) := subf v15 v18
  have v20 : (⟨S16384, .i32⟩ : BufTy).Contents (Elt F) := iotaInDim S16384 32 0
  have cst_3 : (⟨S_, .f32⟩ : BufTy).Contents (Elt F) := constant (F := F) S_ .f32 0x3C23D70A#32
  have v21 : (⟨S4x2048x16384, .f32⟩ : BufTy).Contents (Elt F) := broadcastInDim S4x2048x16384 ![] bcast_S_S4x2048x16384 cst_3
  have v22 : (⟨S4x2048x16384, .i1⟩ : BufTy).Contents (Elt F) := cmpf .ogt v19 v21
  have c_4 : (⟨S_, .i32⟩ : BufTy).Contents (Elt F) := constantI S_ 32 16384#32
  have call0_v0 : (⟨S_, .i32⟩ : BufTy).Contents (Elt F) := id c_4
  have call0_v1 : (⟨S4x2048x16384, .i32⟩ : BufTy).Contents (Elt F) := broadcastInDim S4x2048x16384 ![] bcast_S_S4x2048x16384 call0_v0
  have call0_v2 : (⟨S4x2048x16384, .i32⟩ : BufTy).Contents (Elt F) := broadcastInDim S4x2048x16384 ![2] bcast_S16384_S4x2048x16384_2 v20
  have v23 : (⟨S4x2048x16384, .i32⟩ : BufTy).Contents (Elt F) := select v22 call0_v1 call0_v2
  have v24 : (⟨S4x2048x16384, .i32⟩ : BufTy).Contents (Elt F) := Host.sort S4x2048x16384 2 comparator_i32_d2 v23
  have v25 : (⟨S4x2048x64, .i32⟩ : BufTy).Contents (Elt F) := extractStridedSlice S4x2048x64 ![0, 0, 0] v24 slices_S4x2048x16384_S4x2048x64_0_0_0
  have v26 : (⟨S4x2048x1, .i32⟩ : BufTy).Contents (Elt F) := extractStridedSlice S4x2048x1 ![0, 0, 0] v25 slices_S4x2048x64_S4x2048x1_0_0_0
  have c_5 : (⟨S_, .i32⟩ : BufTy).Contents (Elt F) := constantI S_ 32 16384#32
  have v27 : (⟨S4x2048x64, .i32⟩ : BufTy).Contents (Elt F) := broadcastInDim S4x2048x64 ![] bcast_S_S4x2048x64 c_5
  have v28 : (⟨S4x2048x64, .i1⟩ : BufTy).Contents (Elt F) := cmpi .eq v25 v27
  have call2_v0 : (⟨S4x2048x64, .i32⟩ : BufTy).Contents (Elt F) := broadcastInDim S4x2048x64 ![0, 1, 2] bcast_S4x2048x1_S4x2048x64_0_1_2 v26
  have v29 : (⟨S4x2048x64, .i32⟩ : BufTy).Contents (Elt F) := select v28 call2_v0 v25
  v29

/-- The grouped tensor [4, 2048, 64, 64]: the neighbours' 62 features, then their 2 coordinates. -/
def groupedK (a0 : (⟨S4x16384x2, .f32⟩ : BufTy).Contents (Elt F)) (a1 : (⟨S4x16384x62, .f32⟩ : BufTy).Contents (Elt F)) (a2 : (⟨S4x2048, .i32⟩ : BufTy).Contents (Elt F)) : (⟨S4x2048x64x64, .f32⟩ : BufTy).Contents (Elt F) :=
  have c : (⟨S_, .i32⟩ : BufTy).Contents (Elt F) := constantI S_ 32 0#32
  have v0 : (⟨S4x2048, .i32⟩ : BufTy).Contents (Elt F) := broadcastInDim S4x2048 ![] bcast_S_S4x2048 c
  have v1 : (⟨S4x2048, .i1⟩ : BufTy).Contents (Elt F) := cmpi .slt a2 v0
  have c_0 : (⟨S_, .i32⟩ : BufTy).Contents (Elt F) := constantI S_ 32 16384#32
  have v2 : (⟨S4x2048, .i32⟩ : BufTy).Contents (Elt F) := broadcastInDim S4x2048 ![] bcast_S_S4x2048 c_0
  have v3 : (⟨S4x2048, .i32⟩ : BufTy).Contents (Elt F) := addi a2 v2
  have v4 : (⟨S4x2048, .i32⟩ : BufTy).Contents (Elt F) := select v1 v3 a2
  have v5 : (⟨S4x2048x1, .i32⟩ : BufTy).Contents (Elt F) := broadcastInDim S4x2048x1 ![0, 1] bcast_S4x2048_S4x2048x1_0_1 v4
  have v6 : (⟨S4x2048x2, .f32⟩ : BufTy).Contents (Elt F) := Host.gather gather_S4x16384x2_S4x2048x1_S4x2048x2_2_1_0_0_1_2_112 a0 v5
  have v7 : (⟨S4x2048x2, .f32⟩ : BufTy).Contents (Elt F) := mulf v6 v6
  have cst : (⟨S_, .f32⟩ : BufTy).Contents (Elt F) := constant (F := F) S_ .f32 0x00000000#32
  have v8 : (⟨S4x2048, .f32⟩ : BufTy).Contents (Elt F) := Host.reduceAdd v7 cst reducesTo_S4x2048x2_S4x2048_d2 h_S_
  have v9 : (⟨S4x2048x1, .f32⟩ : BufTy).Contents (Elt F) := broadcastInDim S4x2048x1 ![0, 1] bcast_S4x2048_S4x2048x1_0_1 v8
  have v10 : (⟨S4x16384x2, .f32⟩ : BufTy).Contents (Elt F) := mulf a0 a0
  have cst_1 : (⟨S_, .f32⟩ : BufTy).Contents (Elt F) := constant (F := F) S_ .f32 0x00000000#32
  have v11 : (⟨S4x16384, .f32⟩ : BufTy).Contents (Elt F) := Host.reduceAdd v10 cst_1 reducesTo_S4x16384x2_S4x16384_d2 h_S_
  have v12 : (⟨S4x1x16384, .f32⟩ : BufTy).Contents (Elt F) := broadcastInDim S4x1x16384 ![0, 2] bcast_S4x16384_S4x1x16384_0_2 v11
  have v13 : (⟨S4x2048x16384, .f32⟩ : BufTy).Contents (Elt F) := broadcastInDim S4x2048x16384 ![0, 1, 2] bcast_S4x2048x1_S4x2048x16384_0_1_2 v9
  have v14 : (⟨S4x2048x16384, .f32⟩ : BufTy).Contents (Elt F) := broadcastInDim S4x2048x16384 ![0, 1, 2] bcast_S4x1x16384_S4x2048x16384_0_1_2 v12
  have v15 : (⟨S4x2048x16384, .f32⟩ : BufTy).Contents (Elt F) := addf v13 v14
  have v16 : (⟨S4x2048x16384, .f32⟩ : BufTy).Contents (Elt F) := Host.dotGeneral dot_S4x2048x2_S4x16384x2_S4x2048x16384_2_2_1_1_0_0 none v6 a0
  have cst_2 : (⟨S_, .f32⟩ : BufTy).Contents (Elt F) := constant (F := F) S_ .f32 0x40000000#32
  have v17 : (⟨S4x2048x16384, .f32⟩ : BufTy).Contents (Elt F) := broadcastInDim S4x2048x16384 ![] bcast_S_S4x2048x16384 cst_2
  have v18 : (⟨S4x2048x16384, .f32⟩ : BufTy).Contents (Elt F) := mulf v17 v16
  have v19 : (⟨S4x2048x16384, .f32⟩ : BufTy).Contents (Elt F) := subf v15 v18
  have v20 : (⟨S16384, .i32⟩ : BufTy).Contents (Elt F) := iotaInDim S16384 32 0
  have cst_3 : (⟨S_, .f32⟩ : BufTy).Contents (Elt F) := constant (F := F) S_ .f32 0x3C23D70A#32
  have v21 : (⟨S4x2048x16384, .f32⟩ : BufTy).Contents (Elt F) := broadcastInDim S4x2048x16384 ![] bcast_S_S4x2048x16384 cst_3
  have v22 : (⟨S4x2048x16384, .i1⟩ : BufTy).Contents (Elt F) := cmpf .ogt v19 v21
  have c_4 : (⟨S_, .i32⟩ : BufTy).Contents (Elt F) := constantI S_ 32 16384#32
  have call0_v0 : (⟨S_, .i32⟩ : BufTy).Contents (Elt F) := id c_4
  have call0_v1 : (⟨S4x2048x16384, .i32⟩ : BufTy).Contents (Elt F) := broadcastInDim S4x2048x16384 ![] bcast_S_S4x2048x16384 call0_v0
  have call0_v2 : (⟨S4x2048x16384, .i32⟩ : BufTy).Contents (Elt F) := broadcastInDim S4x2048x16384 ![2] bcast_S16384_S4x2048x16384_2 v20
  have v23 : (⟨S4x2048x16384, .i32⟩ : BufTy).Contents (Elt F) := select v22 call0_v1 call0_v2
  have v24 : (⟨S4x2048x16384, .i32⟩ : BufTy).Contents (Elt F) := Host.sort S4x2048x16384 2 comparator_i32_d2 v23
  have v25 : (⟨S4x2048x64, .i32⟩ : BufTy).Contents (Elt F) := extractStridedSlice S4x2048x64 ![0, 0, 0] v24 slices_S4x2048x16384_S4x2048x64_0_0_0
  have v26 : (⟨S4x2048x1, .i32⟩ : BufTy).Contents (Elt F) := extractStridedSlice S4x2048x1 ![0, 0, 0] v25 slices_S4x2048x64_S4x2048x1_0_0_0
  have c_5 : (⟨S_, .i32⟩ : BufTy).Contents (Elt F) := constantI S_ 32 16384#32
  have v27 : (⟨S4x2048x64, .i32⟩ : BufTy).Contents (Elt F) := broadcastInDim S4x2048x64 ![] bcast_S_S4x2048x64 c_5
  have v28 : (⟨S4x2048x64, .i1⟩ : BufTy).Contents (Elt F) := cmpi .eq v25 v27
  have call2_v0 : (⟨S4x2048x64, .i32⟩ : BufTy).Contents (Elt F) := broadcastInDim S4x2048x64 ![0, 1, 2] bcast_S4x2048x1_S4x2048x64_0_1_2 v26
  have v29 : (⟨S4x2048x64, .i32⟩ : BufTy).Contents (Elt F) := select v28 call2_v0 v25
  have c_6 : (⟨S_, .i32⟩ : BufTy).Contents (Elt F) := constantI S_ 32 0#32
  have v30 : (⟨S4x2048x64, .i32⟩ : BufTy).Contents (Elt F) := broadcastInDim S4x2048x64 ![] bcast_S_S4x2048x64 c_6
  have v31 : (⟨S4x2048x64, .i1⟩ : BufTy).Contents (Elt F) := cmpi .slt v29 v30
  have c_7 : (⟨S_, .i32⟩ : BufTy).Contents (Elt F) := constantI S_ 32 16384#32
  have v32 : (⟨S4x2048x64, .i32⟩ : BufTy).Contents (Elt F) := broadcastInDim S4x2048x64 ![] bcast_S_S4x2048x64 c_7
  have v33 : (⟨S4x2048x64, .i32⟩ : BufTy).Contents (Elt F) := addi v29 v32
  have v34 : (⟨S4x2048x64, .i32⟩ : BufTy).Contents (Elt F) := select v31 v33 v29
  have v35 : (⟨S4x2048x64x1, .i32⟩ : BufTy).Contents (Elt F) := broadcastInDim S4x2048x64x1 ![0, 1, 2] bcast_S4x2048x64_S4x2048x64x1_0_1_2 v34
  have v36 : (⟨S4x2048x64x2, .f32⟩ : BufTy).Contents (Elt F) := Host.gather gather_S4x16384x2_S4x2048x64x1_S4x2048x64x2_3_1_0_0_1_3_112 a0 v35
  have c_8 : (⟨S_, .i32⟩ : BufTy).Contents (Elt F) := constantI S_ 32 0#32
  have v37 : (⟨S4x2048x64, .i32⟩ : BufTy).Contents (Elt F) := broadcastInDim S4x2048x64 ![] bcast_S_S4x2048x64 c_8
  have v38 : (⟨S4x2048x64, .i1⟩ : BufTy).Contents (Elt F) := cmpi .slt v29 v37
  have c_9 : (⟨S_, .i32⟩ : BufTy).Contents (Elt F) := constantI S_ 32 16384#32
  have v39 : (⟨S4x2048x64, .i32⟩ : BufTy).Contents (Elt F) := broadcastInDim S4x2048x64 ![] bcast_S_S4x2048x64 c_9
  have v40 : (⟨S4x2048x64, .i32⟩ : BufTy).Contents (Elt F) := addi v29 v39
  have v41 : (⟨S4x2048x64, .i32⟩ : BufTy).Contents (Elt F) := select v38 v40 v29
  have v42 : (⟨S4x2048x64x1, .i32⟩ : BufTy).Contents (Elt F) := broadcastInDim S4x2048x64x1 ![0, 1, 2] bcast_S4x2048x64_S4x2048x64x1_0_1_2 v41
  have v43 : (⟨S4x2048x64x62, .f32⟩ : BufTy).Contents (Elt F) := Host.gather gather_S4x16384x62_S4x2048x64x1_S4x2048x64x62_3_1_0_0_1_3_1162 a1 v42
  have v44 : (⟨S4x2048x64x64, .f32⟩ : BufTy).Contents (Elt F) := concatenate S4x2048x64x64 3 [⟨S4x2048x64x62, v43⟩, ⟨S4x2048x64x2, v36⟩] concatenates_S4x2048x64x62_S4x2048x64x2_S4x2048x64x64_d3
  v44

/-! ## Each stretch's results, from what it reads -/

section Crossings
variable (m : (ℓ : Loc nD τ sig) → Buf (Elt F) ℓ)

/-- The first stretch leaves the centres' coordinates in %6, -/
theorem W1_v6_eq (c : Dev nD) : W1 m c main_v6 = newXyK (m ((c : Thread nD τ).loc main_arg0)) (m ((c : Thread nD τ).loc main_arg2)) := by
  show StableHlo.after Gen.hostOps0 (W0 m c) (Proc.devRef .tc main_v6) = _
  after_results_simp
  rfl

/-- the radius test in %22, -/
theorem W1_v22_eq (c : Dev nD) : W1 m c main_v22 = farK (m ((c : Thread nD τ).loc main_arg0)) (m ((c : Thread nD τ).loc main_arg2)) := by
  show StableHlo.after Gen.hostOps0 (W0 m c) (Proc.devRef .tc main_v22) = _
  after_results_simp
  rfl

/-- the points' own indices in %20 -/
theorem W1_v20_eq (c : Dev nD) : (W1 m c main_v20 : (⟨S16384, .i32⟩ : BufTy).Contents (Elt F)) = iotaInDim S16384 32 0 := by
  show StableHlo.after Gen.hostOps0 (W0 m c) (Proc.devRef .tc main_v20) = _
  after_results_simp

/-- and the filler 16384 in %c_4. -/
theorem W1_c_4_eq (c : Dev nD) : (W1 m c main_c_4 : (⟨S_, .i32⟩ : BufTy).Contents (Elt F)) = constantI S_ 32 16384#32 := by
  show StableHlo.after Gen.hostOps0 (W0 m c) (Proc.devRef .tc main_c_4) = _
  after_results_simp

/-- An argument array crosses the first five stretches unwritten. -/
theorem W5_arg0 (c : Dev nD) : W5 m c main_arg0 = m ((c : Thread nD τ).loc main_arg0) :=
  (StableHlo.after_of_writes_sub Gen.hostOps0_4 _ Gen.hostOps0_4_writes (by decide : main_arg0 ∉ Gen.hostOps0_4_W)).trans <|
  (StableHlo.after_of_writes_sub Gen.hostOps0_3 _ Gen.hostOps0_3_writes (by decide : main_arg0 ∉ Gen.hostOps0_3_W)).trans <|
  (StableHlo.after_of_writes_sub Gen.hostOps0_2 _ Gen.hostOps0_2_writes (by decide : main_arg0 ∉ Gen.hostOps0_2_W)).trans <|
  (StableHlo.after_of_writes_sub Gen.hostOps0_1 _ Gen.hostOps0_1_writes (by decide : main_arg0 ∉ Gen.hostOps0_1_W)).trans <|
  (StableHlo.after_of_writes_sub Gen.hostOps0 _ Gen.hostOps0_writes (by decide : main_arg0 ∉ Gen.hostOps0_W)).trans <|
  rfl
theorem W5_arg1 (c : Dev nD) : W5 m c main_arg1 = m ((c : Thread nD τ).loc main_arg1) :=
  (StableHlo.after_of_writes_sub Gen.hostOps0_4 _ Gen.hostOps0_4_writes (by decide : main_arg1 ∉ Gen.hostOps0_4_W)).trans <|
  (StableHlo.after_of_writes_sub Gen.hostOps0_3 _ Gen.hostOps0_3_writes (by decide : main_arg1 ∉ Gen.hostOps0_3_W)).trans <|
  (StableHlo.after_of_writes_sub Gen.hostOps0_2 _ Gen.hostOps0_2_writes (by decide : main_arg1 ∉ Gen.hostOps0_2_W)).trans <|
  (StableHlo.after_of_writes_sub Gen.hostOps0_1 _ Gen.hostOps0_1_writes (by decide : main_arg1 ∉ Gen.hostOps0_1_W)).trans <|
  (StableHlo.after_of_writes_sub Gen.hostOps0 _ Gen.hostOps0_writes (by decide : main_arg1 ∉ Gen.hostOps0_W)).trans <|
  rfl

/-- The first called function leaves the candidate indices in %23. -/
theorem W2_v23_eq (c : Dev nD) : W2 m c main_v23 = ballK (m ((c : Thread nD τ).loc main_arg0)) (m ((c : Thread nD τ).loc main_arg2)) := by
  show StableHlo.after Gen.hostOps0_1 (W1 m c) (Proc.devRef .tc main_v23) = _
  generalize hW : W1 m c = Wp
  after_results
  subst hW
  rw [W1_v22_eq, W1_v20_eq, W1_c_4_eq]
  rfl

/-- The sort leaves them sorted in %24. -/
theorem W3_v24_eq (c : Dev nD) : W3 m c main_v24 = sortedK (m ((c : Thread nD τ).loc main_arg0)) (m ((c : Thread nD τ).loc main_arg2)) := by
  show StableHlo.after Gen.hostOps0_2 (W2 m c) (Proc.devRef .tc main_v24) = _
  generalize hW : W2 m c = Wp
  after_results
  subst hW
  rw [W2_v23_eq]
  rfl

/-- The fourth stretch leaves the first 64 in %25, the first in %26, the empty slots in %28. -/
theorem W4_v25_eq (c : Dev nD) : W4 m c main_v25 = firstK (m ((c : Thread nD τ).loc main_arg0)) (m ((c : Thread nD τ).loc main_arg2)) := by
  show StableHlo.after Gen.hostOps0_3 (W3 m c) (Proc.devRef .tc main_v25) = _
  generalize hW : W3 m c = Wp
  after_results
  subst hW
  rw [W3_v24_eq]
  rfl
theorem W4_v26_eq (c : Dev nD) : W4 m c main_v26 = headK (m ((c : Thread nD τ).loc main_arg0)) (m ((c : Thread nD τ).loc main_arg2)) := by
  show StableHlo.after Gen.hostOps0_3 (W3 m c) (Proc.devRef .tc main_v26) = _
  generalize hW : W3 m c = Wp
  after_results
  subst hW
  rw [W3_v24_eq]
  rfl
theorem W4_v28_eq (c : Dev nD) : W4 m c main_v28 = emptyK (m ((c : Thread nD τ).loc main_arg0)) (m ((c : Thread nD τ).loc main_arg2)) := by
  show StableHlo.after Gen.hostOps0_3 (W3 m c) (Proc.devRef .tc main_v28) = _
  generalize hW : W3 m c = Wp
  after_results
  subst hW
  rw [W3_v24_eq]
  rfl

/-- The second called function leaves the neighbour indices in %29. -/
theorem W5_v29_eq (c : Dev nD) : W5 m c main_v29 = idxK (m ((c : Thread nD τ).loc main_arg0)) (m ((c : Thread nD τ).loc main_arg2)) := by
  show StableHlo.after Gen.hostOps0_4 (W4 m c) (Proc.devRef .tc main_v29) = _
  generalize hW : W4 m c = Wp
  after_results
  subst hW
  rw [W4_v28_eq, W4_v26_eq, W4_v25_eq]
  rfl

set_option maxHeartbeats 2000000 in
/-- The last stretch leaves the grouped tensor in %44: what the first pallas_call is entered with. -/
theorem W6_v44_eq (c : Dev nD) : W6 m c main_v44 = groupedK (m ((c : Thread nD τ).loc main_arg0)) (m ((c : Thread nD τ).loc main_arg1)) (m ((c : Thread nD τ).loc main_arg2)) := by
  show StableHlo.after Gen.hostOps0_5 (W5 m c) (Proc.devRef .tc main_v44) = _
  generalize hW : W5 m c = Wp
  after_results
  subst hW
  rw [W5_v29_eq, W5_arg0, W5_arg1]
  rfl

end Crossings

end Cert.KernelIdeal.Hand

end
-- ==== Proof.RefRun.lean ====
/-
  The reference program's run. @main of the reference is a straight line of host operations once its calls
  (the two selections by a mask, the sort, the standard deviation through the variance and its guarded quotient)
  are unfolded at their call sites over each call's own buffers. The line is cut into twelve consecutive
  stretches at the values that cross: each stretch is evaluated from arbitrary contents, giving every value a
  later stretch reads as a function of the values the stretch itself reads, and every reference it does not
  write its old contents. Composing the stretches gives the two results as functions of the five arguments:
  the selected coordinate rows (newXy), and the normalized grouped tensor (normalized ∘ grouped), the grouped
  tensor being the concatenation of the two gathers at the neighbour indices the sort delivers. No operation is
  evaluated: the sort, the gathers, the sums and the quotients stay applications; the run only composes them.
-/
import proofs.«157503_j446676598875_2_alg».proof.ReferenceIdeal
import Idealize.ShloMosaic.Lib.StableHlo.Run

noncomputable section

namespace Cert.ReferenceIdeal.RefRun

open Cert.ReferenceIdeal Idealize.ShloMosaic Idealize.ShloMosaic.TcCoe Idealize.SL.Sem Idealize.ShloMosaic.StableHlo
open Cert.ReferenceIdeal.Facts₀ Cert.ReferenceIdeal.Facts

variable {F : FTy → Type} [FloatOps F] [Facts]

def newXy (a0 : (⟨S4x16384x2, .f32⟩ : BufTy).Contents (Elt F)) (a2 : (⟨S4x2048, .i32⟩ : BufTy).Contents (Elt F)) : (⟨S4x2048x2, .f32⟩ : BufTy).Contents (Elt F) :=
  have c : (⟨S_, .i32⟩ : BufTy).Contents (Elt F) := constantI S_ 32 0#32
  have v0 : (⟨S4x2048, .i32⟩ : BufTy).Contents (Elt F) := broadcastInDim S4x2048 ![] bcast_S_S4x2048 c
  have v1 : (⟨S4x2048, .i1⟩ : BufTy).Contents (Elt F) := cmpi .slt a2 v0
  have c_0 : (⟨S_, .i32⟩ : BufTy).Contents (Elt F) := constantI S_ 32 16384#32
  have v2 : (⟨S4x2048, .i32⟩ : BufTy).Contents (Elt F) := broadcastInDim S4x2048 ![] bcast_S_S4x2048 c_0
  have v3 : (⟨S4x2048, .i32⟩ : BufTy).Contents (Elt F) := addi a2 v2
  have v4 : (⟨S4x2048, .i32⟩ : BufTy).Contents (Elt F) := select v1 v3 a2
  have v5 : (⟨S4x2048x1, .i32⟩ : BufTy).Contents (Elt F) := broadcastInDim S4x2048x1 ![0, 1] bcast_S4x2048_S4x2048x1_0_1 v4
  have v6 : (⟨S4x2048x2, .f32⟩ : BufTy).Contents (Elt F) := Host.gather gather_S4x16384x2_S4x2048x1_S4x2048x2_2_1_0_0_1_2_112 a0 v5
  v6

def grouped (a0 : (⟨S4x16384x2, .f32⟩ : BufTy).Contents (Elt F)) (a1 : (⟨S4x16384x62, .f32⟩ : BufTy).Contents (Elt F)) (a2 : (⟨S4x2048, .i32⟩ : BufTy).Contents (Elt F)) : (⟨S4x2048x64x64, .f32⟩ : BufTy).Contents (Elt F) :=
  have c : (⟨S_, .i32⟩ : BufTy).Contents (Elt F) := constantI S_ 32 0#32
  have v0 : (⟨S4x2048, .i32⟩ : BufTy).Contents (Elt F) := broadcastInDim S4x2048 ![] bcast_S_S4x2048 c
  have v1 : (⟨S4x2048, .i1⟩ : BufTy).Contents (Elt F) := cmpi .slt a2 v0
  have c_0 : (⟨S_, .i32⟩ : BufTy).Contents (Elt F) := constantI S_ 32 16384#32
  have v2 : (⟨S4x2048, .i32⟩ : BufTy).Contents (Elt F) := broadcastInDim S4x2048 ![] bcast_S_S4x2048 c_0
  have v3 : (⟨S4x2048, .i32⟩ : BufTy).Contents (Elt F) := addi a2 v2
  have v4 : (⟨S4x2048, .i32⟩ : BufTy).Contents (Elt F) := select v1 v3 a2
  have v5 : (⟨S4x2048x1, .i32⟩ : BufTy).Contents (Elt F) := broadcastInDim S4x2048x1 ![0, 1] bcast_S4x2048_S4x2048x1_0_1 v4
  have v6 : (⟨S4x2048x2, .f32⟩ : BufTy).Contents (Elt F) := Host.gather gather_S4x16384x2_S4x2048x1_S4x2048x2_2_1_0_0_1_2_112 a0 v5
  have v7 : (⟨S4x2048x2, .f32⟩ : BufTy).Contents (Elt F) := mulf v6 v6
  have cst : (⟨S_, .f32⟩ : BufTy).Contents (Elt F) := constant S_ .f32 0x00000000#32
  have v8 : (⟨S4x2048, .f32⟩ : BufTy).Contents (Elt F) := Host.reduceAdd v7 cst reducesTo_S4x2048x2_S4x2048_d2 h_S_
  have v9 : (⟨S4x2048x1, .f32⟩ : BufTy).Contents (Elt F) := broadcastInDim S4x2048x1 ![0, 1] bcast_S4x2048_S4x2048x1_0_1 v8
  have v10 : (⟨S4x16384x2, .f32⟩ : BufTy).Contents (Elt F) := mulf a0 a0
  have cst_1 : (⟨S_, .f32⟩ : BufTy).Contents (Elt F) := constant S_ .f32 0x00000000#32
  have v11 : (⟨S4x16384, .f32⟩ : BufTy).Contents (Elt F) := Host.reduceAdd v10 cst_1 reducesTo_S4x16384x2_S4x16384_d2 h_S_
  have v12 : (⟨S4x1x16384, .f32⟩ : BufTy).Contents (Elt F) := broadcastInDim S4x1x16384 ![0, 2] bcast_S4x16384_S4x1x16384_0_2 v11
  have v13 : (⟨S4x2048x16384, .f32⟩ : BufTy).Contents (Elt F) := broadcastInDim S4x2048x16384 ![0, 1, 2] bcast_S4x2048x1_S4x2048x16384_0_1_2 v9
  have v14 : (⟨S4x2048x16384, .f32⟩ : BufTy).Contents (Elt F) := broadcastInDim S4x2048x16384 ![0, 1, 2] bcast_S4x1x16384_S4x2048x16384_0_1_2 v12
  have v15 : (⟨S4x2048x16384, .f32⟩ : BufTy).Contents (Elt F) := addf v13 v14
  have v16 : (⟨S4x2048x16384, .f32⟩ : BufTy).Contents (Elt F) := Host.dotGeneral dot_S4x2048x2_S4x16384x2_S4x2048x16384_2_2_1_1_0_0 none v6 a0
  have cst_2 : (⟨S_, .f32⟩ : BufTy).Contents (Elt F) := constant S_ .f32 0x40000000#32
  have v17 : (⟨S4x2048x16384, .f32⟩ : BufTy).Contents (Elt F) := broadcastInDim S4x2048x16384 ![] bcast_S_S4x2048x16384 cst_2
  have v18 : (⟨S4x2048x16384, .f32⟩ : BufTy).Contents (Elt F) := mulf v17 v16
  have v19 : (⟨S4x2048x16384, .f32⟩ : BufTy).Contents (Elt F) := subf v15 v18
  have v20 : (⟨S16384, .i32⟩ : BufTy).Contents (Elt F) := iotaInDim S16384 32 0
  have cst_3 : (⟨S_, .f32⟩ : BufTy).Contents (Elt F) := constant S_ .f32 0x3C23D70A#32
  have v21 : (⟨S4x2048x16384, .f32⟩ : BufTy).Contents (Elt F) := broadcastInDim S4x2048x16384 ![] bcast_S_S4x2048x16384 cst_3
  have v22 : (⟨S4x2048x16384, .i1⟩ : BufTy).Contents (Elt F) := cmpf .ogt v19 v21
  have c_4 : (⟨S_, .i32⟩ : BufTy).Contents (Elt F) := constantI S_ 32 16384#32
  have call0_v0 : (⟨S_, .i32⟩ : BufTy).Contents (Elt F) := id c_4
  have call0_v1 : (⟨S4x2048x16384, .i32⟩ : BufTy).Contents (Elt F) := broadcastInDim S4x2048x16384 ![] bcast_S_S4x2048x16384 call0_v0
  have call0_v2 : (⟨S4x2048x16384, .i32⟩ : BufTy).Contents (Elt F) := broadcastInDim S4x2048x16384 ![2] bcast_S16384_S4x2048x16384_2 v20
  have v23 : (⟨S4x2048x16384, .i32⟩ : BufTy).Contents (Elt F) := select v22 call0_v1 call0_v2
  have v24 : (⟨S4x2048x16384, .i32⟩ : BufTy).Contents (Elt F) := Host.sort S4x2048x16384 2 comparator_i32_d2 v23
  have v25 : (⟨S4x2048x64, .i32⟩ : BufTy).Contents (Elt F) := extractStridedSlice S4x2048x64 ![0, 0, 0] v24 slices_S4x2048x16384_S4x2048x64_0_0_0
  have v26 : (⟨S4x2048x1, .i32⟩ : BufTy).Contents (Elt F) := extractStridedSlice S4x2048x1 ![0, 0, 0] v25 slices_S4x2048x64_S4x2048x1_0_0_0
  have c_5 : (⟨S_, .i32⟩ : BufTy).Contents (Elt F) := constantI S_ 32 16384#32
  have v27 : (⟨S4x2048x64, .i32⟩ : BufTy).Contents (Elt F) := broadcastInDim S4x2048x64 ![] bcast_S_S4x2048x64 c_5
  have v28 : (⟨S4x2048x64, .i1⟩ : BufTy).Contents (Elt F) := cmpi .eq v25 v27
  have call2_v0 : (⟨S4x2048x64, .i32⟩ : BufTy).Contents (Elt F) := broadcastInDim S4x2048x64 ![0, 1, 2] bcast_S4x2048x1_S4x2048x64_0_1_2 v26
  have v29 : (⟨S4x2048x64, .i32⟩ : BufTy).Contents (Elt F) := select v28 call2_v0 v25
  have c_6 : (⟨S_, .i32⟩ : BufTy).Contents (Elt F) := constantI S_ 32 0#32
  have v30 : (⟨S4x2048x64, .i32⟩ : BufTy).Contents (Elt F) := broadcastInDim S4x2048x64 ![] bcast_S_S4x2048x64 c_6
  have v31 : (⟨S4x2048x64, .i1⟩ : BufTy).Contents (Elt F) := cmpi .slt v29 v30
  have c_7 : (⟨S_, .i32⟩ : BufTy).Contents (Elt F) := constantI S_ 32 16384#32
  have v32 : (⟨S4x2048x64, .i32⟩ : BufTy).Contents (Elt F) := broadcastInDim S4x2048x64 ![] bcast_S_S4x2048x64 c_7
  have v33 : (⟨S4x2048x64, .i32⟩ : BufTy).Contents (Elt F) := addi v29 v32
  have v34 : (⟨S4x2048x64, .i32⟩ : BufTy).Contents (Elt F) := select v31 v33 v29
  have v35 : (⟨S4x2048x64x1, .i32⟩ : BufTy).Contents (Elt F) := broadcastInDim S4x2048x64x1 ![0, 1, 2] bcast_S4x2048x64_S4x2048x64x1_0_1_2 v34
  have v36 : (⟨S4x2048x64x2, .f32⟩ : BufTy).Contents (Elt F) := Host.gather gather_S4x16384x2_S4x2048x64x1_S4x2048x64x2_3_1_0_0_1_3_112 a0 v35
  have c_8 : (⟨S_, .i32⟩ : BufTy).Contents (Elt F) := constantI S_ 32 0#32
  have v37 : (⟨S4x2048x64, .i32⟩ : BufTy).Contents (Elt F) := broadcastInDim S4x2048x64 ![] bcast_S_S4x2048x64 c_8
  have v38 : (⟨S4x2048x64, .i1⟩ : BufTy).Contents (Elt F) := cmpi .slt v29 v37
  have c_9 : (⟨S_, .i32⟩ : BufTy).Contents (Elt F) := constantI S_ 32 16384#32
  have v39 : (⟨S4x2048x64, .i32⟩ : BufTy).Contents (Elt F) := broadcastInDim S4x2048x64 ![] bcast_S_S4x2048x64 c_9
  have v40 : (⟨S4x2048x64, .i32⟩ : BufTy).Contents (Elt F) := addi v29 v39
  have v41 : (⟨S4x2048x64, .i32⟩ : BufTy).Contents (Elt F) := select v38 v40 v29
  have v42 : (⟨S4x2048x64x1, .i32⟩ : BufTy).Contents (Elt F) := broadcastInDim S4x2048x64x1 ![0, 1, 2] bcast_S4x2048x64_S4x2048x64x1_0_1_2 v41
  have v43 : (⟨S4x2048x64x62, .f32⟩ : BufTy).Contents (Elt F) := Host.gather gather_S4x16384x62_S4x2048x64x1_S4x2048x64x62_3_1_0_0_1_3_1162 a1 v42
  have v44 : (⟨S4x2048x64x64, .f32⟩ : BufTy).Contents (Elt F) := concatenate S4x2048x64x64 3 [⟨S4x2048x64x62, v43⟩, ⟨S4x2048x64x2, v36⟩] concatenates_S4x2048x64x62_S4x2048x64x2_S4x2048x64x64_d3
  v44

def normalized (g : (⟨S4x2048x64x64, .f32⟩ : BufTy).Contents (Elt F)) (a3 a4 : (⟨S1x1x1x64, .f32⟩ : BufTy).Contents (Elt F)) : (⟨S4x2048x64x64, .f32⟩ : BufTy).Contents (Elt F) :=
  have cst_10 : (⟨S_, .f32⟩ : BufTy).Contents (Elt F) := constant S_ .f32 0x00000000#32
  have v45 : (⟨S4x2048x64, .f32⟩ : BufTy).Contents (Elt F) := Host.reduceAdd g cst_10 reducesTo_S4x2048x64x64_S4x2048x64_d2 h_S_
  have v46 : (⟨S4x2048x1x64, .f32⟩ : BufTy).Contents (Elt F) := broadcastInDim S4x2048x1x64 ![0, 1, 3] bcast_S4x2048x64_S4x2048x1x64_0_1_3 v45
  have cst_11 : (⟨S_, .f32⟩ : BufTy).Contents (Elt F) := constant S_ .f32 0x42800000#32
  have v47 : (⟨S4x2048x1x64, .f32⟩ : BufTy).Contents (Elt F) := broadcastInDim S4x2048x1x64 ![] bcast_S_S4x2048x1x64 cst_11
  have v48 : (⟨S4x2048x1x64, .f32⟩ : BufTy).Contents (Elt F) := Host.divf v46 v47
  have v49 : (⟨S4x2048x64x64, .f32⟩ : BufTy).Contents (Elt F) := broadcastInDim S4x2048x64x64 ![0, 1, 2, 3] bcast_S4x2048x1x64_S4x2048x64x64_0_1_2_3 v48
  have v50 : (⟨S4x2048x64x64, .f32⟩ : BufTy).Contents (Elt F) := subf g v49
  have v51 : (⟨S4x8388608, .f32⟩ : BufTy).Contents (Elt F) := shapeCast S4x8388608 v50 shapeCasts_S4x2048x64x64_S4x8388608
  have c_12 : (⟨S_, .i32⟩ : BufTy).Contents (Elt F) := constantI S_ 32 1#32
  have var_cst : (⟨S_, .f32⟩ : BufTy).Contents (Elt F) := constant S_ .f32 0x00000000#32
  have var_v0 : (⟨S4, .f32⟩ : BufTy).Contents (Elt F) := Host.reduceAdd v51 var_cst reducesTo_S4x8388608_S4_d1 h_S_
  have var_v1 : (⟨S4x1, .f32⟩ : BufTy).Contents (Elt F) := broadcastInDim S4x1 ![0] bcast_S4_S4x1_0 var_v0
  have var_cst_0 : (⟨S_, .f32⟩ : BufTy).Contents (Elt F) := constant S_ .f32 0x4B000000#32
  have var_v2 : (⟨S4x1, .f32⟩ : BufTy).Contents (Elt F) := broadcastInDim S4x1 ![] bcast_S_S4x1 var_cst_0
  have var_v3 : (⟨S4x1, .f32⟩ : BufTy).Contents (Elt F) := Host.divf var_v1 var_v2
  have var_v4 : (⟨S4x8388608, .f32⟩ : BufTy).Contents (Elt F) := broadcastInDim S4x8388608 ![0, 1] bcast_S4x1_S4x8388608_0_1 var_v3
  have var_v5 : (⟨S4x8388608, .f32⟩ : BufTy).Contents (Elt F) := subf v51 var_v4
  have var_v6 : (⟨S4x8388608, .f32⟩ : BufTy).Contents (Elt F) := mulf var_v5 var_v5
  have var_v7 : (⟨S_, .f32⟩ : BufTy).Contents (Elt F) := sitofp .f32 c_12
  have var_cst_1 : (⟨S_, .f32⟩ : BufTy).Contents (Elt F) := constant S_ .f32 0x4B000000#32
  have var_v8 : (⟨S_, .f32⟩ : BufTy).Contents (Elt F) := subf var_cst_1 var_v7
  have var_cst_2 : (⟨S_, .f32⟩ : BufTy).Contents (Elt F) := constant S_ .f32 0x00000000#32
  have var_v9 : (⟨S4, .f32⟩ : BufTy).Contents (Elt F) := Host.reduceAdd var_v6 var_cst_2 reducesTo_S4x8388608_S4_d1 h_S_
  have var_v10 : (⟨S4, .f32⟩ : BufTy).Contents (Elt F) := broadcastInDim S4 ![] bcast_S_S4 var_v8
  have var_v11 : (⟨S4, .f32⟩ : BufTy).Contents (Elt F) := Host.divf var_v9 var_v10
  have var_cst_3 : (⟨S_, .f32⟩ : BufTy).Contents (Elt F) := constant S_ .f32 0x00000000#32
  have var_v12 : (⟨S_, .i1⟩ : BufTy).Contents (Elt F) := cmpf .ogt var_v8 var_cst_3
  have var_cst_4 : (⟨S_, .f32⟩ : BufTy).Contents (Elt F) := constant S_ .f32 0x7FC00000#32
  have where_v0 : (⟨S_, .f32⟩ : BufTy).Contents (Elt F) := id var_cst_4
  have where_v1 : (⟨S4, .f32⟩ : BufTy).Contents (Elt F) := broadcastInDim S4 ![] bcast_S_S4 where_v0
  have where_v2 : (⟨S4, .f32⟩ : BufTy).Contents (Elt F) := select (broadcastInDim S4 ![] bcast_S_S4 var_v12) var_v11 where_v1
  have v52 : (⟨S4, .f32⟩ : BufTy).Contents (Elt F) := Host.sqrt where_v2
  have v53 : (⟨S4x1x1x1, .f32⟩ : BufTy).Contents (Elt F) := broadcastInDim S4x1x1x1 ![0] bcast_S4_S4x1x1x1_0 v52
  have cst_13 : (⟨S_, .f32⟩ : BufTy).Contents (Elt F) := constant S_ .f32 0x3727C5AC#32
  have v54 : (⟨S4x1x1x1, .f32⟩ : BufTy).Contents (Elt F) := broadcastInDim S4x1x1x1 ![] bcast_S_S4x1x1x1 cst_13
  have v55 : (⟨S4x1x1x1, .f32⟩ : BufTy).Contents (Elt F) := addf v53 v54
  have v56 : (⟨S4x2048x64x64, .f32⟩ : BufTy).Contents (Elt F) := broadcastInDim S4x2048x64x64 ![0, 1, 2, 3] bcast_S4x1x1x1_S4x2048x64x64_0_1_2_3 v55
  have v57 : (⟨S4x2048x64x64, .f32⟩ : BufTy).Contents (Elt F) := Host.divf v50 v56
  have v58 : (⟨S4x2048x64x64, .f32⟩ : BufTy).Contents (Elt F) := broadcastInDim S4x2048x64x64 ![0, 1, 2, 3] bcast_S1x1x1x64_S4x2048x64x64_0_1_2_3 a3
  have v59 : (⟨S4x2048x64x64, .f32⟩ : BufTy).Contents (Elt F) := mulf v58 v57
  have v60 : (⟨S4x2048x64x64, .f32⟩ : BufTy).Contents (Elt F) := broadcastInDim S4x2048x64x64 ![0, 1, 2, 3] bcast_S1x1x1x64_S4x2048x64x64_0_1_2_3 a4
  have v61 : (⟨S4x2048x64x64, .f32⟩ : BufTy).Contents (Elt F) := addf v59 v60
  v61

/-! ### Stretch 0: statements 1 … 9 of the inlined line -/

def P0 : List (HloOp τ sig (Elt F)) :=
  [ nullary main_c (constantI S_ 32 0#32),
    unary main_c main_v0 (broadcastInDim S4x2048 ![] bcast_S_S4x2048 : (⟨S_, .i32⟩ : BufTy).Contents (Elt F) → (⟨S4x2048, .i32⟩ : BufTy).Contents (Elt F)),
    binary main_arg2 main_v0 main_v1 (cmpi .slt : (⟨S4x2048, .i32⟩ : BufTy).Contents (Elt F) → (⟨S4x2048, .i32⟩ : BufTy).Contents (Elt F) → (⟨S4x2048, .i1⟩ : BufTy).Contents (Elt F)),
    nullary main_c_0 (constantI S_ 32 16384#32),
    unary main_c_0 main_v2 (broadcastInDim S4x2048 ![] bcast_S_S4x2048 : (⟨S_, .i32⟩ : BufTy).Contents (Elt F) → (⟨S4x2048, .i32⟩ : BufTy).Contents (Elt F)),
    binary main_arg2 main_v2 main_v3 (addi : (⟨S4x2048, .i32⟩ : BufTy).Contents (Elt F) → (⟨S4x2048, .i32⟩ : BufTy).Contents (Elt F) → (⟨S4x2048, .i32⟩ : BufTy).Contents (Elt F)),
    ternary main_v1 main_v3 main_arg2 main_v4 (select : (⟨S4x2048, .i1⟩ : BufTy).Contents (Elt F) → (⟨S4x2048, .i32⟩ : BufTy).Contents (Elt F) → (⟨S4x2048, .i32⟩ : BufTy).Contents (Elt F) → (⟨S4x2048, .i32⟩ : BufTy).Contents (Elt F)),
    unary main_v4 main_v5 (broadcastInDim S4x2048x1 ![0, 1] bcast_S4x2048_S4x2048x1_0_1 : (⟨S4x2048, .i32⟩ : BufTy).Contents (Elt F) → (⟨S4x2048x1, .i32⟩ : BufTy).Contents (Elt F)),
    binary main_arg0 main_v5 main_v6 ((fun x i => Host.gather gather_S4x16384x2_S4x2048x1_S4x2048x2_2_1_0_0_1_2_112 x i) : (⟨S4x16384x2, .f32⟩ : BufTy).Contents (Elt F) → (⟨S4x2048x1, .i32⟩ : BufTy).Contents (Elt F) → (⟨S4x2048x2, .f32⟩ : BufTy).Contents (Elt F)) ]

theorem P0_sub : (P0 : List (HloOp τ sig (Elt F))).Forall fun op => op.bufs ⊆ tcRefs τ sig := by
  unfold P0; exact ⟨nullary_bufs_sub .., unary_bufs_sub .., binary_bufs_sub .., nullary_bufs_sub .., unary_bufs_sub .., binary_bufs_sub .., ternary_bufs_sub .., unary_bufs_sub .., binary_bufs_sub ..⟩
theorem P0_fresh : (P0 : List (HloOp τ sig (Elt F))).Forall fun op => op.fresh = ∅ := by
  unfold P0; exact ⟨rfl, rfl, rfl, rfl, rfl, rfl, rfl, rfl, rfl⟩
/-- The references stretch 0 writes. -/
abbrev P0_W : List (Ref sig .tc) := [main_c, main_v0, main_v1, main_c_0, main_v2, main_v3, main_v4, main_v5, main_v6]
theorem P0_writes : (P0 : List (HloOp τ sig (Elt F))).Forall fun op => op.writes ⊆ (P0_W.map (Proc.devRef (τ := τ) .tc)).toFinset := by
  unfold P0; simp only [List.Forall]; exact ⟨by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide)⟩
/-- A reference stretch 0 does not write keeps its contents through it. -/
theorem P0_keep (W : Valuation τ sig (Elt F)) (r : Ref sig .tc) (h : r ∉ P0_W) :
    after P0 W (no_index (Proc.devRef .tc r)) = W (Proc.devRef .tc r) :=
  after_of_writes_sub P0 _ P0_writes h

/-- main_v6 after stretch 0, from what the stretch reads. -/
def s0_v6 (a0 : (⟨S4x16384x2, .f32⟩ : BufTy).Contents (Elt F)) (a2 : (⟨S4x2048, .i32⟩ : BufTy).Contents (Elt F)) : (⟨S4x2048x2, .f32⟩ : BufTy).Contents (Elt F) :=
  have c : (⟨S_, .i32⟩ : BufTy).Contents (Elt F) := constantI S_ 32 0#32
  have v0 : (⟨S4x2048, .i32⟩ : BufTy).Contents (Elt F) := broadcastInDim S4x2048 ![] bcast_S_S4x2048 c
  have v1 : (⟨S4x2048, .i1⟩ : BufTy).Contents (Elt F) := cmpi .slt a2 v0
  have c_0 : (⟨S_, .i32⟩ : BufTy).Contents (Elt F) := constantI S_ 32 16384#32
  have v2 : (⟨S4x2048, .i32⟩ : BufTy).Contents (Elt F) := broadcastInDim S4x2048 ![] bcast_S_S4x2048 c_0
  have v3 : (⟨S4x2048, .i32⟩ : BufTy).Contents (Elt F) := addi a2 v2
  have v4 : (⟨S4x2048, .i32⟩ : BufTy).Contents (Elt F) := select v1 v3 a2
  have v5 : (⟨S4x2048x1, .i32⟩ : BufTy).Contents (Elt F) := broadcastInDim S4x2048x1 ![0, 1] bcast_S4x2048_S4x2048x1_0_1 v4
  have v6 : (⟨S4x2048x2, .f32⟩ : BufTy).Contents (Elt F) := Host.gather gather_S4x16384x2_S4x2048x1_S4x2048x2_2_1_0_0_1_2_112 a0 v5
  v6

set_option maxHeartbeats 2000000 in
theorem P0_v6 (W : Valuation τ sig (Elt F)) :
    after P0 W (no_index (Proc.devRef .tc main_v6)) = s0_v6 (W (Proc.devRef .tc main_arg0)) (W (Proc.devRef .tc main_arg2)) := by
  unfold P0
  after_results_simp <;> rfl

/-! ### Stretch 1: statements 10 … 25 of the inlined line -/

def P1 : List (HloOp τ sig (Elt F)) :=
  [ binary main_v6 main_v6 main_v7 (mulf : (⟨S4x2048x2, .f32⟩ : BufTy).Contents (Elt F) → (⟨S4x2048x2, .f32⟩ : BufTy).Contents (Elt F) → (⟨S4x2048x2, .f32⟩ : BufTy).Contents (Elt F)),
    nullary main_cst (constant S_ .f32 0x00000000#32),
    binary main_v7 main_cst main_v8 ((fun x v => Host.reduceAdd x v reducesTo_S4x2048x2_S4x2048_d2 h_S_) : (⟨S4x2048x2, .f32⟩ : BufTy).Contents (Elt F) → (⟨S_, .f32⟩ : BufTy).Contents (Elt F) → (⟨S4x2048, .f32⟩ : BufTy).Contents (Elt F)),
    unary main_v8 main_v9 (broadcastInDim S4x2048x1 ![0, 1] bcast_S4x2048_S4x2048x1_0_1 : (⟨S4x2048, .f32⟩ : BufTy).Contents (Elt F) → (⟨S4x2048x1, .f32⟩ : BufTy).Contents (Elt F)),
    binary main_arg0 main_arg0 main_v10 (mulf : (⟨S4x16384x2, .f32⟩ : BufTy).Contents (Elt F) → (⟨S4x16384x2, .f32⟩ : BufTy).Contents (Elt F) → (⟨S4x16384x2, .f32⟩ : BufTy).Contents (Elt F)),
    nullary main_cst_1 (constant S_ .f32 0x00000000#32),
    binary main_v10 main_cst_1 main_v11 ((fun x v => Host.reduceAdd x v reducesTo_S4x16384x2_S4x16384_d2 h_S_) : (⟨S4x16384x2, .f32⟩ : BufTy).Contents (Elt F) → (⟨S_, .f32⟩ : BufTy).Contents (Elt F) → (⟨S4x16384, .f32⟩ : BufTy).Contents (Elt F)),
    unary main_v11 main_v12 (broadcastInDim S4x1x16384 ![0, 2] bcast_S4x16384_S4x1x16384_0_2 : (⟨S4x16384, .f32⟩ : BufTy).Contents (Elt F) → (⟨S4x1x16384, .f32⟩ : BufTy).Contents (Elt F)),
    unary main_v9 main_v13 (broadcastInDim S4x2048x16384 ![0, 1, 2] bcast_S4x2048x1_S4x2048x16384_0_1_2 : (⟨S4x2048x1, .f32⟩ : BufTy).Contents (Elt F) → (⟨S4x2048x16384, .f32⟩ : BufTy).Contents (Elt F)),
    unary main_v12 main_v14 (broadcastInDim S4x2048x16384 ![0, 1, 2] bcast_S4x1x16384_S4x2048x16384_0_1_2 : (⟨S4x1x16384, .f32⟩ : BufTy).Contents (Elt F) → (⟨S4x2048x16384, .f32⟩ : BufTy).Contents (Elt F)),
    binary main_v13 main_v14 main_v15 (addf : (⟨S4x2048x16384, .f32⟩ : BufTy).Contents (Elt F) → (⟨S4x2048x16384, .f32⟩ : BufTy).Contents (Elt F) → (⟨S4x2048x16384, .f32⟩ : BufTy).Contents (Elt F)),
    binary main_v6 main_arg0 main_v16 ((fun l r => Host.dotGeneral dot_S4x2048x2_S4x16384x2_S4x2048x16384_2_2_1_1_0_0 none l r) : (⟨S4x2048x2, .f32⟩ : BufTy).Contents (Elt F) → (⟨S4x16384x2, .f32⟩ : BufTy).Contents (Elt F) → (⟨S4x2048x16384, .f32⟩ : BufTy).Contents (Elt F)),
    nullary main_cst_2 (constant S_ .f32 0x40000000#32),
    unary main_cst_2 main_v17 (broadcastInDim S4x2048x16384 ![] bcast_S_S4x2048x16384 : (⟨S_, .f32⟩ : BufTy).Contents (Elt F) → (⟨S4x2048x16384, .f32⟩ : BufTy).Contents (Elt F)),
    binary main_v17 main_v16 main_v18 (mulf : (⟨S4x2048x16384, .f32⟩ : BufTy).Contents (Elt F) → (⟨S4x2048x16384, .f32⟩ : BufTy).Contents (Elt F) → (⟨S4x2048x16384, .f32⟩ : BufTy).Contents (Elt F)),
    binary main_v15 main_v18 main_v19 (subf : (⟨S4x2048x16384, .f32⟩ : BufTy).Contents (Elt F) → (⟨S4x2048x16384, .f32⟩ : BufTy).Contents (Elt F) → (⟨S4x2048x16384, .f32⟩ : BufTy).Contents (Elt F)) ]

theorem P1_sub : (P1 : List (HloOp τ sig (Elt F))).Forall fun op => op.bufs ⊆ tcRefs τ sig := by
  unfold P1; exact ⟨binary_bufs_sub .., nullary_bufs_sub .., binary_bufs_sub .., unary_bufs_sub .., binary_bufs_sub .., nullary_bufs_sub .., binary_bufs_sub .., unary_bufs_sub .., unary_bufs_sub .., unary_bufs_sub .., binary_bufs_sub .., binary_bufs_sub .., nullary_bufs_sub .., unary_bufs_sub .., binary_bufs_sub .., binary_bufs_sub ..⟩
theorem P1_fresh : (P1 : List (HloOp τ sig (Elt F))).Forall fun op => op.fresh = ∅ := by
  unfold P1; exact ⟨rfl, rfl, rfl, rfl, rfl, rfl, rfl, rfl, rfl, rfl, rfl, rfl, rfl, rfl, rfl, rfl⟩
/-- The references stretch 1 writes. -/
abbrev P1_W : List (Ref sig .tc) := [main_v7, main_cst, main_v8, main_v9, main_v10, main_cst_1, main_v11, main_v12, main_v13, main_v14, main_v15, main_v16, main_cst_2, main_v17, main_v18, main_v19]
theorem P1_writes : (P1 : List (HloOp τ sig (Elt F))).Forall fun op => op.writes ⊆ (P1_W.map (Proc.devRef (τ := τ) .tc)).toFinset := by
  unfold P1; simp only [List.Forall]; exact ⟨by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide)⟩
/-- A reference stretch 1 does not write keeps its contents through it. -/
theorem P1_keep (W : Valuation τ sig (Elt F)) (r : Ref sig .tc) (h : r ∉ P1_W) :
    after P1 W (no_index (Proc.devRef .tc r)) = W (Proc.devRef .tc r) :=
  after_of_writes_sub P1 _ P1_writes h

/-- main_v19 after stretch 1, from what the stretch reads. -/
def s1_v19 (a0 : (⟨S4x16384x2, .f32⟩ : BufTy).Contents (Elt F)) (v6 : (⟨S4x2048x2, .f32⟩ : BufTy).Contents (Elt F)) : (⟨S4x2048x16384, .f32⟩ : BufTy).Contents (Elt F) :=
  have v7 : (⟨S4x2048x2, .f32⟩ : BufTy).Contents (Elt F) := mulf v6 v6
  have cst : (⟨S_, .f32⟩ : BufTy).Contents (Elt F) := constant S_ .f32 0x00000000#32
  have v8 : (⟨S4x2048, .f32⟩ : BufTy).Contents (Elt F) := Host.reduceAdd v7 cst reducesTo_S4x2048x2_S4x2048_d2 h_S_
  have v9 : (⟨S4x2048x1, .f32⟩ : BufTy).Contents (Elt F) := broadcastInDim S4x2048x1 ![0, 1] bcast_S4x2048_S4x2048x1_0_1 v8
  have v10 : (⟨S4x16384x2, .f32⟩ : BufTy).Contents (Elt F) := mulf a0 a0
  have cst_1 : (⟨S_, .f32⟩ : BufTy).Contents (Elt F) := constant S_ .f32 0x00000000#32
  have v11 : (⟨S4x16384, .f32⟩ : BufTy).Contents (Elt F) := Host.reduceAdd v10 cst_1 reducesTo_S4x16384x2_S4x16384_d2 h_S_
  have v12 : (⟨S4x1x16384, .f32⟩ : BufTy).Contents (Elt F) := broadcastInDim S4x1x16384 ![0, 2] bcast_S4x16384_S4x1x16384_0_2 v11
  have v13 : (⟨S4x2048x16384, .f32⟩ : BufTy).Contents (Elt F) := broadcastInDim S4x2048x16384 ![0, 1, 2] bcast_S4x2048x1_S4x2048x16384_0_1_2 v9
  have v14 : (⟨S4x2048x16384, .f32⟩ : BufTy).Contents (Elt F) := broadcastInDim S4x2048x16384 ![0, 1, 2] bcast_S4x1x16384_S4x2048x16384_0_1_2 v12
  have v15 : (⟨S4x2048x16384, .f32⟩ : BufTy).Contents (Elt F) := addf v13 v14
  have v16 : (⟨S4x2048x16384, .f32⟩ : BufTy).Contents (Elt F) := Host.dotGeneral dot_S4x2048x2_S4x16384x2_S4x2048x16384_2_2_1_1_0_0 none v6 a0
  have cst_2 : (⟨S_, .f32⟩ : BufTy).Contents (Elt F) := constant S_ .f32 0x40000000#32
  have v17 : (⟨S4x2048x16384, .f32⟩ : BufTy).Contents (Elt F) := broadcastInDim S4x2048x16384 ![] bcast_S_S4x2048x16384 cst_2
  have v18 : (⟨S4x2048x16384, .f32⟩ : BufTy).Contents (Elt F) := mulf v17 v16
  have v19 : (⟨S4x2048x16384, .f32⟩ : BufTy).Contents (Elt F) := subf v15 v18
  v19

set_option maxHeartbeats 2000000 in
theorem P1_v19 (W : Valuation τ sig (Elt F)) :
    after P1 W (no_index (Proc.devRef .tc main_v19)) = s1_v19 (W (Proc.devRef .tc main_arg0)) (W (Proc.devRef .tc main_v6)) := by
  unfold P1
  after_results_simp <;> rfl

/-! ### Stretch 2: statements 26 … 30 of the inlined line -/

def P2 : List (HloOp τ sig (Elt F)) :=
  [ nullary main_v20 (iotaInDim S16384 32 0),
    nullary main_cst_3 (constant S_ .f32 0x3C23D70A#32),
    unary main_cst_3 main_v21 (broadcastInDim S4x2048x16384 ![] bcast_S_S4x2048x16384 : (⟨S_, .f32⟩ : BufTy).Contents (Elt F) → (⟨S4x2048x16384, .f32⟩ : BufTy).Contents (Elt F)),
    binary main_v19 main_v21 main_v22 (cmpf .ogt : (⟨S4x2048x16384, .f32⟩ : BufTy).Contents (Elt F) → (⟨S4x2048x16384, .f32⟩ : BufTy).Contents (Elt F) → (⟨S4x2048x16384, .i1⟩ : BufTy).Contents (Elt F)),
    nullary main_c_4 (constantI S_ 32 16384#32) ]

theorem P2_sub : (P2 : List (HloOp τ sig (Elt F))).Forall fun op => op.bufs ⊆ tcRefs τ sig := by
  unfold P2; exact ⟨nullary_bufs_sub .., nullary_bufs_sub .., unary_bufs_sub .., binary_bufs_sub .., nullary_bufs_sub ..⟩
theorem P2_fresh : (P2 : List (HloOp τ sig (Elt F))).Forall fun op => op.fresh = ∅ := by
  unfold P2; exact ⟨rfl, rfl, rfl, rfl, rfl⟩
/-- The references stretch 2 writes. -/
abbrev P2_W : List (Ref sig .tc) := [main_v20, main_cst_3, main_v21, main_v22, main_c_4]
theorem P2_writes : (P2 : List (HloOp τ sig (Elt F))).Forall fun op => op.writes ⊆ (P2_W.map (Proc.devRef (τ := τ) .tc)).toFinset := by
  unfold P2; simp only [List.Forall]; exact ⟨by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide)⟩
/-- A reference stretch 2 does not write keeps its contents through it. -/
theorem P2_keep (W : Valuation τ sig (Elt F)) (r : Ref sig .tc) (h : r ∉ P2_W) :
    after P2 W (no_index (Proc.devRef .tc r)) = W (Proc.devRef .tc r) :=
  after_of_writes_sub P2 _ P2_writes h

/-- main_v20 after stretch 2, from what the stretch reads. -/
def s2_v20  : (⟨S16384, .i32⟩ : BufTy).Contents (Elt F) :=
  have v20 : (⟨S16384, .i32⟩ : BufTy).Contents (Elt F) := iotaInDim S16384 32 0
  v20

theorem P2_v20 (W : Valuation τ sig (Elt F)) :
    after P2 W (no_index (Proc.devRef .tc main_v20)) = s2_v20  := by
  unfold P2
  after_results_simp <;> rfl

/-- main_v22 after stretch 2, from what the stretch reads. -/
def s2_v22 (v19 : (⟨S4x2048x16384, .f32⟩ : BufTy).Contents (Elt F)) : (⟨S4x2048x16384, .i1⟩ : BufTy).Contents (Elt F) :=
  have cst_3 : (⟨S_, .f32⟩ : BufTy).Contents (Elt F) := constant S_ .f32 0x3C23D70A#32
  have v21 : (⟨S4x2048x16384, .f32⟩ : BufTy).Contents (Elt F) := broadcastInDim S4x2048x16384 ![] bcast_S_S4x2048x16384 cst_3
  have v22 : (⟨S4x2048x16384, .i1⟩ : BufTy).Contents (Elt F) := cmpf .ogt v19 v21
  v22

theorem P2_v22 (W : Valuation τ sig (Elt F)) :
    after P2 W (no_index (Proc.devRef .tc main_v22)) = s2_v22 (W (Proc.devRef .tc main_v19)) := by
  unfold P2
  after_results_simp <;> rfl

/-- main_c_4 after stretch 2, from what the stretch reads. -/
def s2_c_4  : (⟨S_, .i32⟩ : BufTy).Contents (Elt F) :=
  have c_4 : (⟨S_, .i32⟩ : BufTy).Contents (Elt F) := constantI S_ 32 16384#32
  c_4

theorem P2_c_4 (W : Valuation τ sig (Elt F)) :
    after P2 W (no_index (Proc.devRef .tc main_c_4)) = s2_c_4  := by
  unfold P2
  after_results_simp <;> rfl

/-! ### Stretch 3: statements 31 … 34 of the inlined line -/

def P3 : List (HloOp τ sig (Elt F)) :=
  [ TRef.unary (.of main_c_4 : TRef sig ⟨S_, .i32⟩) main_call0.v0 id,
    TRef.unary main_call0.v0 main_call0.v1 (broadcastInDim S4x2048x16384 ![] bcast_S_S4x2048x16384),
    TRef.unary (.of main_v20 : TRef sig ⟨S16384, .i32⟩) main_call0.v2 (broadcastInDim S4x2048x16384 ![2] bcast_S16384_S4x2048x16384_2),
    TRef.ternary (.of main_v22 : TRef sig ⟨S4x2048x16384, .i1⟩) main_call0.v1 main_call0.v2 main_call0.v3 select ]

theorem P3_sub : (P3 : List (HloOp τ sig (Elt F))).Forall fun op => op.bufs ⊆ tcRefs τ sig := by
  unfold P3; exact ⟨unary_bufs_sub .., unary_bufs_sub .., unary_bufs_sub .., ternary_bufs_sub ..⟩
theorem P3_fresh : (P3 : List (HloOp τ sig (Elt F))).Forall fun op => op.fresh = ∅ := by
  unfold P3; exact ⟨rfl, rfl, rfl, rfl⟩
/-- The references stretch 3 writes. -/
abbrev P3_W : List (Ref sig .tc) := [main_call0_v0, main_call0_v1, main_call0_v2, main_v23]
theorem P3_writes : (P3 : List (HloOp τ sig (Elt F))).Forall fun op => op.writes ⊆ (P3_W.map (Proc.devRef (τ := τ) .tc)).toFinset := by
  unfold P3; simp only [List.Forall]; exact ⟨by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide)⟩
/-- A reference stretch 3 does not write keeps its contents through it. -/
theorem P3_keep (W : Valuation τ sig (Elt F)) (r : Ref sig .tc) (h : r ∉ P3_W) :
    after P3 W (no_index (Proc.devRef .tc r)) = W (Proc.devRef .tc r) :=
  after_of_writes_sub P3 _ P3_writes h

/-- main_v23 after stretch 3, from what the stretch reads. -/
def s3_v23 (v20 : (⟨S16384, .i32⟩ : BufTy).Contents (Elt F)) (v22 : (⟨S4x2048x16384, .i1⟩ : BufTy).Contents (Elt F)) (c_4 : (⟨S_, .i32⟩ : BufTy).Contents (Elt F)) : (⟨S4x2048x16384, .i32⟩ : BufTy).Contents (Elt F) :=
  have call0_v0 : (⟨S_, .i32⟩ : BufTy).Contents (Elt F) := id c_4
  have call0_v1 : (⟨S4x2048x16384, .i32⟩ : BufTy).Contents (Elt F) := broadcastInDim S4x2048x16384 ![] bcast_S_S4x2048x16384 call0_v0
  have call0_v2 : (⟨S4x2048x16384, .i32⟩ : BufTy).Contents (Elt F) := broadcastInDim S4x2048x16384 ![2] bcast_S16384_S4x2048x16384_2 v20
  have v23 : (⟨S4x2048x16384, .i32⟩ : BufTy).Contents (Elt F) := select v22 call0_v1 call0_v2
  v23

theorem P3_v23 (W : Valuation τ sig (Elt F)) :
    after P3 W (no_index (Proc.devRef .tc main_v23)) = s3_v23 (W (Proc.devRef .tc main_v20)) (W (Proc.devRef .tc main_v22)) (W (Proc.devRef .tc main_c_4)) := by
  unfold P3
  after_results_simp <;> rfl

/-! ### Stretch 4: statements 35 … 40 of the inlined line -/

def P4 : List (HloOp τ sig (Elt F)) :=
  [ TRef.unary (.of main_v23 : TRef sig ⟨S4x2048x16384, .i32⟩) main_call1.v0 (fun x => Host.sort S4x2048x16384 2 comparator_i32_d2 x),
    unary main_v24 main_v25 ((extractStridedSlice S4x2048x64 ![0, 0, 0] · slices_S4x2048x16384_S4x2048x64_0_0_0) : (⟨S4x2048x16384, .i32⟩ : BufTy).Contents (Elt F) → (⟨S4x2048x64, .i32⟩ : BufTy).Contents (Elt F)),
    unary main_v25 main_v26 ((extractStridedSlice S4x2048x1 ![0, 0, 0] · slices_S4x2048x64_S4x2048x1_0_0_0) : (⟨S4x2048x64, .i32⟩ : BufTy).Contents (Elt F) → (⟨S4x2048x1, .i32⟩ : BufTy).Contents (Elt F)),
    nullary main_c_5 (constantI S_ 32 16384#32),
    unary main_c_5 main_v27 (broadcastInDim S4x2048x64 ![] bcast_S_S4x2048x64 : (⟨S_, .i32⟩ : BufTy).Contents (Elt F) → (⟨S4x2048x64, .i32⟩ : BufTy).Contents (Elt F)),
    binary main_v25 main_v27 main_v28 (cmpi .eq : (⟨S4x2048x64, .i32⟩ : BufTy).Contents (Elt F) → (⟨S4x2048x64, .i32⟩ : BufTy).Contents (Elt F) → (⟨S4x2048x64, .i1⟩ : BufTy).Contents (Elt F)) ]

theorem P4_sub : (P4 : List (HloOp τ sig (Elt F))).Forall fun op => op.bufs ⊆ tcRefs τ sig := by
  unfold P4; exact ⟨unary_bufs_sub .., unary_bufs_sub .., unary_bufs_sub .., nullary_bufs_sub .., unary_bufs_sub .., binary_bufs_sub ..⟩
theorem P4_fresh : (P4 : List (HloOp τ sig (Elt F))).Forall fun op => op.fresh = ∅ := by
  unfold P4; exact ⟨rfl, rfl, rfl, rfl, rfl, rfl⟩
/-- The references stretch 4 writes. -/
abbrev P4_W : List (Ref sig .tc) := [main_v24, main_v25, main_v26, main_c_5, main_v27, main_v28]
theorem P4_writes : (P4 : List (HloOp τ sig (Elt F))).Forall fun op => op.writes ⊆ (P4_W.map (Proc.devRef (τ := τ) .tc)).toFinset := by
  unfold P4; simp only [List.Forall]; exact ⟨by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide)⟩
/-- A reference stretch 4 does not write keeps its contents through it. -/
theorem P4_keep (W : Valuation τ sig (Elt F)) (r : Ref sig .tc) (h : r ∉ P4_W) :
    after P4 W (no_index (Proc.devRef .tc r)) = W (Proc.devRef .tc r) :=
  after_of_writes_sub P4 _ P4_writes h

/-- main_v25 after stretch 4, from what the stretch reads. -/
def s4_v25 (v23 : (⟨S4x2048x16384, .i32⟩ : BufTy).Contents (Elt F)) : (⟨S4x2048x64, .i32⟩ : BufTy).Contents (Elt F) :=
  have v24 : (⟨S4x2048x16384, .i32⟩ : BufTy).Contents (Elt F) := Host.sort S4x2048x16384 2 comparator_i32_d2 v23
  have v25 : (⟨S4x2048x64, .i32⟩ : BufTy).Contents (Elt F) := extractStridedSlice S4x2048x64 ![0, 0, 0] v24 slices_S4x2048x16384_S4x2048x64_0_0_0
  v25

theorem P4_v25 (W : Valuation τ sig (Elt F)) :
    after P4 W (no_index (Proc.devRef .tc main_v25)) = s4_v25 (W (Proc.devRef .tc main_v23)) := by
  unfold P4
  after_results_simp <;> rfl

/-- main_v26 after stretch 4, from what the stretch reads. -/
def s4_v26 (v23 : (⟨S4x2048x16384, .i32⟩ : BufTy).Contents (Elt F)) : (⟨S4x2048x1, .i32⟩ : BufTy).Contents (Elt F) :=
  have v24 : (⟨S4x2048x16384, .i32⟩ : BufTy).Contents (Elt F) := Host.sort S4x2048x16384 2 comparator_i32_d2 v23
  have v25 : (⟨S4x2048x64, .i32⟩ : BufTy).Contents (Elt F) := extractStridedSlice S4x2048x64 ![0, 0, 0] v24 slices_S4x2048x16384_S4x2048x64_0_0_0
  have v26 : (⟨S4x2048x1, .i32⟩ : BufTy).Contents (Elt F) := extractStridedSlice S4x2048x1 ![0, 0, 0] v25 slices_S4x2048x64_S4x2048x1_0_0_0
  v26

theorem P4_v26 (W : Valuation τ sig (Elt F)) :
    after P4 W (no_index (Proc.devRef .tc main_v26)) = s4_v26 (W (Proc.devRef .tc main_v23)) := by
  unfold P4
  after_results_simp <;> rfl

/-- main_v28 after stretch 4, from what the stretch reads. -/
def s4_v28 (v23 : (⟨S4x2048x16384, .i32⟩ : BufTy).Contents (Elt F)) : (⟨S4x2048x64, .i1⟩ : BufTy).Contents (Elt F) :=
  have v24 : (⟨S4x2048x16384, .i32⟩ : BufTy).Contents (Elt F) := Host.sort S4x2048x16384 2 comparator_i32_d2 v23
  have v25 : (⟨S4x2048x64, .i32⟩ : BufTy).Contents (Elt F) := extractStridedSlice S4x2048x64 ![0, 0, 0] v24 slices_S4x2048x16384_S4x2048x64_0_0_0
  have c_5 : (⟨S_, .i32⟩ : BufTy).Contents (Elt F) := constantI S_ 32 16384#32
  have v27 : (⟨S4x2048x64, .i32⟩ : BufTy).Contents (Elt F) := broadcastInDim S4x2048x64 ![] bcast_S_S4x2048x64 c_5
  have v28 : (⟨S4x2048x64, .i1⟩ : BufTy).Contents (Elt F) := cmpi .eq v25 v27
  v28

theorem P4_v28 (W : Valuation τ sig (Elt F)) :
    after P4 W (no_index (Proc.devRef .tc main_v28)) = s4_v28 (W (Proc.devRef .tc main_v23)) := by
  unfold P4
  after_results_simp <;> rfl

/-! ### Stretch 5: statements 41 … 42 of the inlined line -/

def P5 : List (HloOp τ sig (Elt F)) :=
  [ TRef.unary (.of main_v26 : TRef sig ⟨S4x2048x1, .i32⟩) main_call2.v0 (broadcastInDim S4x2048x64 ![0, 1, 2] bcast_S4x2048x1_S4x2048x64_0_1_2),
    TRef.ternary (.of main_v28 : TRef sig ⟨S4x2048x64, .i1⟩) main_call2.v0 (.of main_v25 : TRef sig ⟨S4x2048x64, .i32⟩) main_call2.v1 select ]

theorem P5_sub : (P5 : List (HloOp τ sig (Elt F))).Forall fun op => op.bufs ⊆ tcRefs τ sig := by
  unfold P5; exact ⟨unary_bufs_sub .., ternary_bufs_sub ..⟩
theorem P5_fresh : (P5 : List (HloOp τ sig (Elt F))).Forall fun op => op.fresh = ∅ := by
  unfold P5; exact ⟨rfl, rfl⟩
/-- The references stretch 5 writes. -/
abbrev P5_W : List (Ref sig .tc) := [main_call2_v0, main_v29]
theorem P5_writes : (P5 : List (HloOp τ sig (Elt F))).Forall fun op => op.writes ⊆ (P5_W.map (Proc.devRef (τ := τ) .tc)).toFinset := by
  unfold P5; simp only [List.Forall]; exact ⟨by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide)⟩
/-- A reference stretch 5 does not write keeps its contents through it. -/
theorem P5_keep (W : Valuation τ sig (Elt F)) (r : Ref sig .tc) (h : r ∉ P5_W) :
    after P5 W (no_index (Proc.devRef .tc r)) = W (Proc.devRef .tc r) :=
  after_of_writes_sub P5 _ P5_writes h

/-- main_v29 after stretch 5, from what the stretch reads. -/
def s5_v29 (v25 : (⟨S4x2048x64, .i32⟩ : BufTy).Contents (Elt F)) (v26 : (⟨S4x2048x1, .i32⟩ : BufTy).Contents (Elt F)) (v28 : (⟨S4x2048x64, .i1⟩ : BufTy).Contents (Elt F)) : (⟨S4x2048x64, .i32⟩ : BufTy).Contents (Elt F) :=
  have call2_v0 : (⟨S4x2048x64, .i32⟩ : BufTy).Contents (Elt F) := broadcastInDim S4x2048x64 ![0, 1, 2] bcast_S4x2048x1_S4x2048x64_0_1_2 v26
  have v29 : (⟨S4x2048x64, .i32⟩ : BufTy).Contents (Elt F) := select v28 call2_v0 v25
  v29

theorem P5_v29 (W : Valuation τ sig (Elt F)) :
    after P5 W (no_index (Proc.devRef .tc main_v29)) = s5_v29 (W (Proc.devRef .tc main_v25)) (W (Proc.devRef .tc main_v26)) (W (Proc.devRef .tc main_v28)) := by
  unfold P5
  after_results_simp <;> rfl

/-! ### Stretch 6: statements 43 … 61 of the inlined line -/

def P6 : List (HloOp τ sig (Elt F)) :=
  [ nullary main_c_6 (constantI S_ 32 0#32),
    unary main_c_6 main_v30 (broadcastInDim S4x2048x64 ![] bcast_S_S4x2048x64 : (⟨S_, .i32⟩ : BufTy).Contents (Elt F) → (⟨S4x2048x64, .i32⟩ : BufTy).Contents (Elt F)),
    binary main_v29 main_v30 main_v31 (cmpi .slt : (⟨S4x2048x64, .i32⟩ : BufTy).Contents (Elt F) → (⟨S4x2048x64, .i32⟩ : BufTy).Contents (Elt F) → (⟨S4x2048x64, .i1⟩ : BufTy).Contents (Elt F)),
    nullary main_c_7 (constantI S_ 32 16384#32),
    unary main_c_7 main_v32 (broadcastInDim S4x2048x64 ![] bcast_S_S4x2048x64 : (⟨S_, .i32⟩ : BufTy).Contents (Elt F) → (⟨S4x2048x64, .i32⟩ : BufTy).Contents (Elt F)),
    binary main_v29 main_v32 main_v33 (addi : (⟨S4x2048x64, .i32⟩ : BufTy).Contents (Elt F) → (⟨S4x2048x64, .i32⟩ : BufTy).Contents (Elt F) → (⟨S4x2048x64, .i32⟩ : BufTy).Contents (Elt F)),
    ternary main_v31 main_v33 main_v29 main_v34 (select : (⟨S4x2048x64, .i1⟩ : BufTy).Contents (Elt F) → (⟨S4x2048x64, .i32⟩ : BufTy).Contents (Elt F) → (⟨S4x2048x64, .i32⟩ : BufTy).Contents (Elt F) → (⟨S4x2048x64, .i32⟩ : BufTy).Contents (Elt F)),
    unary main_v34 main_v35 (broadcastInDim S4x2048x64x1 ![0, 1, 2] bcast_S4x2048x64_S4x2048x64x1_0_1_2 : (⟨S4x2048x64, .i32⟩ : BufTy).Contents (Elt F) → (⟨S4x2048x64x1, .i32⟩ : BufTy).Contents (Elt F)),
    binary main_arg0 main_v35 main_v36 ((fun x i => Host.gather gather_S4x16384x2_S4x2048x64x1_S4x2048x64x2_3_1_0_0_1_3_112 x i) : (⟨S4x16384x2, .f32⟩ : BufTy).Contents (Elt F) → (⟨S4x2048x64x1, .i32⟩ : BufTy).Contents (Elt F) → (⟨S4x2048x64x2, .f32⟩ : BufTy).Contents (Elt F)),
    nullary main_c_8 (constantI S_ 32 0#32),
    unary main_c_8 main_v37 (broadcastInDim S4x2048x64 ![] bcast_S_S4x2048x64 : (⟨S_, .i32⟩ : BufTy).Contents (Elt F) → (⟨S4x2048x64, .i32⟩ : BufTy).Contents (Elt F)),
    binary main_v29 main_v37 main_v38 (cmpi .slt : (⟨S4x2048x64, .i32⟩ : BufTy).Contents (Elt F) → (⟨S4x2048x64, .i32⟩ : BufTy).Contents (Elt F) → (⟨S4x2048x64, .i1⟩ : BufTy).Contents (Elt F)),
    nullary main_c_9 (constantI S_ 32 16384#32),
    unary main_c_9 main_v39 (broadcastInDim S4x2048x64 ![] bcast_S_S4x2048x64 : (⟨S_, .i32⟩ : BufTy).Contents (Elt F) → (⟨S4x2048x64, .i32⟩ : BufTy).Contents (Elt F)),
    binary main_v29 main_v39 main_v40 (addi : (⟨S4x2048x64, .i32⟩ : BufTy).Contents (Elt F) → (⟨S4x2048x64, .i32⟩ : BufTy).Contents (Elt F) → (⟨S4x2048x64, .i32⟩ : BufTy).Contents (Elt F)),
    ternary main_v38 main_v40 main_v29 main_v41 (select : (⟨S4x2048x64, .i1⟩ : BufTy).Contents (Elt F) → (⟨S4x2048x64, .i32⟩ : BufTy).Contents (Elt F) → (⟨S4x2048x64, .i32⟩ : BufTy).Contents (Elt F) → (⟨S4x2048x64, .i32⟩ : BufTy).Contents (Elt F)),
    unary main_v41 main_v42 (broadcastInDim S4x2048x64x1 ![0, 1, 2] bcast_S4x2048x64_S4x2048x64x1_0_1_2 : (⟨S4x2048x64, .i32⟩ : BufTy).Contents (Elt F) → (⟨S4x2048x64x1, .i32⟩ : BufTy).Contents (Elt F)),
    binary main_arg1 main_v42 main_v43 ((fun x i => Host.gather gather_S4x16384x62_S4x2048x64x1_S4x2048x64x62_3_1_0_0_1_3_1162 x i) : (⟨S4x16384x62, .f32⟩ : BufTy).Contents (Elt F) → (⟨S4x2048x64x1, .i32⟩ : BufTy).Contents (Elt F) → (⟨S4x2048x64x62, .f32⟩ : BufTy).Contents (Elt F)),
    binary main_v43 main_v36 main_v44 ((fun a b => concatenate S4x2048x64x64 3 [⟨S4x2048x64x62, a⟩, ⟨S4x2048x64x2, b⟩] concatenates_S4x2048x64x62_S4x2048x64x2_S4x2048x64x64_d3) : (⟨S4x2048x64x62, .f32⟩ : BufTy).Contents (Elt F) → (⟨S4x2048x64x2, .f32⟩ : BufTy).Contents (Elt F) → (⟨S4x2048x64x64, .f32⟩ : BufTy).Contents (Elt F)) ]

theorem P6_sub : (P6 : List (HloOp τ sig (Elt F))).Forall fun op => op.bufs ⊆ tcRefs τ sig := by
  unfold P6; exact ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub ..⟩
theorem P6_fresh : (P6 : List (HloOp τ sig (Elt F))).Forall fun op => op.fresh = ∅ := by
  unfold P6; exact ⟨rfl, rfl, rfl, rfl, rfl, rfl, rfl, rfl, rfl, rfl, rfl, rfl, rfl, rfl, rfl, rfl, rfl, rfl, rfl⟩
/-- The references stretch 6 writes. -/
abbrev P6_W : List (Ref sig .tc) := [main_c_6, main_v30, main_v31, main_c_7, main_v32, main_v33, main_v34, main_v35, main_v36, main_c_8, main_v37, main_v38, main_c_9, main_v39, main_v40, main_v41, main_v42, main_v43, main_v44]
theorem P6_writes : (P6 : List (HloOp τ sig (Elt F))).Forall fun op => op.writes ⊆ (P6_W.map (Proc.devRef (τ := τ) .tc)).toFinset := by
  unfold P6; simp only [List.Forall]; exact ⟨by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide)⟩
/-- A reference stretch 6 does not write keeps its contents through it. -/
theorem P6_keep (W : Valuation τ sig (Elt F)) (r : Ref sig .tc) (h : r ∉ P6_W) :
    after P6 W (no_index (Proc.devRef .tc r)) = W (Proc.devRef .tc r) :=
  after_of_writes_sub P6 _ P6_writes h

/-- main_v44 after stretch 6, from what the stretch reads. -/
def s6_v44 (a0 : (⟨S4x16384x2, .f32⟩ : BufTy).Contents (Elt F)) (a1 : (⟨S4x16384x62, .f32⟩ : BufTy).Contents (Elt F)) (v29 : (⟨S4x2048x64, .i32⟩ : BufTy).Contents (Elt F)) : (⟨S4x2048x64x64, .f32⟩ : BufTy).Contents (Elt F) :=
  have c_6 : (⟨S_, .i32⟩ : BufTy).Contents (Elt F) := constantI S_ 32 0#32
  have v30 : (⟨S4x2048x64, .i32⟩ : BufTy).Contents (Elt F) := broadcastInDim S4x2048x64 ![] bcast_S_S4x2048x64 c_6
  have v31 : (⟨S4x2048x64, .i1⟩ : BufTy).Contents (Elt F) := cmpi .slt v29 v30
  have c_7 : (⟨S_, .i32⟩ : BufTy).Contents (Elt F) := constantI S_ 32 16384#32
  have v32 : (⟨S4x2048x64, .i32⟩ : BufTy).Contents (Elt F) := broadcastInDim S4x2048x64 ![] bcast_S_S4x2048x64 c_7
  have v33 : (⟨S4x2048x64, .i32⟩ : BufTy).Contents (Elt F) := addi v29 v32
  have v34 : (⟨S4x2048x64, .i32⟩ : BufTy).Contents (Elt F) := select v31 v33 v29
  have v35 : (⟨S4x2048x64x1, .i32⟩ : BufTy).Contents (Elt F) := broadcastInDim S4x2048x64x1 ![0, 1, 2] bcast_S4x2048x64_S4x2048x64x1_0_1_2 v34
  have v36 : (⟨S4x2048x64x2, .f32⟩ : BufTy).Contents (Elt F) := Host.gather gather_S4x16384x2_S4x2048x64x1_S4x2048x64x2_3_1_0_0_1_3_112 a0 v35
  have c_8 : (⟨S_, .i32⟩ : BufTy).Contents (Elt F) := constantI S_ 32 0#32
  have v37 : (⟨S4x2048x64, .i32⟩ : BufTy).Contents (Elt F) := broadcastInDim S4x2048x64 ![] bcast_S_S4x2048x64 c_8
  have v38 : (⟨S4x2048x64, .i1⟩ : BufTy).Contents (Elt F) := cmpi .slt v29 v37
  have c_9 : (⟨S_, .i32⟩ : BufTy).Contents (Elt F) := constantI S_ 32 16384#32
  have v39 : (⟨S4x2048x64, .i32⟩ : BufTy).Contents (Elt F) := broadcastInDim S4x2048x64 ![] bcast_S_S4x2048x64 c_9
  have v40 : (⟨S4x2048x64, .i32⟩ : BufTy).Contents (Elt F) := addi v29 v39
  have v41 : (⟨S4x2048x64, .i32⟩ : BufTy).Contents (Elt F) := select v38 v40 v29
  have v42 : (⟨S4x2048x64x1, .i32⟩ : BufTy).Contents (Elt F) := broadcastInDim S4x2048x64x1 ![0, 1, 2] bcast_S4x2048x64_S4x2048x64x1_0_1_2 v41
  have v43 : (⟨S4x2048x64x62, .f32⟩ : BufTy).Contents (Elt F) := Host.gather gather_S4x16384x62_S4x2048x64x1_S4x2048x64x62_3_1_0_0_1_3_1162 a1 v42
  have v44 : (⟨S4x2048x64x64, .f32⟩ : BufTy).Contents (Elt F) := concatenate S4x2048x64x64 3 [⟨S4x2048x64x62, v43⟩, ⟨S4x2048x64x2, v36⟩] concatenates_S4x2048x64x62_S4x2048x64x2_S4x2048x64x64_d3
  v44

set_option maxHeartbeats 2000000 in
theorem P6_v44 (W : Valuation τ sig (Elt F)) :
    after P6 W (no_index (Proc.devRef .tc main_v44)) = s6_v44 (W (Proc.devRef .tc main_arg0)) (W (Proc.devRef .tc main_arg1)) (W (Proc.devRef .tc main_v29)) := by
  unfold P6
  after_results_simp <;> rfl

/-! ### Stretch 7: statements 62 … 64 of the inlined line -/

def P7 : List (HloOp τ sig (Elt F)) :=
  [ nullary main_cst_10 (constant S_ .f32 0x00000000#32),
    binary main_v44 main_cst_10 main_v45 ((fun x v => Host.reduceAdd x v reducesTo_S4x2048x64x64_S4x2048x64_d2 h_S_) : (⟨S4x2048x64x64, .f32⟩ : BufTy).Contents (Elt F) → (⟨S_, .f32⟩ : BufTy).Contents (Elt F) → (⟨S4x2048x64, .f32⟩ : BufTy).Contents (Elt F)),
    unary main_v45 main_v46 (broadcastInDim S4x2048x1x64 ![0, 1, 3] bcast_S4x2048x64_S4x2048x1x64_0_1_3 : (⟨S4x2048x64, .f32⟩ : BufTy).Contents (Elt F) → (⟨S4x2048x1x64, .f32⟩ : BufTy).Contents (Elt F)) ]

theorem P7_sub : (P7 : List (HloOp τ sig (Elt F))).Forall fun op => op.bufs ⊆ tcRefs τ sig := by
  unfold P7; exact ⟨nullary_bufs_sub .., binary_bufs_sub .., unary_bufs_sub ..⟩
theorem P7_fresh : (P7 : List (HloOp τ sig (Elt F))).Forall fun op => op.fresh = ∅ := by
  unfold P7; exact ⟨rfl, rfl, rfl⟩
/-- The references stretch 7 writes. -/
abbrev P7_W : List (Ref sig .tc) := [main_cst_10, main_v45, main_v46]
theorem P7_writes : (P7 : List (HloOp τ sig (Elt F))).Forall fun op => op.writes ⊆ (P7_W.map (Proc.devRef (τ := τ) .tc)).toFinset := by
  unfold P7; simp only [List.Forall]; exact ⟨by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide)⟩
/-- A reference stretch 7 does not write keeps its contents through it. -/
theorem P7_keep (W : Valuation τ sig (Elt F)) (r : Ref sig .tc) (h : r ∉ P7_W) :
    after P7 W (no_index (Proc.devRef .tc r)) = W (Proc.devRef .tc r) :=
  after_of_writes_sub P7 _ P7_writes h

/-- main_v46 after stretch 7, from what the stretch reads. -/
def s7_v46 (v44 : (⟨S4x2048x64x64, .f32⟩ : BufTy).Contents (Elt F)) : (⟨S4x2048x1x64, .f32⟩ : BufTy).Contents (Elt F) :=
  have cst_10 : (⟨S_, .f32⟩ : BufTy).Contents (Elt F) := constant S_ .f32 0x00000000#32
  have v45 : (⟨S4x2048x64, .f32⟩ : BufTy).Contents (Elt F) := Host.reduceAdd v44 cst_10 reducesTo_S4x2048x64x64_S4x2048x64_d2 h_S_
  have v46 : (⟨S4x2048x1x64, .f32⟩ : BufTy).Contents (Elt F) := broadcastInDim S4x2048x1x64 ![0, 1, 3] bcast_S4x2048x64_S4x2048x1x64_0_1_3 v45
  v46

theorem P7_v46 (W : Valuation τ sig (Elt F)) :
    after P7 W (no_index (Proc.devRef .tc main_v46)) = s7_v46 (W (Proc.devRef .tc main_v44)) := by
  unfold P7
  after_results_simp <;> rfl

/-! ### Stretch 8: statements 65 … 71 of the inlined line -/

def P8 : List (HloOp τ sig (Elt F)) :=
  [ nullary main_cst_11 (constant S_ .f32 0x42800000#32),
    unary main_cst_11 main_v47 (broadcastInDim S4x2048x1x64 ![] bcast_S_S4x2048x1x64 : (⟨S_, .f32⟩ : BufTy).Contents (Elt F) → (⟨S4x2048x1x64, .f32⟩ : BufTy).Contents (Elt F)),
    binary main_v46 main_v47 main_v48 (Host.divf : (⟨S4x2048x1x64, .f32⟩ : BufTy).Contents (Elt F) → (⟨S4x2048x1x64, .f32⟩ : BufTy).Contents (Elt F) → (⟨S4x2048x1x64, .f32⟩ : BufTy).Contents (Elt F)),
    unary main_v48 main_v49 (broadcastInDim S4x2048x64x64 ![0, 1, 2, 3] bcast_S4x2048x1x64_S4x2048x64x64_0_1_2_3 : (⟨S4x2048x1x64, .f32⟩ : BufTy).Contents (Elt F) → (⟨S4x2048x64x64, .f32⟩ : BufTy).Contents (Elt F)),
    binary main_v44 main_v49 main_v50 (subf : (⟨S4x2048x64x64, .f32⟩ : BufTy).Contents (Elt F) → (⟨S4x2048x64x64, .f32⟩ : BufTy).Contents (Elt F) → (⟨S4x2048x64x64, .f32⟩ : BufTy).Contents (Elt F)),
    reshape main_v50 main_v51 rfl shapeCasts_S4x2048x64x64_S4x8388608,
    nullary main_c_12 (constantI S_ 32 1#32) ]

theorem P8_sub : (P8 : List (HloOp τ sig (Elt F))).Forall fun op => op.bufs ⊆ tcRefs τ sig := by
  unfold P8; exact ⟨nullary_bufs_sub .., unary_bufs_sub .., binary_bufs_sub .., unary_bufs_sub .., binary_bufs_sub .., reshape_bufs_sub .., nullary_bufs_sub ..⟩
theorem P8_fresh : (P8 : List (HloOp τ sig (Elt F))).Forall fun op => op.fresh = ∅ := by
  unfold P8; exact ⟨rfl, rfl, rfl, rfl, rfl, rfl, rfl⟩
/-- The references stretch 8 writes. -/
abbrev P8_W : List (Ref sig .tc) := [main_cst_11, main_v47, main_v48, main_v49, main_v50, main_v51, main_c_12]
theorem P8_writes : (P8 : List (HloOp τ sig (Elt F))).Forall fun op => op.writes ⊆ (P8_W.map (Proc.devRef (τ := τ) .tc)).toFinset := by
  unfold P8; simp only [List.Forall]; exact ⟨by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide)⟩
/-- A reference stretch 8 does not write keeps its contents through it. -/
theorem P8_keep (W : Valuation τ sig (Elt F)) (r : Ref sig .tc) (h : r ∉ P8_W) :
    after P8 W (no_index (Proc.devRef .tc r)) = W (Proc.devRef .tc r) :=
  after_of_writes_sub P8 _ P8_writes h

/-- main_v50 after stretch 8, from what the stretch reads. -/
def s8_v50 (v44 : (⟨S4x2048x64x64, .f32⟩ : BufTy).Contents (Elt F)) (v46 : (⟨S4x2048x1x64, .f32⟩ : BufTy).Contents (Elt F)) : (⟨S4x2048x64x64, .f32⟩ : BufTy).Contents (Elt F) :=
  have cst_11 : (⟨S_, .f32⟩ : BufTy).Contents (Elt F) := constant S_ .f32 0x42800000#32
  have v47 : (⟨S4x2048x1x64, .f32⟩ : BufTy).Contents (Elt F) := broadcastInDim S4x2048x1x64 ![] bcast_S_S4x2048x1x64 cst_11
  have v48 : (⟨S4x2048x1x64, .f32⟩ : BufTy).Contents (Elt F) := Host.divf v46 v47
  have v49 : (⟨S4x2048x64x64, .f32⟩ : BufTy).Contents (Elt F) := broadcastInDim S4x2048x64x64 ![0, 1, 2, 3] bcast_S4x2048x1x64_S4x2048x64x64_0_1_2_3 v48
  have v50 : (⟨S4x2048x64x64, .f32⟩ : BufTy).Contents (Elt F) := subf v44 v49
  v50

theorem P8_v50 (W : Valuation τ sig (Elt F)) :
    after P8 W (no_index (Proc.devRef .tc main_v50)) = s8_v50 (W (Proc.devRef .tc main_v44)) (W (Proc.devRef .tc main_v46)) := by
  unfold P8
  after_results_simp <;> rfl

/-- main_v51 after stretch 8, from what the stretch reads. -/
def s8_v51 (v44 : (⟨S4x2048x64x64, .f32⟩ : BufTy).Contents (Elt F)) (v46 : (⟨S4x2048x1x64, .f32⟩ : BufTy).Contents (Elt F)) : (⟨S4x8388608, .f32⟩ : BufTy).Contents (Elt F) :=
  have cst_11 : (⟨S_, .f32⟩ : BufTy).Contents (Elt F) := constant S_ .f32 0x42800000#32
  have v47 : (⟨S4x2048x1x64, .f32⟩ : BufTy).Contents (Elt F) := broadcastInDim S4x2048x1x64 ![] bcast_S_S4x2048x1x64 cst_11
  have v48 : (⟨S4x2048x1x64, .f32⟩ : BufTy).Contents (Elt F) := Host.divf v46 v47
  have v49 : (⟨S4x2048x64x64, .f32⟩ : BufTy).Contents (Elt F) := broadcastInDim S4x2048x64x64 ![0, 1, 2, 3] bcast_S4x2048x1x64_S4x2048x64x64_0_1_2_3 v48
  have v50 : (⟨S4x2048x64x64, .f32⟩ : BufTy).Contents (Elt F) := subf v44 v49
  have v51 : (⟨S4x8388608, .f32⟩ : BufTy).Contents (Elt F) := shapeCast S4x8388608 v50 shapeCasts_S4x2048x64x64_S4x8388608
  v51

theorem P8_v51 (W : Valuation τ sig (Elt F)) :
    after P8 W (no_index (Proc.devRef .tc main_v51)) = s8_v51 (W (Proc.devRef .tc main_v44)) (W (Proc.devRef .tc main_v46)) := by
  unfold P8
  after_results_simp <;> rfl

/-- main_c_12 after stretch 8, from what the stretch reads. -/
def s8_c_12  : (⟨S_, .i32⟩ : BufTy).Contents (Elt F) :=
  have c_12 : (⟨S_, .i32⟩ : BufTy).Contents (Elt F) := constantI S_ 32 1#32
  c_12

theorem P8_c_12 (W : Valuation τ sig (Elt F)) :
    after P8 W (no_index (Proc.devRef .tc main_c_12)) = s8_c_12  := by
  unfold P8
  after_results_simp <;> rfl

/-! ### Stretch 9: statements 72 … 90 of the inlined line -/

def P9 : List (HloOp τ sig (Elt F)) :=
  [ TRef.nullary main_call3.call0.cst (constant S_ .f32 0x00000000#32),
    TRef.binary (.of main_v51 : TRef sig ⟨S4x8388608, .f32⟩) main_call3.call0.cst main_call3.call0.v0 (fun x v => Host.reduceAdd x v reducesTo_S4x8388608_S4_d1 h_S_),
    TRef.unary main_call3.call0.v0 main_call3.call0.v1 (broadcastInDim S4x1 ![0] bcast_S4_S4x1_0),
    TRef.nullary main_call3.call0.cst_0 (constant S_ .f32 0x4B000000#32),
    TRef.unary main_call3.call0.cst_0 main_call3.call0.v2 (broadcastInDim S4x1 ![] bcast_S_S4x1),
    TRef.binary main_call3.call0.v1 main_call3.call0.v2 main_call3.call0.v3 Host.divf,
    TRef.unary main_call3.call0.v3 main_call3.call0.v4 (broadcastInDim S4x8388608 ![0, 1] bcast_S4x1_S4x8388608_0_1),
    TRef.binary (.of main_v51 : TRef sig ⟨S4x8388608, .f32⟩) main_call3.call0.v4 main_call3.call0.v5 subf,
    TRef.binary main_call3.call0.v5 main_call3.call0.v5 main_call3.call0.v6 mulf,
    TRef.unary (.of main_c_12 : TRef sig ⟨S_, .i32⟩) main_call3.call0.v7 (sitofp .f32),
    TRef.nullary main_call3.call0.cst_1 (constant S_ .f32 0x4B000000#32),
    TRef.binary main_call3.call0.cst_1 main_call3.call0.v7 main_call3.call0.v8 subf,
    TRef.nullary main_call3.call0.cst_2 (constant S_ .f32 0x00000000#32),
    TRef.binary main_call3.call0.v6 main_call3.call0.cst_2 main_call3.call0.v9 (fun x v => Host.reduceAdd x v reducesTo_S4x8388608_S4_d1 h_S_),
    TRef.unary main_call3.call0.v8 main_call3.call0.v10 (broadcastInDim S4 ![] bcast_S_S4),
    TRef.binary main_call3.call0.v9 main_call3.call0.v10 main_call3.call0.v11 Host.divf,
    TRef.nullary main_call3.call0.cst_3 (constant S_ .f32 0x00000000#32),
    TRef.binary main_call3.call0.v8 main_call3.call0.cst_3 main_call3.call0.v12 (cmpf .ogt),
    TRef.nullary main_call3.call0.cst_4 (constant S_ .f32 0x7FC00000#32) ]

theorem P9_sub : (P9 : List (HloOp τ sig (Elt F))).Forall fun op => op.bufs ⊆ tcRefs τ sig := by
  unfold P9; exact ⟨nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub ..⟩
theorem P9_fresh : (P9 : List (HloOp τ sig (Elt F))).Forall fun op => op.fresh = ∅ := by
  unfold P9; exact ⟨rfl, rfl, rfl, rfl, rfl, rfl, rfl, rfl, rfl, rfl, rfl, rfl, rfl, rfl, rfl, rfl, rfl, rfl, rfl⟩
/-- The references stretch 9 writes. -/
abbrev P9_W : List (Ref sig .tc) := [main_call3_call0_cst, main_call3_call0_v0, main_call3_call0_v1, main_call3_call0_cst_0, main_call3_call0_v2, main_call3_call0_v3, main_call3_call0_v4, main_call3_call0_v5, main_call3_call0_v6, main_call3_call0_v7, main_call3_call0_cst_1, main_call3_call0_v8, main_call3_call0_cst_2, main_call3_call0_v9, main_call3_call0_v10, main_call3_call0_v11, main_call3_call0_cst_3, main_call3_call0_v12, main_call3_call0_cst_4]
theorem P9_writes : (P9 : List (HloOp τ sig (Elt F))).Forall fun op => op.writes ⊆ (P9_W.map (Proc.devRef (τ := τ) .tc)).toFinset := by
  unfold P9; simp only [List.Forall]; exact ⟨by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide)⟩
/-- A reference stretch 9 does not write keeps its contents through it. -/
theorem P9_keep (W : Valuation τ sig (Elt F)) (r : Ref sig .tc) (h : r ∉ P9_W) :
    after P9 W (no_index (Proc.devRef .tc r)) = W (Proc.devRef .tc r) :=
  after_of_writes_sub P9 _ P9_writes h

/-- main_call3_call0_v11 after stretch 9, from what the stretch reads. -/
def s9_var_v11 (v51 : (⟨S4x8388608, .f32⟩ : BufTy).Contents (Elt F)) (c_12 : (⟨S_, .i32⟩ : BufTy).Contents (Elt F)) : (⟨S4, .f32⟩ : BufTy).Contents (Elt F) :=
  have var_cst : (⟨S_, .f32⟩ : BufTy).Contents (Elt F) := constant S_ .f32 0x00000000#32
  have var_v0 : (⟨S4, .f32⟩ : BufTy).Contents (Elt F) := Host.reduceAdd v51 var_cst reducesTo_S4x8388608_S4_d1 h_S_
  have var_v1 : (⟨S4x1, .f32⟩ : BufTy).Contents (Elt F) := broadcastInDim S4x1 ![0] bcast_S4_S4x1_0 var_v0
  have var_cst_0 : (⟨S_, .f32⟩ : BufTy).Contents (Elt F) := constant S_ .f32 0x4B000000#32
  have var_v2 : (⟨S4x1, .f32⟩ : BufTy).Contents (Elt F) := broadcastInDim S4x1 ![] bcast_S_S4x1 var_cst_0
  have var_v3 : (⟨S4x1, .f32⟩ : BufTy).Contents (Elt F) := Host.divf var_v1 var_v2
  have var_v4 : (⟨S4x8388608, .f32⟩ : BufTy).Contents (Elt F) := broadcastInDim S4x8388608 ![0, 1] bcast_S4x1_S4x8388608_0_1 var_v3
  have var_v5 : (⟨S4x8388608, .f32⟩ : BufTy).Contents (Elt F) := subf v51 var_v4
  have var_v6 : (⟨S4x8388608, .f32⟩ : BufTy).Contents (Elt F) := mulf var_v5 var_v5
  have var_v7 : (⟨S_, .f32⟩ : BufTy).Contents (Elt F) := sitofp .f32 c_12
  have var_cst_1 : (⟨S_, .f32⟩ : BufTy).Contents (Elt F) := constant S_ .f32 0x4B000000#32
  have var_v8 : (⟨S_, .f32⟩ : BufTy).Contents (Elt F) := subf var_cst_1 var_v7
  have var_cst_2 : (⟨S_, .f32⟩ : BufTy).Contents (Elt F) := constant S_ .f32 0x00000000#32
  have var_v9 : (⟨S4, .f32⟩ : BufTy).Contents (Elt F) := Host.reduceAdd var_v6 var_cst_2 reducesTo_S4x8388608_S4_d1 h_S_
  have var_v10 : (⟨S4, .f32⟩ : BufTy).Contents (Elt F) := broadcastInDim S4 ![] bcast_S_S4 var_v8
  have var_v11 : (⟨S4, .f32⟩ : BufTy).Contents (Elt F) := Host.divf var_v9 var_v10
  var_v11

set_option maxHeartbeats 2000000 in
theorem P9_var_v11 (W : Valuation τ sig (Elt F)) :
    after P9 W (no_index (Proc.devRef .tc main_call3_call0_v11)) = s9_var_v11 (W (Proc.devRef .tc main_v51)) (W (Proc.devRef .tc main_c_12)) := by
  unfold P9
  after_results_simp <;> rfl

/-- main_call3_call0_v12 after stretch 9, from what the stretch reads. -/
def s9_var_v12 (c_12 : (⟨S_, .i32⟩ : BufTy).Contents (Elt F)) : (⟨S_, .i1⟩ : BufTy).Contents (Elt F) :=
  have var_v7 : (⟨S_, .f32⟩ : BufTy).Contents (Elt F) := sitofp .f32 c_12
  have var_cst_1 : (⟨S_, .f32⟩ : BufTy).Contents (Elt F) := constant S_ .f32 0x4B000000#32
  have var_v8 : (⟨S_, .f32⟩ : BufTy).Contents (Elt F) := subf var_cst_1 var_v7
  have var_cst_3 : (⟨S_, .f32⟩ : BufTy).Contents (Elt F) := constant S_ .f32 0x00000000#32
  have var_v12 : (⟨S_, .i1⟩ : BufTy).Contents (Elt F) := cmpf .ogt var_v8 var_cst_3
  var_v12

set_option maxHeartbeats 2000000 in
theorem P9_var_v12 (W : Valuation τ sig (Elt F)) :
    after P9 W (no_index (Proc.devRef .tc main_call3_call0_v12)) = s9_var_v12 (W (Proc.devRef .tc main_c_12)) := by
  unfold P9
  after_results_simp <;> rfl

/-- main_call3_call0_cst_4 after stretch 9, from what the stretch reads. -/
def s9_var_cst_4  : (⟨S_, .f32⟩ : BufTy).Contents (Elt F) :=
  have var_cst_4 : (⟨S_, .f32⟩ : BufTy).Contents (Elt F) := constant S_ .f32 0x7FC00000#32
  var_cst_4

set_option maxHeartbeats 2000000 in
theorem P9_var_cst_4 (W : Valuation τ sig (Elt F)) :
    after P9 W (no_index (Proc.devRef .tc main_call3_call0_cst_4)) = s9_var_cst_4  := by
  unfold P9
  after_results_simp <;> rfl

/-! ### Stretch 10: statements 91 … 94 of the inlined line -/

def P10 : List (HloOp τ sig (Elt F)) :=
  [ TRef.unary main_call3.call0.cst_4 main_call3.call0.call0.v0 id,
    TRef.unary main_call3.call0.call0.v0 main_call3.call0.call0.v1 (broadcastInDim S4 ![] bcast_S_S4),
    TRef.ternary main_call3.call0.v12 main_call3.call0.v11 main_call3.call0.call0.v1 main_call3.call0.call0.v2 (fun p a b => select (broadcastInDim S4 ![] bcast_S_S4 p) a b),
    TRef.unary main_call3.call0.call0.v2 main_call3.v1 Host.sqrt ]

theorem P10_sub : (P10 : List (HloOp τ sig (Elt F))).Forall fun op => op.bufs ⊆ tcRefs τ sig := by
  unfold P10; exact ⟨unary_bufs_sub .., unary_bufs_sub .., ternary_bufs_sub .., unary_bufs_sub ..⟩
theorem P10_fresh : (P10 : List (HloOp τ sig (Elt F))).Forall fun op => op.fresh = ∅ := by
  unfold P10; exact ⟨rfl, rfl, rfl, rfl⟩
/-- The references stretch 10 writes. -/
abbrev P10_W : List (Ref sig .tc) := [main_call3_call0_call0_v0, main_call3_call0_call0_v1, main_call3_v0, main_v52]
theorem P10_writes : (P10 : List (HloOp τ sig (Elt F))).Forall fun op => op.writes ⊆ (P10_W.map (Proc.devRef (τ := τ) .tc)).toFinset := by
  unfold P10; simp only [List.Forall]; exact ⟨by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide)⟩
/-- A reference stretch 10 does not write keeps its contents through it. -/
theorem P10_keep (W : Valuation τ sig (Elt F)) (r : Ref sig .tc) (h : r ∉ P10_W) :
    after P10 W (no_index (Proc.devRef .tc r)) = W (Proc.devRef .tc r) :=
  after_of_writes_sub P10 _ P10_writes h

/-- main_v52 after stretch 10, from what the stretch reads. -/
def s10_v52 (var_v11 : (⟨S4, .f32⟩ : BufTy).Contents (Elt F)) (var_v12 : (⟨S_, .i1⟩ : BufTy).Contents (Elt F)) (var_cst_4 : (⟨S_, .f32⟩ : BufTy).Contents (Elt F)) : (⟨S4, .f32⟩ : BufTy).Contents (Elt F) :=
  have where_v0 : (⟨S_, .f32⟩ : BufTy).Contents (Elt F) := id var_cst_4
  have where_v1 : (⟨S4, .f32⟩ : BufTy).Contents (Elt F) := broadcastInDim S4 ![] bcast_S_S4 where_v0
  have where_v2 : (⟨S4, .f32⟩ : BufTy).Contents (Elt F) := select (broadcastInDim S4 ![] bcast_S_S4 var_v12) var_v11 where_v1
  have v52 : (⟨S4, .f32⟩ : BufTy).Contents (Elt F) := Host.sqrt where_v2
  v52

theorem P10_v52 (W : Valuation τ sig (Elt F)) :
    after P10 W (no_index (Proc.devRef .tc main_v52)) = s10_v52 (W (Proc.devRef .tc main_call3_call0_v11)) (W (Proc.devRef .tc main_call3_call0_v12)) (W (Proc.devRef .tc main_call3_call0_cst_4)) := by
  unfold P10
  after_results_simp <;> rfl

/-! ### Stretch 11: statements 95 … 104 of the inlined line -/

def P11 : List (HloOp τ sig (Elt F)) :=
  [ unary main_v52 main_v53 (broadcastInDim S4x1x1x1 ![0] bcast_S4_S4x1x1x1_0 : (⟨S4, .f32⟩ : BufTy).Contents (Elt F) → (⟨S4x1x1x1, .f32⟩ : BufTy).Contents (Elt F)),
    nullary main_cst_13 (constant S_ .f32 0x3727C5AC#32),
    unary main_cst_13 main_v54 (broadcastInDim S4x1x1x1 ![] bcast_S_S4x1x1x1 : (⟨S_, .f32⟩ : BufTy).Contents (Elt F) → (⟨S4x1x1x1, .f32⟩ : BufTy).Contents (Elt F)),
    binary main_v53 main_v54 main_v55 (addf : (⟨S4x1x1x1, .f32⟩ : BufTy).Contents (Elt F) → (⟨S4x1x1x1, .f32⟩ : BufTy).Contents (Elt F) → (⟨S4x1x1x1, .f32⟩ : BufTy).Contents (Elt F)),
    unary main_v55 main_v56 (broadcastInDim S4x2048x64x64 ![0, 1, 2, 3] bcast_S4x1x1x1_S4x2048x64x64_0_1_2_3 : (⟨S4x1x1x1, .f32⟩ : BufTy).Contents (Elt F) → (⟨S4x2048x64x64, .f32⟩ : BufTy).Contents (Elt F)),
    binary main_v50 main_v56 main_v57 (Host.divf : (⟨S4x2048x64x64, .f32⟩ : BufTy).Contents (Elt F) → (⟨S4x2048x64x64, .f32⟩ : BufTy).Contents (Elt F) → (⟨S4x2048x64x64, .f32⟩ : BufTy).Contents (Elt F)),
    unary main_arg3 main_v58 (broadcastInDim S4x2048x64x64 ![0, 1, 2, 3] bcast_S1x1x1x64_S4x2048x64x64_0_1_2_3 : (⟨S1x1x1x64, .f32⟩ : BufTy).Contents (Elt F) → (⟨S4x2048x64x64, .f32⟩ : BufTy).Contents (Elt F)),
    binary main_v58 main_v57 main_v59 (mulf : (⟨S4x2048x64x64, .f32⟩ : BufTy).Contents (Elt F) → (⟨S4x2048x64x64, .f32⟩ : BufTy).Contents (Elt F) → (⟨S4x2048x64x64, .f32⟩ : BufTy).Contents (Elt F)),
    unary main_arg4 main_v60 (broadcastInDim S4x2048x64x64 ![0, 1, 2, 3] bcast_S1x1x1x64_S4x2048x64x64_0_1_2_3 : (⟨S1x1x1x64, .f32⟩ : BufTy).Contents (Elt F) → (⟨S4x2048x64x64, .f32⟩ : BufTy).Contents (Elt F)),
    binary main_v59 main_v60 main_v61 (addf : (⟨S4x2048x64x64, .f32⟩ : BufTy).Contents (Elt F) → (⟨S4x2048x64x64, .f32⟩ : BufTy).Contents (Elt F) → (⟨S4x2048x64x64, .f32⟩ : BufTy).Contents (Elt F)) ]

theorem P11_sub : (P11 : List (HloOp τ sig (Elt F))).Forall fun op => op.bufs ⊆ tcRefs τ sig := by
  unfold P11; exact ⟨unary_bufs_sub .., nullary_bufs_sub .., unary_bufs_sub .., binary_bufs_sub .., unary_bufs_sub .., binary_bufs_sub .., unary_bufs_sub .., binary_bufs_sub .., unary_bufs_sub .., binary_bufs_sub ..⟩
theorem P11_fresh : (P11 : List (HloOp τ sig (Elt F))).Forall fun op => op.fresh = ∅ := by
  unfold P11; exact ⟨rfl, rfl, rfl, rfl, rfl, rfl, rfl, rfl, rfl, rfl⟩
/-- The references stretch 11 writes. -/
abbrev P11_W : List (Ref sig .tc) := [main_v53, main_cst_13, main_v54, main_v55, main_v56, main_v57, main_v58, main_v59, main_v60, main_v61]
theorem P11_writes : (P11 : List (HloOp τ sig (Elt F))).Forall fun op => op.writes ⊆ (P11_W.map (Proc.devRef (τ := τ) .tc)).toFinset := by
  unfold P11; simp only [List.Forall]; exact ⟨by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide)⟩
/-- A reference stretch 11 does not write keeps its contents through it. -/
theorem P11_keep (W : Valuation τ sig (Elt F)) (r : Ref sig .tc) (h : r ∉ P11_W) :
    after P11 W (no_index (Proc.devRef .tc r)) = W (Proc.devRef .tc r) :=
  after_of_writes_sub P11 _ P11_writes h

/-- main_v61 after stretch 11, from what the stretch reads. -/
def s11_v61 (a3 : (⟨S1x1x1x64, .f32⟩ : BufTy).Contents (Elt F)) (a4 : (⟨S1x1x1x64, .f32⟩ : BufTy).Contents (Elt F)) (v50 : (⟨S4x2048x64x64, .f32⟩ : BufTy).Contents (Elt F)) (v52 : (⟨S4, .f32⟩ : BufTy).Contents (Elt F)) : (⟨S4x2048x64x64, .f32⟩ : BufTy).Contents (Elt F) :=
  have v53 : (⟨S4x1x1x1, .f32⟩ : BufTy).Contents (Elt F) := broadcastInDim S4x1x1x1 ![0] bcast_S4_S4x1x1x1_0 v52
  have cst_13 : (⟨S_, .f32⟩ : BufTy).Contents (Elt F) := constant S_ .f32 0x3727C5AC#32
  have v54 : (⟨S4x1x1x1, .f32⟩ : BufTy).Contents (Elt F) := broadcastInDim S4x1x1x1 ![] bcast_S_S4x1x1x1 cst_13
  have v55 : (⟨S4x1x1x1, .f32⟩ : BufTy).Contents (Elt F) := addf v53 v54
  have v56 : (⟨S4x2048x64x64, .f32⟩ : BufTy).Contents (Elt F) := broadcastInDim S4x2048x64x64 ![0, 1, 2, 3] bcast_S4x1x1x1_S4x2048x64x64_0_1_2_3 v55
  have v57 : (⟨S4x2048x64x64, .f32⟩ : BufTy).Contents (Elt F) := Host.divf v50 v56
  have v58 : (⟨S4x2048x64x64, .f32⟩ : BufTy).Contents (Elt F) := broadcastInDim S4x2048x64x64 ![0, 1, 2, 3] bcast_S1x1x1x64_S4x2048x64x64_0_1_2_3 a3
  have v59 : (⟨S4x2048x64x64, .f32⟩ : BufTy).Contents (Elt F) := mulf v58 v57
  have v60 : (⟨S4x2048x64x64, .f32⟩ : BufTy).Contents (Elt F) := broadcastInDim S4x2048x64x64 ![0, 1, 2, 3] bcast_S1x1x1x64_S4x2048x64x64_0_1_2_3 a4
  have v61 : (⟨S4x2048x64x64, .f32⟩ : BufTy).Contents (Elt F) := addf v59 v60
  v61

set_option maxHeartbeats 2000000 in
theorem P11_v61 (W : Valuation τ sig (Elt F)) :
    after P11 W (no_index (Proc.devRef .tc main_v61)) = s11_v61 (W (Proc.devRef .tc main_arg3)) (W (Proc.devRef .tc main_arg4)) (W (Proc.devRef .tc main_v50)) (W (Proc.devRef .tc main_v52)) := by
  unfold P11
  after_results_simp <;> rfl

/-! ## The whole line -/

/-- The contents after two lines run in a row. -/
theorem after_app : ∀ (l₁ l₂ : List (HloOp τ sig (Elt F))) (V : Valuation τ sig (Elt F)), after (l₁ ++ l₂) V = after l₂ (after l₁ V)
  | [], _, _ => rfl
  | op :: l₁, l₂, V => by rw [List.cons_append, after_cons, after_cons, after_app l₁ l₂]

/-- A property of every element of two lists holds of every element of their concatenation. -/
theorem forall_app {α : Type} {p : α → Prop} {l₁ l₂ : List α} (h₁ : l₁.Forall p) (h₂ : l₂.Forall p) : (l₁ ++ l₂).Forall p :=
  List.forall_iff_forall_mem.mpr fun a ha =>
    (List.mem_append.mp ha).elim (List.forall_iff_forall_mem.mp h₁ a) (List.forall_iff_forall_mem.mp h₂ a)

/-- The operations of @main's first window, the calls unfolded. -/
abbrev ops0 : List (HloOp τ sig (Elt F)) := P0 ++ P1 ++ P2 ++ P3 ++ P4 ++ P5 ++ P6 ++ P7
/-- The operations of @main's second window, the calls unfolded. -/
abbrev ops1 : List (HloOp τ sig (Elt F)) := P8 ++ P9 ++ P10 ++ P11
/-- @main's operations in order, the calls unfolded. -/
abbrev ops : List (HloOp τ sig (Elt F)) := ops0 ++ ops1

set_option maxRecDepth 4096 in
set_option maxHeartbeats 4000000 in
theorem part0_eq (c : Dev nD) : main_part0 (F := F) c = seq ops0 := by
  simp only [ops0, P0, P1, P2, P3, P4, P5, P6, P7, List.cons_append, List.nil_append, main_part0, fn_where.body, fn_sort.body,
    fn_where_0.body, seq, bind_assoc, pure_bind] <;> rfl

set_option maxRecDepth 4096 in
set_option maxHeartbeats 4000000 in
theorem part1_eq (c : Dev nD) : main_part1 (F := F) c = seq ops1 := by
  simp only [ops1, P8, P9, P10, P11, List.cons_append, List.nil_append, main_part1, fn_std.body, fn_var.body, fn_where_1.body,
    seq, bind_assoc, pure_bind] <;> rfl

/-- @main is that straight line: its two windows one after the other. -/
theorem main_eq (c : Dev nD) : main (F := F) c = seq ops := by
  show (main_part0 c >>= fun _ => main_part1 c) = seq (ops0 ++ ops1)
  rw [seq_append, part0_eq, part1_eq]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  forall_app (forall_app (forall_app (forall_app (forall_app (forall_app (forall_app (forall_app (P0_sub) P1_sub) P2_sub) P3_sub) P4_sub) P5_sub) P6_sub) P7_sub) (forall_app (forall_app (forall_app (P8_sub) P9_sub) P10_sub) P11_sub)

theorem ops_fresh : (ops : List (HloOp τ sig (Elt F))).Forall fun op => op.fresh = ∅ :=
  forall_app (forall_app (forall_app (forall_app (forall_app (forall_app (forall_app (forall_app (P0_fresh) P1_fresh) P2_fresh) P3_fresh) P4_fresh) P5_fresh) P6_fresh) P7_fresh) (forall_app (forall_app (forall_app (P8_fresh) P9_fresh) P10_fresh) P11_fresh)

/-- The contents after statements %c … %44. -/
def valA (V : Valuation τ sig (Elt F)) : Valuation τ sig (Elt F) :=
  after P6 (after P5 (after P4 (after P3 (after P2 (after P1 (after P0 V))))))
/-- The contents after statements %cst_10 … %61, from the contents after %44. -/
def valB (W : Valuation τ sig (Elt F)) : Valuation τ sig (Elt F) :=
  after P11 (after P10 (after P9 (after P8 (after P7 W))))

theorem after_ops (V : Valuation τ sig (Elt F)) : after ops V = valB (valA V) := by
  simp only [ops, ops0, ops1, after_app]; rfl

set_option maxRecDepth 8192 in
set_option maxHeartbeats 4000000 in
theorem valA_v44 (V : Valuation τ sig (Elt F)) :
    valA V (Proc.devRef .tc main_v44) = grouped (V (Proc.devRef .tc main_arg0)) (V (Proc.devRef .tc main_arg1)) (V (Proc.devRef .tc main_arg2)) := by
  unfold valA
  simp (disch := decide) only [P0_v6, P1_v19, P2_v20, P2_v22, P2_c_4, P3_v23, P4_v25, P4_v26, P4_v28, P5_v29, P6_v44, P0_keep, P1_keep, P2_keep, P3_keep, P4_keep, P5_keep, P6_keep]
  rfl

set_option maxRecDepth 8192 in
theorem valA_v6 (V : Valuation τ sig (Elt F)) :
    valA V (Proc.devRef .tc main_v6) = newXy (V (Proc.devRef .tc main_arg0)) (V (Proc.devRef .tc main_arg2)) := by
  unfold valA
  simp (disch := decide) only [P0_v6, P0_keep, P1_keep, P2_keep, P3_keep, P4_keep, P5_keep, P6_keep]
  rfl

theorem valA_keep (V : Valuation τ sig (Elt F)) (r : Ref sig .tc)
    (h0 : r ∉ P0_W) (h1 : r ∉ P1_W) (h2 : r ∉ P2_W) (h3 : r ∉ P3_W) (h4 : r ∉ P4_W) (h5 : r ∉ P5_W) (h6 : r ∉ P6_W) :
    valA V (Proc.devRef .tc r) = V (Proc.devRef .tc r) :=
  (P6_keep _ r h6).trans <| (P5_keep _ r h5).trans <| (P4_keep _ r h4).trans <| (P3_keep _ r h3).trans <|
    (P2_keep _ r h2).trans <| (P1_keep _ r h1).trans (P0_keep _ r h0)

theorem valB_keep (W : Valuation τ sig (Elt F)) (r : Ref sig .tc)
    (h7 : r ∉ P7_W) (h8 : r ∉ P8_W) (h9 : r ∉ P9_W) (h10 : r ∉ P10_W) (h11 : r ∉ P11_W) :
    valB W (Proc.devRef .tc r) = W (Proc.devRef .tc r) :=
  (P11_keep _ r h11).trans <| (P10_keep _ r h10).trans <| (P9_keep _ r h9).trans <| (P8_keep _ r h8).trans (P7_keep _ r h7)

set_option maxRecDepth 8192 in
set_option maxHeartbeats 4000000 in
theorem valB_v61 (W : Valuation τ sig (Elt F)) :
    valB W (Proc.devRef .tc main_v61) = normalized (W (Proc.devRef .tc main_v44)) (W (Proc.devRef .tc main_arg3)) (W (Proc.devRef .tc main_arg4)) := by
  unfold valB
  simp (disch := decide) only [P7_v46, P8_v50, P8_v51, P8_c_12, P9_var_v11, P9_var_v12, P9_var_cst_4, P10_v52, P11_v61, P7_keep, P8_keep, P9_keep, P10_keep, P11_keep]
  rfl

/-- The two results and the five arguments after the whole line. -/
theorem ops_v6 (V : Valuation τ sig (Elt F)) : after ops V (Proc.devRef .tc main_v6) = newXy (V (Proc.devRef .tc main_arg0)) (V (Proc.devRef .tc main_arg2)) := by
  rw [after_ops, valB_keep _ main_v6 (by decide) (by decide) (by decide) (by decide) (by decide), valA_v6]

theorem ops_v61 (V : Valuation τ sig (Elt F)) :
    after ops V (Proc.devRef .tc main_v61) = normalized (grouped (V (Proc.devRef .tc main_arg0)) (V (Proc.devRef .tc main_arg1)) (V (Proc.devRef .tc main_arg2))) (V (Proc.devRef .tc main_arg3)) (V (Proc.devRef .tc main_arg4)) := by
  rw [after_ops, valB_v61, valA_v44,
    valA_keep _ main_arg3 (by decide) (by decide) (by decide) (by decide) (by decide) (by decide) (by decide),
    valA_keep _ main_arg4 (by decide) (by decide) (by decide) (by decide) (by decide) (by decide) (by decide)]

theorem ops_arg (V : Valuation τ sig (Elt F)) (r : Ref sig .tc)
    (h0 : r ∉ P0_W) (h1 : r ∉ P1_W) (h2 : r ∉ P2_W) (h3 : r ∉ P3_W) (h4 : r ∉ P4_W) (h5 : r ∉ P5_W) (h6 : r ∉ P6_W)
    (h7 : r ∉ P7_W) (h8 : r ∉ P8_W) (h9 : r ∉ P9_W) (h10 : r ∉ P10_W) (h11 : r ∉ P11_W) :
    after ops V (Proc.devRef .tc r) = V (Proc.devRef .tc r) := by
  rw [after_ops, valB_keep _ r h7 h8 h9 h10 h11, valA_keep _ r h0 h1 h2 h3 h4 h5 h6]

/-- On the device, for any float values, from any memory with zero counters: every weakly fair execution of @main
    terminates, the two results end at the composed terms of the arguments' launch contents, and the arguments end
    unchanged. -/
theorem run (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      (r.2.mem ((c.tc : Thread nD τ).loc main_v6) = newXy (m ((c.tc : Thread nD τ).loc main_arg0)) (m ((c.tc : Thread nD τ).loc main_arg2))
        ∧ r.2.mem ((c.tc : Thread nD τ).loc main_v61) = normalized (grouped (m ((c.tc : Thread nD τ).loc main_arg0)) (m ((c.tc : Thread nD τ).loc main_arg1)) (m ((c.tc : Thread nD τ).loc main_arg2))) (m ((c.tc : Thread nD τ).loc main_arg3)) (m ((c.tc : Thread nD τ).loc main_arg4)))
      ∧ (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))) :=
  (θ_run defs _ _).mono (fun _ h c => ⟨⟨(h c main_v6).trans (ops_v6 _), (h c main_v61).trans (ops_v61 _)⟩,
      (h c main_arg0).trans (ops_arg _ main_arg0 (by decide) (by decide) (by decide) (by decide) (by decide) (by decide) (by decide) (by decide) (by decide) (by decide) (by decide) (by decide)),
      (h c main_arg1).trans (ops_arg _ main_arg1 (by decide) (by decide) (by decide) (by decide) (by decide) (by decide) (by decide) (by decide) (by decide) (by decide) (by decide) (by decide)),
      (h c main_arg2).trans (ops_arg _ main_arg2 (by decide) (by decide) (by decide) (by decide) (by decide) (by decide) (by decide) (by decide) (by decide) (by decide) (by decide) (by decide)),
      (h c main_arg3).trans (ops_arg _ main_arg3 (by decide) (by decide) (by decide) (by decide) (by decide) (by decide) (by decide) (by decide) (by decide) (by decide) (by decide) (by decide)),
      (h c main_arg4).trans (ops_arg _ main_arg4 (by decide) (by decide) (by decide) (by decide) (by decide) (by decide) (by decide) (by decide) (by decide) (by decide) (by decide) (by decide))⟩)
    (run_seq scopedRefs_eq scopedSems_eq defs main (fun _ => ops) main_eq (fun _ => ops_sub) m ρ
      (fun _ => List.forall_iff_forall_mem.mp ops_fresh))

end Cert.ReferenceIdeal.RefRun

end
-- ==== Proof.Finite.lean ====
/-
  The precondition "every float input is finite", decoded at the exact-real instance: every entry of every float
  argument is a real number (neither infinity, nor the junk value a NaN denotes).

  The printed predicate computes, per float argument x, the i1 array |x| < +inf, reduces it by "and" over all its axes
  from the constant true, and conjoins the four results. When the conjunction is true each reduction is true, hence
  each compared element is true; an extended real whose absolute value max x (-x) lies strictly below the top element
  is neither top nor bottom, so it is the coercion of a real.
-/
import proofs.«157503_j446676598875_2_alg».proof.Pre_finite_inputs
import proofs.«157503_j446676598875_2_alg».proof.Proof.Gen.Pre_finite_inputs
import Idealize.ShloMosaic.Lib.ReduceAll
import Idealize.ShloMosaic.Lib.ValueIdx
import Idealize.ShloMosaic.PureOps.Ideal

noncomputable section

namespace Cert.Pre_finite_inputs.Decode

open Idealize.ShloMosaic

/-- The scalar shape has exactly one index. -/
instance subsingleton_scalar_idx : Subsingleton S_.Idx := ⟨fun a b => funext fun d => d.elim0⟩

/-- The pattern 0x7F800000 denotes the top element +inf. -/
theorem ofBits_inf : Ideal.ofBits .f32 0x7F800000#32 = (⊤ : EReal) := by
  simp [Ideal.ofBits, Ideal.ieee]

/-- An extended real whose absolute value max x (-x) compares strictly below +inf is a real number. -/
theorem real_of_abs_olt_inf (x : Ideal .f32)
    (h : FloatOps.cmpf .olt (FloatOps.hostAbsf x) (FloatOps.ofBits (F := Ideal) .f32 0x7F800000#32) = 1#1) :
    ∃ r : ℝ, x = (r : EReal) := by
  have h' : Ideal.cmp .olt (max (x : EReal) (-(x : EReal))) (Ideal.ofBits .f32 0x7F800000#32) = 1#1 := h
  rw [ofBits_inf] at h'
  unfold Ideal.cmp at h'
  induction x using EReal.rec with
  | bot => simp at h'
  | coe r => exact ⟨r, rfl⟩
  | top => simp at h'

/-- One argument's test: when the "and" over all axes of the array |x| < +inf is true, every entry of x is real. -/
theorem real_of_all {s : Shape} {axes : List (Fin s.rank)} (x : FVec Ideal s .f32)
    (hb : S_.BroadcastsInDim s (![] : Fin 0 → Fin s.rank)) (hr : s.ReducesTo axes S_) (hu : 0 < S_.numel)
    (e : Host.reduce IntOp.andi
        (cmpf .olt (Host.absf x) (broadcastInDim s ![] hb (constant (F := Ideal) S_ .f32 0x7F800000#32)))
        (constantI S_ 1 1#1) hr hu ValueIdx.ix0 = 1#1) :
    ∀ i, ∃ r : ℝ, x i = (r : EReal) := by
  intro i
  have hi := Host.reduce_andi_all _ _ hr hu ValueIdx.ix0 e i
  exact real_of_abs_olt_inf (x i) hi

theorem real_of_pre (a0 : FVec Ideal S4x16384x2 .f32) (a1 : FVec Ideal S4x16384x62 .f32) (a2 : IVec S4x2048 32)
    (a3 a4 : FVec Ideal S1x1x1x64 .f32)
    (h : Cert.Pre_finite_inputs.fn (F := Ideal) a0 a1 a2 a3 a4 = fun _ => 1#1) :
    (∀ i, ∃ r : ℝ, a0 i = (r : EReal)) ∧ (∀ i, ∃ r : ℝ, a1 i = (r : EReal)) ∧
      (∀ i, ∃ r : ℝ, a3 i = (r : EReal)) ∧ (∀ i, ∃ r : ℝ, a4 i = (r : EReal)) := by
  have h0 := congrFun h ValueIdx.ix0
  dsimp only [fn, fn_part1, Idealize.ShloMosaic.andi] at h0
  obtain ⟨h012, e4⟩ := IntOp.andi_eq_one.1 h0
  obtain ⟨h01, e3⟩ := IntOp.andi_eq_one.1 h012
  obtain ⟨e0, e1⟩ := IntOp.andi_eq_one.1 h01
  exact ⟨real_of_all a0 _ _ _ e0, real_of_all a1 _ _ _ e1, real_of_all a3 _ _ _ e3, real_of_all a4 _ _ _ e4⟩

end Cert.Pre_finite_inputs.Decode

end
-- ==== Proof.LibEntries.lean ====
/-
  Every entry of a gathered or concatenated array is an entry of an operand, so any property of all operand entries
  passes to the result.

  A gather reads, at each result index, the operand at one computed index; a concatenation reads, at each result
  index, one of the listed operands (the one whose span along the joined axis holds the index) at one index. Neither
  computes on the values it moves. Hence a predicate that holds of every entry of every operand holds of every entry
  of the result, whatever the index arithmetic is.
-/
import Idealize.ShloMosaic.PureOps.ShapeOps

namespace Idealize.ShloMosaic.Entries

open Idealize.ShloMosaic

variable {α : Type} {P : α → Prop}

/-- Every entry of a gather is an entry of its operand. -/
theorem gather_entry {s si t : Shape} {w : Nat} (d : GatherDims s si t) (x : s.Idx → α) (idx : IVec si w)
    (hx : ∀ i, P (x i)) : ∀ j, P (Host.gather d x idx j) :=
  fun j => hx (d.operandIdx j idx)

/-- Every entry of a concatenation is an entry of one of the listed operands. -/
theorem concatenate_entry (t : Shape) (a : Fin t.rank) (xs : List ((s : Shape) × (s.Idx → α)))
    (h : Shape.Concatenates (xs.map (·.1)) t a) (hxs : ∀ p ∈ xs, ∀ i, P (p.2 i)) :
    ∀ j, P (concatenate t a xs h j) := by
  intro j
  unfold concatenate
  dsimp only
  exact hxs _ (List.getElem_mem _) _

/-- The concatenation of two operands: a property of every entry of each holds of every entry of the result. -/
theorem concatenate_pair_entry (t : Shape) (a : Fin t.rank) {sA sB : Shape} (A : sA.Idx → α) (B : sB.Idx → α)
    (h : Shape.Concatenates (([⟨sA, A⟩, ⟨sB, B⟩] : List ((s : Shape) × (s.Idx → α))).map (·.1)) t a)
    (hA : ∀ i, P (A i)) (hB : ∀ i, P (B i)) : ∀ j, P (concatenate t a [⟨sA, A⟩, ⟨sB, B⟩] h j) := by
  refine concatenate_entry t a _ h ?_
  intro p hp
  rcases List.mem_cons.1 hp with rfl | hp
  · exact hA
  rcases List.mem_cons.1 hp with rfl | hp
  · exact hB
  · exact absurd hp (List.not_mem_nil)

end Idealize.ShloMosaic.Entries
-- ==== Proof.Join.lean ====
/-
  The last joints. The two programs compute the grouped tensor and the selected coordinates by the same operations of the
  same arguments, so the two composed terms are one; the reference's tail is the chain read at an index elsewhere; and
  every entry of the grouped tensor is an entry of one of the two float arguments — gathers and a concatenate only move
  entries — so under the precondition it is a real number, as are the entries of the two affine vectors.
-/
import proofs.«157503_j446676598875_2_alg».proof.Proof.Final
import proofs.«157503_j446676598875_2_alg».proof.Proof.KIPrefix
import proofs.«157503_j446676598875_2_alg».proof.Proof.RefRun
import proofs.«157503_j446676598875_2_alg».proof.Proof.Finite
import proofs.«157503_j446676598875_2_alg».proof.Proof.LibEntries
import proofs.«157503_j446676598875_2_alg».proof.Proof.Gen.KernelIdeal
import proofs.«157503_j446676598875_2_alg».proof.Proof.Gen.ReferenceIdeal

noncomputable section

namespace Cert.Proof

open Idealize.ShloMosaic Idealize.ShloMosaic.ValueIdx Idealize.ShloMosaic.TcCoe Idealize.SL.Sem
open Cert.KernelIdeal.Hand

/-- The grouped tensor: one term in both programs. -/
theorem grouped_same [Cert.ReferenceIdeal.Facts]
    (a0 : (⟨Cert.KernelIdeal.S4x16384x2, .f32⟩ : BufTy).Contents (Elt Ideal))
    (a1 : (⟨Cert.KernelIdeal.S4x16384x62, .f32⟩ : BufTy).Contents (Elt Ideal))
    (a2 : (⟨Cert.KernelIdeal.S4x2048, .i32⟩ : BufTy).Contents (Elt Ideal)) :
    Cert.ReferenceIdeal.RefRun.grouped (F := Ideal) a0 a1 a2 = groupedK (F := Ideal) a0 a1 a2 := rfl

/-- The selected coordinates: one term in both programs. -/
theorem newXy_same [Cert.ReferenceIdeal.Facts]
    (a0 : (⟨Cert.KernelIdeal.S4x16384x2, .f32⟩ : BufTy).Contents (Elt Ideal))
    (a2 : (⟨Cert.KernelIdeal.S4x2048, .i32⟩ : BufTy).Contents (Elt Ideal)) :
    Cert.ReferenceIdeal.RefRun.newXy (F := Ideal) a0 a2 = newXyK (F := Ideal) a0 a2 := rfl

/-- The reference's tail is the chain that is read at an index elsewhere. -/
theorem normalized_same [Cert.ReferenceIdeal.Facts] (g : (⟨Cert.ReferenceIdeal.S4x2048x64x64, .f32⟩ : BufTy).Contents (Elt Ideal))
    (a3 a4 : (⟨Cert.ReferenceIdeal.S1x1x1x64, .f32⟩ : BufTy).Contents (Elt Ideal)) :
    Cert.ReferenceIdeal.RefRun.normalized (F := Ideal) g a3 a4 = Cert.ReferenceIdeal.Tail.refTail g a3 a4 := rfl

/-- Every entry of the grouped tensor is an entry of one of the two float arguments. -/
theorem groupedK_real
    (a0 : (⟨Cert.KernelIdeal.S4x16384x2, .f32⟩ : BufTy).Contents (Elt Ideal))
    (a1 : (⟨Cert.KernelIdeal.S4x16384x62, .f32⟩ : BufTy).Contents (Elt Ideal))
    (a2 : (⟨Cert.KernelIdeal.S4x2048, .i32⟩ : BufTy).Contents (Elt Ideal))
    (h0 : ∀ i, ∃ r : ℝ, a0 i = (r : EReal)) (h1 : ∀ i, ∃ r : ℝ, a1 i = (r : EReal)) :
    ∀ j, ∃ r : ℝ, groupedK (F := Ideal) a0 a1 a2 j = (r : EReal) := by
  unfold groupedK
  exact Entries.concatenate_pair_entry (P := fun x => ∃ r : ℝ, x = (r : EReal)) _ _ _ _ _
    (Entries.gather_entry _ _ _ h1) (Entries.gather_entry _ _ _ h0)

end Cert.Proof

end
-- ==== Proof.lean ====
/-
  The certificate. The kernel program — a host prefix (neighbour search by a sort, two gathers, a concatenate), a
  pallas_call accumulating per batch the sum over groups and channels of Σ_k x² − (Σ_k x)²/64 in a scratch, a host
  quotient by n − 1 and square root, and a pallas_call writing (α·(x − mean_k x))·(1/(σ + ε)) + β — against the reference,
  which centres by the group mean, takes the sample standard deviation of the centred tensor (subtracting its global mean,
  which is zero) and writes α·((x − mean_k x)/(σ + ε)) + β. Over the extended reals, for finite inputs, the two are one
  function: the centred tensor sums to zero, its squares sum to Σ_{s,c}[Σ_k x² − (Σ_k x)²/64], and a·(d/t) = (a·d)·(1/t)
  for a real t > 0. The three programs' runs are assembled in the sibling modules; here they meet.
-/
import proofs.«157503_j446676598875_2_alg».proof.Defs
import proofs.«157503_j446676598875_2_alg».proof.Proof.Gen.Kernel
import proofs.«157503_j446676598875_2_alg».proof.Proof.Gen.KernelIdeal
import proofs.«157503_j446676598875_2_alg».proof.Proof.Gen.ReferenceIdeal
import proofs.«157503_j446676598875_2_alg».proof.Proof.Gen.Pre_finite_inputs
import proofs.«157503_j446676598875_2_alg».proof.Proof.KRun
import proofs.«157503_j446676598875_2_alg».proof.Proof.Join

noncomputable section

namespace Cert.Proof

open Idealize.ShloMosaic Idealize.ShloMosaic.ValueIdx Idealize.ShloMosaic.TcCoe Idealize.SL.Sem
open Cert.KernelIdeal.Hand

/-- The word-level kernel program runs and leaves its arguments unchanged. -/
theorem frame_k : @Cert.frame_Kernel Cert.Kernel.Gen.facts Cert.Pre_finite_inputs.Gen.facts :=
  fun m ρ _ => Cert.Kernel.Hand.frame (F := Bits) m ρ

/-- So does its idealization. -/
theorem frame_ki : @Cert.frame_KernelIdeal Cert.KernelIdeal.Gen.facts Cert.Pre_finite_inputs.Gen.facts :=
  fun m ρ _ => Cert.KernelIdeal.Hand.frame (F := Ideal) m ρ

/-- And the reference: its run, the results dropped. -/
theorem frame_ri : @Cert.frame_ReferenceIdeal Cert.ReferenceIdeal.Gen.facts Cert.Pre_finite_inputs.Gen.facts :=
  fun m ρ _ => (θ_run _ _ _).mono (fun _ h c => (h c).2) (Cert.ReferenceIdeal.RefRun.run (F := Ideal) m ρ)

/-- From memories agreeing on the arguments both idealized programs run and end with the same two results: the selected
    coordinates are one term of the arguments in both; the normalised tensor is the second pallas_call's output array on one
    side and the reference's tail on the other, equal entry by entry for real inputs. -/
theorem algebraic : @Cert.algebraic_KernelIdeal_ReferenceIdeal Cert.KernelIdeal.Gen.facts Cert.ReferenceIdeal.Gen.facts
    Cert.Pre_finite_inputs.Gen.facts := by
  intro m ρ m' ρ' hpre hagree
  refine ⟨fun c => Wend m c (Proc.devRef .tc Cert.KernelIdeal.main_v6),
    fun c => Wend m c (Proc.devRef .tc Cert.KernelIdeal.main_v49), ?_, ?_⟩
  · refine (θ_run _ _ _).mono (fun r h c => ?_) (run_main (F := Ideal) m ρ)
    exact ⟨h c _ (mem_uc Cert.KernelIdeal.main_v6 (by decide)), h c _ (mem_uc Cert.KernelIdeal.main_v49 (by decide)),
      (h c _ (mem_uc Cert.KernelIdeal.main_arg0 (by decide))).trans (W9_main_arg0 m _ _ c),
      (h c _ (mem_uc Cert.KernelIdeal.main_arg1 (by decide))).trans (W9_main_arg1 m _ _ c),
      (h c _ (mem_uc Cert.KernelIdeal.main_arg2 (by decide))).trans (W9_main_arg2 m _ _ c),
      (h c _ (mem_uc Cert.KernelIdeal.main_arg3 (by decide))).trans (W9_main_arg3 m _ _ c),
      (h c _ (mem_uc Cert.KernelIdeal.main_arg4 (by decide))).trans (W9_main_arg4 m _ _ c)⟩
  · refine (θ_run _ _ _).mono (fun r h c => ?_) (Cert.ReferenceIdeal.RefRun.run (F := Ideal) m' ρ')
    obtain ⟨e0, e1, e2, e3, e4⟩ := hagree c
    obtain ⟨r0, r1, r3, r4⟩ := Cert.Pre_finite_inputs.Decode.real_of_pre _ _ _ _ _ (hpre c)
    refine ⟨(h c).1.1.trans ?_, (h c).1.2.trans ?_, (h c).2⟩
    · rw [e0, e2, newXy_same]
      exact ((Wend_v6 m c).trans (W1_v6_eq m c)).symm
    · rw [e0, e1, e2, e3, e4, normalized_same]
      refine tail_eq_kernel m c _ _ _ (fun b s k c' => ?_) (fun c' => rfl) (fun c' => rfl) (fun b s k c' => ?_)
        (fun c' => r3 _) (fun c' => r4 _)
      · show _ = (W6 m c Cert.KernelIdeal.main_v44 : Cert.KernelIdeal.S4x2048x64x64.Idx → EReal) (ix4 b s k c')
        rw [W6_v44_eq, grouped_same]
      · show ∃ r : ℝ, (W6 m c Cert.KernelIdeal.main_v44 : Cert.KernelIdeal.S4x2048x64x64.Idx → EReal) (ix4 b s k c') = (r : EReal)
        rw [W6_v44_eq]
        exact groupedK_real _ _ _ r0 r1 _

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
